-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x7x256x256 : Shape := ⟨4, ![32, 7, 256, 256]⟩
abbrev S32x1x256x256 : Shape := ⟨4, ![32, 1, 256, 256]⟩
abbrev S32x1x2x256x256 : Shape := ⟨5, ![32, 1, 2, 256, 256]⟩
abbrev S32x9 : Shape := ⟨2, ![32, 9]⟩
abbrev S32x8 : Shape := ⟨2, ![32, 8]⟩
abbrev S_ : Shape := ⟨0, ![]⟩

class Facts : Prop where
  bcast_S_S32x7x256x256 : S_.BroadcastsInDim S32x7x256x256 (![] : Fin 0 → Fin S32x7x256x256.rank)
  reducesTo_S32x7x256x256_S_d0_1_2_3 : S32x7x256x256.ReducesTo [0, 1, 2, 3] S_
  h_S_ : 0 < S_.numel
  bcast_S_S32x1x256x256 : S_.BroadcastsInDim S32x1x256x256 (![] : Fin 0 → Fin S32x1x256x256.rank)
  reducesTo_S32x1x256x256_S_d0_1_2_3 : S32x1x256x256.ReducesTo [0, 1, 2, 3] S_
  bcast_S_S32x1x2x256x256 : S_.BroadcastsInDim S32x1x2x256x256 (![] : Fin 0 → Fin S32x1x2x256x256.rank)
  reducesTo_S32x1x2x256x256_S_d0_1_2_3_4 : S32x1x2x256x256.ReducesTo [0, 1, 2, 3, 4] S_

variable [Facts]

def fn_part1 {F : FTy → Type} [FloatOps F] (main_arg4 : FVec F S32x1x2x256x256 .f32) (main_v13 : IVec S_ 1) (main_v16 : IVec S32x1x2x256x256 1) : IVec S_ 1 :=
  let main_c_5 : IVec S_ 1 := constantI S_ 1 1#1
  let main_v17 : IVec S_ 1 := (fun x v => Host.reduce IntOp.andi x v reducesTo_S32x1x2x256x256_S_d0_1_2_3_4 h_S_) main_v16 main_c_5
  let main_v18 : IVec S_ 1 := andi main_v13 main_v17
  let main_v19 : FVec F S32x1x2x256x256 .f32 := Host.absf main_arg4
  let main_cst_6 : FVec F S_ .f32 := constant S_ .f32 0x7F800000#32
  let main_v20 : FVec F S32x1x2x256x256 .f32 := broadcastInDim S32x1x2x256x256 ![] bcast_S_S32x1x2x256x256 main_cst_6
  let main_v21 : IVec S32x1x2x256x256 1 := cmpf .olt main_v19 main_v20
  let main_c_7 : IVec S_ 1 := constantI S_ 1 1#1
  let main_v22 : IVec S_ 1 := (fun x v => Host.reduce IntOp.andi x v reducesTo_S32x1x2x256x256_S_d0_1_2_3_4 h_S_) main_v21 main_c_7
  let main_v23 : IVec S_ 1 := andi main_v18 main_v22
  main_v23

def fn {F : FTy → Type} [FloatOps F] (main_arg0 : FVec F S32x7x256x256 .f32) (main_arg1 : FVec F S32x7x256x256 .f32) (main_arg2 : FVec F S32x1x256x256 .f32) (main_arg3 : FVec F S32x1x2x256x256 .f32) (main_arg4 : FVec F S32x1x2x256x256 .f32) (main_arg5 : IVec S32x9 32) (main_arg6 : IVec S32x9 32) (main_arg7 : IVec S32x9 32) (main_arg8 : IVec S32x8 32) : IVec S_ 1 :=
  let main_v0 : FVec F S32x7x256x256 .f32 := Host.absf main_arg0
  let main_cst : FVec F S_ .f32 := constant S_ .f32 0x7F800000#32
  let main_v1 : FVec F S32x7x256x256 .f32 := broadcastInDim S32x7x256x256 ![] bcast_S_S32x7x256x256 main_cst
  let main_v2 : IVec S32x7x256x256 1 := cmpf .olt main_v0 main_v1
  let main_c : IVec S_ 1 := constantI S_ 1 1#1
  let main_v3 : IVec S_ 1 := (fun x v => Host.reduce IntOp.andi x v reducesTo_S32x7x256x256_S_d0_1_2_3 h_S_) main_v2 main_c
  let main_v4 : FVec F S32x7x256x256 .f32 := Host.absf main_arg1
  let main_cst_0 : FVec F S_ .f32 := constant S_ .f32 0x7F800000#32
  let main_v5 : FVec F S32x7x256x256 .f32 := broadcastInDim S32x7x256x256 ![] bcast_S_S32x7x256x256 main_cst_0
  let main_v6 : IVec S32x7x256x256 1 := cmpf .olt main_v4 main_v5
  let main_c_1 : IVec S_ 1 := constantI S_ 1 1#1
  let main_v7 : IVec S_ 1 := (fun x v => Host.reduce IntOp.andi x v reducesTo_S32x7x256x256_S_d0_1_2_3 h_S_) main_v6 main_c_1
  let main_v8 : IVec S_ 1 := andi main_v3 main_v7
  let main_v9 : FVec F S32x1x256x256 .f32 := Host.absf main_arg2
  let main_cst_2 : FVec F S_ .f32 := constant S_ .f32 0x7F800000#32
  let main_v10 : FVec F S32x1x256x256 .f32 := broadcastInDim S32x1x256x256 ![] bcast_S_S32x1x256x256 main_cst_2
  let main_v11 : IVec S32x1x256x256 1 := cmpf .olt main_v9 main_v10
  let main_c_3 : IVec S_ 1 := constantI S_ 1 1#1
  let main_v12 : IVec S_ 1 := (fun x v => Host.reduce IntOp.andi x v reducesTo_S32x1x256x256_S_d0_1_2_3 h_S_) main_v11 main_c_3
  let main_v13 : IVec S_ 1 := andi main_v8 main_v12
  let main_v14 : FVec F S32x1x2x256x256 .f32 := Host.absf main_arg3
  let main_cst_4 : FVec F S_ .f32 := constant S_ .f32 0x7F800000#32
  let main_v15 : FVec F S32x1x2x256x256 .f32 := broadcastInDim S32x1x2x256x256 ![] bcast_S_S32x1x2x256x256 main_cst_4
  let main_v16 : IVec S32x1x2x256x256 1 := cmpf .olt main_v14 main_v15
  fn_part1 (F := F) main_arg4 main_v13 main_v16
-- ==== Kernel.lean ====
abbrev S32x7x256x256 : Shape := ⟨4, ![32, 7, 256, 256]⟩
abbrev S32x1x256x256 : Shape := ⟨4, ![32, 1, 256, 256]⟩
abbrev S32x1x2x256x256 : Shape := ⟨5, ![32, 1, 2, 256, 256]⟩
abbrev S32x9 : Shape := ⟨2, ![32, 9]⟩
abbrev S32x8 : Shape := ⟨2, ![32, 8]⟩
abbrev S32x256x256 : Shape := ⟨3, ![32, 256, 256]⟩
abbrev S32x65536 : Shape := ⟨2, ![32, 65536]⟩
abbrev S_ : Shape := ⟨0, ![]⟩
abbrev S32x9x1 : Shape := ⟨3, ![32, 9, 1]⟩
abbrev S1 : Shape := ⟨1, ![1]⟩
abbrev S1x1x1 : Shape := ⟨3, ![1, 1, 1]⟩
abbrev S32x8x1 : Shape := ⟨3, ![32, 8, 1]⟩
abbrev S32 : Shape := ⟨1, ![32]⟩
abbrev S32x128 : Shape := ⟨2, ![32, 128]⟩
abbrev S8x7x64x256 : Shape := ⟨4, ![8, 7, 64, 256]⟩
abbrev S8x1x64x256 : Shape := ⟨4, ![8, 1, 64, 256]⟩
abbrev S8x1x2x64x256 : Shape := ⟨5, ![8, 1, 2, 64, 256]⟩
abbrev S8x128 : Shape := ⟨2, ![8, 128]⟩
abbrev S8x64x256 : Shape := ⟨3, ![8, 64, 256]⟩
abbrev S8x1x1x64x256 : Shape := ⟨5, ![8, 1, 1, 64, 256]⟩
abbrev S8x64 : Shape := ⟨2, ![8, 64]⟩
abbrev S8 : Shape := ⟨1, ![8]⟩
abbrev S8x1 : Shape := ⟨2, ![8, 1]⟩
abbrev S32x1 : Shape := ⟨2, ![32, 1]⟩
abbrev S97 : Shape := ⟨1, ![97]⟩
abbrev S1x97 : Shape := ⟨2, ![1, 97]⟩
abbrev S2x97 : Shape := ⟨2, ![2, 97]⟩

abbrev nBuf : Space → Nat
  | .hbm => 298
  | .vmem => 29
  | .smem => 0
  | _ => 0

abbrev hbmTy0_0 (i : Nat) : BufTy := match i % 128 with
  | 0 => ⟨S32x7x256x256, .f32⟩
  | 1 => ⟨S32x7x256x256, .f32⟩
  | 2 => ⟨S32x1x256x256, .f32⟩
  | 3 => ⟨S32x1x2x256x256, .f32⟩
  | 4 => ⟨S32x1x2x256x256, .f32⟩
  | 5 => ⟨S32x9, .i32⟩
  | 6 => ⟨S32x9, .i32⟩
  | 7 => ⟨S32x9, .i32⟩
  | 8 => ⟨S32x8, .i32⟩
  | 9 => ⟨S32x1x256x256, .f32⟩
  | 10 => ⟨S32x256x256, .f32⟩
  | 11 => ⟨S32x65536, .f32⟩
  | 12 => ⟨S_, .i32⟩
  | 13 => ⟨S32x9, .i32⟩
  | 14 => ⟨S32x9, .i1⟩
  | 15 => ⟨S_, .i32⟩
  | 16 => ⟨S32x9, .i32⟩
  | 17 => ⟨S32x9, .i32⟩
  | 18 => ⟨S32x9, .i32⟩
  | 19 => ⟨S32x9x1, .i32⟩
  | 20 => ⟨S1, .i32⟩
  | 21 => ⟨S_, .i32⟩
  | 22 => ⟨S32x9x1, .i32⟩
  | 23 => ⟨S32x9x1, .i1⟩
  | 24 => ⟨S1x1x1, .i32⟩
  | 25 => ⟨S32x9x1, .i32⟩
  | 26 => ⟨S32x9x1, .i1⟩
  | 27 => ⟨S32x9x1, .i1⟩
  | 28 => ⟨S_, .i1⟩
  | 29 => ⟨S32x9, .i1⟩
  | 30 => ⟨S32x9, .f32⟩
  | 31 => ⟨S_, .f32⟩
  | 32 => ⟨S32x9, .f32⟩
  | 33 => ⟨S32x9, .f32⟩
  | 34 => ⟨S_, .i32⟩
  | 35 => ⟨S32x9, .i32⟩
  | 36 => ⟨S32x9, .i1⟩
  | 37 => ⟨S_, .i32⟩
  | 38 => ⟨S32x9, .i32⟩
  | 39 => ⟨S32x9, .i32⟩
  | 40 => ⟨S32x9, .i32⟩
  | 41 => ⟨S32x9x1, .i32⟩
  | 42 => ⟨S1, .i32⟩
  | 43 => ⟨S_, .i32⟩
  | 44 => ⟨S32x9x1, .i32⟩
  | 45 => ⟨S32x9x1, .i1⟩
  | 46 => ⟨S1x1x1, .i32⟩
  | 47 => ⟨S32x9x1, .i32⟩
  | 48 => ⟨S32x9x1, .i1⟩
  | 49 => ⟨S32x9x1, .i1⟩
  | 50 => ⟨S_, .i1⟩
  | 51 => ⟨S32x9, .i1⟩
  | 52 => ⟨S32x9, .f32⟩
  | 53 => ⟨S_, .f32⟩
  | 54 => ⟨S32x9, .f32⟩
  | 55 => ⟨S32x9, .f32⟩
  | 56 => ⟨S_, .i32⟩
  | 57 => ⟨S32x9, .i32⟩
  | 58 => ⟨S32x9, .i1⟩
  | 59 => ⟨S_, .i32⟩
  | 60 => ⟨S32x9, .i32⟩
  | 61 => ⟨S32x9, .i32⟩
  | 62 => ⟨S32x9, .i32⟩
  | 63 => ⟨S32x9x1, .i32⟩
  | 64 => ⟨S1, .i32⟩
  | 65 => ⟨S_, .i32⟩
  | 66 => ⟨S32x9x1, .i32⟩
  | 67 => ⟨S32x9x1, .i1⟩
  | 68 => ⟨S1x1x1, .i32⟩
  | 69 => ⟨S32x9x1, .i32⟩
  | 70 => ⟨S32x9x1, .i1⟩
  | 71 => ⟨S32x9x1, .i1⟩
  | 72 => ⟨S_, .i1⟩
  | 73 => ⟨S32x9, .i1⟩
  | 74 => ⟨S32x9, .f32⟩
  | 75 => ⟨S_, .f32⟩
  | 76 => ⟨S32x9, .f32⟩
  | 77 => ⟨S32x9, .f32⟩
  | 78 => ⟨S_, .i32⟩
  | 79 => ⟨S32x8, .i32⟩
  | 80 => ⟨S32x8, .i1⟩
  | 81 => ⟨S_, .i32⟩
  | 82 => ⟨S32x8, .i32⟩
  | 83 => ⟨S32x8, .i32⟩
  | 84 => ⟨S32x8, .i32⟩
  | 85 => ⟨S32x8x1, .i32⟩
  | 86 => ⟨S1, .i32⟩
  | 87 => ⟨S_, .i32⟩
  | 88 => ⟨S32x8x1, .i32⟩
  | 89 => ⟨S32x8x1, .i1⟩
  | 90 => ⟨S1x1x1, .i32⟩
  | 91 => ⟨S32x8x1, .i32⟩
  | 92 => ⟨S32x8x1, .i1⟩
  | 93 => ⟨S32x8x1, .i1⟩
  | 94 => ⟨S_, .i1⟩
  | 95 => ⟨S32x8, .i1⟩
  | 96 => ⟨S32x8, .f32⟩
  | 97 => ⟨S_, .f32⟩
  | 98 => ⟨S32x8, .f32⟩
  | 99 => ⟨S32x8, .f32⟩
  | 100 => ⟨S32x9, .f32⟩
  | 101 => ⟨S32x9, .f32⟩
  | 102 => ⟨S32x9, .f32⟩
  | 103 => ⟨S32x9, .f32⟩
  | 104 => ⟨S32x9, .f32⟩
  | 105 => ⟨S_, .f32⟩
  | 106 => ⟨S32x9, .f32⟩
  | 107 => ⟨S32x9, .f32⟩
  | 108 => ⟨S_, .f32⟩
  | 109 => ⟨S32x9, .f32⟩
  | 110 => ⟨S32x9, .f32⟩
  | 111 => ⟨S32x8, .f32⟩
  | 112 => ⟨S32x8, .f32⟩
  | 113 => ⟨S32x8, .f32⟩
  | 114 => ⟨S32x8, .f32⟩
  | 115 => ⟨S32x8, .f32⟩
  | 116 => ⟨S_, .f32⟩
  | 117 => ⟨S32x8, .f32⟩
  | 118 => ⟨S32x8, .f32⟩
  | 119 => ⟨S_, .f32⟩
  | 120 => ⟨S32x8, .f32⟩
  | 121 => ⟨S32x8, .f32⟩
  | 122 => ⟨S32x8, .f32⟩
  | 123 => ⟨S32x8, .f32⟩
  | 124 => ⟨S_, .f32⟩
  | 125 => ⟨S32x8, .f32⟩
  | 126 => ⟨S32x8, .f32⟩
  | 127 => ⟨S_, .i32⟩
  | _ => ⟨S32x7x256x256, .f32⟩

abbrev hbmTy0_1 (i : Nat) : BufTy := match i % 128 with
  | 0 => ⟨S1, .i32⟩
  | 1 => ⟨S32x9, .f32⟩
  | 2 => ⟨S_, .f32⟩
  | 3 => ⟨S32, .f32⟩
  | 4 => ⟨S_, .f32⟩
  | 5 => ⟨S32, .f32⟩
  | 6 => ⟨S32, .f32⟩
  | 7 => ⟨S_, .f32⟩
  | 8 => ⟨S_, .f32⟩
  | 9 => ⟨S_, .f32⟩
  | 10 => ⟨S_, .f32⟩
  | 11 => ⟨S32x1x256x256, .f32⟩
  | 12 => ⟨S32x256x256, .f32⟩
  | 13 => ⟨S32x65536, .f32⟩
  | 14 => ⟨S_, .i32⟩
  | 15 => ⟨S32x9, .i32⟩
  | 16 => ⟨S32x9, .i1⟩
  | 17 => ⟨S_, .i32⟩
  | 18 => ⟨S32x9, .i32⟩
  | 19 => ⟨S32x9, .i32⟩
  | 20 => ⟨S32x9, .i32⟩
  | 21 => ⟨S32x9x1, .i32⟩
  | 22 => ⟨S1, .i32⟩
  | 23 => ⟨S_, .i32⟩
  | 24 => ⟨S32x9x1, .i32⟩
  | 25 => ⟨S32x9x1, .i1⟩
  | 26 => ⟨S1x1x1, .i32⟩
  | 27 => ⟨S32x9x1, .i32⟩
  | 28 => ⟨S32x9x1, .i1⟩
  | 29 => ⟨S32x9x1, .i1⟩
  | 30 => ⟨S_, .i1⟩
  | 31 => ⟨S32x9, .i1⟩
  | 32 => ⟨S32x9, .f32⟩
  | 33 => ⟨S_, .f32⟩
  | 34 => ⟨S32x9, .f32⟩
  | 35 => ⟨S32x9, .f32⟩
  | 36 => ⟨S_, .i32⟩
  | 37 => ⟨S32x9, .i32⟩
  | 38 => ⟨S32x9, .i1⟩
  | 39 => ⟨S_, .i32⟩
  | 40 => ⟨S32x9, .i32⟩
  | 41 => ⟨S32x9, .i32⟩
  | 42 => ⟨S32x9, .i32⟩
  | 43 => ⟨S32x9x1, .i32⟩
  | 44 => ⟨S1, .i32⟩
  | 45 => ⟨S_, .i32⟩
  | 46 => ⟨S32x9x1, .i32⟩
  | 47 => ⟨S32x9x1, .i1⟩
  | 48 => ⟨S1x1x1, .i32⟩
  | 49 => ⟨S32x9x1, .i32⟩
  | 50 => ⟨S32x9x1, .i1⟩
  | 51 => ⟨S32x9x1, .i1⟩
  | 52 => ⟨S_, .i1⟩
  | 53 => ⟨S32x9, .i1⟩
  | 54 => ⟨S32x9, .f32⟩
  | 55 => ⟨S_, .f32⟩
  | 56 => ⟨S32x9, .f32⟩
  | 57 => ⟨S32x9, .f32⟩
  | 58 => ⟨S_, .i32⟩
  | 59 => ⟨S32x9, .i32⟩
  | 60 => ⟨S32x9, .i1⟩
  | 61 => ⟨S_, .i32⟩
  | 62 => ⟨S32x9, .i32⟩
  | 63 => ⟨S32x9, .i32⟩
  | 64 => ⟨S32x9, .i32⟩
  | 65 => ⟨S32x9x1, .i32⟩
  | 66 => ⟨S1, .i32⟩
  | 67 => ⟨S_, .i32⟩
  | 68 => ⟨S32x9x1, .i32⟩
  | 69 => ⟨S32x9x1, .i1⟩
  | 70 => ⟨S1x1x1, .i32⟩
  | 71 => ⟨S32x9x1, .i32⟩
  | 72 => ⟨S32x9x1, .i1⟩
  | 73 => ⟨S32x9x1, .i1⟩
  | 74 => ⟨S_, .i1⟩
  | 75 => ⟨S32x9, .i1⟩
  | 76 => ⟨S32x9, .f32⟩
  | 77 => ⟨S_, .f32⟩
  | 78 => ⟨S32x9, .f32⟩
  | 79 => ⟨S32x9, .f32⟩
  | 80 => ⟨S_, .i32⟩
  | 81 => ⟨S32x8, .i32⟩
  | 82 => ⟨S32x8, .i1⟩
  | 83 => ⟨S_, .i32⟩
  | 84 => ⟨S32x8, .i32⟩
  | 85 => ⟨S32x8, .i32⟩
  | 86 => ⟨S32x8, .i32⟩
  | 87 => ⟨S32x8x1, .i32⟩
  | 88 => ⟨S1, .i32⟩
  | 89 => ⟨S_, .i32⟩
  | 90 => ⟨S32x8x1, .i32⟩
  | 91 => ⟨S32x8x1, .i1⟩
  | 92 => ⟨S1x1x1, .i32⟩
  | 93 => ⟨S32x8x1, .i32⟩
  | 94 => ⟨S32x8x1, .i1⟩
  | 95 => ⟨S32x8x1, .i1⟩
  | 96 => ⟨S_, .i1⟩
  | 97 => ⟨S32x8, .i1⟩
  | 98 => ⟨S32x8, .f32⟩
  | 99 => ⟨S_, .f32⟩
  | 100 => ⟨S32x8, .f32⟩
  | 101 => ⟨S32x8, .f32⟩
  | 102 => ⟨S32x9, .f32⟩
  | 103 => ⟨S32x9, .f32⟩
  | 104 => ⟨S32x9, .f32⟩
  | 105 => ⟨S32x9, .f32⟩
  | 106 => ⟨S32x9, .f32⟩
  | 107 => ⟨S_, .f32⟩
  | 108 => ⟨S32x9, .f32⟩
  | 109 => ⟨S32x9, .f32⟩
  | 110 => ⟨S_, .f32⟩
  | 111 => ⟨S32x9, .f32⟩
  | 112 => ⟨S32x9, .f32⟩
  | 113 => ⟨S32x8, .f32⟩
  | 114 => ⟨S32x8, .f32⟩
  | 115 => ⟨S32x8, .f32⟩
  | 116 => ⟨S32x8, .f32⟩
  | 117 => ⟨S32x8, .f32⟩
  | 118 => ⟨S_, .f32⟩
  | 119 => ⟨S32x8, .f32⟩
  | 120 => ⟨S32x8, .f32⟩
  | 121 => ⟨S_, .f32⟩
  | 122 => ⟨S32x8, .f32⟩
  | 123 => ⟨S32x8, .f32⟩
  | 124 => ⟨S32x8, .f32⟩
  | 125 => ⟨S32x8, .f32⟩
  | 126 => ⟨S_, .f32⟩
  | 127 => ⟨S32x8, .f32⟩
  | _ => ⟨S32x7x256x256, .f32⟩

abbrev hbmTy0_2 (i : Nat) : BufTy := match i % 128 with
  | 0 => ⟨S32x8, .f32⟩
  | 1 => ⟨S_, .i32⟩
  | 2 => ⟨S1, .i32⟩
  | 3 => ⟨S32x9, .f32⟩
  | 4 => ⟨S_, .f32⟩
  | 5 => ⟨S32, .f32⟩
  | 6 => ⟨S_, .f32⟩
  | 7 => ⟨S32, .f32⟩
  | 8 => ⟨S32, .f32⟩
  | 9 => ⟨S_, .f32⟩
  | 10 => ⟨S_, .f32⟩
  | 11 => ⟨S_, .f32⟩
  | 12 => ⟨S_, .f32⟩
  | 13 => ⟨S32x128, .f32⟩
  | 14 => ⟨S32x128, .f32⟩
  | 15 => ⟨S32x128, .f32⟩
  | 16 => ⟨S32x128, .f32⟩
  | 17 => ⟨S32x128, .f32⟩
  | 18 => ⟨S32x128, .f32⟩
  | 19 => ⟨S32x1, .f32⟩
  | 20 => ⟨S32, .f32⟩
  | 21 => ⟨S32x1, .f32⟩
  | 22 => ⟨S32, .f32⟩
  | 23 => ⟨S32x1, .f32⟩
  | 24 => ⟨S32, .f32⟩
  | 25 => ⟨S32x1, .f32⟩
  | 26 => ⟨S32, .f32⟩
  | 27 => ⟨S32x1, .f32⟩
  | 28 => ⟨S32, .f32⟩
  | 29 => ⟨S32x1, .f32⟩
  | 30 => ⟨S32, .f32⟩
  | 31 => ⟨S_, .f32⟩
  | 32 => ⟨S_, .f32⟩
  | 33 => ⟨S1, .f32⟩
  | 34 => ⟨S97, .f32⟩
  | 35 => ⟨S_, .f32⟩
  | 36 => ⟨S_, .f32⟩
  | 37 => ⟨S1, .f32⟩
  | 38 => ⟨S97, .f32⟩
  | 39 => ⟨S1x97, .f32⟩
  | 40 => ⟨S1x97, .f32⟩
  | 41 => ⟨S2x97, .f32⟩
  | _ => ⟨S32x7x256x256, .f32⟩

abbrev hbmTy (i : Nat) : BufTy := match i / 128 with
  | 0 => hbmTy0_0 i
  | 1 => hbmTy0_1 i
  | 2 => hbmTy0_2 i
  | _ => ⟨S32x7x256x256, .f32⟩

abbrev bufTy : (tb : Table) → Fin (tcTables nBuf tb) → BufTy
  | .hbm, ⟨i, _⟩ => hbmTy i
  | .local _ .vmem, ⟨0, _⟩ => ⟨S8x7x64x256, .f32⟩
  | .local _ .vmem, ⟨1, _⟩ => ⟨S8x7x64x256, .f32⟩
  | .local _ .vmem, ⟨2, _⟩ => ⟨S8x7x64x256, .f32⟩
  | .local _ .vmem, ⟨3, _⟩ => ⟨S8x7x64x256, .f32⟩
  | .local _ .vmem, ⟨4, _⟩ => ⟨S8x1x64x256, .f32⟩
  | .local _ .vmem, ⟨5, _⟩ => ⟨S8x1x64x256, .f32⟩
  | .local _ .vmem, ⟨6, _⟩ => ⟨S8x1x2x64x256, .f32⟩
  | .local _ .vmem, ⟨7, _⟩ => ⟨S8x1x2x64x256, .f32⟩
  | .local _ .vmem, ⟨8, _⟩ => ⟨S8x1x2x64x256, .f32⟩
  | .local _ .vmem, ⟨9, _⟩ => ⟨S8x1x2x64x256, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | _, _ => ⟨S32x7x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v3 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v5 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_cst : Ref sig .tc := ⟨.hbm, 97, rfl⟩
abbrev main_call3_v14 : Ref sig .tc := ⟨.hbm, 98, rfl⟩
abbrev main_v6 : Ref sig .tc := ⟨.hbm, 99, rfl⟩
abbrev main_v7 : Ref sig .tc := ⟨.hbm, 100, rfl⟩
abbrev main_v8 : Ref sig .tc := ⟨.hbm, 101, rfl⟩
abbrev main_v9 : Ref sig .tc := ⟨.hbm, 102, rfl⟩
abbrev main_v10 : Ref sig .tc := ⟨.hbm, 103, rfl⟩
abbrev main_v11 : Ref sig .tc := ⟨.hbm, 104, rfl⟩
abbrev main_cst : Ref sig .tc := ⟨.hbm, 105, rfl⟩
abbrev main_v12 : Ref sig .tc := ⟨.hbm, 106, rfl⟩
abbrev main_v13 : Ref sig .tc := ⟨.hbm, 107, rfl⟩
abbrev main_call4_cst : Ref sig .tc := ⟨.hbm, 108, rfl⟩
abbrev main_call4_v0 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_cst_0 : Ref sig .tc := ⟨.hbm, 116, rfl⟩
abbrev main_v20 : Ref sig .tc := ⟨.hbm, 117, rfl⟩
abbrev main_v21 : Ref sig .tc := ⟨.hbm, 118, rfl⟩
abbrev main_call5_cst : Ref sig .tc := ⟨.hbm, 119, rfl⟩
abbrev main_call5_v0 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_cst_1 : Ref sig .tc := ⟨.hbm, 124, rfl⟩
abbrev main_v25 : Ref sig .tc := ⟨.hbm, 125, rfl⟩
abbrev main_v26 : Ref sig .tc := ⟨.hbm, 126, rfl⟩
abbrev main_c : Ref sig .tc := ⟨.hbm, 127, rfl⟩
abbrev main_v27 : Ref sig .tc := ⟨.hbm, 128, rfl⟩
abbrev main_v28 : Ref sig .tc := ⟨.hbm, 129, rfl⟩
abbrev main_cst_2 : Ref sig .tc := ⟨.hbm, 130, rfl⟩
abbrev main_v29 : Ref sig .tc := ⟨.hbm, 131, rfl⟩
abbrev main_cst_3 : Ref sig .tc := ⟨.hbm, 132, rfl⟩
abbrev main_v30 : Ref sig .tc := ⟨.hbm, 133, rfl⟩
abbrev main_v31 : Ref sig .tc := ⟨.hbm, 134, rfl⟩
abbrev main_cst_4 : Ref sig .tc := ⟨.hbm, 135, rfl⟩
abbrev main_v32 : Ref sig .tc := ⟨.hbm, 136, rfl⟩
abbrev main_cst_5 : Ref sig .tc := ⟨.hbm, 137, rfl⟩
abbrev main_v33 : Ref sig .tc := ⟨.hbm, 138, rfl⟩
abbrev main_v34 : Ref sig .tc := ⟨.hbm, 139, rfl⟩
abbrev main_v35 : Ref sig .tc := ⟨.hbm, 140, rfl⟩
abbrev main_v36 : Ref sig .tc := ⟨.hbm, 141, rfl⟩
abbrev main_call6_c : Ref sig .tc := ⟨.hbm, 142, rfl⟩
abbrev main_call6_v0 : Ref sig .tc := ⟨.hbm, 143, rfl⟩
abbrev main_call6_v1 : Ref sig .tc := ⟨.hbm, 144, rfl⟩
abbrev main_call6_c_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_c_1 : Ref sig .tc := ⟨.hbm, 150, rfl⟩
abbrev main_call6_c_2 : Ref sig .tc := ⟨.hbm, 151, rfl⟩
abbrev main_call6_v6 : Ref sig .tc := ⟨.hbm, 152, rfl⟩
abbrev main_call6_v7 : Ref sig .tc := ⟨.hbm, 153, rfl⟩
abbrev main_call6_v8 : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_3 : Ref sig .tc := ⟨.hbm, 158, rfl⟩
abbrev main_call6_v12 : Ref sig .tc := ⟨.hbm, 159, rfl⟩
abbrev main_call6_v13 : Ref sig .tc := ⟨.hbm, 160, rfl⟩
abbrev main_call6_cst : Ref sig .tc := ⟨.hbm, 161, rfl⟩
abbrev main_call6_v14 : Ref sig .tc := ⟨.hbm, 162, rfl⟩
abbrev main_v37 : Ref sig .tc := ⟨.hbm, 163, rfl⟩
abbrev main_call7_c : Ref sig .tc := ⟨.hbm, 164, rfl⟩
abbrev main_call7_v0 : Ref sig .tc := ⟨.hbm, 165, rfl⟩
abbrev main_call7_v1 : Ref sig .tc := ⟨.hbm, 166, rfl⟩
abbrev main_call7_c_0 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_v5 : Ref sig .tc := ⟨.hbm, 171, rfl⟩
abbrev main_call7_c_1 : Ref sig .tc := ⟨.hbm, 172, rfl⟩
abbrev main_call7_c_2 : Ref sig .tc := ⟨.hbm, 173, rfl⟩
abbrev main_call7_v6 : Ref sig .tc := ⟨.hbm, 174, rfl⟩
abbrev main_call7_v7 : Ref sig .tc := ⟨.hbm, 175, rfl⟩
abbrev main_call7_v8 : Ref sig .tc := ⟨.hbm, 176, rfl⟩
abbrev main_call7_v9 : Ref sig .tc := ⟨.hbm, 177, rfl⟩
abbrev main_call7_v10 : Ref sig .tc := ⟨.hbm, 178, rfl⟩
abbrev main_call7_v11 : Ref sig .tc := ⟨.hbm, 179, rfl⟩
abbrev main_call7_c_3 : Ref sig .tc := ⟨.hbm, 180, rfl⟩
abbrev main_call7_v12 : Ref sig .tc := ⟨.hbm, 181, rfl⟩
abbrev main_call7_v13 : Ref sig .tc := ⟨.hbm, 182, rfl⟩
abbrev main_call7_cst : Ref sig .tc := ⟨.hbm, 183, rfl⟩
abbrev main_call7_v14 : Ref sig .tc := ⟨.hbm, 184, rfl⟩
abbrev main_v38 : Ref sig .tc := ⟨.hbm, 185, rfl⟩
abbrev main_call8_c : Ref sig .tc := ⟨.hbm, 186, rfl⟩
abbrev main_call8_v0 : Ref sig .tc := ⟨.hbm, 187, rfl⟩
abbrev main_call8_v1 : Ref sig .tc := ⟨.hbm, 188, rfl⟩
abbrev main_call8_c_0 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_call8_v5 : Ref sig .tc := ⟨.hbm, 193, rfl⟩
abbrev main_call8_c_1 : Ref sig .tc := ⟨.hbm, 194, rfl⟩
abbrev main_call8_c_2 : Ref sig .tc := ⟨.hbm, 195, rfl⟩
abbrev main_call8_v6 : Ref sig .tc := ⟨.hbm, 196, rfl⟩
abbrev main_call8_v7 : Ref sig .tc := ⟨.hbm, 197, rfl⟩
abbrev main_call8_v8 : Ref sig .tc := ⟨.hbm, 198, rfl⟩
abbrev main_call8_v9 : Ref sig .tc := ⟨.hbm, 199, rfl⟩
abbrev main_call8_v10 : Ref sig .tc := ⟨.hbm, 200, rfl⟩
abbrev main_call8_v11 : Ref sig .tc := ⟨.hbm, 201, rfl⟩
abbrev main_call8_c_3 : Ref sig .tc := ⟨.hbm, 202, rfl⟩
abbrev main_call8_v12 : Ref sig .tc := ⟨.hbm, 203, rfl⟩
abbrev main_call8_v13 : Ref sig .tc := ⟨.hbm, 204, rfl⟩
abbrev main_call8_cst : Ref sig .tc := ⟨.hbm, 205, rfl⟩
abbrev main_call8_v14 : Ref sig .tc := ⟨.hbm, 206, rfl⟩
abbrev main_v39 : Ref sig .tc := ⟨.hbm, 207, rfl⟩
abbrev main_call9_c : Ref sig .tc := ⟨.hbm, 208, rfl⟩
abbrev main_call9_v0 : Ref sig .tc := ⟨.hbm, 209, rfl⟩
abbrev main_call9_v1 : Ref sig .tc := ⟨.hbm, 210, rfl⟩
abbrev main_call9_c_0 : Ref sig .tc := ⟨.hbm, 211, rfl⟩
abbrev main_call9_v2 : Ref sig .tc := ⟨.hbm, 212, rfl⟩
abbrev main_call9_v3 : Ref sig .tc := ⟨.hbm, 213, rfl⟩
abbrev main_call9_v4 : Ref sig .tc := ⟨.hbm, 214, rfl⟩
abbrev main_call9_v5 : Ref sig .tc := ⟨.hbm, 215, rfl⟩
abbrev main_call9_c_1 : Ref sig .tc := ⟨.hbm, 216, rfl⟩
abbrev main_call9_c_2 : Ref sig .tc := ⟨.hbm, 217, rfl⟩
abbrev main_call9_v6 : Ref sig .tc := ⟨.hbm, 218, rfl⟩
abbrev main_call9_v7 : Ref sig .tc := ⟨.hbm, 219, rfl⟩
abbrev main_call9_v8 : Ref sig .tc := ⟨.hbm, 220, rfl⟩
abbrev main_call9_v9 : Ref sig .tc := ⟨.hbm, 221, rfl⟩
abbrev main_call9_v10 : Ref sig .tc := ⟨.hbm, 222, rfl⟩
abbrev main_call9_v11 : Ref sig .tc := ⟨.hbm, 223, rfl⟩
abbrev main_call9_c_3 : Ref sig .tc := ⟨.hbm, 224, rfl⟩
abbrev main_call9_v12 : Ref sig .tc := ⟨.hbm, 225, rfl⟩
abbrev main_call9_v13 : Ref sig .tc := ⟨.hbm, 226, rfl⟩
abbrev main_call9_cst : Ref sig .tc := ⟨.hbm, 227, rfl⟩
abbrev main_call9_v14 : Ref sig .tc := ⟨.hbm, 228, rfl⟩
abbrev main_v40 : Ref sig .tc := ⟨.hbm, 229, rfl⟩
abbrev main_v41 : Ref sig .tc := ⟨.hbm, 230, rfl⟩
abbrev main_v42 : Ref sig .tc := ⟨.hbm, 231, rfl⟩
abbrev main_v43 : Ref sig .tc := ⟨.hbm, 232, rfl⟩
abbrev main_v44 : Ref sig .tc := ⟨.hbm, 233, rfl⟩
abbrev main_v45 : Ref sig .tc := ⟨.hbm, 234, rfl⟩
abbrev main_cst_6 : Ref sig .tc := ⟨.hbm, 235, rfl⟩
abbrev main_v46 : Ref sig .tc := ⟨.hbm, 236, rfl⟩
abbrev main_v47 : Ref sig .tc := ⟨.hbm, 237, rfl⟩
abbrev main_call10_cst : Ref sig .tc := ⟨.hbm, 238, rfl⟩
abbrev main_call10_v0 : Ref sig .tc := ⟨.hbm, 239, rfl⟩
abbrev main_v48 : Ref sig .tc := ⟨.hbm, 240, rfl⟩
abbrev main_v49 : Ref sig .tc := ⟨.hbm, 241, rfl⟩
abbrev main_v50 : Ref sig .tc := ⟨.hbm, 242, rfl⟩
abbrev main_v51 : Ref sig .tc := ⟨.hbm, 243, rfl⟩
abbrev main_v52 : Ref sig .tc := ⟨.hbm, 244, rfl⟩
abbrev main_v53 : Ref sig .tc := ⟨.hbm, 245, rfl⟩
abbrev main_cst_7 : Ref sig .tc := ⟨.hbm, 246, rfl⟩
abbrev main_v54 : Ref sig .tc := ⟨.hbm, 247, rfl⟩
abbrev main_v55 : Ref sig .tc := ⟨.hbm, 248, rfl⟩
abbrev main_call11_cst : Ref sig .tc := ⟨.hbm, 249, rfl⟩
abbrev main_call11_v0 : Ref sig .tc := ⟨.hbm, 250, rfl⟩
abbrev main_v56 : Ref sig .tc := ⟨.hbm, 251, rfl⟩
abbrev main_v57 : Ref sig .tc := ⟨.hbm, 252, rfl⟩
abbrev main_v58 : Ref sig .tc := ⟨.hbm, 253, rfl⟩
abbrev main_cst_8 : Ref sig .tc := ⟨.hbm, 254, rfl⟩
abbrev main_v59 : Ref sig .tc := ⟨.hbm, 255, rfl⟩
abbrev main_v60 : Ref sig .tc := ⟨.hbm, 256, rfl⟩
abbrev main_c_9 : Ref sig .tc := ⟨.hbm, 257, rfl⟩
abbrev main_v61 : Ref sig .tc := ⟨.hbm, 258, rfl⟩
abbrev main_v62 : Ref sig .tc := ⟨.hbm, 259, rfl⟩
abbrev main_cst_10 : Ref sig .tc := ⟨.hbm, 260, rfl⟩
abbrev main_v63 : Ref sig .tc := ⟨.hbm, 261, rfl⟩
abbrev main_cst_11 : Ref sig .tc := ⟨.hbm, 262, rfl⟩
abbrev main_v64 : Ref sig .tc := ⟨.hbm, 263, rfl⟩
abbrev main_v65 : Ref sig .tc := ⟨.hbm, 264, rfl⟩
abbrev main_cst_12 : Ref sig .tc := ⟨.hbm, 265, rfl⟩
abbrev main_v66 : Ref sig .tc := ⟨.hbm, 266, rfl⟩
abbrev main_cst_13 : Ref sig .tc := ⟨.hbm, 267, rfl⟩
abbrev main_v67 : Ref sig .tc := ⟨.hbm, 268, rfl⟩
abbrev main_v68_0 : Ref sig .tc := ⟨.hbm, 269, rfl⟩
abbrev main_v68_1 : Ref sig .tc := ⟨.hbm, 270, rfl⟩
abbrev main_v68_2 : Ref sig .tc := ⟨.hbm, 271, rfl⟩
abbrev main_v68_3 : Ref sig .tc := ⟨.hbm, 272, rfl⟩
abbrev main_v68_4 : Ref sig .tc := ⟨.hbm, 273, rfl⟩
abbrev main_v68_5 : Ref sig .tc := ⟨.hbm, 274, rfl⟩
abbrev main_v69 : Ref sig .tc := ⟨.hbm, 275, rfl⟩
abbrev main_v70 : Ref sig .tc := ⟨.hbm, 276, rfl⟩
abbrev main_v71 : Ref sig .tc := ⟨.hbm, 277, rfl⟩
abbrev main_v72 : Ref sig .tc := ⟨.hbm, 278, rfl⟩
abbrev main_v73 : Ref sig .tc := ⟨.hbm, 279, rfl⟩
abbrev main_v74 : Ref sig .tc := ⟨.hbm, 280, rfl⟩
abbrev main_v75 : Ref sig .tc := ⟨.hbm, 281, rfl⟩
abbrev main_v76 : Ref sig .tc := ⟨.hbm, 282, rfl⟩
abbrev main_v77 : Ref sig .tc := ⟨.hbm, 283, rfl⟩
abbrev main_v78 : Ref sig .tc := ⟨.hbm, 284, rfl⟩
abbrev main_v79 : Ref sig .tc := ⟨.hbm, 285, rfl⟩
abbrev main_v80 : Ref sig .tc := ⟨.hbm, 286, rfl⟩
abbrev main_cst_14 : Ref sig .tc := ⟨.hbm, 287, rfl⟩
abbrev main_v81 : Ref sig .tc := ⟨.hbm, 288, rfl⟩
abbrev main_v82 : Ref sig .tc := ⟨.hbm, 289, rfl⟩
abbrev main_v83 : Ref sig .tc := ⟨.hbm, 290, rfl⟩
abbrev main_cst_15 : Ref sig .tc := ⟨.hbm, 291, rfl⟩
abbrev main_v84 : Ref sig .tc := ⟨.hbm, 292, rfl⟩
abbrev main_v85 : Ref sig .tc := ⟨.hbm, 293, rfl⟩
abbrev main_v86 : Ref sig .tc := ⟨.hbm, 294, rfl⟩
abbrev main_v87 : Ref sig .tc := ⟨.hbm, 295, rfl⟩
abbrev main_v88 : Ref sig .tc := ⟨.hbm, 296, rfl⟩
abbrev main_v89 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v239 : BitVec 1 := Scalar.cmpi .eq arg1 c3_i32
  let v240 : BitVec 32 := Scalar.extui v239
  let c0_i32_93 : BitVec 32 := 0#32
  let v241 : BitVec 1 := Scalar.cmpi .ne v240 c0_i32_93
  v241

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x7x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x7x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x2x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  slices_S32x7x256x256_S32x1x256x256_0_0_0_0 : S32x7x256x256.Slices ![0, 0, 0, 0] S32x1x256x256
  shapeCasts_S32x1x256x256_S32x256x256 : S32x1x256x256.ShapeCasts S32x256x256
  shapeCasts_S32x256x256_S32x65536 : S32x256x256.ShapeCasts S32x65536
  bcast_S_S32x9 : S_.BroadcastsInDim S32x9 (![] : Fin 0 → Fin S32x9.rank)
  shapeCasts_S32x9_S32x9x1 : S32x9.ShapeCasts S32x9x1
  bcast_S_S32x9x1 : S_.BroadcastsInDim S32x9x1 (![] : Fin 0 → Fin S32x9x1.rank)
  bcast_S1_S1x1x1_2 : S1.BroadcastsInDim S1x1x1 (![2] : Fin 1 → Fin S1x1x1.rank)
  bcast_S1x1x1_S32x9x1_0_1_2 : S1x1x1.BroadcastsInDim S32x9x1 (![0, 1, 2] : Fin 3 → Fin S32x9x1.rank)
  reducesTo_S32x9x1_S32x9_d2 : S32x9x1.ReducesTo [2] S32x9
  h_S_ : 0 < S_.numel
  bcast_S_S32x8 : S_.BroadcastsInDim S32x8 (![] : Fin 0 → Fin S32x8.rank)
  shapeCasts_S32x8_S32x8x1 : S32x8.ShapeCasts S32x8x1
  bcast_S_S32x8x1 : S_.BroadcastsInDim S32x8x1 (![] : Fin 0 → Fin S32x8x1.rank)
  bcast_S1x1x1_S32x8x1_0_1_2 : S1x1x1.BroadcastsInDim S32x8x1 (![0, 1, 2] : Fin 3 → Fin S32x8x1.rank)
  reducesTo_S32x8x1_S32x8_d2 : S32x8x1.ReducesTo [2] S32x8
  slices_S32x9_S32x8_0_1 : S32x9.Slices ![0, 1] S32x8
  bcast_S_S1 : S_.BroadcastsInDim S1 (![] : Fin 0 → Fin S1.rank)
  reducesTo_S32x9_S32_d1 : S32x9.ReducesTo [1] S32
  bcast_S_S32 : S_.BroadcastsInDim S32 (![] : Fin 0 → Fin S32.rank)
  reducesTo_S32_S_d0 : S32.ReducesTo [0] S_
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1x64x256_S8x1x64x256_0_0_0_0 : ∀ a, (![0, 0, 0, 0] : Fin 4 → Nat) a + S8x1x64x256.size a ≤ S8x1x64x256.size a
  h_S8x1x64x256 : 0 < S8x1x64x256.numel
  shapeCasts_S8x1x64x256_S8x64x256 : S8x1x64x256.ShapeCasts S8x64x256
  inb_S8x1x2x64x256_S8x1x2x64x256_0_0_0_0_0 : ∀ a, (![0, 0, 0, 0, 0] : Fin 5 → Nat) a + S8x1x2x64x256.size a ≤ S8x1x2x64x256.size a
  h_S8x1x2x64x256 : 0 < S8x1x2x64x256.numel
  slices_S8x1x2x64x256_o0_0_0_0_0_S8x1x1x64x256 : S8x1x2x64x256.Slices ![0, 0, 0, 0, 0] S8x1x1x64x256
  shapeCasts_S8x1x1x64x256_S8x64x256 : S8x1x1x64x256.ShapeCasts S8x64x256
  slices_S8x1x2x64x256_o0_0_1_0_0_S8x1x1x64x256 : S8x1x2x64x256.Slices ![0, 0, 1, 0, 0] S8x1x1x64x256
  inb_S8x7x64x256_S8x7x64x256_0_0_0_0 : ∀ a, (![0, 0, 0, 0] : Fin 4 → Nat) a + S8x7x64x256.size a ≤ S8x7x64x256.size a
  h_S8x7x64x256 : 0 < S8x7x64x256.numel
  slices_S8x7x64x256_o0_1_0_0_S8x1x64x256 : S8x7x64x256.Slices ![0, 1, 0, 0] S8x1x64x256
  slices_S8x7x64x256_o0_2_0_0_S8x1x64x256 : S8x7x64x256.Slices ![0, 2, 0, 0] S8x1x64x256
  reduces_S8x64x256_S8x64 : S8x64x256.Reduces [2] S8x64
  reduces_S8x64_S8 : S8x64.Reduces [1] S8
  shapeCasts_S8_S8x1 : S8.ShapeCasts S8x1
  shapeCasts_S8x1_S8x1 : S8x1.ShapeCasts S8x1
  broadcasts_S8x1_S8x128 : S8x1.Broadcasts S8x128
  slices_S8x7x64x256_o0_3_0_0_S8x1x64x256 : S8x7x64x256.Slices ![0, 3, 0, 0] S8x1x64x256
  slices_S8x7x64x256_o0_4_0_0_S8x1x64x256 : S8x7x64x256.Slices ![0, 4, 0, 0] S8x1x64x256
  slices_S8x7x64x256_o0_5_0_0_S8x1x64x256 : S8x7x64x256.Slices ![0, 5, 0, 0] S8x1x64x256
  slices_S8x7x64x256_o0_6_0_0_S8x1x64x256 : S8x7x64x256.Slices ![0, 6, 0, 0] S8x1x64x256
  slices_S32x128_S32x1_0_0 : S32x128.Slices ![0, 0] S32x1
  shapeCasts_S32x1_S32 : S32x1.ShapeCasts S32
  concatenates_S1_S32_S32_S32_S97_d0 : Shape.Concatenates [S1, S32, S32, S32] S97 0
  bcast_S97_S1x97_1 : S97.BroadcastsInDim S1x97 (![1] : Fin 1 → Fin S1x97.rank)
  concatenates_S1x97_S1x97_S2x97_d0 : Shape.Concatenates [S1x97, S1x97] S2x97 0
  gather_S32x65536_S32x9x1_S32x9_n_1_0_0_1_2_11_wf : GatherDims.WF S32x65536 S32x9x1 S32x9 [] [1] [0] [1] [0] 2 ![1, 1]
  gather_S32x65536_S32x8x1_S32x8_n_1_0_0_1_2_11_wf : GatherDims.WF S32x65536 S32x8x1 S32x8 [] [1] [0] [1] [0] 2 ![1, 1]
  scatter_S32x9_S1_S32x8_01_n_1_0_wf : ScatterDims.WF S32x9 S1 S32x8 [0, 1] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x7x64x256.size a ≤ S32x7x256x256.size a
  hwx0_0 : ∀ i : grid0.Coords, EltTy.bits .f32 = 32 ∨ (Rect.block (s := S32x7x256x256) S8x7x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x7x64x256.size a ≤ S32x7x256x256.size a
  hwx0_1 : ∀ i : grid0.Coords, EltTy.bits .f32 = 32 ∨ (Rect.block (s := S32x7x256x256) S8x7x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x64x256.size a ≤ S32x1x256x256.size a
  hwx0_2 : ∀ i : grid0.Coords, EltTy.bits .f32 = 32 ∨ (Rect.block (s := S32x1x256x256) S8x1x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x2x64x256.size a ≤ S32x1x2x256x256.size a
  hwx0_3 : ∀ i : grid0.Coords, EltTy.bits .f32 = 32 ∨ (Rect.block (s := S32x1x2x256x256) S8x1x2x64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x2x64x256.size a ≤ S32x1x2x256x256.size a
  hwx0_4 : ∀ i : grid0.Coords, EltTy.bits .f32 = 32 ∨ (Rect.block (s := S32x1x2x256x256) S8x1x2x64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S32x128.size a
  hwx0_5 : ∀ i : grid0.Coords, EltTy.bits .f32 = 32 ∨ (Rect.block (s := S32x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S32x128.size a
  hwx0_6 : ∀ i : grid0.Coords, EltTy.bits .f32 = 32 ∨ (Rect.block (s := S32x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S32x128.size a
  hwx0_7 : ∀ i : grid0.Coords, EltTy.bits .f32 = 32 ∨ (Rect.block (s := S32x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S32x128.size a
  hwx0_8 : ∀ i : grid0.Coords, EltTy.bits .f32 = 32 ∨ (Rect.block (s := S32x128) S8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S32x128.size a
  hwx0_9 : ∀ i : grid0.Coords, EltTy.bits .f32 = 32 ∨ (Rect.block (s := S32x128) S8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S32x128.size a
  hwx0_10 : ∀ i : grid0.Coords, EltTy.bits .f32 = 32 ∨ (Rect.block (s := S32x128) S8x128.size (cc0_transform_10 i) (hinb0_10 i)).WholeWords (EltTy.packing .f32)

variable [Facts₀]

def gather_S32x65536_S32x9x1_S32x9_n_1_0_0_1_2_11 : GatherDims S32x65536 S32x9x1 S32x9 where
  offsetDims := []
  collapsedSliceDims := [1]
  operandBatchingDims := [0]
  startIndicesBatchingDims := [0]
  startIndexMap := [1]
  indexVectorDim := 2
  sliceSizes := ![1, 1]
  wf := gather_S32x65536_S32x9x1_S32x9_n_1_0_0_1_2_11_wf
def gather_S32x65536_S32x8x1_S32x8_n_1_0_0_1_2_11 : GatherDims S32x65536 S32x8x1 S32x8 where
  offsetDims := []
  collapsedSliceDims := [1]
  operandBatchingDims := [0]
  startIndicesBatchingDims := [0]
  startIndexMap := [1]
  indexVectorDim := 2
  sliceSizes := ![1, 1]
  wf := gather_S32x65536_S32x8x1_S32x8_n_1_0_0_1_2_11_wf
def scatter_S32x9_S1_S32x8_01_n_1_0 : ScatterDims S32x9 S1 S32x8 where
  updateWindowDims := [0, 1]
  insertedWindowDims := []
  scatterDimsToOperandDims := [1]
  indexVectorDim := 0
  wf := scatter_S32x9_S1_S32x8_01_n_1_0_wf

abbrev win0_0 : Pipeline.Window sig grid0 :=
  Pipeline.Window.ofSpec (Memref.whole main_arg0) S8x7x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x7x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1x2x64x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x1x2x64x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v68_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v68_1) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v68_2) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v68_3) S8x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v68_4) S8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v68_5) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | 8 => fun i => !(k0_cond2 i == 1#1) | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S32x7x256x256 : Shape := ⟨4, ![32, 7, 256, 256]⟩
abbrev S32x1x256x256 : Shape := ⟨4, ![32, 1, 256, 256]⟩
abbrev S32x1x2x256x256 : Shape := ⟨5, ![32, 1, 2, 256, 256]⟩
abbrev S32x9 : Shape := ⟨2, ![32, 9]⟩
abbrev S32x8 : Shape := ⟨2, ![32, 8]⟩
abbrev S2 : Shape := ⟨1, ![2]⟩
abbrev S7x32x256x256 : Shape := ⟨4, ![7, 32, 256, 256]⟩
abbrev S1x32x256x256 : Shape := ⟨4, ![1, 32, 256, 256]⟩
abbrev S32x256x256 : Shape := ⟨3, ![32, 256, 256]⟩
abbrev S2x32x256x256 : Shape := ⟨4, ![2, 32, 256, 256]⟩
abbrev S2x1x1x1 : Shape := ⟨4, ![2, 1, 1, 1]⟩
abbrev S32x65536 : Shape := ⟨2, ![32, 65536]⟩
abbrev S_ : Shape := ⟨0, ![]⟩
abbrev S32x9x1 : Shape := ⟨3, ![32, 9, 1]⟩
abbrev S1 : Shape := ⟨1, ![1]⟩
abbrev S1x1x1 : Shape := ⟨3, ![1, 1, 1]⟩
abbrev S32x8x1 : Shape := ⟨3, ![32, 8, 1]⟩
abbrev S32 : Shape := ⟨1, ![32]⟩
abbrev S32x2x256x256 : Shape := ⟨4, ![32, 2, 256, 256]⟩
abbrev S2x32 : Shape := ⟨2, ![2, 32]⟩
abbrev S32x1x1 : Shape := ⟨3, ![32, 1, 1]⟩
abbrev S97 : Shape := ⟨1, ![97]⟩
abbrev S1x97 : Shape := ⟨2, ![1, 97]⟩
abbrev S2x97 : Shape := ⟨2, ![2, 97]⟩

abbrev nBuf : Space → Nat
  | .hbm => 530
  | .vmem => 0
  | .smem => 0
  | _ => 0

abbrev hbmTy0_0 (i : Nat) : BufTy := match i % 128 with
  | 0 => ⟨S32x7x256x256, .f32⟩
  | 1 => ⟨S32x7x256x256, .f32⟩
  | 2 => ⟨S32x1x256x256, .f32⟩
  | 3 => ⟨S32x1x2x256x256, .f32⟩
  | 4 => ⟨S32x1x2x256x256, .f32⟩
  | 5 => ⟨S32x9, .i32⟩
  | 6 => ⟨S32x9, .i32⟩
  | 7 => ⟨S32x9, .i32⟩
  | 8 => ⟨S32x8, .i32⟩
  | 9 => ⟨S2, .f32⟩
  | 10 => ⟨S2, .f32⟩
  | 11 => ⟨S7x32x256x256, .f32⟩
  | 12 => ⟨S1x32x256x256, .f32⟩
  | 13 => ⟨S32x256x256, .f32⟩
  | 14 => ⟨S2x32x256x256, .f32⟩
  | 15 => ⟨S2x1x1x1, .f32⟩
  | 16 => ⟨S2x32x256x256, .f32⟩
  | 17 => ⟨S2x32x256x256, .f32⟩
  | 18 => ⟨S2x32x256x256, .f32⟩
  | 19 => ⟨S2x32x256x256, .f32⟩
  | 20 => ⟨S2x32x256x256, .f32⟩
  | 21 => ⟨S32x256x256, .f32⟩
  | 22 => ⟨S32x65536, .f32⟩
  | 23 => ⟨S_, .i32⟩
  | 24 => ⟨S32x9, .i32⟩
  | 25 => ⟨S32x9, .i1⟩
  | 26 => ⟨S_, .i32⟩
  | 27 => ⟨S32x9, .i32⟩
  | 28 => ⟨S32x9, .i32⟩
  | 29 => ⟨S32x9, .i32⟩
  | 30 => ⟨S32x9x1, .i32⟩
  | 31 => ⟨S1, .i32⟩
  | 32 => ⟨S_, .i32⟩
  | 33 => ⟨S32x9x1, .i32⟩
  | 34 => ⟨S32x9x1, .i1⟩
  | 35 => ⟨S1x1x1, .i32⟩
  | 36 => ⟨S32x9x1, .i32⟩
  | 37 => ⟨S32x9x1, .i1⟩
  | 38 => ⟨S32x9x1, .i1⟩
  | 39 => ⟨S_, .i1⟩
  | 40 => ⟨S32x9, .i1⟩
  | 41 => ⟨S32x9, .f32⟩
  | 42 => ⟨S_, .f32⟩
  | 43 => ⟨S32x9, .f32⟩
  | 44 => ⟨S32x9, .f32⟩
  | 45 => ⟨S_, .i32⟩
  | 46 => ⟨S32x9, .i32⟩
  | 47 => ⟨S32x9, .i1⟩
  | 48 => ⟨S_, .i32⟩
  | 49 => ⟨S32x9, .i32⟩
  | 50 => ⟨S32x9, .i32⟩
  | 51 => ⟨S32x9, .i32⟩
  | 52 => ⟨S32x9x1, .i32⟩
  | 53 => ⟨S1, .i32⟩
  | 54 => ⟨S_, .i32⟩
  | 55 => ⟨S32x9x1, .i32⟩
  | 56 => ⟨S32x9x1, .i1⟩
  | 57 => ⟨S1x1x1, .i32⟩
  | 58 => ⟨S32x9x1, .i32⟩
  | 59 => ⟨S32x9x1, .i1⟩
  | 60 => ⟨S32x9x1, .i1⟩
  | 61 => ⟨S_, .i1⟩
  | 62 => ⟨S32x9, .i1⟩
  | 63 => ⟨S32x9, .f32⟩
  | 64 => ⟨S_, .f32⟩
  | 65 => ⟨S32x9, .f32⟩
  | 66 => ⟨S32x9, .f32⟩
  | 67 => ⟨S_, .i32⟩
  | 68 => ⟨S32x9, .i32⟩
  | 69 => ⟨S32x9, .i1⟩
  | 70 => ⟨S_, .i32⟩
  | 71 => ⟨S32x9, .i32⟩
  | 72 => ⟨S32x9, .i32⟩
  | 73 => ⟨S32x9, .i32⟩
  | 74 => ⟨S32x9x1, .i32⟩
  | 75 => ⟨S1, .i32⟩
  | 76 => ⟨S_, .i32⟩
  | 77 => ⟨S32x9x1, .i32⟩
  | 78 => ⟨S32x9x1, .i1⟩
  | 79 => ⟨S1x1x1, .i32⟩
  | 80 => ⟨S32x9x1, .i32⟩
  | 81 => ⟨S32x9x1, .i1⟩
  | 82 => ⟨S32x9x1, .i1⟩
  | 83 => ⟨S_, .i1⟩
  | 84 => ⟨S32x9, .i1⟩
  | 85 => ⟨S32x9, .f32⟩
  | 86 => ⟨S_, .f32⟩
  | 87 => ⟨S32x9, .f32⟩
  | 88 => ⟨S32x9, .f32⟩
  | 89 => ⟨S_, .i32⟩
  | 90 => ⟨S32x8, .i32⟩
  | 91 => ⟨S32x8, .i1⟩
  | 92 => ⟨S_, .i32⟩
  | 93 => ⟨S32x8, .i32⟩
  | 94 => ⟨S32x8, .i32⟩
  | 95 => ⟨S32x8, .i32⟩
  | 96 => ⟨S32x8x1, .i32⟩
  | 97 => ⟨S1, .i32⟩
  | 98 => ⟨S_, .i32⟩
  | 99 => ⟨S32x8x1, .i32⟩
  | 100 => ⟨S32x8x1, .i1⟩
  | 101 => ⟨S1x1x1, .i32⟩
  | 102 => ⟨S32x8x1, .i32⟩
  | 103 => ⟨S32x8x1, .i1⟩
  | 104 => ⟨S32x8x1, .i1⟩
  | 105 => ⟨S_, .i1⟩
  | 106 => ⟨S32x8, .i1⟩
  | 107 => ⟨S32x8, .f32⟩
  | 108 => ⟨S_, .f32⟩
  | 109 => ⟨S32x8, .f32⟩
  | 110 => ⟨S32x8, .f32⟩
  | 111 => ⟨S32x9, .f32⟩
  | 112 => ⟨S32x9, .f32⟩
  | 113 => ⟨S32x9, .f32⟩
  | 114 => ⟨S32x9, .f32⟩
  | 115 => ⟨S32x9, .f32⟩
  | 116 => ⟨S_, .f32⟩
  | 117 => ⟨S32x9, .f32⟩
  | 118 => ⟨S32x9, .f32⟩
  | 119 => ⟨S_, .f32⟩
  | 120 => ⟨S32x9, .f32⟩
  | 121 => ⟨S32x9, .f32⟩
  | 122 => ⟨S32x8, .f32⟩
  | 123 => ⟨S32x8, .f32⟩
  | 124 => ⟨S32x8, .f32⟩
  | 125 => ⟨S32x8, .f32⟩
  | 126 => ⟨S32x8, .f32⟩
  | 127 => ⟨S_, .f32⟩
  | _ => ⟨S32x7x256x256, .f32⟩

abbrev hbmTy0_1 (i : Nat) : BufTy := match i % 128 with
  | 0 => ⟨S32x8, .f32⟩
  | 1 => ⟨S32x8, .f32⟩
  | 2 => ⟨S_, .f32⟩
  | 3 => ⟨S32x8, .f32⟩
  | 4 => ⟨S32x8, .f32⟩
  | 5 => ⟨S32x8, .f32⟩
  | 6 => ⟨S32x8, .f32⟩
  | 7 => ⟨S_, .f32⟩
  | 8 => ⟨S32x8, .f32⟩
  | 9 => ⟨S32x8, .f32⟩
  | 10 => ⟨S_, .i32⟩
  | 11 => ⟨S1, .i32⟩
  | 12 => ⟨S32x9, .f32⟩
  | 13 => ⟨S_, .f32⟩
  | 14 => ⟨S32, .f32⟩
  | 15 => ⟨S_, .f32⟩
  | 16 => ⟨S32, .f32⟩
  | 17 => ⟨S32, .f32⟩
  | 18 => ⟨S_, .f32⟩
  | 19 => ⟨S_, .f32⟩
  | 20 => ⟨S_, .f32⟩
  | 21 => ⟨S_, .f32⟩
  | 22 => ⟨S_, .f32⟩
  | 23 => ⟨S32x256x256, .f32⟩
  | 24 => ⟨S_, .f32⟩
  | 25 => ⟨S32x256x256, .f32⟩
  | 26 => ⟨S32x256x256, .f32⟩
  | 27 => ⟨S1x32x256x256, .f32⟩
  | 28 => ⟨S2x32x256x256, .f32⟩
  | 29 => ⟨S2x32x256x256, .f32⟩
  | 30 => ⟨S2x32x256x256, .f32⟩
  | 31 => ⟨S_, .f32⟩
  | 32 => ⟨S32x256x256, .f32⟩
  | 33 => ⟨S1x32x256x256, .f32⟩
  | 34 => ⟨S1x32x256x256, .f32⟩
  | 35 => ⟨S2x32x256x256, .f32⟩
  | 36 => ⟨S2x32x256x256, .f32⟩
  | 37 => ⟨S2x32x256x256, .f32⟩
  | 38 => ⟨S1x32x256x256, .f32⟩
  | 39 => ⟨S32x256x256, .f32⟩
  | 40 => ⟨S32x256x256, .f32⟩
  | 41 => ⟨S_, .f32⟩
  | 42 => ⟨S32x256x256, .f32⟩
  | 43 => ⟨S32x256x256, .f32⟩
  | 44 => ⟨S_, .f32⟩
  | 45 => ⟨S32x256x256, .f32⟩
  | 46 => ⟨S32x256x256, .f32⟩
  | 47 => ⟨S1x32x256x256, .f32⟩
  | 48 => ⟨S32x256x256, .f32⟩
  | 49 => ⟨S32x256x256, .f32⟩
  | 50 => ⟨S32x256x256, .f32⟩
  | 51 => ⟨S_, .f32⟩
  | 52 => ⟨S32, .f32⟩
  | 53 => ⟨S_, .f32⟩
  | 54 => ⟨S32, .f32⟩
  | 55 => ⟨S32, .f32⟩
  | 56 => ⟨S32x2x256x256, .f32⟩
  | 57 => ⟨S2x32x256x256, .f32⟩
  | 58 => ⟨S_, .f32⟩
  | 59 => ⟨S2x32x256x256, .f32⟩
  | 60 => ⟨S2x32x256x256, .i1⟩
  | 61 => ⟨S_, .f32⟩
  | 62 => ⟨S_, .f32⟩
  | 63 => ⟨S2x32x256x256, .f32⟩
  | 64 => ⟨S2x32x256x256, .f32⟩
  | 65 => ⟨S2x32x256x256, .f32⟩
  | 66 => ⟨S2x32x256x256, .f32⟩
  | 67 => ⟨S2x32x256x256, .f32⟩
  | 68 => ⟨S_, .f32⟩
  | 69 => ⟨S2x32x256x256, .f32⟩
  | 70 => ⟨S2x32x256x256, .i1⟩
  | 71 => ⟨S_, .f32⟩
  | 72 => ⟨S2x32x256x256, .f32⟩
  | 73 => ⟨S2x32x256x256, .f32⟩
  | 74 => ⟨S2x32x256x256, .f32⟩
  | 75 => ⟨S_, .f32⟩
  | 76 => ⟨S2x32x256x256, .f32⟩
  | 77 => ⟨S2x32x256x256, .f32⟩
  | 78 => ⟨S2x32x256x256, .f32⟩
  | 79 => ⟨S2x32x256x256, .f32⟩
  | 80 => ⟨S2x32x256x256, .f32⟩
  | 81 => ⟨S_, .f32⟩
  | 82 => ⟨S2x32, .f32⟩
  | 83 => ⟨S_, .f32⟩
  | 84 => ⟨S2x32, .f32⟩
  | 85 => ⟨S2x32, .f32⟩
  | 86 => ⟨S_, .f32⟩
  | 87 => ⟨S32, .f32⟩
  | 88 => ⟨S32x2x256x256, .f32⟩
  | 89 => ⟨S2x32x256x256, .f32⟩
  | 90 => ⟨S_, .f32⟩
  | 91 => ⟨S32, .f32⟩
  | 92 => ⟨S32x1x1, .f32⟩
  | 93 => ⟨S_, .f32⟩
  | 94 => ⟨S32x1x1, .f32⟩
  | 95 => ⟨S32x1x1, .f32⟩
  | 96 => ⟨S_, .f32⟩
  | 97 => ⟨S32x1x1, .f32⟩
  | 98 => ⟨S32x1x1, .i1⟩
  | 99 => ⟨S_, .f32⟩
  | 100 => ⟨S_, .f32⟩
  | 101 => ⟨S32x1x1, .f32⟩
  | 102 => ⟨S32x1x1, .f32⟩
  | 103 => ⟨S2x32x256x256, .f32⟩
  | 104 => ⟨S2x32x256x256, .f32⟩
  | 105 => ⟨S_, .f32⟩
  | 106 => ⟨S2x32x256x256, .f32⟩
  | 107 => ⟨S2x32x256x256, .f32⟩
  | 108 => ⟨S_, .f32⟩
  | 109 => ⟨S2x32x256x256, .f32⟩
  | 110 => ⟨S2x32x256x256, .f32⟩
  | 111 => ⟨S_, .f32⟩
  | 112 => ⟨S2x32x256x256, .f32⟩
  | 113 => ⟨S2x32x256x256, .f32⟩
  | 114 => ⟨S2x32x256x256, .f32⟩
  | 115 => ⟨S2x32x256x256, .f32⟩
  | 116 => ⟨S32x256x256, .f32⟩
  | 117 => ⟨S32x256x256, .f32⟩
  | 118 => ⟨S1x32x256x256, .f32⟩
  | 119 => ⟨S2x32x256x256, .f32⟩
  | 120 => ⟨S2x32x256x256, .f32⟩
  | 121 => ⟨S_, .f32⟩
  | 122 => ⟨S2x32, .f32⟩
  | 123 => ⟨S_, .f32⟩
  | 124 => ⟨S2x32, .f32⟩
  | 125 => ⟨S2x32, .f32⟩
  | 126 => ⟨S_, .f32⟩
  | 127 => ⟨S32, .f32⟩
  | _ => ⟨S32x7x256x256, .f32⟩

abbrev hbmTy0_2 (i : Nat) : BufTy := match i % 128 with
  | 0 => ⟨S_, .f32⟩
  | 1 => ⟨S_, .f32⟩
  | 2 => ⟨S1, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S97, .f32⟩
  | 13 => ⟨S7x32x256x256, .f32⟩
  | 14 => ⟨S1x32x256x256, .f32⟩
  | 15 => ⟨S32x256x256, .f32⟩
  | 16 => ⟨S2x32x256x256, .f32⟩
  | 17 => ⟨S2x1x1x1, .f32⟩
  | 18 => ⟨S2x32x256x256, .f32⟩
  | 19 => ⟨S2x32x256x256, .f32⟩
  | 20 => ⟨S2x32x256x256, .f32⟩
  | 21 => ⟨S2x32x256x256, .f32⟩
  | 22 => ⟨S2x32x256x256, .f32⟩
  | 23 => ⟨S32x256x256, .f32⟩
  | 24 => ⟨S32x65536, .f32⟩
  | 25 => ⟨S_, .i32⟩
  | 26 => ⟨S32x9, .i32⟩
  | 27 => ⟨S32x9, .i1⟩
  | 28 => ⟨S_, .i32⟩
  | 29 => ⟨S32x9, .i32⟩
  | 30 => ⟨S32x9, .i32⟩
  | 31 => ⟨S32x9, .i32⟩
  | 32 => ⟨S32x9x1, .i32⟩
  | 33 => ⟨S1, .i32⟩
  | 34 => ⟨S_, .i32⟩
  | 35 => ⟨S32x9x1, .i32⟩
  | 36 => ⟨S32x9x1, .i1⟩
  | 37 => ⟨S1x1x1, .i32⟩
  | 38 => ⟨S32x9x1, .i32⟩
  | 39 => ⟨S32x9x1, .i1⟩
  | 40 => ⟨S32x9x1, .i1⟩
  | 41 => ⟨S_, .i1⟩
  | 42 => ⟨S32x9, .i1⟩
  | 43 => ⟨S32x9, .f32⟩
  | 44 => ⟨S_, .f32⟩
  | 45 => ⟨S32x9, .f32⟩
  | 46 => ⟨S32x9, .f32⟩
  | 47 => ⟨S_, .i32⟩
  | 48 => ⟨S32x9, .i32⟩
  | 49 => ⟨S32x9, .i1⟩
  | 50 => ⟨S_, .i32⟩
  | 51 => ⟨S32x9, .i32⟩
  | 52 => ⟨S32x9, .i32⟩
  | 53 => ⟨S32x9, .i32⟩
  | 54 => ⟨S32x9x1, .i32⟩
  | 55 => ⟨S1, .i32⟩
  | 56 => ⟨S_, .i32⟩
  | 57 => ⟨S32x9x1, .i32⟩
  | 58 => ⟨S32x9x1, .i1⟩
  | 59 => ⟨S1x1x1, .i32⟩
  | 60 => ⟨S32x9x1, .i32⟩
  | 61 => ⟨S32x9x1, .i1⟩
  | 62 => ⟨S32x9x1, .i1⟩
  | 63 => ⟨S_, .i1⟩
  | 64 => ⟨S32x9, .i1⟩
  | 65 => ⟨S32x9, .f32⟩
  | 66 => ⟨S_, .f32⟩
  | 67 => ⟨S32x9, .f32⟩
  | 68 => ⟨S32x9, .f32⟩
  | 69 => ⟨S_, .i32⟩
  | 70 => ⟨S32x9, .i32⟩
  | 71 => ⟨S32x9, .i1⟩
  | 72 => ⟨S_, .i32⟩
  | 73 => ⟨S32x9, .i32⟩
  | 74 => ⟨S32x9, .i32⟩
  | 75 => ⟨S32x9, .i32⟩
  | 76 => ⟨S32x9x1, .i32⟩
  | 77 => ⟨S1, .i32⟩
  | 78 => ⟨S_, .i32⟩
  | 79 => ⟨S32x9x1, .i32⟩
  | 80 => ⟨S32x9x1, .i1⟩
  | 81 => ⟨S1x1x1, .i32⟩
  | 82 => ⟨S32x9x1, .i32⟩
  | 83 => ⟨S32x9x1, .i1⟩
  | 84 => ⟨S32x9x1, .i1⟩
  | 85 => ⟨S_, .i1⟩
  | 86 => ⟨S32x9, .i1⟩
  | 87 => ⟨S32x9, .f32⟩
  | 88 => ⟨S_, .f32⟩
  | 89 => ⟨S32x9, .f32⟩
  | 90 => ⟨S32x9, .f32⟩
  | 91 => ⟨S_, .i32⟩
  | 92 => ⟨S32x8, .i32⟩
  | 93 => ⟨S32x8, .i1⟩
  | 94 => ⟨S_, .i32⟩
  | 95 => ⟨S32x8, .i32⟩
  | 96 => ⟨S32x8, .i32⟩
  | 97 => ⟨S32x8, .i32⟩
  | 98 => ⟨S32x8x1, .i32⟩
  | 99 => ⟨S1, .i32⟩
  | 100 => ⟨S_, .i32⟩
  | 101 => ⟨S32x8x1, .i32⟩
  | 102 => ⟨S32x8x1, .i1⟩
  | 103 => ⟨S1x1x1, .i32⟩
  | 104 => ⟨S32x8x1, .i32⟩
  | 105 => ⟨S32x8x1, .i1⟩
  | 106 => ⟨S32x8x1, .i1⟩
  | 107 => ⟨S_, .i1⟩
  | 108 => ⟨S32x8, .i1⟩
  | 109 => ⟨S32x8, .f32⟩
  | 110 => ⟨S_, .f32⟩
  | 111 => ⟨S32x8, .f32⟩
  | 112 => ⟨S32x8, .f32⟩
  | 113 => ⟨S32x9, .f32⟩
  | 114 => ⟨S32x9, .f32⟩
  | 115 => ⟨S32x9, .f32⟩
  | 116 => ⟨S32x9, .f32⟩
  | 117 => ⟨S32x9, .f32⟩
  | 118 => ⟨S_, .f32⟩
  | 119 => ⟨S32x9, .f32⟩
  | 120 => ⟨S32x9, .f32⟩
  | 121 => ⟨S_, .f32⟩
  | 122 => ⟨S32x9, .f32⟩
  | 123 => ⟨S32x9, .f32⟩
  | 124 => ⟨S32x8, .f32⟩
  | 125 => ⟨S32x8, .f32⟩
  | 126 => ⟨S32x8, .f32⟩
  | 127 => ⟨S32x8, .f32⟩
  | _ => ⟨S32x7x256x256, .f32⟩

abbrev hbmTy0_3 (i : Nat) : BufTy := match i % 128 with
  | 0 => ⟨S32x8, .f32⟩
  | 1 => ⟨S_, .f32⟩
  | 2 => ⟨S32x8, .f32⟩
  | 3 => ⟨S32x8, .f32⟩
  | 4 => ⟨S_, .f32⟩
  | 5 => ⟨S32x8, .f32⟩
  | 6 => ⟨S32x8, .f32⟩
  | 7 => ⟨S32x8, .f32⟩
  | 8 => ⟨S32x8, .f32⟩
  | 9 => ⟨S_, .f32⟩
  | 10 => ⟨S32x8, .f32⟩
  | 11 => ⟨S32x8, .f32⟩
  | 12 => ⟨S_, .i32⟩
  | 13 => ⟨S1, .i32⟩
  | 14 => ⟨S32x9, .f32⟩
  | 15 => ⟨S_, .f32⟩
  | 16 => ⟨S32, .f32⟩
  | 17 => ⟨S_, .f32⟩
  | 18 => ⟨S32, .f32⟩
  | 19 => ⟨S32, .f32⟩
  | 20 => ⟨S_, .f32⟩
  | 21 => ⟨S_, .f32⟩
  | 22 => ⟨S_, .f32⟩
  | 23 => ⟨S_, .f32⟩
  | 24 => ⟨S_, .f32⟩
  | 25 => ⟨S32x256x256, .f32⟩
  | 26 => ⟨S_, .f32⟩
  | 27 => ⟨S32x256x256, .f32⟩
  | 28 => ⟨S32x256x256, .f32⟩
  | 29 => ⟨S1x32x256x256, .f32⟩
  | 30 => ⟨S2x32x256x256, .f32⟩
  | 31 => ⟨S2x32x256x256, .f32⟩
  | 32 => ⟨S2x32x256x256, .f32⟩
  | 33 => ⟨S_, .f32⟩
  | 34 => ⟨S32x256x256, .f32⟩
  | 35 => ⟨S1x32x256x256, .f32⟩
  | 36 => ⟨S1x32x256x256, .f32⟩
  | 37 => ⟨S2x32x256x256, .f32⟩
  | 38 => ⟨S2x32x256x256, .f32⟩
  | 39 => ⟨S2x32x256x256, .f32⟩
  | 40 => ⟨S1x32x256x256, .f32⟩
  | 41 => ⟨S32x256x256, .f32⟩
  | 42 => ⟨S32x256x256, .f32⟩
  | 43 => ⟨S_, .f32⟩
  | 44 => ⟨S32x256x256, .f32⟩
  | 45 => ⟨S32x256x256, .f32⟩
  | 46 => ⟨S_, .f32⟩
  | 47 => ⟨S32x256x256, .f32⟩
  | 48 => ⟨S32x256x256, .f32⟩
  | 49 => ⟨S1x32x256x256, .f32⟩
  | 50 => ⟨S32x256x256, .f32⟩
  | 51 => ⟨S32x256x256, .f32⟩
  | 52 => ⟨S32x256x256, .f32⟩
  | 53 => ⟨S_, .f32⟩
  | 54 => ⟨S32, .f32⟩
  | 55 => ⟨S_, .f32⟩
  | 56 => ⟨S32, .f32⟩
  | 57 => ⟨S32, .f32⟩
  | 58 => ⟨S32x2x256x256, .f32⟩
  | 59 => ⟨S2x32x256x256, .f32⟩
  | 60 => ⟨S_, .f32⟩
  | 61 => ⟨S2x32x256x256, .f32⟩
  | 62 => ⟨S2x32x256x256, .i1⟩
  | 63 => ⟨S_, .f32⟩
  | 64 => ⟨S_, .f32⟩
  | 65 => ⟨S2x32x256x256, .f32⟩
  | 66 => ⟨S2x32x256x256, .f32⟩
  | 67 => ⟨S2x32x256x256, .f32⟩
  | 68 => ⟨S2x32x256x256, .f32⟩
  | 69 => ⟨S2x32x256x256, .f32⟩
  | 70 => ⟨S_, .f32⟩
  | 71 => ⟨S2x32x256x256, .f32⟩
  | 72 => ⟨S2x32x256x256, .i1⟩
  | 73 => ⟨S_, .f32⟩
  | 74 => ⟨S2x32x256x256, .f32⟩
  | 75 => ⟨S2x32x256x256, .f32⟩
  | 76 => ⟨S2x32x256x256, .f32⟩
  | 77 => ⟨S_, .f32⟩
  | 78 => ⟨S2x32x256x256, .f32⟩
  | 79 => ⟨S2x32x256x256, .f32⟩
  | 80 => ⟨S2x32x256x256, .f32⟩
  | 81 => ⟨S2x32x256x256, .f32⟩
  | 82 => ⟨S2x32x256x256, .f32⟩
  | 83 => ⟨S_, .f32⟩
  | 84 => ⟨S2x32, .f32⟩
  | 85 => ⟨S_, .f32⟩
  | 86 => ⟨S2x32, .f32⟩
  | 87 => ⟨S2x32, .f32⟩
  | 88 => ⟨S_, .f32⟩
  | 89 => ⟨S32, .f32⟩
  | 90 => ⟨S32x2x256x256, .f32⟩
  | 91 => ⟨S2x32x256x256, .f32⟩
  | 92 => ⟨S_, .f32⟩
  | 93 => ⟨S32, .f32⟩
  | 94 => ⟨S32x1x1, .f32⟩
  | 95 => ⟨S_, .f32⟩
  | 96 => ⟨S32x1x1, .f32⟩
  | 97 => ⟨S32x1x1, .f32⟩
  | 98 => ⟨S_, .f32⟩
  | 99 => ⟨S32x1x1, .f32⟩
  | 100 => ⟨S32x1x1, .i1⟩
  | 101 => ⟨S_, .f32⟩
  | 102 => ⟨S_, .f32⟩
  | 103 => ⟨S32x1x1, .f32⟩
  | 104 => ⟨S32x1x1, .f32⟩
  | 105 => ⟨S2x32x256x256, .f32⟩
  | 106 => ⟨S2x32x256x256, .f32⟩
  | 107 => ⟨S_, .f32⟩
  | 108 => ⟨S2x32x256x256, .f32⟩
  | 109 => ⟨S2x32x256x256, .f32⟩
  | 110 => ⟨S_, .f32⟩
  | 111 => ⟨S2x32x256x256, .f32⟩
  | 112 => ⟨S2x32x256x256, .f32⟩
  | 113 => ⟨S_, .f32⟩
  | 114 => ⟨S2x32x256x256, .f32⟩
  | 115 => ⟨S2x32x256x256, .f32⟩
  | 116 => ⟨S2x32x256x256, .f32⟩
  | 117 => ⟨S2x32x256x256, .f32⟩
  | 118 => ⟨S32x256x256, .f32⟩
  | 119 => ⟨S32x256x256, .f32⟩
  | 120 => ⟨S1x32x256x256, .f32⟩
  | 121 => ⟨S2x32x256x256, .f32⟩
  | 122 => ⟨S2x32x256x256, .f32⟩
  | 123 => ⟨S_, .f32⟩
  | 124 => ⟨S2x32, .f32⟩
  | 125 => ⟨S_, .f32⟩
  | 126 => ⟨S2x32, .f32⟩
  | 127 => ⟨S2x32, .f32⟩
  | _ => ⟨S32x7x256x256, .f32⟩

abbrev hbmTy0_4 (i : Nat) : BufTy := match i % 128 with
  | 0 => ⟨S_, .f32⟩
  | 1 => ⟨S32, .f32⟩
  | 2 => ⟨S_, .f32⟩
  | 3 => ⟨S_, .f32⟩
  | 4 => ⟨S1, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S97, .f32⟩
  | 15 => ⟨S1x97, .f32⟩
  | 16 => ⟨S1x97, .f32⟩
  | 17 => ⟨S2x97, .f32⟩
  | _ => ⟨S32x7x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x7x256x256, .f32⟩

abbrev bufTy : (tb : Table) → Fin (tcTables nBuf tb) → BufTy
  | .hbm, ⟨i, _⟩ => hbmTy i
  | _, _ => ⟨S32x7x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v12 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v13 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_cst : Ref sig .tc := ⟨.hbm, 86, rfl⟩
abbrev main_call2_v14 : Ref sig .tc := ⟨.hbm, 87, rfl⟩
abbrev main_v14 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v15 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_cst_1 : Ref sig .tc := ⟨.hbm, 116, rfl⟩
abbrev main_v21 : Ref sig .tc := ⟨.hbm, 117, rfl⟩
abbrev main_v22 : Ref sig .tc := ⟨.hbm, 118, rfl⟩
abbrev main_call4_cst : Ref sig .tc := ⟨.hbm, 119, rfl⟩
abbrev main_call4_v0 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_cst_2 : Ref sig .tc := ⟨.hbm, 127, rfl⟩
abbrev main_v29 : Ref sig .tc := ⟨.hbm, 128, rfl⟩
abbrev main_v30 : Ref sig .tc := ⟨.hbm, 129, rfl⟩
abbrev main_call5_cst : Ref sig .tc := ⟨.hbm, 130, rfl⟩
abbrev main_call5_v0 : Ref sig .tc := ⟨.hbm, 131, rfl⟩
abbrev main_v31 : Ref sig .tc := ⟨.hbm, 132, rfl⟩
abbrev main_v32 : Ref sig .tc := ⟨.hbm, 133, rfl⟩
abbrev main_v33 : Ref sig .tc := ⟨.hbm, 134, rfl⟩
abbrev main_cst_3 : Ref sig .tc := ⟨.hbm, 135, rfl⟩
abbrev main_v34 : Ref sig .tc := ⟨.hbm, 136, rfl⟩
abbrev main_v35 : Ref sig .tc := ⟨.hbm, 137, rfl⟩
abbrev main_c : Ref sig .tc := ⟨.hbm, 138, rfl⟩
abbrev main_v36 : Ref sig .tc := ⟨.hbm, 139, rfl⟩
abbrev main_v37 : Ref sig .tc := ⟨.hbm, 140, rfl⟩
abbrev main_cst_4 : Ref sig .tc := ⟨.hbm, 141, rfl⟩
abbrev main_v38 : Ref sig .tc := ⟨.hbm, 142, rfl⟩
abbrev main_cst_5 : Ref sig .tc := ⟨.hbm, 143, rfl⟩
abbrev main_v39 : Ref sig .tc := ⟨.hbm, 144, rfl⟩
abbrev main_v40 : Ref sig .tc := ⟨.hbm, 145, rfl⟩
abbrev main_cst_6 : Ref sig .tc := ⟨.hbm, 146, rfl⟩
abbrev main_v41 : Ref sig .tc := ⟨.hbm, 147, rfl⟩
abbrev main_cst_7 : Ref sig .tc := ⟨.hbm, 148, rfl⟩
abbrev main_v42 : Ref sig .tc := ⟨.hbm, 149, rfl⟩
abbrev main_call6_cst : Ref sig .tc := ⟨.hbm, 150, rfl⟩
abbrev main_call6_v0 : Ref sig .tc := ⟨.hbm, 151, rfl⟩
abbrev main_call6_cst_0 : Ref sig .tc := ⟨.hbm, 152, rfl⟩
abbrev main_call6_v1 : Ref sig .tc := ⟨.hbm, 153, rfl⟩
abbrev main_call6_v2 : Ref sig .tc := ⟨.hbm, 154, rfl⟩
abbrev main_call6_v3 : Ref sig .tc := ⟨.hbm, 155, rfl⟩
abbrev main_call6_v4 : Ref sig .tc := ⟨.hbm, 156, rfl⟩
abbrev main_call6_v5 : Ref sig .tc := ⟨.hbm, 157, rfl⟩
abbrev main_call6_v6 : Ref sig .tc := ⟨.hbm, 158, rfl⟩
abbrev main_call6_cst_1 : Ref sig .tc := ⟨.hbm, 159, rfl⟩
abbrev main_call6_v7 : Ref sig .tc := ⟨.hbm, 160, rfl⟩
abbrev main_call6_v8 : Ref sig .tc := ⟨.hbm, 161, rfl⟩
abbrev main_call6_v9 : Ref sig .tc := ⟨.hbm, 162, rfl⟩
abbrev main_call6_v10 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_cst_8 : Ref sig .tc := ⟨.hbm, 169, rfl⟩
abbrev main_v48 : Ref sig .tc := ⟨.hbm, 170, rfl⟩
abbrev main_v49 : Ref sig .tc := ⟨.hbm, 171, rfl⟩
abbrev main_cst_9 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_cst_10 : Ref sig .tc := ⟨.hbm, 179, rfl⟩
abbrev main_v56 : Ref sig .tc := ⟨.hbm, 180, rfl⟩
abbrev main_cst_11 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_cst_12 : Ref sig .tc := ⟨.hbm, 186, rfl⟩
abbrev main_v61 : Ref sig .tc := ⟨.hbm, 187, rfl⟩
abbrev main_v62 : Ref sig .tc := ⟨.hbm, 188, rfl⟩
abbrev main_cst_13 : Ref sig .tc := ⟨.hbm, 189, rfl⟩
abbrev main_cst_14 : Ref sig .tc := ⟨.hbm, 190, rfl⟩
abbrev main_call7_v0 : Ref sig .tc := ⟨.hbm, 191, rfl⟩
abbrev main_call7_v1 : Ref sig .tc := ⟨.hbm, 192, rfl⟩
abbrev main_v63 : Ref sig .tc := ⟨.hbm, 193, rfl⟩
abbrev main_v64 : Ref sig .tc := ⟨.hbm, 194, rfl⟩
abbrev main_v65 : Ref sig .tc := ⟨.hbm, 195, rfl⟩
abbrev main_cst_15 : Ref sig .tc := ⟨.hbm, 196, rfl⟩
abbrev main_v66 : Ref sig .tc := ⟨.hbm, 197, rfl⟩
abbrev main_v67 : Ref sig .tc := ⟨.hbm, 198, rfl⟩
abbrev main_cst_16 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_cst_17 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_v74 : Ref sig .tc := ⟨.hbm, 207, rfl⟩
abbrev main_v75 : Ref sig .tc := ⟨.hbm, 208, rfl⟩
abbrev main_cst_18 : Ref sig .tc := ⟨.hbm, 209, rfl⟩
abbrev main_v76 : Ref sig .tc := ⟨.hbm, 210, rfl⟩
abbrev main_cst_19 : Ref sig .tc := ⟨.hbm, 211, rfl⟩
abbrev main_v77 : Ref sig .tc := ⟨.hbm, 212, rfl⟩
abbrev main_v78 : Ref sig .tc := ⟨.hbm, 213, rfl⟩
abbrev main_cst_20 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_cst_21 : Ref sig .tc := ⟨.hbm, 218, rfl⟩
abbrev main_v82 : Ref sig .tc := ⟨.hbm, 219, rfl⟩
abbrev main_v83 : Ref sig .tc := ⟨.hbm, 220, rfl⟩
abbrev main_cst_22 : Ref sig .tc := ⟨.hbm, 221, rfl⟩
abbrev main_v84 : Ref sig .tc := ⟨.hbm, 222, rfl⟩
abbrev main_v85 : Ref sig .tc := ⟨.hbm, 223, rfl⟩
abbrev main_cst_23 : Ref sig .tc := ⟨.hbm, 224, rfl⟩
abbrev main_v86 : Ref sig .tc := ⟨.hbm, 225, rfl⟩
abbrev main_v87 : Ref sig .tc := ⟨.hbm, 226, rfl⟩
abbrev main_cst_24 : Ref sig .tc := ⟨.hbm, 227, rfl⟩
abbrev main_call9_v0 : Ref sig .tc := ⟨.hbm, 228, rfl⟩
abbrev main_call9_v1 : Ref sig .tc := ⟨.hbm, 229, rfl⟩
abbrev main_v88 : Ref sig .tc := ⟨.hbm, 230, rfl⟩
abbrev main_v89 : Ref sig .tc := ⟨.hbm, 231, rfl⟩
abbrev main_v90 : Ref sig .tc := ⟨.hbm, 232, rfl⟩
abbrev main_cst_25 : Ref sig .tc := ⟨.hbm, 233, rfl⟩
abbrev main_v91 : Ref sig .tc := ⟨.hbm, 234, rfl⟩
abbrev main_v92 : Ref sig .tc := ⟨.hbm, 235, rfl⟩
abbrev main_cst_26 : Ref sig .tc := ⟨.hbm, 236, rfl⟩
abbrev main_v93 : Ref sig .tc := ⟨.hbm, 237, rfl⟩
abbrev main_v94 : Ref sig .tc := ⟨.hbm, 238, rfl⟩
abbrev main_cst_27 : Ref sig .tc := ⟨.hbm, 239, rfl⟩
abbrev main_v95 : Ref sig .tc := ⟨.hbm, 240, rfl⟩
abbrev main_v96 : Ref sig .tc := ⟨.hbm, 241, rfl⟩
abbrev main_v97 : Ref sig .tc := ⟨.hbm, 242, rfl⟩
abbrev main_v98 : Ref sig .tc := ⟨.hbm, 243, rfl⟩
abbrev main_v99 : Ref sig .tc := ⟨.hbm, 244, rfl⟩
abbrev main_v100 : Ref sig .tc := ⟨.hbm, 245, rfl⟩
abbrev main_v101 : Ref sig .tc := ⟨.hbm, 246, rfl⟩
abbrev main_v102 : Ref sig .tc := ⟨.hbm, 247, rfl⟩
abbrev main_v103 : Ref sig .tc := ⟨.hbm, 248, rfl⟩
abbrev main_cst_28 : Ref sig .tc := ⟨.hbm, 249, rfl⟩
abbrev main_v104 : Ref sig .tc := ⟨.hbm, 250, rfl⟩
abbrev main_cst_29 : Ref sig .tc := ⟨.hbm, 251, rfl⟩
abbrev main_v105 : Ref sig .tc := ⟨.hbm, 252, rfl⟩
abbrev main_v106 : Ref sig .tc := ⟨.hbm, 253, rfl⟩
abbrev main_cst_30 : Ref sig .tc := ⟨.hbm, 254, rfl⟩
abbrev main_v107 : Ref sig .tc := ⟨.hbm, 255, rfl⟩
abbrev main_cst_31 : Ref sig .tc := ⟨.hbm, 256, rfl⟩
abbrev main_v108 : Ref sig .tc := ⟨.hbm, 257, rfl⟩
abbrev main_v109 : Ref sig .tc := ⟨.hbm, 258, rfl⟩
abbrev main_cst_32 : Ref sig .tc := ⟨.hbm, 259, rfl⟩
abbrev main_v110 : Ref sig .tc := ⟨.hbm, 260, rfl⟩
abbrev main_v111 : Ref sig .tc := ⟨.hbm, 261, rfl⟩
abbrev main_cst_33 : Ref sig .tc := ⟨.hbm, 262, rfl⟩
abbrev main_v112 : Ref sig .tc := ⟨.hbm, 263, rfl⟩
abbrev main_v113 : Ref sig .tc := ⟨.hbm, 264, rfl⟩
abbrev main_cst_34 : Ref sig .tc := ⟨.hbm, 265, rfl⟩
abbrev main_v114 : Ref sig .tc := ⟨.hbm, 266, rfl⟩
abbrev main_v115 : Ref sig .tc := ⟨.hbm, 267, rfl⟩
abbrev main_v116 : Ref sig .tc := ⟨.hbm, 268, rfl⟩
abbrev main_v117 : Ref sig .tc := ⟨.hbm, 269, rfl⟩
abbrev main_v118 : Ref sig .tc := ⟨.hbm, 270, rfl⟩
abbrev main_v119 : Ref sig .tc := ⟨.hbm, 271, rfl⟩
abbrev main_v120 : Ref sig .tc := ⟨.hbm, 272, rfl⟩
abbrev main_v121 : Ref sig .tc := ⟨.hbm, 273, rfl⟩
abbrev main_v122 : Ref sig .tc := ⟨.hbm, 274, rfl⟩
abbrev main_v123 : Ref sig .tc := ⟨.hbm, 275, rfl⟩
abbrev main_v124 : Ref sig .tc := ⟨.hbm, 276, rfl⟩
abbrev main_v125 : Ref sig .tc := ⟨.hbm, 277, rfl⟩
abbrev main_v126 : Ref sig .tc := ⟨.hbm, 278, rfl⟩
abbrev main_v127 : Ref sig .tc := ⟨.hbm, 279, rfl⟩
abbrev main_v128 : Ref sig .tc := ⟨.hbm, 280, rfl⟩
abbrev main_call10_c : Ref sig .tc := ⟨.hbm, 281, rfl⟩
abbrev main_call10_v0 : Ref sig .tc := ⟨.hbm, 282, rfl⟩
abbrev main_call10_v1 : Ref sig .tc := ⟨.hbm, 283, rfl⟩
abbrev main_call10_c_0 : Ref sig .tc := ⟨.hbm, 284, rfl⟩
abbrev main_call10_v2 : Ref sig .tc := ⟨.hbm, 285, rfl⟩
abbrev main_call10_v3 : Ref sig .tc := ⟨.hbm, 286, rfl⟩
abbrev main_call10_v4 : Ref sig .tc := ⟨.hbm, 287, rfl⟩
abbrev main_call10_v5 : Ref sig .tc := ⟨.hbm, 288, rfl⟩
abbrev main_call10_c_1 : Ref sig .tc := ⟨.hbm, 289, rfl⟩
abbrev main_call10_c_2 : Ref sig .tc := ⟨.hbm, 290, rfl⟩
abbrev main_call10_v6 : Ref sig .tc := ⟨.hbm, 291, rfl⟩
abbrev main_call10_v7 : Ref sig .tc := ⟨.hbm, 292, rfl⟩
abbrev main_call10_v8 : Ref sig .tc := ⟨.hbm, 293, rfl⟩
abbrev main_call10_v9 : Ref sig .tc := ⟨.hbm, 294, rfl⟩
abbrev main_call10_v10 : Ref sig .tc := ⟨.hbm, 295, rfl⟩
abbrev main_call10_v11 : Ref sig .tc := ⟨.hbm, 296, rfl⟩
abbrev main_call10_c_3 : Ref sig .tc := ⟨.hbm, 297, rfl⟩
abbrev main_call10_v12 : Ref sig .tc := ⟨.hbm, 298, rfl⟩
abbrev main_call10_v13 : Ref sig .tc := ⟨.hbm, 299, rfl⟩
abbrev main_call10_cst : Ref sig .tc := ⟨.hbm, 300, rfl⟩
abbrev main_call10_v14 : Ref sig .tc := ⟨.hbm, 301, rfl⟩
abbrev main_v129 : Ref sig .tc := ⟨.hbm, 302, rfl⟩
abbrev main_call11_c : Ref sig .tc := ⟨.hbm, 303, rfl⟩
abbrev main_call11_v0 : Ref sig .tc := ⟨.hbm, 304, rfl⟩
abbrev main_call11_v1 : Ref sig .tc := ⟨.hbm, 305, rfl⟩
abbrev main_call11_c_0 : Ref sig .tc := ⟨.hbm, 306, rfl⟩
abbrev main_call11_v2 : Ref sig .tc := ⟨.hbm, 307, rfl⟩
abbrev main_call11_v3 : Ref sig .tc := ⟨.hbm, 308, rfl⟩
abbrev main_call11_v4 : Ref sig .tc := ⟨.hbm, 309, rfl⟩
abbrev main_call11_v5 : Ref sig .tc := ⟨.hbm, 310, rfl⟩
abbrev main_call11_c_1 : Ref sig .tc := ⟨.hbm, 311, rfl⟩
abbrev main_call11_c_2 : Ref sig .tc := ⟨.hbm, 312, rfl⟩
abbrev main_call11_v6 : Ref sig .tc := ⟨.hbm, 313, rfl⟩
abbrev main_call11_v7 : Ref sig .tc := ⟨.hbm, 314, rfl⟩
abbrev main_call11_v8 : Ref sig .tc := ⟨.hbm, 315, rfl⟩
abbrev main_call11_v9 : Ref sig .tc := ⟨.hbm, 316, rfl⟩
abbrev main_call11_v10 : Ref sig .tc := ⟨.hbm, 317, rfl⟩
abbrev main_call11_v11 : Ref sig .tc := ⟨.hbm, 318, rfl⟩
abbrev main_call11_c_3 : Ref sig .tc := ⟨.hbm, 319, rfl⟩
abbrev main_call11_v12 : Ref sig .tc := ⟨.hbm, 320, rfl⟩
abbrev main_call11_v13 : Ref sig .tc := ⟨.hbm, 321, rfl⟩
abbrev main_call11_cst : Ref sig .tc := ⟨.hbm, 322, rfl⟩
abbrev main_call11_v14 : Ref sig .tc := ⟨.hbm, 323, rfl⟩
abbrev main_v130 : Ref sig .tc := ⟨.hbm, 324, rfl⟩
abbrev main_call12_c : Ref sig .tc := ⟨.hbm, 325, rfl⟩
abbrev main_call12_v0 : Ref sig .tc := ⟨.hbm, 326, rfl⟩
abbrev main_call12_v1 : Ref sig .tc := ⟨.hbm, 327, rfl⟩
abbrev main_call12_c_0 : Ref sig .tc := ⟨.hbm, 328, rfl⟩
abbrev main_call12_v2 : Ref sig .tc := ⟨.hbm, 329, rfl⟩
abbrev main_call12_v3 : Ref sig .tc := ⟨.hbm, 330, rfl⟩
abbrev main_call12_v4 : Ref sig .tc := ⟨.hbm, 331, rfl⟩
abbrev main_call12_v5 : Ref sig .tc := ⟨.hbm, 332, rfl⟩
abbrev main_call12_c_1 : Ref sig .tc := ⟨.hbm, 333, rfl⟩
abbrev main_call12_c_2 : Ref sig .tc := ⟨.hbm, 334, rfl⟩
abbrev main_call12_v6 : Ref sig .tc := ⟨.hbm, 335, rfl⟩
abbrev main_call12_v7 : Ref sig .tc := ⟨.hbm, 336, rfl⟩
abbrev main_call12_v8 : Ref sig .tc := ⟨.hbm, 337, rfl⟩
abbrev main_call12_v9 : Ref sig .tc := ⟨.hbm, 338, rfl⟩
abbrev main_call12_v10 : Ref sig .tc := ⟨.hbm, 339, rfl⟩
abbrev main_call12_v11 : Ref sig .tc := ⟨.hbm, 340, rfl⟩
abbrev main_call12_c_3 : Ref sig .tc := ⟨.hbm, 341, rfl⟩
abbrev main_call12_v12 : Ref sig .tc := ⟨.hbm, 342, rfl⟩
abbrev main_call12_v13 : Ref sig .tc := ⟨.hbm, 343, rfl⟩
abbrev main_call12_cst : Ref sig .tc := ⟨.hbm, 344, rfl⟩
abbrev main_call12_v14 : Ref sig .tc := ⟨.hbm, 345, rfl⟩
abbrev main_v131 : Ref sig .tc := ⟨.hbm, 346, rfl⟩
abbrev main_call13_c : Ref sig .tc := ⟨.hbm, 347, rfl⟩
abbrev main_call13_v0 : Ref sig .tc := ⟨.hbm, 348, rfl⟩
abbrev main_call13_v1 : Ref sig .tc := ⟨.hbm, 349, rfl⟩
abbrev main_call13_c_0 : Ref sig .tc := ⟨.hbm, 350, rfl⟩
abbrev main_call13_v2 : Ref sig .tc := ⟨.hbm, 351, rfl⟩
abbrev main_call13_v3 : Ref sig .tc := ⟨.hbm, 352, rfl⟩
abbrev main_call13_v4 : Ref sig .tc := ⟨.hbm, 353, rfl⟩
abbrev main_call13_v5 : Ref sig .tc := ⟨.hbm, 354, rfl⟩
abbrev main_call13_c_1 : Ref sig .tc := ⟨.hbm, 355, rfl⟩
abbrev main_call13_c_2 : Ref sig .tc := ⟨.hbm, 356, rfl⟩
abbrev main_call13_v6 : Ref sig .tc := ⟨.hbm, 357, rfl⟩
abbrev main_call13_v7 : Ref sig .tc := ⟨.hbm, 358, rfl⟩
abbrev main_call13_v8 : Ref sig .tc := ⟨.hbm, 359, rfl⟩
abbrev main_call13_v9 : Ref sig .tc := ⟨.hbm, 360, rfl⟩
abbrev main_call13_v10 : Ref sig .tc := ⟨.hbm, 361, rfl⟩
abbrev main_call13_v11 : Ref sig .tc := ⟨.hbm, 362, rfl⟩
abbrev main_call13_c_3 : Ref sig .tc := ⟨.hbm, 363, rfl⟩
abbrev main_call13_v12 : Ref sig .tc := ⟨.hbm, 364, rfl⟩
abbrev main_call13_v13 : Ref sig .tc := ⟨.hbm, 365, rfl⟩
abbrev main_call13_cst : Ref sig .tc := ⟨.hbm, 366, rfl⟩
abbrev main_call13_v14 : Ref sig .tc := ⟨.hbm, 367, rfl⟩
abbrev main_v132 : Ref sig .tc := ⟨.hbm, 368, rfl⟩
abbrev main_v133 : Ref sig .tc := ⟨.hbm, 369, rfl⟩
abbrev main_v134 : Ref sig .tc := ⟨.hbm, 370, rfl⟩
abbrev main_v135 : Ref sig .tc := ⟨.hbm, 371, rfl⟩
abbrev main_v136 : Ref sig .tc := ⟨.hbm, 372, rfl⟩
abbrev main_v137 : Ref sig .tc := ⟨.hbm, 373, rfl⟩
abbrev main_cst_35 : Ref sig .tc := ⟨.hbm, 374, rfl⟩
abbrev main_v138 : Ref sig .tc := ⟨.hbm, 375, rfl⟩
abbrev main_v139 : Ref sig .tc := ⟨.hbm, 376, rfl⟩
abbrev main_call14_cst : Ref sig .tc := ⟨.hbm, 377, rfl⟩
abbrev main_call14_v0 : Ref sig .tc := ⟨.hbm, 378, rfl⟩
abbrev main_v140 : Ref sig .tc := ⟨.hbm, 379, rfl⟩
abbrev main_v141 : Ref sig .tc := ⟨.hbm, 380, rfl⟩
abbrev main_v142 : Ref sig .tc := ⟨.hbm, 381, rfl⟩
abbrev main_v143 : Ref sig .tc := ⟨.hbm, 382, rfl⟩
abbrev main_v144 : Ref sig .tc := ⟨.hbm, 383, rfl⟩
abbrev main_v145 : Ref sig .tc := ⟨.hbm, 384, rfl⟩
abbrev main_cst_36 : Ref sig .tc := ⟨.hbm, 385, rfl⟩
abbrev main_v146 : Ref sig .tc := ⟨.hbm, 386, rfl⟩
abbrev main_v147 : Ref sig .tc := ⟨.hbm, 387, rfl⟩
abbrev main_call15_cst : Ref sig .tc := ⟨.hbm, 388, rfl⟩
abbrev main_call15_v0 : Ref sig .tc := ⟨.hbm, 389, rfl⟩
abbrev main_v148 : Ref sig .tc := ⟨.hbm, 390, rfl⟩
abbrev main_v149 : Ref sig .tc := ⟨.hbm, 391, rfl⟩
abbrev main_v150 : Ref sig .tc := ⟨.hbm, 392, rfl⟩
abbrev main_cst_37 : Ref sig .tc := ⟨.hbm, 393, rfl⟩
abbrev main_v151 : Ref sig .tc := ⟨.hbm, 394, rfl⟩
abbrev main_v152 : Ref sig .tc := ⟨.hbm, 395, rfl⟩
abbrev main_c_38 : Ref sig .tc := ⟨.hbm, 396, rfl⟩
abbrev main_v153 : Ref sig .tc := ⟨.hbm, 397, rfl⟩
abbrev main_v154 : Ref sig .tc := ⟨.hbm, 398, rfl⟩
abbrev main_cst_39 : Ref sig .tc := ⟨.hbm, 399, rfl⟩
abbrev main_v155 : Ref sig .tc := ⟨.hbm, 400, rfl⟩
abbrev main_cst_40 : Ref sig .tc := ⟨.hbm, 401, rfl⟩
abbrev main_v156 : Ref sig .tc := ⟨.hbm, 402, rfl⟩
abbrev main_v157 : Ref sig .tc := ⟨.hbm, 403, rfl⟩
abbrev main_cst_41 : Ref sig .tc := ⟨.hbm, 404, rfl⟩
abbrev main_v158 : Ref sig .tc := ⟨.hbm, 405, rfl⟩
abbrev main_cst_42 : Ref sig .tc := ⟨.hbm, 406, rfl⟩
abbrev main_v159 : Ref sig .tc := ⟨.hbm, 407, rfl⟩
abbrev main_call16_cst : Ref sig .tc := ⟨.hbm, 408, rfl⟩
abbrev main_call16_v0 : Ref sig .tc := ⟨.hbm, 409, rfl⟩
abbrev main_call16_cst_0 : Ref sig .tc := ⟨.hbm, 410, rfl⟩
abbrev main_call16_v1 : Ref sig .tc := ⟨.hbm, 411, rfl⟩
abbrev main_call16_v2 : Ref sig .tc := ⟨.hbm, 412, rfl⟩
abbrev main_call16_v3 : Ref sig .tc := ⟨.hbm, 413, rfl⟩
abbrev main_call16_v4 : Ref sig .tc := ⟨.hbm, 414, rfl⟩
abbrev main_call16_v5 : Ref sig .tc := ⟨.hbm, 415, rfl⟩
abbrev main_call16_v6 : Ref sig .tc := ⟨.hbm, 416, rfl⟩
abbrev main_call16_cst_1 : Ref sig .tc := ⟨.hbm, 417, rfl⟩
abbrev main_call16_v7 : Ref sig .tc := ⟨.hbm, 418, rfl⟩
abbrev main_call16_v8 : Ref sig .tc := ⟨.hbm, 419, rfl⟩
abbrev main_call16_v9 : Ref sig .tc := ⟨.hbm, 420, rfl⟩
abbrev main_call16_v10 : Ref sig .tc := ⟨.hbm, 421, rfl⟩
abbrev main_v160 : Ref sig .tc := ⟨.hbm, 422, rfl⟩
abbrev main_v161 : Ref sig .tc := ⟨.hbm, 423, rfl⟩
abbrev main_v162 : Ref sig .tc := ⟨.hbm, 424, rfl⟩
abbrev main_v163 : Ref sig .tc := ⟨.hbm, 425, rfl⟩
abbrev main_v164 : Ref sig .tc := ⟨.hbm, 426, rfl⟩
abbrev main_cst_43 : Ref sig .tc := ⟨.hbm, 427, rfl⟩
abbrev main_v165 : Ref sig .tc := ⟨.hbm, 428, rfl⟩
abbrev main_v166 : Ref sig .tc := ⟨.hbm, 429, rfl⟩
abbrev main_cst_44 : Ref sig .tc := ⟨.hbm, 430, rfl⟩
abbrev main_v167 : Ref sig .tc := ⟨.hbm, 431, rfl⟩
abbrev main_v168 : Ref sig .tc := ⟨.hbm, 432, rfl⟩
abbrev main_v169 : Ref sig .tc := ⟨.hbm, 433, rfl⟩
abbrev main_v170 : Ref sig .tc := ⟨.hbm, 434, rfl⟩
abbrev main_v171 : Ref sig .tc := ⟨.hbm, 435, rfl⟩
abbrev main_v172 : Ref sig .tc := ⟨.hbm, 436, rfl⟩
abbrev main_cst_45 : Ref sig .tc := ⟨.hbm, 437, rfl⟩
abbrev main_v173 : Ref sig .tc := ⟨.hbm, 438, rfl⟩
abbrev main_cst_46 : Ref sig .tc := ⟨.hbm, 439, rfl⟩
abbrev main_v174 : Ref sig .tc := ⟨.hbm, 440, rfl⟩
abbrev main_v175 : Ref sig .tc := ⟨.hbm, 441, rfl⟩
abbrev main_v176 : Ref sig .tc := ⟨.hbm, 442, rfl⟩
abbrev main_v177 : Ref sig .tc := ⟨.hbm, 443, rfl⟩
abbrev main_cst_47 : Ref sig .tc := ⟨.hbm, 444, rfl⟩
abbrev main_v178 : Ref sig .tc := ⟨.hbm, 445, rfl⟩
abbrev main_v179 : Ref sig .tc := ⟨.hbm, 446, rfl⟩
abbrev main_cst_48 : Ref sig .tc := ⟨.hbm, 447, rfl⟩
abbrev main_cst_49 : Ref sig .tc := ⟨.hbm, 448, rfl⟩
abbrev main_call17_v0 : Ref sig .tc := ⟨.hbm, 449, rfl⟩
abbrev main_call17_v1 : Ref sig .tc := ⟨.hbm, 450, rfl⟩
abbrev main_v180 : Ref sig .tc := ⟨.hbm, 451, rfl⟩
abbrev main_v181 : Ref sig .tc := ⟨.hbm, 452, rfl⟩
abbrev main_v182 : Ref sig .tc := ⟨.hbm, 453, rfl⟩
abbrev main_cst_50 : Ref sig .tc := ⟨.hbm, 454, rfl⟩
abbrev main_v183 : Ref sig .tc := ⟨.hbm, 455, rfl⟩
abbrev main_v184 : Ref sig .tc := ⟨.hbm, 456, rfl⟩
abbrev main_cst_51 : Ref sig .tc := ⟨.hbm, 457, rfl⟩
abbrev main_v185 : Ref sig .tc := ⟨.hbm, 458, rfl⟩
abbrev main_v186 : Ref sig .tc := ⟨.hbm, 459, rfl⟩
abbrev main_v187 : Ref sig .tc := ⟨.hbm, 460, rfl⟩
abbrev main_cst_52 : Ref sig .tc := ⟨.hbm, 461, rfl⟩
abbrev main_v188 : Ref sig .tc := ⟨.hbm, 462, rfl⟩
abbrev main_v189 : Ref sig .tc := ⟨.hbm, 463, rfl⟩
abbrev main_v190 : Ref sig .tc := ⟨.hbm, 464, rfl⟩
abbrev main_v191 : Ref sig .tc := ⟨.hbm, 465, rfl⟩
abbrev main_v192 : Ref sig .tc := ⟨.hbm, 466, rfl⟩
abbrev main_cst_53 : Ref sig .tc := ⟨.hbm, 467, rfl⟩
abbrev main_v193 : Ref sig .tc := ⟨.hbm, 468, rfl⟩
abbrev main_cst_54 : Ref sig .tc := ⟨.hbm, 469, rfl⟩
abbrev main_v194 : Ref sig .tc := ⟨.hbm, 470, rfl⟩
abbrev main_v195 : Ref sig .tc := ⟨.hbm, 471, rfl⟩
abbrev main_cst_55 : Ref sig .tc := ⟨.hbm, 472, rfl⟩
abbrev main_v196 : Ref sig .tc := ⟨.hbm, 473, rfl⟩
abbrev main_v197 : Ref sig .tc := ⟨.hbm, 474, rfl⟩
abbrev main_v198 : Ref sig .tc := ⟨.hbm, 475, rfl⟩
abbrev main_cst_56 : Ref sig .tc := ⟨.hbm, 476, rfl⟩
abbrev main_v199 : Ref sig .tc := ⟨.hbm, 477, rfl⟩
abbrev main_v200 : Ref sig .tc := ⟨.hbm, 478, rfl⟩
abbrev main_cst_57 : Ref sig .tc := ⟨.hbm, 479, rfl⟩
abbrev main_v201 : Ref sig .tc := ⟨.hbm, 480, rfl⟩
abbrev main_v202 : Ref sig .tc := ⟨.hbm, 481, rfl⟩
abbrev main_cst_58 : Ref sig .tc := ⟨.hbm, 482, rfl⟩
abbrev main_v203 : Ref sig .tc := ⟨.hbm, 483, rfl⟩
abbrev main_v204 : Ref sig .tc := ⟨.hbm, 484, rfl⟩
abbrev main_cst_59 : Ref sig .tc := ⟨.hbm, 485, rfl⟩
abbrev main_call19_v0 : Ref sig .tc := ⟨.hbm, 486, rfl⟩
abbrev main_call19_v1 : Ref sig .tc := ⟨.hbm, 487, rfl⟩
abbrev main_v205 : Ref sig .tc := ⟨.hbm, 488, rfl⟩
abbrev main_v206 : Ref sig .tc := ⟨.hbm, 489, rfl⟩
abbrev main_v207 : Ref sig .tc := ⟨.hbm, 490, rfl⟩
abbrev main_cst_60 : Ref sig .tc := ⟨.hbm, 491, rfl⟩
abbrev main_v208 : Ref sig .tc := ⟨.hbm, 492, rfl⟩
abbrev main_v209 : Ref sig .tc := ⟨.hbm, 493, rfl⟩
abbrev main_cst_61 : Ref sig .tc := ⟨.hbm, 494, rfl⟩
abbrev main_v210 : Ref sig .tc := ⟨.hbm, 495, rfl⟩
abbrev main_v211 : Ref sig .tc := ⟨.hbm, 496, rfl⟩
abbrev main_cst_62 : Ref sig .tc := ⟨.hbm, 497, rfl⟩
abbrev main_v212 : Ref sig .tc := ⟨.hbm, 498, rfl⟩
abbrev main_v213 : Ref sig .tc := ⟨.hbm, 499, rfl⟩
abbrev main_v214 : Ref sig .tc := ⟨.hbm, 500, rfl⟩
abbrev main_v215 : Ref sig .tc := ⟨.hbm, 501, rfl⟩
abbrev main_v216 : Ref sig .tc := ⟨.hbm, 502, rfl⟩
abbrev main_v217 : Ref sig .tc := ⟨.hbm, 503, rfl⟩
abbrev main_v218 : Ref sig .tc := ⟨.hbm, 504, rfl⟩
abbrev main_v219 : Ref sig .tc := ⟨.hbm, 505, rfl⟩
abbrev main_v220 : Ref sig .tc := ⟨.hbm, 506, rfl⟩
abbrev main_cst_63 : Ref sig .tc := ⟨.hbm, 507, rfl⟩
abbrev main_v221 : Ref sig .tc := ⟨.hbm, 508, rfl⟩
abbrev main_cst_64 : Ref sig .tc := ⟨.hbm, 509, rfl⟩
abbrev main_v222 : Ref sig .tc := ⟨.hbm, 510, rfl⟩
abbrev main_v223 : Ref sig .tc := ⟨.hbm, 511, rfl⟩
abbrev main_cst_65 : Ref sig .tc := ⟨.hbm, 512, rfl⟩
abbrev main_v224 : Ref sig .tc := ⟨.hbm, 513, rfl⟩
abbrev main_cst_66 : Ref sig .tc := ⟨.hbm, 514, rfl⟩
abbrev main_v225 : Ref sig .tc := ⟨.hbm, 515, rfl⟩
abbrev main_v226 : Ref sig .tc := ⟨.hbm, 516, rfl⟩
abbrev main_cst_67 : Ref sig .tc := ⟨.hbm, 517, rfl⟩
abbrev main_v227 : Ref sig .tc := ⟨.hbm, 518, rfl⟩
abbrev main_v228 : Ref sig .tc := ⟨.hbm, 519, rfl⟩
abbrev main_cst_68 : Ref sig .tc := ⟨.hbm, 520, rfl⟩
abbrev main_v229 : Ref sig .tc := ⟨.hbm, 521, rfl⟩
abbrev main_v230 : Ref sig .tc := ⟨.hbm, 522, rfl⟩
abbrev main_cst_69 : Ref sig .tc := ⟨.hbm, 523, rfl⟩
abbrev main_v231 : Ref sig .tc := ⟨.hbm, 524, rfl⟩
abbrev main_v232 : Ref sig .tc := ⟨.hbm, 525, rfl⟩
abbrev main_v233 : Ref sig .tc := ⟨.hbm, 526, rfl⟩
abbrev main_v234 : Ref sig .tc := ⟨.hbm, 527, rfl⟩
abbrev main_v235 : Ref sig .tc := ⟨.hbm, 528, rfl⟩
abbrev main_v236 : Ref sig .tc := ⟨.hbm, 529, rfl⟩

abbrev nD : Nat := 1
abbrev τ : Topo := Topo.v7x

variable {F : FTy → Type} [FloatOps F]

class Facts₀ : Prop where
  transposes_S32x7x256x256_S7x32x256x256_1_0_2_3 : S32x7x256x256.Transposes [1, 0, 2, 3] S7x32x256x256
  slices_S7x32x256x256_S1x32x256x256_0_0_0_0 : S7x32x256x256.Slices ![0, 0, 0, 0] S1x32x256x256
  shapeCasts_S1x32x256x256_S32x256x256 : S1x32x256x256.ShapeCasts S32x256x256
  slices_S7x32x256x256_S2x32x256x256_1_0_0_0 : S7x32x256x256.Slices ![1, 0, 0, 0] S2x32x256x256
  bcast_S2_S2x1x1x1_0 : S2.BroadcastsInDim S2x1x1x1 (![0] : Fin 1 → Fin S2x1x1x1.rank)
  slices_S7x32x256x256_S2x32x256x256_3_0_0_0 : S7x32x256x256.Slices ![3, 0, 0, 0] S2x32x256x256
  bcast_S2x1x1x1_S2x32x256x256_0_1_2_3 : S2x1x1x1.BroadcastsInDim S2x32x256x256 (![0, 1, 2, 3] : Fin 4 → Fin S2x32x256x256.rank)
  slices_S7x32x256x256_S2x32x256x256_5_0_0_0 : S7x32x256x256.Slices ![5, 0, 0, 0] S2x32x256x256
  shapeCasts_S32x1x256x256_S32x256x256 : S32x1x256x256.ShapeCasts S32x256x256
  shapeCasts_S32x256x256_S32x65536 : S32x256x256.ShapeCasts S32x65536
  bcast_S_S32x9 : S_.BroadcastsInDim S32x9 (![] : Fin 0 → Fin S32x9.rank)
  shapeCasts_S32x9_S32x9x1 : S32x9.ShapeCasts S32x9x1
  bcast_S_S32x9x1 : S_.BroadcastsInDim S32x9x1 (![] : Fin 0 → Fin S32x9x1.rank)
  bcast_S1_S1x1x1_2 : S1.BroadcastsInDim S1x1x1 (![2] : Fin 1 → Fin S1x1x1.rank)
  bcast_S1x1x1_S32x9x1_0_1_2 : S1x1x1.BroadcastsInDim S32x9x1 (![0, 1, 2] : Fin 3 → Fin S32x9x1.rank)
  reducesTo_S32x9x1_S32x9_d2 : S32x9x1.ReducesTo [2] S32x9
  h_S_ : 0 < S_.numel
  bcast_S_S32x8 : S_.BroadcastsInDim S32x8 (![] : Fin 0 → Fin S32x8.rank)
  shapeCasts_S32x8_S32x8x1 : S32x8.ShapeCasts S32x8x1
  bcast_S_S32x8x1 : S_.BroadcastsInDim S32x8x1 (![] : Fin 0 → Fin S32x8x1.rank)
  bcast_S1x1x1_S32x8x1_0_1_2 : S1x1x1.BroadcastsInDim S32x8x1 (![0, 1, 2] : Fin 3 → Fin S32x8x1.rank)
  reducesTo_S32x8x1_S32x8_d2 : S32x8x1.ReducesTo [2] S32x8
  slices_S32x9_S32x8_0_1 : S32x9.Slices ![0, 1] S32x8
  bcast_S_S1 : S_.BroadcastsInDim S1 (![] : Fin 0 → Fin S1.rank)
  reducesTo_S32x9_S32_d1 : S32x9.ReducesTo [1] S32
  bcast_S_S32 : S_.BroadcastsInDim S32 (![] : Fin 0 → Fin S32.rank)
  reducesTo_S32_S_d0 : S32.ReducesTo [0] S_
  reducesTo_S2x32x256x256_S32x256x256_d0 : S2x32x256x256.ReducesTo [0] S32x256x256
  bcast_S_S32x256x256 : S_.BroadcastsInDim S32x256x256 (![] : Fin 0 → Fin S32x256x256.rank)
  bcast_S32x256x256_S1x32x256x256_1_2_3 : S32x256x256.BroadcastsInDim S1x32x256x256 (![1, 2, 3] : Fin 3 → Fin S1x32x256x256.rank)
  bcast_S1x32x256x256_S2x32x256x256_0_1_2_3 : S1x32x256x256.BroadcastsInDim S2x32x256x256 (![0, 1, 2, 3] : Fin 4 → Fin S2x32x256x256.rank)
  slices_S2x32x256x256_S1x32x256x256_1_0_0_0 : S2x32x256x256.Slices ![1, 0, 0, 0] S1x32x256x256
  slices_S2x32x256x256_S1x32x256x256_0_0_0_0 : S2x32x256x256.Slices ![0, 0, 0, 0] S1x32x256x256
  reducesTo_S32x256x256_S32_d1_2 : S32x256x256.ReducesTo [1, 2] S32
  shapeCasts_S32x1x2x256x256_S32x2x256x256 : S32x1x2x256x256.ShapeCasts S32x2x256x256
  transposes_S32x2x256x256_S2x32x256x256_1_0_2_3 : S32x2x256x256.Transposes [1, 0, 2, 3] S2x32x256x256
  bcast_S_S2x32x256x256 : S_.BroadcastsInDim S2x32x256x256 (![] : Fin 0 → Fin S2x32x256x256.rank)
  reducesTo_S2x32x256x256_S2x32_d2_3 : S2x32x256x256.ReducesTo [2, 3] S2x32
  bcast_S_S2x32 : S_.BroadcastsInDim S2x32 (![] : Fin 0 → Fin S2x32.rank)
  reducesTo_S2x32_S32_d0 : S2x32.ReducesTo [0] S32
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S32x1x1_S32x256x256_0_1_2 : S32x1x1.BroadcastsInDim S32x256x256 (![0, 1, 2] : Fin 3 → Fin S32x256x256.rank)
  concatenates_S1_S32_S32_S32_S97_d0 : Shape.Concatenates [S1, S32, S32, S32] S97 0
  bcast_S97_S1x97_1 : S97.BroadcastsInDim S1x97 (![1] : Fin 1 → Fin S1x97.rank)
  concatenates_S1x97_S1x97_S2x97_d0 : Shape.Concatenates [S1x97, S1x97] S2x97 0
  gather_S32x65536_S32x9x1_S32x9_n_1_0_0_1_2_11_wf : GatherDims.WF S32x65536 S32x9x1 S32x9 [] [1] [0] [1] [0] 2 ![1, 1]
  gather_S32x65536_S32x8x1_S32x8_n_1_0_0_1_2_11_wf : GatherDims.WF S32x65536 S32x8x1 S32x8 [] [1] [0] [1] [0] 2 ![1, 1]
  scatter_S32x9_S1_S32x8_01_n_1_0_wf : ScatterDims.WF S32x9 S1 S32x8 [0, 1] [] [1] 0

variable [Facts₀]

def gather_S32x65536_S32x9x1_S32x9_n_1_0_0_1_2_11 : GatherDims S32x65536 S32x9x1 S32x9 where
  offsetDims := []
  collapsedSliceDims := [1]
  operandBatchingDims := [0]
  startIndicesBatchingDims := [0]
  startIndexMap := [1]
  indexVectorDim := 2
  sliceSizes := ![1, 1]
  wf := gather_S32x65536_S32x9x1_S32x9_n_1_0_0_1_2_11_wf
def gather_S32x65536_S32x8x1_S32x8_n_1_0_0_1_2_11 : GatherDims S32x65536 S32x8x1 S32x8 where
  offsetDims := []
  collapsedSliceDims := [1]
  operandBatchingDims := [0]
  startIndicesBatchingDims := [0]
  startIndexMap := [1]
  indexVectorDim := 2
  sliceSizes := ![1, 1]
  wf := gather_S32x65536_S32x8x1_S32x8_n_1_0_0_1_2_11_wf
def scatter_S32x9_S1_S32x8_01_n_1_0 : ScatterDims S32x9 S1 S32x8 where
  updateWindowDims := [0, 1]
  insertedWindowDims := []
  scatterDimsToOperandDims := [1]
  indexVectorDim := 0
  wf := scatter_S32x9_S1_S32x8_01_n_1_0_wf

class Facts : Prop extends Facts₀ where

variable [Facts]
-- ==== Proof.ReferenceRead.lean ====
/-
  The reference's result read one host operation at a time (the read-at-an-index lemmas), gathered here for the
  modules that state the reference's value.
-/
import proofs.«111430_j72988674228458_2_alg».proof.Proof.ReferenceReadP
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.ReferenceWin00.lean ====
/-
  Operations 0 … 13 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win0 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
     :
    StableHlo.after (((Value.ops (F := Ideal)).drop 0).take 14) W (Proc.devRef .tc main_cst_0) = Read.val_main_cst_0 (F := Ideal)
    ∧ StableHlo.after (((Value.ops (F := Ideal)).drop 0).take 14) W (Proc.devRef .tc main_v3) = Read.val_main_v3 (F := Ideal) x0
    ∧ StableHlo.after (((Value.ops (F := Ideal)).drop 0).take 14) W (Proc.devRef .tc main_v8) = Read.val_main_v8 (F := Ideal) x0
    ∧ StableHlo.after (((Value.ops (F := Ideal)).drop 0).take 14) W (Proc.devRef .tc main_v9) = Read.val_main_v9 (F := Ideal) x0
    ∧ StableHlo.after (((Value.ops (F := Ideal)).drop 0).take 14) W (Proc.devRef .tc main_v10) = Read.val_main_v10 (F := Ideal) x2
    ∧ StableHlo.after (((Value.ops (F := Ideal)).drop 0).take 14) W (Proc.devRef .tc main_v11) = Read.val_main_v11 (F := Ideal) x0
    ∧ StableHlo.after (((Value.ops (F := Ideal)).drop 0).take 14) W (Proc.devRef .tc main_arg0) = x0
    ∧ StableHlo.after (((Value.ops (F := Ideal)).drop 0).take 14) W (Proc.devRef .tc main_arg1) = x1
    ∧ StableHlo.after (((Value.ops (F := Ideal)).drop 0).take 14) W (Proc.devRef .tc main_arg2) = x2
    ∧ StableHlo.after (((Value.ops (F := Ideal)).drop 0).take 14) W (Proc.devRef .tc main_arg3) = x3
    ∧ StableHlo.after (((Value.ops (F := Ideal)).drop 0).take 14) W (Proc.devRef .tc main_arg4) = x4
    ∧ StableHlo.after (((Value.ops (F := Ideal)).drop 0).take 14) W (Proc.devRef .tc main_arg5) = x5
    ∧ StableHlo.after (((Value.ops (F := Ideal)).drop 0).take 14) W (Proc.devRef .tc main_arg6) = x6
    ∧ StableHlo.after (((Value.ops (F := Ideal)).drop 0).take 14) W (Proc.devRef .tc main_arg7) = x7
    ∧ StableHlo.after (((Value.ops (F := Ideal)).drop 0).take 14) W (Proc.devRef .tc main_arg8) = x8 := by
  refine ⟨?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, Read.val_main_cst, Read.val_main_cst_0, Read.val_main_v0, Read.val_main_v1, Read.val_main_v2, Read.val_main_v3, Read.val_main_v4, Read.val_main_v5, Read.val_main_v6, Read.val_main_v7, Read.val_main_v8, Read.val_main_v9, Read.val_main_v10, Read.val_main_v11]; done) | (simp only [a0, a1, a2, a3, a4, a5, a6, a7, a8, Read.val_main_cst, Read.val_main_cst_0, Read.val_main_v0, Read.val_main_v1, Read.val_main_v2, Read.val_main_v3, Read.val_main_v4, Read.val_main_v5, Read.val_main_v6, Read.val_main_v7, Read.val_main_v8, Read.val_main_v9, Read.val_main_v10, Read.val_main_v11]; rfl))

end Cert.ReferenceIdeal.RefRun

end
-- ==== Proof.ReferenceWin01.lean ====
/-
  Operations 14 … 35 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win1 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v3 : W (Proc.devRef .tc main_v3) = Read.val_main_v3 (F := Ideal) x0) (l_v8 : W (Proc.devRef .tc main_v8) = Read.val_main_v8 (F := Ideal) x0) (l_v9 : W (Proc.devRef .tc main_v9) = Read.val_main_v9 (F := Ideal) x0) (l_v10 : W (Proc.devRef .tc main_v10) = Read.val_main_v10 (F := Ideal) x2) (l_v11 : W (Proc.devRef .tc main_v11) = Read.val_main_v11 (F := Ideal) x0) :
    StableHlo.after (((Value.ops (F := Ideal)).drop 14).take 22) W (Proc.devRef .tc main_cst_0) = Read.val_main_cst_0 (F := Ideal)
    ∧ StableHlo.after (((Value.ops (F := Ideal)).drop 14).take 22) W (Proc.devRef .tc main_v3) = Read.val_main_v3 (F := Ideal) x0
    ∧ StableHlo.after (((Value.ops (F := Ideal)).drop 14).take 22) W (Proc.devRef .tc main_v8) = Read.val_main_v8 (F := Ideal) x0
    ∧ StableHlo.after (((Value.ops (F := Ideal)).drop 14).take 22) W (Proc.devRef .tc main_v9) = Read.val_main_v9 (F := Ideal) x0
    ∧ StableHlo.after (((Value.ops (F := Ideal)).drop 14).take 22) W (Proc.devRef .tc main_v10) = Read.val_main_v10 (F := Ideal) x2
    ∧ StableHlo.after (((Value.ops (F := Ideal)).drop 14).take 22) W (Proc.devRef .tc main_v11) = Read.val_main_v11 (F := Ideal) x0
    ∧ StableHlo.after (((Value.ops (F := Ideal)).drop 14).take 22) W (Proc.devRef .tc main_v12) = Read.val_main_v12 (F := Ideal) x0 x5
    ∧ StableHlo.after (((Value.ops (F := Ideal)).drop 14).take 22) W (Proc.devRef .tc main_arg0) = x0
    ∧ StableHlo.after (((Value.ops (F := Ideal)).drop 14).take 22) W (Proc.devRef .tc main_arg1) = x1
    ∧ StableHlo.after (((Value.ops (F := Ideal)).drop 14).take 22) W (Proc.devRef .tc main_arg2) = x2
    ∧ StableHlo.after (((Value.ops (F := Ideal)).drop 14).take 22) W (Proc.devRef .tc main_arg3) = x3
    ∧ StableHlo.after (((Value.ops (F := Ideal)).drop 14).take 22) W (Proc.devRef .tc main_arg4) = x4
    ∧ StableHlo.after (((Value.ops (F := Ideal)).drop 14).take 22) W (Proc.devRef .tc main_arg5) = x5
    ∧ StableHlo.after (((Value.ops (F := Ideal)).drop 14).take 22) W (Proc.devRef .tc main_arg6) = x6
    ∧ StableHlo.after (((Value.ops (F := Ideal)).drop 14).take 22) W (Proc.devRef .tc main_arg7) = x7
    ∧ StableHlo.after (((Value.ops (F := Ideal)).drop 14).take 22) W (Proc.devRef .tc main_arg8) = x8 := by
  refine ⟨?_, ?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v3, l_v8, l_v9, l_v10, l_v11, Read.val_main_call0_c, Read.val_main_call0_v0, Read.val_main_call0_v1, Read.val_main_call0_c_0, Read.val_main_call0_v2, Read.val_main_call0_v3, Read.val_main_call0_v4, Read.val_main_call0_v5, Read.val_main_call0_c_1, Read.val_main_call0_c_2, Read.val_main_call0_v6, Read.val_main_call0_v7, Read.val_main_call0_v8, Read.val_main_call0_v9, Read.val_main_call0_v10, Read.val_main_call0_v11, Read.val_main_call0_c_3, Read.val_main_call0_v12, Read.val_main_call0_v13, Read.val_main_call0_cst, Read.val_main_call0_v14, Read.val_main_v12]; done) | (simp only [a0, a1, a2, a3, a4, a5, a6, a7, a8, l_cst_0, l_v3, l_v8, l_v9, l_v10, l_v11, Read.val_main_call0_c, Read.val_main_call0_v0, Read.val_main_call0_v1, Read.val_main_call0_c_0, Read.val_main_call0_v2, Read.val_main_call0_v3, Read.val_main_call0_v4, Read.val_main_call0_v5, Read.val_main_call0_c_1, Read.val_main_call0_c_2, Read.val_main_call0_v6, Read.val_main_call0_v7, Read.val_main_call0_v8, Read.val_main_call0_v9, Read.val_main_call0_v10, Read.val_main_call0_v11, Read.val_main_call0_c_3, Read.val_main_call0_v12, Read.val_main_call0_v13, Read.val_main_call0_cst, Read.val_main_call0_v14, Read.val_main_v12]; rfl))

end Cert.ReferenceIdeal.RefRun

end
-- ==== Proof.ReferenceWin02.lean ====
/-
  Operations 36 … 57 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win2 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v3 : W (Proc.devRef .tc main_v3) = Read.val_main_v3 (F := Ideal) x0) (l_v8 : W (Proc.devRef .tc main_v8) = Read.val_main_v8 (F := Ideal) x0) (l_v9 : W (Proc.devRef .tc main_v9) = Read.val_main_v9 (F := Ideal) x0) (l_v10 : W (Proc.devRef .tc main_v10) = Read.val_main_v10 (F := Ideal) x2) (l_v11 : W (Proc.devRef .tc main_v11) = Read.val_main_v11 (F := Ideal) x0) (l_v12 : W (Proc.devRef .tc main_v12) = Read.val_main_v12 (F := Ideal) x0 x5) :
    StableHlo.after (((Value.ops (F := Ideal)).drop 36).take 22) W (Proc.devRef .tc main_cst_0) = Read.val_main_cst_0 (F := Ideal)
    ∧ StableHlo.after (((Value.ops (F := Ideal)).drop 36).take 22) W (Proc.devRef .tc main_v3) = Read.val_main_v3 (F := Ideal) x0
    ∧ StableHlo.after (((Value.ops (F := Ideal)).drop 36).take 22) W (Proc.devRef .tc main_v8) = Read.val_main_v8 (F := Ideal) x0
    ∧ StableHlo.after (((Value.ops (F := Ideal)).drop 36).take 22) W (Proc.devRef .tc main_v9) = Read.val_main_v9 (F := Ideal) x0
    ∧ StableHlo.after (((Value.ops (F := Ideal)).drop 36).take 22) W (Proc.devRef .tc main_v10) = Read.val_main_v10 (F := Ideal) x2
    ∧ StableHlo.after (((Value.ops (F := Ideal)).drop 36).take 22) W (Proc.devRef .tc main_v11) = Read.val_main_v11 (F := Ideal) x0
    ∧ StableHlo.after (((Value.ops (F := Ideal)).drop 36).take 22) W (Proc.devRef .tc main_v12) = Read.val_main_v12 (F := Ideal) x0 x5
    ∧ StableHlo.after (((Value.ops (F := Ideal)).drop 36).take 22) W (Proc.devRef .tc main_v13) = Read.val_main_v13 (F := Ideal) x0 x6
    ∧ StableHlo.after (((Value.ops (F := Ideal)).drop 36).take 22) W (Proc.devRef .tc main_arg0) = x0
    ∧ StableHlo.after (((Value.ops (F := Ideal)).drop 36).take 22) W (Proc.devRef .tc main_arg1) = x1
    ∧ StableHlo.after (((Value.ops (F := Ideal)).drop 36).take 22) W (Proc.devRef .tc main_arg2) = x2
    ∧ StableHlo.after (((Value.ops (F := Ideal)).drop 36).take 22) W (Proc.devRef .tc main_arg3) = x3
    ∧ StableHlo.after (((Value.ops (F := Ideal)).drop 36).take 22) W (Proc.devRef .tc main_arg4) = x4
    ∧ StableHlo.after (((Value.ops (F := Ideal)).drop 36).take 22) W (Proc.devRef .tc main_arg5) = x5
    ∧ StableHlo.after (((Value.ops (F := Ideal)).drop 36).take 22) W (Proc.devRef .tc main_arg6) = x6
    ∧ StableHlo.after (((Value.ops (F := Ideal)).drop 36).take 22) W (Proc.devRef .tc main_arg7) = x7
    ∧ StableHlo.after (((Value.ops (F := Ideal)).drop 36).take 22) W (Proc.devRef .tc main_arg8) = x8 := by
  refine ⟨?_, ?_, ?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v3, l_v8, l_v9, l_v10, l_v11, l_v12, Read.val_main_call1_c, Read.val_main_call1_v0, Read.val_main_call1_v1, Read.val_main_call1_c_0, Read.val_main_call1_v2, Read.val_main_call1_v3, Read.val_main_call1_v4, Read.val_main_call1_v5, Read.val_main_call1_c_1, Read.val_main_call1_c_2, Read.val_main_call1_v6, Read.val_main_call1_v7, Read.val_main_call1_v8, Read.val_main_call1_v9, Read.val_main_call1_v10, Read.val_main_call1_v11, Read.val_main_call1_c_3, Read.val_main_call1_v12, Read.val_main_call1_v13, Read.val_main_call1_cst, Read.val_main_call1_v14, Read.val_main_v13]; done) | (simp only [a0, a1, a2, a3, a4, a5, a6, a7, a8, l_cst_0, l_v3, l_v8, l_v9, l_v10, l_v11, l_v12, Read.val_main_call1_c, Read.val_main_call1_v0, Read.val_main_call1_v1, Read.val_main_call1_c_0, Read.val_main_call1_v2, Read.val_main_call1_v3, Read.val_main_call1_v4, Read.val_main_call1_v5, Read.val_main_call1_c_1, Read.val_main_call1_c_2, Read.val_main_call1_v6, Read.val_main_call1_v7, Read.val_main_call1_v8, Read.val_main_call1_v9, Read.val_main_call1_v10, Read.val_main_call1_v11, Read.val_main_call1_c_3, Read.val_main_call1_v12, Read.val_main_call1_v13, Read.val_main_call1_cst, Read.val_main_call1_v14, Read.val_main_v13]; rfl))

end Cert.ReferenceIdeal.RefRun

end
-- ==== Proof.ReferenceWin03.lean ====
/-
  Operations 58 … 79 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win3 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v3 : W (Proc.devRef .tc main_v3) = Read.val_main_v3 (F := Ideal) x0) (l_v8 : W (Proc.devRef .tc main_v8) = Read.val_main_v8 (F := Ideal) x0) (l_v9 : W (Proc.devRef .tc main_v9) = Read.val_main_v9 (F := Ideal) x0) (l_v10 : W (Proc.devRef .tc main_v10) = Read.val_main_v10 (F := Ideal) x2) (l_v11 : W (Proc.devRef .tc main_v11) = Read.val_main_v11 (F := Ideal) x0) (l_v12 : W (Proc.devRef .tc main_v12) = Read.val_main_v12 (F := Ideal) x0 x5) (l_v13 : W (Proc.devRef .tc main_v13) = Read.val_main_v13 (F := Ideal) x0 x6) :
    StableHlo.after (((Value.ops (F := Ideal)).drop 58).take 22) W (Proc.devRef .tc main_cst_0) = Read.val_main_cst_0 (F := Ideal)
    ∧ StableHlo.after (((Value.ops (F := Ideal)).drop 58).take 22) W (Proc.devRef .tc main_v3) = Read.val_main_v3 (F := Ideal) x0
    ∧ StableHlo.after (((Value.ops (F := Ideal)).drop 58).take 22) W (Proc.devRef .tc main_v8) = Read.val_main_v8 (F := Ideal) x0
    ∧ StableHlo.after (((Value.ops (F := Ideal)).drop 58).take 22) W (Proc.devRef .tc main_v9) = Read.val_main_v9 (F := Ideal) x0
    ∧ StableHlo.after (((Value.ops (F := Ideal)).drop 58).take 22) W (Proc.devRef .tc main_v10) = Read.val_main_v10 (F := Ideal) x2
    ∧ StableHlo.after (((Value.ops (F := Ideal)).drop 58).take 22) W (Proc.devRef .tc main_v11) = Read.val_main_v11 (F := Ideal) x0
    ∧ StableHlo.after (((Value.ops (F := Ideal)).drop 58).take 22) W (Proc.devRef .tc main_v12) = Read.val_main_v12 (F := Ideal) x0 x5
    ∧ StableHlo.after (((Value.ops (F := Ideal)).drop 58).take 22) W (Proc.devRef .tc main_v13) = Read.val_main_v13 (F := Ideal) x0 x6
    ∧ StableHlo.after (((Value.ops (F := Ideal)).drop 58).take 22) W (Proc.devRef .tc main_v14) = Read.val_main_v14 (F := Ideal) x0 x7
    ∧ StableHlo.after (((Value.ops (F := Ideal)).drop 58).take 22) W (Proc.devRef .tc main_arg0) = x0
    ∧ StableHlo.after (((Value.ops (F := Ideal)).drop 58).take 22) W (Proc.devRef .tc main_arg1) = x1
    ∧ StableHlo.after (((Value.ops (F := Ideal)).drop 58).take 22) W (Proc.devRef .tc main_arg2) = x2
    ∧ StableHlo.after (((Value.ops (F := Ideal)).drop 58).take 22) W (Proc.devRef .tc main_arg3) = x3
    ∧ StableHlo.after (((Value.ops (F := Ideal)).drop 58).take 22) W (Proc.devRef .tc main_arg4) = x4
    ∧ StableHlo.after (((Value.ops (F := Ideal)).drop 58).take 22) W (Proc.devRef .tc main_arg5) = x5
    ∧ StableHlo.after (((Value.ops (F := Ideal)).drop 58).take 22) W (Proc.devRef .tc main_arg6) = x6
    ∧ StableHlo.after (((Value.ops (F := Ideal)).drop 58).take 22) W (Proc.devRef .tc main_arg7) = x7
    ∧ StableHlo.after (((Value.ops (F := Ideal)).drop 58).take 22) W (Proc.devRef .tc main_arg8) = x8 := by
  refine ⟨?_, ?_, ?_, ?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v3, l_v8, l_v9, l_v10, l_v11, l_v12, l_v13, Read.val_main_call2_c, Read.val_main_call2_v0, Read.val_main_call2_v1, Read.val_main_call2_c_0, Read.val_main_call2_v2, Read.val_main_call2_v3, Read.val_main_call2_v4, Read.val_main_call2_v5, Read.val_main_call2_c_1, Read.val_main_call2_c_2, Read.val_main_call2_v6, Read.val_main_call2_v7, Read.val_main_call2_v8, Read.val_main_call2_v9, Read.val_main_call2_v10, Read.val_main_call2_v11, Read.val_main_call2_c_3, Read.val_main_call2_v12, Read.val_main_call2_v13, Read.val_main_call2_cst, Read.val_main_call2_v14, Read.val_main_v14]; done) | (simp only [a0, a1, a2, a3, a4, a5, a6, a7, a8, l_cst_0, l_v3, l_v8, l_v9, l_v10, l_v11, l_v12, l_v13, Read.val_main_call2_c, Read.val_main_call2_v0, Read.val_main_call2_v1, Read.val_main_call2_c_0, Read.val_main_call2_v2, Read.val_main_call2_v3, Read.val_main_call2_v4, Read.val_main_call2_v5, Read.val_main_call2_c_1, Read.val_main_call2_c_2, Read.val_main_call2_v6, Read.val_main_call2_v7, Read.val_main_call2_v8, Read.val_main_call2_v9, Read.val_main_call2_v10, Read.val_main_call2_v11, Read.val_main_call2_c_3, Read.val_main_call2_v12, Read.val_main_call2_v13, Read.val_main_call2_cst, Read.val_main_call2_v14, Read.val_main_v14]; rfl))

end Cert.ReferenceIdeal.RefRun

end
-- ==== Proof.ReferenceWin04.lean ====
/-
  Operations 80 … 115 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win4 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v3 : W (Proc.devRef .tc main_v3) = Read.val_main_v3 (F := Ideal) x0) (l_v8 : W (Proc.devRef .tc main_v8) = Read.val_main_v8 (F := Ideal) x0) (l_v9 : W (Proc.devRef .tc main_v9) = Read.val_main_v9 (F := Ideal) x0) (l_v10 : W (Proc.devRef .tc main_v10) = Read.val_main_v10 (F := Ideal) x2) (l_v11 : W (Proc.devRef .tc main_v11) = Read.val_main_v11 (F := Ideal) x0) (l_v12 : W (Proc.devRef .tc main_v12) = Read.val_main_v12 (F := Ideal) x0 x5) (l_v13 : W (Proc.devRef .tc main_v13) = Read.val_main_v13 (F := Ideal) x0 x6) (l_v14 : W (Proc.devRef .tc main_v14) = Read.val_main_v14 (F := Ideal) x0 x7) :
    StableHlo.after (((Value.ops (F := Ideal)).drop 80).take 36) W (Proc.devRef .tc main_cst_0) = Read.val_main_cst_0 (F := Ideal)
    ∧ StableHlo.after (((Value.ops (F := Ideal)).drop 80).take 36) W (Proc.devRef .tc main_v3) = Read.val_main_v3 (F := Ideal) x0
    ∧ StableHlo.after (((Value.ops (F := Ideal)).drop 80).take 36) W (Proc.devRef .tc main_v8) = Read.val_main_v8 (F := Ideal) x0
    ∧ StableHlo.after (((Value.ops (F := Ideal)).drop 80).take 36) W (Proc.devRef .tc main_v9) = Read.val_main_v9 (F := Ideal) x0
    ∧ StableHlo.after (((Value.ops (F := Ideal)).drop 80).take 36) W (Proc.devRef .tc main_v10) = Read.val_main_v10 (F := Ideal) x2
    ∧ StableHlo.after (((Value.ops (F := Ideal)).drop 80).take 36) W (Proc.devRef .tc main_v23) = Read.val_main_v23 (F := Ideal) x0 x5 x6 x7
    ∧ StableHlo.after (((Value.ops (F := Ideal)).drop 80).take 36) W (Proc.devRef .tc main_v24) = Read.val_main_v24 (F := Ideal) x0 x5 x6
    ∧ StableHlo.after (((Value.ops (F := Ideal)).drop 80).take 36) W (Proc.devRef .tc main_v26) = Read.val_main_v26 (F := Ideal) x0 x5 x8
    ∧ StableHlo.after (((Value.ops (F := Ideal)).drop 80).take 36) W (Proc.devRef .tc main_arg0) = x0
    ∧ StableHlo.after (((Value.ops (F := Ideal)).drop 80).take 36) W (Proc.devRef .tc main_arg1) = x1
    ∧ StableHlo.after (((Value.ops (F := Ideal)).drop 80).take 36) W (Proc.devRef .tc main_arg2) = x2
    ∧ StableHlo.after (((Value.ops (F := Ideal)).drop 80).take 36) W (Proc.devRef .tc main_arg3) = x3
    ∧ StableHlo.after (((Value.ops (F := Ideal)).drop 80).take 36) W (Proc.devRef .tc main_arg4) = x4
    ∧ StableHlo.after (((Value.ops (F := Ideal)).drop 80).take 36) W (Proc.devRef .tc main_arg5) = x5
    ∧ StableHlo.after (((Value.ops (F := Ideal)).drop 80).take 36) W (Proc.devRef .tc main_arg6) = x6
    ∧ StableHlo.after (((Value.ops (F := Ideal)).drop 80).take 36) W (Proc.devRef .tc main_arg7) = x7
    ∧ StableHlo.after (((Value.ops (F := Ideal)).drop 80).take 36) W (Proc.devRef .tc main_arg8) = x8 := by
  refine ⟨?_, ?_, ?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v3, l_v8, l_v9, l_v10, l_v11, l_v12, l_v13, l_v14, Read.val_main_call3_c, Read.val_main_call3_v0, Read.val_main_call3_v1, Read.val_main_call3_c_0, Read.val_main_call3_v2, Read.val_main_call3_v3, Read.val_main_call3_v4, Read.val_main_call3_v5, Read.val_main_call3_c_1, Read.val_main_call3_c_2, Read.val_main_call3_v6, Read.val_main_call3_v7, Read.val_main_call3_v8, Read.val_main_call3_v9, Read.val_main_call3_v10, Read.val_main_call3_v11, Read.val_main_call3_c_3, Read.val_main_call3_v12, Read.val_main_call3_v13, Read.val_main_call3_cst, Read.val_main_call3_v14, Read.val_main_v15, Read.val_main_v16, Read.val_main_v17, Read.val_main_v18, Read.val_main_v19, Read.val_main_v20, Read.val_main_cst_1, Read.val_main_v21, Read.val_main_v22, Read.val_main_call4_cst, Read.val_main_call4_v0, Read.val_main_v23, Read.val_main_v24, Read.val_main_v25, Read.val_main_v26]; done) | (simp only [a0, a1, a2, a3, a4, a5, a6, a7, a8, l_cst_0, l_v3, l_v8, l_v9, l_v10, l_v11, l_v12, l_v13, l_v14, Read.val_main_call3_c, Read.val_main_call3_v0, Read.val_main_call3_v1, Read.val_main_call3_c_0, Read.val_main_call3_v2, Read.val_main_call3_v3, Read.val_main_call3_v4, Read.val_main_call3_v5, Read.val_main_call3_c_1, Read.val_main_call3_c_2, Read.val_main_call3_v6, Read.val_main_call3_v7, Read.val_main_call3_v8, Read.val_main_call3_v9, Read.val_main_call3_v10, Read.val_main_call3_v11, Read.val_main_call3_c_3, Read.val_main_call3_v12, Read.val_main_call3_v13, Read.val_main_call3_cst, Read.val_main_call3_v14, Read.val_main_v15, Read.val_main_v16, Read.val_main_v17, Read.val_main_v18, Read.val_main_v19, Read.val_main_v20, Read.val_main_cst_1, Read.val_main_v21, Read.val_main_v22, Read.val_main_call4_cst, Read.val_main_call4_v0, Read.val_main_v23, Read.val_main_v24, Read.val_main_v25, Read.val_main_v26]; rfl))

end Cert.ReferenceIdeal.RefRun

end
-- ==== Proof.ReferenceWin05.lean ====
/-
  Operations 116 … 148 of the reference, run from any contents of the buffers in which the values the earlier
  operations computed and later ones still read are the stage functions of the arguments: afterwards the values still
  read by later operations are again the stage functions of the arguments, and the arguments are as they were.
  (This stretch holds the maximum over the two classes and its subtraction from the two class maps; the operations of
  the outlined function carry their values through transports along equalities of buffer types that hold by
  computation: a transport there and back is removed as a pair, the one at the map read from outside and the one at
  the result each by its own evaluation, so that the class maximum itself is never opened.)
-/
import proofs.«111430_j72988674228458_2_alg».proof.Proof.ReferenceRead
import proofs.«111430_j72988674228458_2_alg».proof.Proof.LibFold
import Idealize.ShloMosaic.Lib.StableHlo.Run

set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

/-- A value carried into a buffer's type and back is the value. -/
theorem ofBuf_toBuf5 {T : BufTy} (x : TRef sig T) (v : T.Contents (Elt Ideal)) : x.ofBuf (x.toBuf v) = v := by
  obtain ⟨r, h, hd, hs⟩ := x; subst h; rfl

theorem leaf5 (h1 : main_v3.ty = (⟨S2x32x256x256, .f32⟩ : BufTy)) (h2 : main_v3.space ≠ .host) (h3 : main_v3.isScoped = false)
    (v : (⟨S2x32x256x256, .f32⟩ : BufTy).Contents (Elt Ideal)) : (TRef.of main_v3 h1 h2 h3).ofBuf v = v := rfl

theorem root5 (h1 : main_call6_v5.ty = (⟨S2x32x256x256, .f32⟩ : BufTy)) (h2 : main_call6_v5.space ≠ .host) (h3 : main_call6_v5.isScoped = false)
    (z : (⟨S2x32x256x256, .f32⟩ : BufTy).Contents (Elt Ideal)) : (TRef.of main_call6_v5 h1 h2 h3).toBuf z = z := rfl

set_option maxHeartbeats 8000000 in
theorem win5 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v3 : W (Proc.devRef .tc main_v3) = Read.val_main_v3 (F := Ideal) x0) (l_v8 : W (Proc.devRef .tc main_v8) = Read.val_main_v8 (F := Ideal) x0) (l_v9 : W (Proc.devRef .tc main_v9) = Read.val_main_v9 (F := Ideal) x0) (l_v10 : W (Proc.devRef .tc main_v10) = Read.val_main_v10 (F := Ideal) x2) (l_v23 : W (Proc.devRef .tc main_v23) = Read.val_main_v23 (F := Ideal) x0 x5 x6 x7) (l_v24 : W (Proc.devRef .tc main_v24) = Read.val_main_v24 (F := Ideal) x0 x5 x6) (l_v26 : W (Proc.devRef .tc main_v26) = Read.val_main_v26 (F := Ideal) x0 x5 x8) :
    StableHlo.after (((Value.ops (F := Ideal)).drop 116).take 33) W (Proc.devRef .tc main_cst_0) = Read.val_main_cst_0 (F := Ideal)
    ∧ StableHlo.after (((Value.ops (F := Ideal)).drop 116).take 33) W (Proc.devRef .tc main_v8) = Read.val_main_v8 (F := Ideal) x0
    ∧ StableHlo.after (((Value.ops (F := Ideal)).drop 116).take 33) W (Proc.devRef .tc main_v9) = Read.val_main_v9 (F := Ideal) x0
    ∧ StableHlo.after (((Value.ops (F := Ideal)).drop 116).take 33) W (Proc.devRef .tc main_v10) = Read.val_main_v10 (F := Ideal) x2
    ∧ StableHlo.after (((Value.ops (F := Ideal)).drop 116).take 33) W (Proc.devRef .tc main_v42) = Read.val_main_v42 (F := Ideal) x0 x5 x6 x7 x8
    ∧ StableHlo.after (((Value.ops (F := Ideal)).drop 116).take 33) W (Proc.devRef .tc main_call6_v5) = Read.val_main_call6_v5 (F := Ideal) x0
    ∧ StableHlo.after (((Value.ops (F := Ideal)).drop 116).take 33) W (Proc.devRef .tc main_arg0) = x0
    ∧ StableHlo.after (((Value.ops (F := Ideal)).drop 116).take 33) W (Proc.devRef .tc main_arg1) = x1
    ∧ StableHlo.after (((Value.ops (F := Ideal)).drop 116).take 33) W (Proc.devRef .tc main_arg2) = x2
    ∧ StableHlo.after (((Value.ops (F := Ideal)).drop 116).take 33) W (Proc.devRef .tc main_arg3) = x3
    ∧ StableHlo.after (((Value.ops (F := Ideal)).drop 116).take 33) W (Proc.devRef .tc main_arg4) = x4
    ∧ StableHlo.after (((Value.ops (F := Ideal)).drop 116).take 33) W (Proc.devRef .tc main_arg5) = x5
    ∧ StableHlo.after (((Value.ops (F := Ideal)).drop 116).take 33) W (Proc.devRef .tc main_arg6) = x6
    ∧ StableHlo.after (((Value.ops (F := Ideal)).drop 116).take 33) W (Proc.devRef .tc main_arg7) = x7
    ∧ StableHlo.after (((Value.ops (F := Ideal)).drop 116).take 33) W (Proc.devRef .tc main_arg8) = x8 := by
  refine ⟨?_, ?_, ?_, ?_, ?_, ?_, ?_, ?_, ?_, ?_, ?_, ?_, ?_, ?_, ?_⟩
  all_goals (dsimp only [Value.ops, List.drop, List.take]; after_results)
  all_goals (try assumption)
  all_goals (try simp only [a0, a1, a2, a3, a4, a5, a6, a7, a8, l_cst_0, l_v3, l_v8, l_v9, l_v10, l_v23, l_v24, l_v26])
  all_goals (try simp only [Read.val_main_v27, Read.val_main_v28, Read.val_main_cst_2, Read.val_main_v29, Read.val_main_v30, Read.val_main_call5_cst, Read.val_main_call5_v0, Read.val_main_v31, Read.val_main_v32, Read.val_main_v33, Read.val_main_cst_3, Read.val_main_v34, Read.val_main_v35, Read.val_main_c, Read.val_main_v36, Read.val_main_v37, Read.val_main_cst_4, Read.val_main_v38, Read.val_main_cst_5, Read.val_main_v39, Read.val_main_v40, Read.val_main_cst_6, Read.val_main_v41, Read.val_main_cst_7, Read.val_main_v42, Read.val_main_call6_cst, Read.val_main_call6_v0, Read.val_main_call6_cst_0, Read.val_main_call6_v1, Read.val_main_call6_v2, Read.val_main_call6_v3, Read.val_main_call6_v4, Read.val_main_call6_v5])
  all_goals (try simp only [ofBuf_toBuf5])
  all_goals (try simp only [leaf5])
  all_goals (first | exact root5 _ _ _ _ | rfl)

end Cert.ReferenceIdeal.RefRun

end
-- ==== Proof.ReferenceWin06.lean ====
/-
  Operations 149 … 174 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win6 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v8 : W (Proc.devRef .tc main_v8) = Read.val_main_v8 (F := Ideal) x0) (l_v9 : W (Proc.devRef .tc main_v9) = Read.val_main_v9 (F := Ideal) x0) (l_v10 : W (Proc.devRef .tc main_v10) = Read.val_main_v10 (F := Ideal) x2) (l_v42 : W (Proc.devRef .tc main_v42) = Read.val_main_v42 (F := Ideal) x0 x5 x6 x7 x8) (l_call6_v5 : W (Proc.devRef .tc main_call6_v5) = Read.val_main_call6_v5 (F := Ideal) x0) :
    StableHlo.after (((Value.ops (F := Ideal)).drop 149).take 26) W (Proc.devRef .tc main_cst_0) = Read.val_main_cst_0 (F := Ideal)
    ∧ StableHlo.after (((Value.ops (F := Ideal)).drop 149).take 26) W (Proc.devRef .tc main_v8) = Read.val_main_v8 (F := Ideal) x0
    ∧ StableHlo.after (((Value.ops (F := Ideal)).drop 149).take 26) W (Proc.devRef .tc main_v9) = Read.val_main_v9 (F := Ideal) x0
    ∧ StableHlo.after (((Value.ops (F := Ideal)).drop 149).take 26) W (Proc.devRef .tc main_v10) = Read.val_main_v10 (F := Ideal) x2
    ∧ StableHlo.after (((Value.ops (F := Ideal)).drop 149).take 26) W (Proc.devRef .tc main_v42) = Read.val_main_v42 (F := Ideal) x0 x5 x6 x7 x8
    ∧ StableHlo.after (((Value.ops (F := Ideal)).drop 149).take 26) W (Proc.devRef .tc main_v58) = Read.val_main_v58 (F := Ideal) x0 x2
    ∧ StableHlo.after (((Value.ops (F := Ideal)).drop 149).take 26) W (Proc.devRef .tc main_arg0) = x0
    ∧ StableHlo.after (((Value.ops (F := Ideal)).drop 149).take 26) W (Proc.devRef .tc main_arg1) = x1
    ∧ StableHlo.after (((Value.ops (F := Ideal)).drop 149).take 26) W (Proc.devRef .tc main_arg2) = x2
    ∧ StableHlo.after (((Value.ops (F := Ideal)).drop 149).take 26) W (Proc.devRef .tc main_arg3) = x3
    ∧ StableHlo.after (((Value.ops (F := Ideal)).drop 149).take 26) W (Proc.devRef .tc main_arg4) = x4
    ∧ StableHlo.after (((Value.ops (F := Ideal)).drop 149).take 26) W (Proc.devRef .tc main_arg5) = x5
    ∧ StableHlo.after (((Value.ops (F := Ideal)).drop 149).take 26) W (Proc.devRef .tc main_arg6) = x6
    ∧ StableHlo.after (((Value.ops (F := Ideal)).drop 149).take 26) W (Proc.devRef .tc main_arg7) = x7
    ∧ StableHlo.after (((Value.ops (F := Ideal)).drop 149).take 26) W (Proc.devRef .tc main_arg8) = x8 := by
  refine ⟨?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v8, l_v9, l_v10, l_v42, l_call6_v5, Read.val_main_call6_v6, Read.val_main_call6_cst_1, Read.val_main_call6_v7, Read.val_main_call6_v8, Read.val_main_call6_v9, Read.val_main_call6_v10, Read.val_main_v43, Read.val_main_v44, Read.val_main_v45, Read.val_main_v46, Read.val_main_v47, Read.val_main_cst_8, Read.val_main_v48, Read.val_main_v49, Read.val_main_cst_9, Read.val_main_v50, Read.val_main_v51, Read.val_main_v52, Read.val_main_v53, Read.val_main_v54, Read.val_main_v55, Read.val_main_cst_10, Read.val_main_v56, Read.val_main_cst_11, Read.val_main_v57, Read.val_main_v58]; done) | (simp only [a0, a1, a2, a3, a4, a5, a6, a7, a8, l_cst_0, l_v8, l_v9, l_v10, l_v42, l_call6_v5, Read.val_main_call6_v6, Read.val_main_call6_cst_1, Read.val_main_call6_v7, Read.val_main_call6_v8, Read.val_main_call6_v9, Read.val_main_call6_v10, Read.val_main_v43, Read.val_main_v44, Read.val_main_v45, Read.val_main_v46, Read.val_main_v47, Read.val_main_cst_8, Read.val_main_v48, Read.val_main_v49, Read.val_main_cst_9, Read.val_main_v50, Read.val_main_v51, Read.val_main_v52, Read.val_main_v53, Read.val_main_v54, Read.val_main_v55, Read.val_main_cst_10, Read.val_main_v56, Read.val_main_cst_11, Read.val_main_v57, Read.val_main_v58]; rfl))

end Cert.ReferenceIdeal.RefRun

end
-- ==== Proof.ReferenceWin07.lean ====
/-
  Operations 175 … 206 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win7 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v8 : W (Proc.devRef .tc main_v8) = Read.val_main_v8 (F := Ideal) x0) (l_v9 : W (Proc.devRef .tc main_v9) = Read.val_main_v9 (F := Ideal) x0) (l_v10 : W (Proc.devRef .tc main_v10) = Read.val_main_v10 (F := Ideal) x2) (l_v42 : W (Proc.devRef .tc main_v42) = Read.val_main_v42 (F := Ideal) x0 x5 x6 x7 x8) (l_v58 : W (Proc.devRef .tc main_v58) = Read.val_main_v58 (F := Ideal) x0 x2) :
    StableHlo.after (((Value.ops (F := Ideal)).drop 175).take 32) W (Proc.devRef .tc main_cst_0) = Read.val_main_cst_0 (F := Ideal)
    ∧ StableHlo.after (((Value.ops (F := Ideal)).drop 175).take 32) W (Proc.devRef .tc main_v9) = Read.val_main_v9 (F := Ideal) x0
    ∧ StableHlo.after (((Value.ops (F := Ideal)).drop 175).take 32) W (Proc.devRef .tc main_v10) = Read.val_main_v10 (F := Ideal) x2
    ∧ StableHlo.after (((Value.ops (F := Ideal)).drop 175).take 32) W (Proc.devRef .tc main_v42) = Read.val_main_v42 (F := Ideal) x0 x5 x6 x7 x8
    ∧ StableHlo.after (((Value.ops (F := Ideal)).drop 175).take 32) W (Proc.devRef .tc main_v58) = Read.val_main_v58 (F := Ideal) x0 x2
    ∧ StableHlo.after (((Value.ops (F := Ideal)).drop 175).take 32) W (Proc.devRef .tc main_v79) = Read.val_main_v79 (F := Ideal) x0 x3
    ∧ StableHlo.after (((Value.ops (F := Ideal)).drop 175).take 32) W (Proc.devRef .tc main_arg0) = x0
    ∧ StableHlo.after (((Value.ops (F := Ideal)).drop 175).take 32) W (Proc.devRef .tc main_arg1) = x1
    ∧ StableHlo.after (((Value.ops (F := Ideal)).drop 175).take 32) W (Proc.devRef .tc main_arg2) = x2
    ∧ StableHlo.after (((Value.ops (F := Ideal)).drop 175).take 32) W (Proc.devRef .tc main_arg3) = x3
    ∧ StableHlo.after (((Value.ops (F := Ideal)).drop 175).take 32) W (Proc.devRef .tc main_arg4) = x4
    ∧ StableHlo.after (((Value.ops (F := Ideal)).drop 175).take 32) W (Proc.devRef .tc main_arg5) = x5
    ∧ StableHlo.after (((Value.ops (F := Ideal)).drop 175).take 32) W (Proc.devRef .tc main_arg6) = x6
    ∧ StableHlo.after (((Value.ops (F := Ideal)).drop 175).take 32) W (Proc.devRef .tc main_arg7) = x7
    ∧ StableHlo.after (((Value.ops (F := Ideal)).drop 175).take 32) W (Proc.devRef .tc main_arg8) = x8 := by
  refine ⟨?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v8, l_v9, l_v10, l_v42, l_v58, Read.val_main_v59, Read.val_main_v60, Read.val_main_cst_12, Read.val_main_v61, Read.val_main_v62, Read.val_main_cst_13, Read.val_main_cst_14, Read.val_main_call7_v0, Read.val_main_call7_v1, Read.val_main_v63, Read.val_main_v64, Read.val_main_v65, Read.val_main_cst_15, Read.val_main_v66, Read.val_main_v67, Read.val_main_cst_16, Read.val_main_v68, Read.val_main_v69, Read.val_main_v70, Read.val_main_cst_17, Read.val_main_v71, Read.val_main_v72, Read.val_main_v73, Read.val_main_v74, Read.val_main_v75, Read.val_main_cst_18, Read.val_main_v76, Read.val_main_cst_19, Read.val_main_v77, Read.val_main_v78, Read.val_main_cst_20, Read.val_main_v79]; done) | (simp only [a0, a1, a2, a3, a4, a5, a6, a7, a8, l_cst_0, l_v8, l_v9, l_v10, l_v42, l_v58, Read.val_main_v59, Read.val_main_v60, Read.val_main_cst_12, Read.val_main_v61, Read.val_main_v62, Read.val_main_cst_13, Read.val_main_cst_14, Read.val_main_call7_v0, Read.val_main_call7_v1, Read.val_main_v63, Read.val_main_v64, Read.val_main_v65, Read.val_main_cst_15, Read.val_main_v66, Read.val_main_v67, Read.val_main_cst_16, Read.val_main_v68, Read.val_main_v69, Read.val_main_v70, Read.val_main_cst_17, Read.val_main_v71, Read.val_main_v72, Read.val_main_v73, Read.val_main_v74, Read.val_main_v75, Read.val_main_cst_18, Read.val_main_v76, Read.val_main_cst_19, Read.val_main_v77, Read.val_main_v78, Read.val_main_cst_20, Read.val_main_v79]; rfl))

end Cert.ReferenceIdeal.RefRun

end
-- ==== Proof.ReferenceWin08.lean ====
/-
  Operations 207 … 241 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win8 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v9 : W (Proc.devRef .tc main_v9) = Read.val_main_v9 (F := Ideal) x0) (l_v10 : W (Proc.devRef .tc main_v10) = Read.val_main_v10 (F := Ideal) x2) (l_v42 : W (Proc.devRef .tc main_v42) = Read.val_main_v42 (F := Ideal) x0 x5 x6 x7 x8) (l_v58 : W (Proc.devRef .tc main_v58) = Read.val_main_v58 (F := Ideal) x0 x2) (l_v79 : W (Proc.devRef .tc main_v79) = Read.val_main_v79 (F := Ideal) x0 x3) :
    StableHlo.after (((Value.ops (F := Ideal)).drop 207).take 35) W (Proc.devRef .tc main_cst_0) = Read.val_main_cst_0 (F := Ideal)
    ∧ StableHlo.after (((Value.ops (F := Ideal)).drop 207).take 35) W (Proc.devRef .tc main_v42) = Read.val_main_v42 (F := Ideal) x0 x5 x6 x7 x8
    ∧ StableHlo.after (((Value.ops (F := Ideal)).drop 207).take 35) W (Proc.devRef .tc main_v58) = Read.val_main_v58 (F := Ideal) x0 x2
    ∧ StableHlo.after (((Value.ops (F := Ideal)).drop 207).take 35) W (Proc.devRef .tc main_v79) = Read.val_main_v79 (F := Ideal) x0 x3
    ∧ StableHlo.after (((Value.ops (F := Ideal)).drop 207).take 35) W (Proc.devRef .tc main_v104) = Read.val_main_v104 (F := Ideal) x0 x2 x4
    ∧ StableHlo.after (((Value.ops (F := Ideal)).drop 207).take 35) W (Proc.devRef .tc main_arg0) = x0
    ∧ StableHlo.after (((Value.ops (F := Ideal)).drop 207).take 35) W (Proc.devRef .tc main_arg1) = x1
    ∧ StableHlo.after (((Value.ops (F := Ideal)).drop 207).take 35) W (Proc.devRef .tc main_arg2) = x2
    ∧ StableHlo.after (((Value.ops (F := Ideal)).drop 207).take 35) W (Proc.devRef .tc main_arg3) = x3
    ∧ StableHlo.after (((Value.ops (F := Ideal)).drop 207).take 35) W (Proc.devRef .tc main_arg4) = x4
    ∧ StableHlo.after (((Value.ops (F := Ideal)).drop 207).take 35) W (Proc.devRef .tc main_arg5) = x5
    ∧ StableHlo.after (((Value.ops (F := Ideal)).drop 207).take 35) W (Proc.devRef .tc main_arg6) = x6
    ∧ StableHlo.after (((Value.ops (F := Ideal)).drop 207).take 35) W (Proc.devRef .tc main_arg7) = x7
    ∧ StableHlo.after (((Value.ops (F := Ideal)).drop 207).take 35) W (Proc.devRef .tc main_arg8) = x8 := by
  refine ⟨?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v9, l_v10, l_v42, l_v58, l_v79, Read.val_main_v80, Read.val_main_v81, Read.val_main_cst_21, Read.val_main_v82, Read.val_main_v83, Read.val_main_cst_22, Read.val_main_v84, Read.val_main_v85, Read.val_main_cst_23, Read.val_main_v86, Read.val_main_v87, Read.val_main_cst_24, Read.val_main_call9_v0, Read.val_main_call9_v1, Read.val_main_v88, Read.val_main_v89, Read.val_main_v90, Read.val_main_cst_25, Read.val_main_v91, Read.val_main_v92, Read.val_main_cst_26, Read.val_main_v93, Read.val_main_v94, Read.val_main_cst_27, Read.val_main_v95, Read.val_main_v96, Read.val_main_v97, Read.val_main_v98, Read.val_main_v99, Read.val_main_v100, Read.val_main_v101, Read.val_main_v102, Read.val_main_v103, Read.val_main_cst_28, Read.val_main_v104]; done) | (simp only [a0, a1, a2, a3, a4, a5, a6, a7, a8, l_cst_0, l_v9, l_v10, l_v42, l_v58, l_v79, Read.val_main_v80, Read.val_main_v81, Read.val_main_cst_21, Read.val_main_v82, Read.val_main_v83, Read.val_main_cst_22, Read.val_main_v84, Read.val_main_v85, Read.val_main_cst_23, Read.val_main_v86, Read.val_main_v87, Read.val_main_cst_24, Read.val_main_call9_v0, Read.val_main_call9_v1, Read.val_main_v88, Read.val_main_v89, Read.val_main_v90, Read.val_main_cst_25, Read.val_main_v91, Read.val_main_v92, Read.val_main_cst_26, Read.val_main_v93, Read.val_main_v94, Read.val_main_cst_27, Read.val_main_v95, Read.val_main_v96, Read.val_main_v97, Read.val_main_v98, Read.val_main_v99, Read.val_main_v100, Read.val_main_v101, Read.val_main_v102, Read.val_main_v103, Read.val_main_cst_28, Read.val_main_v104]; rfl))

end Cert.ReferenceIdeal.RefRun

end
-- ==== Proof.ReferenceWin09.lean ====
/-
  Operations 242 … 258 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win9 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v42 : W (Proc.devRef .tc main_v42) = Read.val_main_v42 (F := Ideal) x0 x5 x6 x7 x8) (l_v58 : W (Proc.devRef .tc main_v58) = Read.val_main_v58 (F := Ideal) x0 x2) (l_v79 : W (Proc.devRef .tc main_v79) = Read.val_main_v79 (F := Ideal) x0 x3) (l_v104 : W (Proc.devRef .tc main_v104) = Read.val_main_v104 (F := Ideal) x0 x2 x4) :
    StableHlo.after (((Value.ops (F := Ideal)).drop 242).take 17) W (Proc.devRef .tc main_cst_0) = Read.val_main_cst_0 (F := Ideal)
    ∧ StableHlo.after (((Value.ops (F := Ideal)).drop 242).take 17) W (Proc.devRef .tc main_v109) = Read.val_main_v109 (F := Ideal) x0 x5 x6 x7 x8
    ∧ StableHlo.after (((Value.ops (F := Ideal)).drop 242).take 17) W (Proc.devRef .tc main_v111) = Read.val_main_v111 (F := Ideal) x0 x2
    ∧ StableHlo.after (((Value.ops (F := Ideal)).drop 242).take 17) W (Proc.devRef .tc main_v113) = Read.val_main_v113 (F := Ideal) x0 x3
    ∧ StableHlo.after (((Value.ops (F := Ideal)).drop 242).take 17) W (Proc.devRef .tc main_v115) = Read.val_main_v115 (F := Ideal) x0 x2 x4
    ∧ StableHlo.after (((Value.ops (F := Ideal)).drop 242).take 17) W (Proc.devRef .tc main_arg0) = x0
    ∧ StableHlo.after (((Value.ops (F := Ideal)).drop 242).take 17) W (Proc.devRef .tc main_arg1) = x1
    ∧ StableHlo.after (((Value.ops (F := Ideal)).drop 242).take 17) W (Proc.devRef .tc main_arg2) = x2
    ∧ StableHlo.after (((Value.ops (F := Ideal)).drop 242).take 17) W (Proc.devRef .tc main_arg3) = x3
    ∧ StableHlo.after (((Value.ops (F := Ideal)).drop 242).take 17) W (Proc.devRef .tc main_arg4) = x4
    ∧ StableHlo.after (((Value.ops (F := Ideal)).drop 242).take 17) W (Proc.devRef .tc main_arg5) = x5
    ∧ StableHlo.after (((Value.ops (F := Ideal)).drop 242).take 17) W (Proc.devRef .tc main_arg6) = x6
    ∧ StableHlo.after (((Value.ops (F := Ideal)).drop 242).take 17) W (Proc.devRef .tc main_arg7) = x7
    ∧ StableHlo.after (((Value.ops (F := Ideal)).drop 242).take 17) W (Proc.devRef .tc main_arg8) = x8 := by
  refine ⟨?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v42, l_v58, l_v79, l_v104, Read.val_main_cst_29, Read.val_main_v105, Read.val_main_v106, Read.val_main_cst_30, Read.val_main_v107, Read.val_main_cst_31, Read.val_main_v108, Read.val_main_v109, Read.val_main_cst_32, Read.val_main_v110, Read.val_main_v111, Read.val_main_cst_33, Read.val_main_v112, Read.val_main_v113, Read.val_main_cst_34, Read.val_main_v114, Read.val_main_v115]; done) | (simp only [a0, a1, a2, a3, a4, a5, a6, a7, a8, l_cst_0, l_v42, l_v58, l_v79, l_v104, Read.val_main_cst_29, Read.val_main_v105, Read.val_main_v106, Read.val_main_cst_30, Read.val_main_v107, Read.val_main_cst_31, Read.val_main_v108, Read.val_main_v109, Read.val_main_cst_32, Read.val_main_v110, Read.val_main_v111, Read.val_main_cst_33, Read.val_main_v112, Read.val_main_v113, Read.val_main_cst_34, Read.val_main_v114, Read.val_main_v115]; rfl))

end Cert.ReferenceIdeal.RefRun

end
-- ==== Proof.ReferenceWin10.lean ====
/-
  Operations 259 … 259 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

theorem after_singleton10 (op : HloOp τ sig (Elt Ideal)) (V : Valuation τ sig (Elt Ideal)) : StableHlo.after [op] V = op.result V := rfl

set_option maxHeartbeats 8000000 in
theorem win10 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v109 : W (Proc.devRef .tc main_v109) = Read.val_main_v109 (F := Ideal) x0 x5 x6 x7 x8) (l_v111 : W (Proc.devRef .tc main_v111) = Read.val_main_v111 (F := Ideal) x0 x2) (l_v113 : W (Proc.devRef .tc main_v113) = Read.val_main_v113 (F := Ideal) x0 x3) (l_v115 : W (Proc.devRef .tc main_v115) = Read.val_main_v115 (F := Ideal) x0 x2 x4) :
    StableHlo.after (((Value.ops (F := Ideal)).drop 259).take 1) W (Proc.devRef .tc main_cst_0) = Read.val_main_cst_0 (F := Ideal)
    ∧ StableHlo.after (((Value.ops (F := Ideal)).drop 259).take 1) W (Proc.devRef .tc main_v116) = Read.val_main_v116 (F := Ideal) x0 x2 x3 x4 x5 x6 x7 x8
    ∧ StableHlo.after (((Value.ops (F := Ideal)).drop 259).take 1) W (Proc.devRef .tc main_arg0) = x0
    ∧ StableHlo.after (((Value.ops (F := Ideal)).drop 259).take 1) W (Proc.devRef .tc main_arg1) = x1
    ∧ StableHlo.after (((Value.ops (F := Ideal)).drop 259).take 1) W (Proc.devRef .tc main_arg2) = x2
    ∧ StableHlo.after (((Value.ops (F := Ideal)).drop 259).take 1) W (Proc.devRef .tc main_arg3) = x3
    ∧ StableHlo.after (((Value.ops (F := Ideal)).drop 259).take 1) W (Proc.devRef .tc main_arg4) = x4
    ∧ StableHlo.after (((Value.ops (F := Ideal)).drop 259).take 1) W (Proc.devRef .tc main_arg5) = x5
    ∧ StableHlo.after (((Value.ops (F := Ideal)).drop 259).take 1) W (Proc.devRef .tc main_arg6) = x6
    ∧ StableHlo.after (((Value.ops (F := Ideal)).drop 259).take 1) W (Proc.devRef .tc main_arg7) = x7
    ∧ StableHlo.after (((Value.ops (F := Ideal)).drop 259).take 1) W (Proc.devRef .tc main_arg8) = x8 := by
  refine ⟨?_, ?_, ?_, ?_, ?_, ?_, ?_, ?_, ?_, ?_, ?_⟩
  pick_goal 2
  · dsimp only [Value.ops, List.drop, List.take]
    rw [after_singleton10, StableHlo.nary_result]
    refine Eq.trans (show _ = concatenate S97 0 [⟨S1, W (Proc.devRef .tc main_v109)⟩, ⟨S32, W (Proc.devRef .tc main_v111)⟩, ⟨S32, W (Proc.devRef .tc main_v113)⟩, ⟨S32, W (Proc.devRef .tc main_v115)⟩] concatenates_S1_S32_S32_S32_S97_d0 from rfl) ?_
    rw [l_v109, l_v111, l_v113, l_v115]
    rfl
  all_goals (dsimp only [Value.ops, List.drop, List.take]; after_results)
  all_goals (first | assumption | (simp only [a0, a1, a2, a3, a4, a5, a6, a7, a8, l_cst_0, l_v109, l_v111, l_v113, l_v115, Read.val_main_v116]; done) | (simp only [a0, a1, a2, a3, a4, a5, a6, a7, a8, l_cst_0, l_v109, l_v111, l_v113, l_v115, Read.val_main_v116]; rfl))

end Cert.ReferenceIdeal.RefRun

end
-- ==== Proof.ReferenceWin11.lean ====
/-
  Operations 260 … 293 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win11 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_cst_0 : W (Proc.devRef .tc main_cst_0) = Read.val_main_cst_0 (F := Ideal)) (l_v116 : W (Proc.devRef .tc main_v116) = Read.val_main_v116 (F := Ideal) x0 x2 x3 x4 x5 x6 x7 x8) :
    StableHlo.after (((Value.ops (F := Ideal)).drop 260).take 34) W (Proc.devRef .tc main_v116) = Read.val_main_v116 (F := Ideal) x0 x2 x3 x4 x5 x6 x7 x8
    ∧ StableHlo.after (((Value.ops (F := Ideal)).drop 260).take 34) W (Proc.devRef .tc main_v120) = Read.val_main_v120 (F := Ideal) x1
    ∧ StableHlo.after (((Value.ops (F := Ideal)).drop 260).take 34) W (Proc.devRef .tc main_v125) = Read.val_main_v125 (F := Ideal) x1
    ∧ StableHlo.after (((Value.ops (F := Ideal)).drop 260).take 34) W (Proc.devRef .tc main_v126) = Read.val_main_v126 (F := Ideal) x1
    ∧ StableHlo.after (((Value.ops (F := Ideal)).drop 260).take 34) W (Proc.devRef .tc main_v127) = Read.val_main_v127 (F := Ideal) x2
    ∧ StableHlo.after (((Value.ops (F := Ideal)).drop 260).take 34) W (Proc.devRef .tc main_v128) = Read.val_main_v128 (F := Ideal) x1
    ∧ StableHlo.after (((Value.ops (F := Ideal)).drop 260).take 34) W (Proc.devRef .tc main_v129) = Read.val_main_v129 (F := Ideal) x1 x5
    ∧ StableHlo.after (((Value.ops (F := Ideal)).drop 260).take 34) W (Proc.devRef .tc main_arg0) = x0
    ∧ StableHlo.after (((Value.ops (F := Ideal)).drop 260).take 34) W (Proc.devRef .tc main_arg1) = x1
    ∧ StableHlo.after (((Value.ops (F := Ideal)).drop 260).take 34) W (Proc.devRef .tc main_arg2) = x2
    ∧ StableHlo.after (((Value.ops (F := Ideal)).drop 260).take 34) W (Proc.devRef .tc main_arg3) = x3
    ∧ StableHlo.after (((Value.ops (F := Ideal)).drop 260).take 34) W (Proc.devRef .tc main_arg4) = x4
    ∧ StableHlo.after (((Value.ops (F := Ideal)).drop 260).take 34) W (Proc.devRef .tc main_arg5) = x5
    ∧ StableHlo.after (((Value.ops (F := Ideal)).drop 260).take 34) W (Proc.devRef .tc main_arg6) = x6
    ∧ StableHlo.after (((Value.ops (F := Ideal)).drop 260).take 34) W (Proc.devRef .tc main_arg7) = x7
    ∧ StableHlo.after (((Value.ops (F := Ideal)).drop 260).take 34) W (Proc.devRef .tc main_arg8) = x8 := by
  refine ⟨?_, ?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_cst_0, l_v116, Read.val_main_v117, Read.val_main_v118, Read.val_main_v119, Read.val_main_v120, Read.val_main_v121, Read.val_main_v122, Read.val_main_v123, Read.val_main_v124, Read.val_main_v125, Read.val_main_v126, Read.val_main_v127, Read.val_main_v128, Read.val_main_call10_c, Read.val_main_call10_v0, Read.val_main_call10_v1, Read.val_main_call10_c_0, Read.val_main_call10_v2, Read.val_main_call10_v3, Read.val_main_call10_v4, Read.val_main_call10_v5, Read.val_main_call10_c_1, Read.val_main_call10_c_2, Read.val_main_call10_v6, Read.val_main_call10_v7, Read.val_main_call10_v8, Read.val_main_call10_v9, Read.val_main_call10_v10, Read.val_main_call10_v11, Read.val_main_call10_c_3, Read.val_main_call10_v12, Read.val_main_call10_v13, Read.val_main_call10_cst, Read.val_main_call10_v14, Read.val_main_v129]; done) | (simp only [a0, a1, a2, a3, a4, a5, a6, a7, a8, l_cst_0, l_v116, Read.val_main_v117, Read.val_main_v118, Read.val_main_v119, Read.val_main_v120, Read.val_main_v121, Read.val_main_v122, Read.val_main_v123, Read.val_main_v124, Read.val_main_v125, Read.val_main_v126, Read.val_main_v127, Read.val_main_v128, Read.val_main_call10_c, Read.val_main_call10_v0, Read.val_main_call10_v1, Read.val_main_call10_c_0, Read.val_main_call10_v2, Read.val_main_call10_v3, Read.val_main_call10_v4, Read.val_main_call10_v5, Read.val_main_call10_c_1, Read.val_main_call10_c_2, Read.val_main_call10_v6, Read.val_main_call10_v7, Read.val_main_call10_v8, Read.val_main_call10_v9, Read.val_main_call10_v10, Read.val_main_call10_v11, Read.val_main_call10_c_3, Read.val_main_call10_v12, Read.val_main_call10_v13, Read.val_main_call10_cst, Read.val_main_call10_v14, Read.val_main_v129]; rfl))

end Cert.ReferenceIdeal.RefRun

end
-- ==== Proof.ReferenceWin12.lean ====
/-
  Operations 294 … 315 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win12 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v120 : W (Proc.devRef .tc main_v120) = Read.val_main_v120 (F := Ideal) x1) (l_v125 : W (Proc.devRef .tc main_v125) = Read.val_main_v125 (F := Ideal) x1) (l_v126 : W (Proc.devRef .tc main_v126) = Read.val_main_v126 (F := Ideal) x1) (l_v127 : W (Proc.devRef .tc main_v127) = Read.val_main_v127 (F := Ideal) x2) (l_v128 : W (Proc.devRef .tc main_v128) = Read.val_main_v128 (F := Ideal) x1) (l_v129 : W (Proc.devRef .tc main_v129) = Read.val_main_v129 (F := Ideal) x1 x5) :
    StableHlo.after (((Value.ops (F := Ideal)).drop 294).take 22) W (Proc.devRef .tc main_v116) = Read.val_main_v116 (F := Ideal) x0 x2 x3 x4 x5 x6 x7 x8
    ∧ StableHlo.after (((Value.ops (F := Ideal)).drop 294).take 22) W (Proc.devRef .tc main_v120) = Read.val_main_v120 (F := Ideal) x1
    ∧ StableHlo.after (((Value.ops (F := Ideal)).drop 294).take 22) W (Proc.devRef .tc main_v125) = Read.val_main_v125 (F := Ideal) x1
    ∧ StableHlo.after (((Value.ops (F := Ideal)).drop 294).take 22) W (Proc.devRef .tc main_v126) = Read.val_main_v126 (F := Ideal) x1
    ∧ StableHlo.after (((Value.ops (F := Ideal)).drop 294).take 22) W (Proc.devRef .tc main_v127) = Read.val_main_v127 (F := Ideal) x2
    ∧ StableHlo.after (((Value.ops (F := Ideal)).drop 294).take 22) W (Proc.devRef .tc main_v128) = Read.val_main_v128 (F := Ideal) x1
    ∧ StableHlo.after (((Value.ops (F := Ideal)).drop 294).take 22) W (Proc.devRef .tc main_v129) = Read.val_main_v129 (F := Ideal) x1 x5
    ∧ StableHlo.after (((Value.ops (F := Ideal)).drop 294).take 22) W (Proc.devRef .tc main_v130) = Read.val_main_v130 (F := Ideal) x1 x6
    ∧ StableHlo.after (((Value.ops (F := Ideal)).drop 294).take 22) W (Proc.devRef .tc main_arg0) = x0
    ∧ StableHlo.after (((Value.ops (F := Ideal)).drop 294).take 22) W (Proc.devRef .tc main_arg1) = x1
    ∧ StableHlo.after (((Value.ops (F := Ideal)).drop 294).take 22) W (Proc.devRef .tc main_arg2) = x2
    ∧ StableHlo.after (((Value.ops (F := Ideal)).drop 294).take 22) W (Proc.devRef .tc main_arg3) = x3
    ∧ StableHlo.after (((Value.ops (F := Ideal)).drop 294).take 22) W (Proc.devRef .tc main_arg4) = x4
    ∧ StableHlo.after (((Value.ops (F := Ideal)).drop 294).take 22) W (Proc.devRef .tc main_arg5) = x5
    ∧ StableHlo.after (((Value.ops (F := Ideal)).drop 294).take 22) W (Proc.devRef .tc main_arg6) = x6
    ∧ StableHlo.after (((Value.ops (F := Ideal)).drop 294).take 22) W (Proc.devRef .tc main_arg7) = x7
    ∧ StableHlo.after (((Value.ops (F := Ideal)).drop 294).take 22) W (Proc.devRef .tc main_arg8) = x8 := by
  refine ⟨?_, ?_, ?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_v116, l_v120, l_v125, l_v126, l_v127, l_v128, l_v129, Read.val_main_call11_c, Read.val_main_call11_v0, Read.val_main_call11_v1, Read.val_main_call11_c_0, Read.val_main_call11_v2, Read.val_main_call11_v3, Read.val_main_call11_v4, Read.val_main_call11_v5, Read.val_main_call11_c_1, Read.val_main_call11_c_2, Read.val_main_call11_v6, Read.val_main_call11_v7, Read.val_main_call11_v8, Read.val_main_call11_v9, Read.val_main_call11_v10, Read.val_main_call11_v11, Read.val_main_call11_c_3, Read.val_main_call11_v12, Read.val_main_call11_v13, Read.val_main_call11_cst, Read.val_main_call11_v14, Read.val_main_v130]; done) | (simp only [a0, a1, a2, a3, a4, a5, a6, a7, a8, l_v116, l_v120, l_v125, l_v126, l_v127, l_v128, l_v129, Read.val_main_call11_c, Read.val_main_call11_v0, Read.val_main_call11_v1, Read.val_main_call11_c_0, Read.val_main_call11_v2, Read.val_main_call11_v3, Read.val_main_call11_v4, Read.val_main_call11_v5, Read.val_main_call11_c_1, Read.val_main_call11_c_2, Read.val_main_call11_v6, Read.val_main_call11_v7, Read.val_main_call11_v8, Read.val_main_call11_v9, Read.val_main_call11_v10, Read.val_main_call11_v11, Read.val_main_call11_c_3, Read.val_main_call11_v12, Read.val_main_call11_v13, Read.val_main_call11_cst, Read.val_main_call11_v14, Read.val_main_v130]; rfl))

end Cert.ReferenceIdeal.RefRun

end
-- ==== Proof.ReferenceWin13.lean ====
/-
  Operations 316 … 337 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win13 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v120 : W (Proc.devRef .tc main_v120) = Read.val_main_v120 (F := Ideal) x1) (l_v125 : W (Proc.devRef .tc main_v125) = Read.val_main_v125 (F := Ideal) x1) (l_v126 : W (Proc.devRef .tc main_v126) = Read.val_main_v126 (F := Ideal) x1) (l_v127 : W (Proc.devRef .tc main_v127) = Read.val_main_v127 (F := Ideal) x2) (l_v128 : W (Proc.devRef .tc main_v128) = Read.val_main_v128 (F := Ideal) x1) (l_v129 : W (Proc.devRef .tc main_v129) = Read.val_main_v129 (F := Ideal) x1 x5) (l_v130 : W (Proc.devRef .tc main_v130) = Read.val_main_v130 (F := Ideal) x1 x6) :
    StableHlo.after (((Value.ops (F := Ideal)).drop 316).take 22) W (Proc.devRef .tc main_v116) = Read.val_main_v116 (F := Ideal) x0 x2 x3 x4 x5 x6 x7 x8
    ∧ StableHlo.after (((Value.ops (F := Ideal)).drop 316).take 22) W (Proc.devRef .tc main_v120) = Read.val_main_v120 (F := Ideal) x1
    ∧ StableHlo.after (((Value.ops (F := Ideal)).drop 316).take 22) W (Proc.devRef .tc main_v125) = Read.val_main_v125 (F := Ideal) x1
    ∧ StableHlo.after (((Value.ops (F := Ideal)).drop 316).take 22) W (Proc.devRef .tc main_v126) = Read.val_main_v126 (F := Ideal) x1
    ∧ StableHlo.after (((Value.ops (F := Ideal)).drop 316).take 22) W (Proc.devRef .tc main_v127) = Read.val_main_v127 (F := Ideal) x2
    ∧ StableHlo.after (((Value.ops (F := Ideal)).drop 316).take 22) W (Proc.devRef .tc main_v128) = Read.val_main_v128 (F := Ideal) x1
    ∧ StableHlo.after (((Value.ops (F := Ideal)).drop 316).take 22) W (Proc.devRef .tc main_v129) = Read.val_main_v129 (F := Ideal) x1 x5
    ∧ StableHlo.after (((Value.ops (F := Ideal)).drop 316).take 22) W (Proc.devRef .tc main_v130) = Read.val_main_v130 (F := Ideal) x1 x6
    ∧ StableHlo.after (((Value.ops (F := Ideal)).drop 316).take 22) W (Proc.devRef .tc main_v131) = Read.val_main_v131 (F := Ideal) x1 x7
    ∧ StableHlo.after (((Value.ops (F := Ideal)).drop 316).take 22) W (Proc.devRef .tc main_arg0) = x0
    ∧ StableHlo.after (((Value.ops (F := Ideal)).drop 316).take 22) W (Proc.devRef .tc main_arg1) = x1
    ∧ StableHlo.after (((Value.ops (F := Ideal)).drop 316).take 22) W (Proc.devRef .tc main_arg2) = x2
    ∧ StableHlo.after (((Value.ops (F := Ideal)).drop 316).take 22) W (Proc.devRef .tc main_arg3) = x3
    ∧ StableHlo.after (((Value.ops (F := Ideal)).drop 316).take 22) W (Proc.devRef .tc main_arg4) = x4
    ∧ StableHlo.after (((Value.ops (F := Ideal)).drop 316).take 22) W (Proc.devRef .tc main_arg5) = x5
    ∧ StableHlo.after (((Value.ops (F := Ideal)).drop 316).take 22) W (Proc.devRef .tc main_arg6) = x6
    ∧ StableHlo.after (((Value.ops (F := Ideal)).drop 316).take 22) W (Proc.devRef .tc main_arg7) = x7
    ∧ StableHlo.after (((Value.ops (F := Ideal)).drop 316).take 22) W (Proc.devRef .tc main_arg8) = x8 := by
  refine ⟨?_, ?_, ?_, ?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_v116, l_v120, l_v125, l_v126, l_v127, l_v128, l_v129, l_v130, Read.val_main_call12_c, Read.val_main_call12_v0, Read.val_main_call12_v1, Read.val_main_call12_c_0, Read.val_main_call12_v2, Read.val_main_call12_v3, Read.val_main_call12_v4, Read.val_main_call12_v5, Read.val_main_call12_c_1, Read.val_main_call12_c_2, Read.val_main_call12_v6, Read.val_main_call12_v7, Read.val_main_call12_v8, Read.val_main_call12_v9, Read.val_main_call12_v10, Read.val_main_call12_v11, Read.val_main_call12_c_3, Read.val_main_call12_v12, Read.val_main_call12_v13, Read.val_main_call12_cst, Read.val_main_call12_v14, Read.val_main_v131]; done) | (simp only [a0, a1, a2, a3, a4, a5, a6, a7, a8, l_v116, l_v120, l_v125, l_v126, l_v127, l_v128, l_v129, l_v130, Read.val_main_call12_c, Read.val_main_call12_v0, Read.val_main_call12_v1, Read.val_main_call12_c_0, Read.val_main_call12_v2, Read.val_main_call12_v3, Read.val_main_call12_v4, Read.val_main_call12_v5, Read.val_main_call12_c_1, Read.val_main_call12_c_2, Read.val_main_call12_v6, Read.val_main_call12_v7, Read.val_main_call12_v8, Read.val_main_call12_v9, Read.val_main_call12_v10, Read.val_main_call12_v11, Read.val_main_call12_c_3, Read.val_main_call12_v12, Read.val_main_call12_v13, Read.val_main_call12_cst, Read.val_main_call12_v14, Read.val_main_v131]; rfl))

end Cert.ReferenceIdeal.RefRun

end
-- ==== Proof.ReferenceWin14.lean ====
/-
  Operations 338 … 373 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win14 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v120 : W (Proc.devRef .tc main_v120) = Read.val_main_v120 (F := Ideal) x1) (l_v125 : W (Proc.devRef .tc main_v125) = Read.val_main_v125 (F := Ideal) x1) (l_v126 : W (Proc.devRef .tc main_v126) = Read.val_main_v126 (F := Ideal) x1) (l_v127 : W (Proc.devRef .tc main_v127) = Read.val_main_v127 (F := Ideal) x2) (l_v128 : W (Proc.devRef .tc main_v128) = Read.val_main_v128 (F := Ideal) x1) (l_v129 : W (Proc.devRef .tc main_v129) = Read.val_main_v129 (F := Ideal) x1 x5) (l_v130 : W (Proc.devRef .tc main_v130) = Read.val_main_v130 (F := Ideal) x1 x6) (l_v131 : W (Proc.devRef .tc main_v131) = Read.val_main_v131 (F := Ideal) x1 x7) :
    StableHlo.after (((Value.ops (F := Ideal)).drop 338).take 36) W (Proc.devRef .tc main_v116) = Read.val_main_v116 (F := Ideal) x0 x2 x3 x4 x5 x6 x7 x8
    ∧ StableHlo.after (((Value.ops (F := Ideal)).drop 338).take 36) W (Proc.devRef .tc main_v120) = Read.val_main_v120 (F := Ideal) x1
    ∧ StableHlo.after (((Value.ops (F := Ideal)).drop 338).take 36) W (Proc.devRef .tc main_v125) = Read.val_main_v125 (F := Ideal) x1
    ∧ StableHlo.after (((Value.ops (F := Ideal)).drop 338).take 36) W (Proc.devRef .tc main_v126) = Read.val_main_v126 (F := Ideal) x1
    ∧ StableHlo.after (((Value.ops (F := Ideal)).drop 338).take 36) W (Proc.devRef .tc main_v127) = Read.val_main_v127 (F := Ideal) x2
    ∧ StableHlo.after (((Value.ops (F := Ideal)).drop 338).take 36) W (Proc.devRef .tc main_v140) = Read.val_main_v140 (F := Ideal) x1 x5 x6 x7
    ∧ StableHlo.after (((Value.ops (F := Ideal)).drop 338).take 36) W (Proc.devRef .tc main_v141) = Read.val_main_v141 (F := Ideal) x1 x5 x6
    ∧ StableHlo.after (((Value.ops (F := Ideal)).drop 338).take 36) W (Proc.devRef .tc main_v143) = Read.val_main_v143 (F := Ideal) x1 x5 x8
    ∧ StableHlo.after (((Value.ops (F := Ideal)).drop 338).take 36) W (Proc.devRef .tc main_arg0) = x0
    ∧ StableHlo.after (((Value.ops (F := Ideal)).drop 338).take 36) W (Proc.devRef .tc main_arg1) = x1
    ∧ StableHlo.after (((Value.ops (F := Ideal)).drop 338).take 36) W (Proc.devRef .tc main_arg2) = x2
    ∧ StableHlo.after (((Value.ops (F := Ideal)).drop 338).take 36) W (Proc.devRef .tc main_arg3) = x3
    ∧ StableHlo.after (((Value.ops (F := Ideal)).drop 338).take 36) W (Proc.devRef .tc main_arg4) = x4
    ∧ StableHlo.after (((Value.ops (F := Ideal)).drop 338).take 36) W (Proc.devRef .tc main_arg5) = x5
    ∧ StableHlo.after (((Value.ops (F := Ideal)).drop 338).take 36) W (Proc.devRef .tc main_arg6) = x6
    ∧ StableHlo.after (((Value.ops (F := Ideal)).drop 338).take 36) W (Proc.devRef .tc main_arg7) = x7
    ∧ StableHlo.after (((Value.ops (F := Ideal)).drop 338).take 36) W (Proc.devRef .tc main_arg8) = x8 := by
  refine ⟨?_, ?_, ?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_v116, l_v120, l_v125, l_v126, l_v127, l_v128, l_v129, l_v130, l_v131, Read.val_main_call13_c, Read.val_main_call13_v0, Read.val_main_call13_v1, Read.val_main_call13_c_0, Read.val_main_call13_v2, Read.val_main_call13_v3, Read.val_main_call13_v4, Read.val_main_call13_v5, Read.val_main_call13_c_1, Read.val_main_call13_c_2, Read.val_main_call13_v6, Read.val_main_call13_v7, Read.val_main_call13_v8, Read.val_main_call13_v9, Read.val_main_call13_v10, Read.val_main_call13_v11, Read.val_main_call13_c_3, Read.val_main_call13_v12, Read.val_main_call13_v13, Read.val_main_call13_cst, Read.val_main_call13_v14, Read.val_main_v132, Read.val_main_v133, Read.val_main_v134, Read.val_main_v135, Read.val_main_v136, Read.val_main_v137, Read.val_main_cst_35, Read.val_main_v138, Read.val_main_v139, Read.val_main_call14_cst, Read.val_main_call14_v0, Read.val_main_v140, Read.val_main_v141, Read.val_main_v142, Read.val_main_v143]; done) | (simp only [a0, a1, a2, a3, a4, a5, a6, a7, a8, l_v116, l_v120, l_v125, l_v126, l_v127, l_v128, l_v129, l_v130, l_v131, Read.val_main_call13_c, Read.val_main_call13_v0, Read.val_main_call13_v1, Read.val_main_call13_c_0, Read.val_main_call13_v2, Read.val_main_call13_v3, Read.val_main_call13_v4, Read.val_main_call13_v5, Read.val_main_call13_c_1, Read.val_main_call13_c_2, Read.val_main_call13_v6, Read.val_main_call13_v7, Read.val_main_call13_v8, Read.val_main_call13_v9, Read.val_main_call13_v10, Read.val_main_call13_v11, Read.val_main_call13_c_3, Read.val_main_call13_v12, Read.val_main_call13_v13, Read.val_main_call13_cst, Read.val_main_call13_v14, Read.val_main_v132, Read.val_main_v133, Read.val_main_v134, Read.val_main_v135, Read.val_main_v136, Read.val_main_v137, Read.val_main_cst_35, Read.val_main_v138, Read.val_main_v139, Read.val_main_call14_cst, Read.val_main_call14_v0, Read.val_main_v140, Read.val_main_v141, Read.val_main_v142, Read.val_main_v143]; rfl))

end Cert.ReferenceIdeal.RefRun

end
-- ==== Proof.ReferenceWin15.lean ====
/-
  Operations 374 … 406 of the reference, run from any contents of the buffers in which the values the earlier
  operations computed and later ones still read are the stage functions of the arguments: afterwards the values still
  read by later operations are again the stage functions of the arguments, and the arguments are as they were.
  (This stretch holds the maximum over the two classes and its subtraction from the two class maps; the operations of
  the outlined function carry their values through transports along equalities of buffer types that hold by
  computation: a transport there and back is removed as a pair, the one at the map read from outside and the one at
  the result each by its own evaluation, so that the class maximum itself is never opened.)
-/
import proofs.«111430_j72988674228458_2_alg».proof.Proof.ReferenceRead
import proofs.«111430_j72988674228458_2_alg».proof.Proof.LibFold
import Idealize.ShloMosaic.Lib.StableHlo.Run

set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

/-- A value carried into a buffer's type and back is the value. -/
theorem ofBuf_toBuf15 {T : BufTy} (x : TRef sig T) (v : T.Contents (Elt Ideal)) : x.ofBuf (x.toBuf v) = v := by
  obtain ⟨r, h, hd, hs⟩ := x; subst h; rfl

theorem leaf15 (h1 : main_v120.ty = (⟨S2x32x256x256, .f32⟩ : BufTy)) (h2 : main_v120.space ≠ .host) (h3 : main_v120.isScoped = false)
    (v : (⟨S2x32x256x256, .f32⟩ : BufTy).Contents (Elt Ideal)) : (TRef.of main_v120 h1 h2 h3).ofBuf v = v := rfl

theorem root15 (h1 : main_call16_v5.ty = (⟨S2x32x256x256, .f32⟩ : BufTy)) (h2 : main_call16_v5.space ≠ .host) (h3 : main_call16_v5.isScoped = false)
    (z : (⟨S2x32x256x256, .f32⟩ : BufTy).Contents (Elt Ideal)) : (TRef.of main_call16_v5 h1 h2 h3).toBuf z = z := rfl

set_option maxHeartbeats 8000000 in
theorem win15 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v120 : W (Proc.devRef .tc main_v120) = Read.val_main_v120 (F := Ideal) x1) (l_v125 : W (Proc.devRef .tc main_v125) = Read.val_main_v125 (F := Ideal) x1) (l_v126 : W (Proc.devRef .tc main_v126) = Read.val_main_v126 (F := Ideal) x1) (l_v127 : W (Proc.devRef .tc main_v127) = Read.val_main_v127 (F := Ideal) x2) (l_v140 : W (Proc.devRef .tc main_v140) = Read.val_main_v140 (F := Ideal) x1 x5 x6 x7) (l_v141 : W (Proc.devRef .tc main_v141) = Read.val_main_v141 (F := Ideal) x1 x5 x6) (l_v143 : W (Proc.devRef .tc main_v143) = Read.val_main_v143 (F := Ideal) x1 x5 x8) :
    StableHlo.after (((Value.ops (F := Ideal)).drop 374).take 33) W (Proc.devRef .tc main_v116) = Read.val_main_v116 (F := Ideal) x0 x2 x3 x4 x5 x6 x7 x8
    ∧ StableHlo.after (((Value.ops (F := Ideal)).drop 374).take 33) W (Proc.devRef .tc main_v125) = Read.val_main_v125 (F := Ideal) x1
    ∧ StableHlo.after (((Value.ops (F := Ideal)).drop 374).take 33) W (Proc.devRef .tc main_v126) = Read.val_main_v126 (F := Ideal) x1
    ∧ StableHlo.after (((Value.ops (F := Ideal)).drop 374).take 33) W (Proc.devRef .tc main_v127) = Read.val_main_v127 (F := Ideal) x2
    ∧ StableHlo.after (((Value.ops (F := Ideal)).drop 374).take 33) W (Proc.devRef .tc main_v159) = Read.val_main_v159 (F := Ideal) x1 x5 x6 x7 x8
    ∧ StableHlo.after (((Value.ops (F := Ideal)).drop 374).take 33) W (Proc.devRef .tc main_call16_v5) = Read.val_main_call16_v5 (F := Ideal) x1
    ∧ StableHlo.after (((Value.ops (F := Ideal)).drop 374).take 33) W (Proc.devRef .tc main_arg0) = x0
    ∧ StableHlo.after (((Value.ops (F := Ideal)).drop 374).take 33) W (Proc.devRef .tc main_arg1) = x1
    ∧ StableHlo.after (((Value.ops (F := Ideal)).drop 374).take 33) W (Proc.devRef .tc main_arg2) = x2
    ∧ StableHlo.after (((Value.ops (F := Ideal)).drop 374).take 33) W (Proc.devRef .tc main_arg3) = x3
    ∧ StableHlo.after (((Value.ops (F := Ideal)).drop 374).take 33) W (Proc.devRef .tc main_arg4) = x4
    ∧ StableHlo.after (((Value.ops (F := Ideal)).drop 374).take 33) W (Proc.devRef .tc main_arg5) = x5
    ∧ StableHlo.after (((Value.ops (F := Ideal)).drop 374).take 33) W (Proc.devRef .tc main_arg6) = x6
    ∧ StableHlo.after (((Value.ops (F := Ideal)).drop 374).take 33) W (Proc.devRef .tc main_arg7) = x7
    ∧ StableHlo.after (((Value.ops (F := Ideal)).drop 374).take 33) W (Proc.devRef .tc main_arg8) = x8 := by
  refine ⟨?_, ?_, ?_, ?_, ?_, ?_, ?_, ?_, ?_, ?_, ?_, ?_, ?_, ?_, ?_⟩
  all_goals (dsimp only [Value.ops, List.drop, List.take]; after_results)
  all_goals (try assumption)
  all_goals (try simp only [a0, a1, a2, a3, a4, a5, a6, a7, a8, l_v116, l_v120, l_v125, l_v126, l_v127, l_v140, l_v141, l_v143])
  all_goals (try simp only [Read.val_main_v144, Read.val_main_v145, Read.val_main_cst_36, Read.val_main_v146, Read.val_main_v147, Read.val_main_call15_cst, Read.val_main_call15_v0, Read.val_main_v148, Read.val_main_v149, Read.val_main_v150, Read.val_main_cst_37, Read.val_main_v151, Read.val_main_v152, Read.val_main_c_38, Read.val_main_v153, Read.val_main_v154, Read.val_main_cst_39, Read.val_main_v155, Read.val_main_cst_40, Read.val_main_v156, Read.val_main_v157, Read.val_main_cst_41, Read.val_main_v158, Read.val_main_cst_42, Read.val_main_v159, Read.val_main_call16_cst, Read.val_main_call16_v0, Read.val_main_call16_cst_0, Read.val_main_call16_v1, Read.val_main_call16_v2, Read.val_main_call16_v3, Read.val_main_call16_v4, Read.val_main_call16_v5])
  all_goals (try simp only [ofBuf_toBuf15])
  all_goals (try simp only [leaf15])
  all_goals (first | exact root15 _ _ _ _ | rfl)

end Cert.ReferenceIdeal.RefRun

end
-- ==== Proof.ReferenceWin16.lean ====
/-
  Operations 407 … 432 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win16 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v125 : W (Proc.devRef .tc main_v125) = Read.val_main_v125 (F := Ideal) x1) (l_v126 : W (Proc.devRef .tc main_v126) = Read.val_main_v126 (F := Ideal) x1) (l_v127 : W (Proc.devRef .tc main_v127) = Read.val_main_v127 (F := Ideal) x2) (l_v159 : W (Proc.devRef .tc main_v159) = Read.val_main_v159 (F := Ideal) x1 x5 x6 x7 x8) (l_call16_v5 : W (Proc.devRef .tc main_call16_v5) = Read.val_main_call16_v5 (F := Ideal) x1) :
    StableHlo.after (((Value.ops (F := Ideal)).drop 407).take 26) W (Proc.devRef .tc main_v116) = Read.val_main_v116 (F := Ideal) x0 x2 x3 x4 x5 x6 x7 x8
    ∧ StableHlo.after (((Value.ops (F := Ideal)).drop 407).take 26) W (Proc.devRef .tc main_v125) = Read.val_main_v125 (F := Ideal) x1
    ∧ StableHlo.after (((Value.ops (F := Ideal)).drop 407).take 26) W (Proc.devRef .tc main_v126) = Read.val_main_v126 (F := Ideal) x1
    ∧ StableHlo.after (((Value.ops (F := Ideal)).drop 407).take 26) W (Proc.devRef .tc main_v127) = Read.val_main_v127 (F := Ideal) x2
    ∧ StableHlo.after (((Value.ops (F := Ideal)).drop 407).take 26) W (Proc.devRef .tc main_v159) = Read.val_main_v159 (F := Ideal) x1 x5 x6 x7 x8
    ∧ StableHlo.after (((Value.ops (F := Ideal)).drop 407).take 26) W (Proc.devRef .tc main_v175) = Read.val_main_v175 (F := Ideal) x1 x2
    ∧ StableHlo.after (((Value.ops (F := Ideal)).drop 407).take 26) W (Proc.devRef .tc main_arg0) = x0
    ∧ StableHlo.after (((Value.ops (F := Ideal)).drop 407).take 26) W (Proc.devRef .tc main_arg1) = x1
    ∧ StableHlo.after (((Value.ops (F := Ideal)).drop 407).take 26) W (Proc.devRef .tc main_arg2) = x2
    ∧ StableHlo.after (((Value.ops (F := Ideal)).drop 407).take 26) W (Proc.devRef .tc main_arg3) = x3
    ∧ StableHlo.after (((Value.ops (F := Ideal)).drop 407).take 26) W (Proc.devRef .tc main_arg4) = x4
    ∧ StableHlo.after (((Value.ops (F := Ideal)).drop 407).take 26) W (Proc.devRef .tc main_arg5) = x5
    ∧ StableHlo.after (((Value.ops (F := Ideal)).drop 407).take 26) W (Proc.devRef .tc main_arg6) = x6
    ∧ StableHlo.after (((Value.ops (F := Ideal)).drop 407).take 26) W (Proc.devRef .tc main_arg7) = x7
    ∧ StableHlo.after (((Value.ops (F := Ideal)).drop 407).take 26) W (Proc.devRef .tc main_arg8) = x8 := by
  refine ⟨?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_v116, l_v125, l_v126, l_v127, l_v159, l_call16_v5, Read.val_main_call16_v6, Read.val_main_call16_cst_1, Read.val_main_call16_v7, Read.val_main_call16_v8, Read.val_main_call16_v9, Read.val_main_call16_v10, Read.val_main_v160, Read.val_main_v161, Read.val_main_v162, Read.val_main_v163, Read.val_main_v164, Read.val_main_cst_43, Read.val_main_v165, Read.val_main_v166, Read.val_main_cst_44, Read.val_main_v167, Read.val_main_v168, Read.val_main_v169, Read.val_main_v170, Read.val_main_v171, Read.val_main_v172, Read.val_main_cst_45, Read.val_main_v173, Read.val_main_cst_46, Read.val_main_v174, Read.val_main_v175]; done) | (simp only [a0, a1, a2, a3, a4, a5, a6, a7, a8, l_v116, l_v125, l_v126, l_v127, l_v159, l_call16_v5, Read.val_main_call16_v6, Read.val_main_call16_cst_1, Read.val_main_call16_v7, Read.val_main_call16_v8, Read.val_main_call16_v9, Read.val_main_call16_v10, Read.val_main_v160, Read.val_main_v161, Read.val_main_v162, Read.val_main_v163, Read.val_main_v164, Read.val_main_cst_43, Read.val_main_v165, Read.val_main_v166, Read.val_main_cst_44, Read.val_main_v167, Read.val_main_v168, Read.val_main_v169, Read.val_main_v170, Read.val_main_v171, Read.val_main_v172, Read.val_main_cst_45, Read.val_main_v173, Read.val_main_cst_46, Read.val_main_v174, Read.val_main_v175]; rfl))

end Cert.ReferenceIdeal.RefRun

end
-- ==== Proof.ReferenceWin17.lean ====
/-
  Operations 433 … 464 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win17 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v125 : W (Proc.devRef .tc main_v125) = Read.val_main_v125 (F := Ideal) x1) (l_v126 : W (Proc.devRef .tc main_v126) = Read.val_main_v126 (F := Ideal) x1) (l_v127 : W (Proc.devRef .tc main_v127) = Read.val_main_v127 (F := Ideal) x2) (l_v159 : W (Proc.devRef .tc main_v159) = Read.val_main_v159 (F := Ideal) x1 x5 x6 x7 x8) (l_v175 : W (Proc.devRef .tc main_v175) = Read.val_main_v175 (F := Ideal) x1 x2) :
    StableHlo.after (((Value.ops (F := Ideal)).drop 433).take 32) W (Proc.devRef .tc main_v116) = Read.val_main_v116 (F := Ideal) x0 x2 x3 x4 x5 x6 x7 x8
    ∧ StableHlo.after (((Value.ops (F := Ideal)).drop 433).take 32) W (Proc.devRef .tc main_v126) = Read.val_main_v126 (F := Ideal) x1
    ∧ StableHlo.after (((Value.ops (F := Ideal)).drop 433).take 32) W (Proc.devRef .tc main_v127) = Read.val_main_v127 (F := Ideal) x2
    ∧ StableHlo.after (((Value.ops (F := Ideal)).drop 433).take 32) W (Proc.devRef .tc main_v159) = Read.val_main_v159 (F := Ideal) x1 x5 x6 x7 x8
    ∧ StableHlo.after (((Value.ops (F := Ideal)).drop 433).take 32) W (Proc.devRef .tc main_v175) = Read.val_main_v175 (F := Ideal) x1 x2
    ∧ StableHlo.after (((Value.ops (F := Ideal)).drop 433).take 32) W (Proc.devRef .tc main_v196) = Read.val_main_v196 (F := Ideal) x1 x3
    ∧ StableHlo.after (((Value.ops (F := Ideal)).drop 433).take 32) W (Proc.devRef .tc main_arg0) = x0
    ∧ StableHlo.after (((Value.ops (F := Ideal)).drop 433).take 32) W (Proc.devRef .tc main_arg1) = x1
    ∧ StableHlo.after (((Value.ops (F := Ideal)).drop 433).take 32) W (Proc.devRef .tc main_arg2) = x2
    ∧ StableHlo.after (((Value.ops (F := Ideal)).drop 433).take 32) W (Proc.devRef .tc main_arg3) = x3
    ∧ StableHlo.after (((Value.ops (F := Ideal)).drop 433).take 32) W (Proc.devRef .tc main_arg4) = x4
    ∧ StableHlo.after (((Value.ops (F := Ideal)).drop 433).take 32) W (Proc.devRef .tc main_arg5) = x5
    ∧ StableHlo.after (((Value.ops (F := Ideal)).drop 433).take 32) W (Proc.devRef .tc main_arg6) = x6
    ∧ StableHlo.after (((Value.ops (F := Ideal)).drop 433).take 32) W (Proc.devRef .tc main_arg7) = x7
    ∧ StableHlo.after (((Value.ops (F := Ideal)).drop 433).take 32) W (Proc.devRef .tc main_arg8) = x8 := by
  refine ⟨?_, ?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_v116, l_v125, l_v126, l_v127, l_v159, l_v175, Read.val_main_v176, Read.val_main_v177, Read.val_main_cst_47, Read.val_main_v178, Read.val_main_v179, Read.val_main_cst_48, Read.val_main_cst_49, Read.val_main_call17_v0, Read.val_main_call17_v1, Read.val_main_v180, Read.val_main_v181, Read.val_main_v182, Read.val_main_cst_50, Read.val_main_v183, Read.val_main_v184, Read.val_main_cst_51, Read.val_main_v185, Read.val_main_v186, Read.val_main_v187, Read.val_main_cst_52, Read.val_main_v188, Read.val_main_v189, Read.val_main_v190, Read.val_main_v191, Read.val_main_v192, Read.val_main_cst_53, Read.val_main_v193, Read.val_main_cst_54, Read.val_main_v194, Read.val_main_v195, Read.val_main_cst_55, Read.val_main_v196]; done) | (simp only [a0, a1, a2, a3, a4, a5, a6, a7, a8, l_v116, l_v125, l_v126, l_v127, l_v159, l_v175, Read.val_main_v176, Read.val_main_v177, Read.val_main_cst_47, Read.val_main_v178, Read.val_main_v179, Read.val_main_cst_48, Read.val_main_cst_49, Read.val_main_call17_v0, Read.val_main_call17_v1, Read.val_main_v180, Read.val_main_v181, Read.val_main_v182, Read.val_main_cst_50, Read.val_main_v183, Read.val_main_v184, Read.val_main_cst_51, Read.val_main_v185, Read.val_main_v186, Read.val_main_v187, Read.val_main_cst_52, Read.val_main_v188, Read.val_main_v189, Read.val_main_v190, Read.val_main_v191, Read.val_main_v192, Read.val_main_cst_53, Read.val_main_v193, Read.val_main_cst_54, Read.val_main_v194, Read.val_main_v195, Read.val_main_cst_55, Read.val_main_v196]; rfl))

end Cert.ReferenceIdeal.RefRun

end
-- ==== Proof.ReferenceWin18.lean ====
/-
  Operations 465 … 499 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win18 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v126 : W (Proc.devRef .tc main_v126) = Read.val_main_v126 (F := Ideal) x1) (l_v127 : W (Proc.devRef .tc main_v127) = Read.val_main_v127 (F := Ideal) x2) (l_v159 : W (Proc.devRef .tc main_v159) = Read.val_main_v159 (F := Ideal) x1 x5 x6 x7 x8) (l_v175 : W (Proc.devRef .tc main_v175) = Read.val_main_v175 (F := Ideal) x1 x2) (l_v196 : W (Proc.devRef .tc main_v196) = Read.val_main_v196 (F := Ideal) x1 x3) :
    StableHlo.after (((Value.ops (F := Ideal)).drop 465).take 35) W (Proc.devRef .tc main_v116) = Read.val_main_v116 (F := Ideal) x0 x2 x3 x4 x5 x6 x7 x8
    ∧ StableHlo.after (((Value.ops (F := Ideal)).drop 465).take 35) W (Proc.devRef .tc main_v159) = Read.val_main_v159 (F := Ideal) x1 x5 x6 x7 x8
    ∧ StableHlo.after (((Value.ops (F := Ideal)).drop 465).take 35) W (Proc.devRef .tc main_v175) = Read.val_main_v175 (F := Ideal) x1 x2
    ∧ StableHlo.after (((Value.ops (F := Ideal)).drop 465).take 35) W (Proc.devRef .tc main_v196) = Read.val_main_v196 (F := Ideal) x1 x3
    ∧ StableHlo.after (((Value.ops (F := Ideal)).drop 465).take 35) W (Proc.devRef .tc main_v221) = Read.val_main_v221 (F := Ideal) x1 x2 x4
    ∧ StableHlo.after (((Value.ops (F := Ideal)).drop 465).take 35) W (Proc.devRef .tc main_arg0) = x0
    ∧ StableHlo.after (((Value.ops (F := Ideal)).drop 465).take 35) W (Proc.devRef .tc main_arg1) = x1
    ∧ StableHlo.after (((Value.ops (F := Ideal)).drop 465).take 35) W (Proc.devRef .tc main_arg2) = x2
    ∧ StableHlo.after (((Value.ops (F := Ideal)).drop 465).take 35) W (Proc.devRef .tc main_arg3) = x3
    ∧ StableHlo.after (((Value.ops (F := Ideal)).drop 465).take 35) W (Proc.devRef .tc main_arg4) = x4
    ∧ StableHlo.after (((Value.ops (F := Ideal)).drop 465).take 35) W (Proc.devRef .tc main_arg5) = x5
    ∧ StableHlo.after (((Value.ops (F := Ideal)).drop 465).take 35) W (Proc.devRef .tc main_arg6) = x6
    ∧ StableHlo.after (((Value.ops (F := Ideal)).drop 465).take 35) W (Proc.devRef .tc main_arg7) = x7
    ∧ StableHlo.after (((Value.ops (F := Ideal)).drop 465).take 35) W (Proc.devRef .tc main_arg8) = x8 := by
  refine ⟨?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_v116, l_v126, l_v127, l_v159, l_v175, l_v196, Read.val_main_v197, Read.val_main_v198, Read.val_main_cst_56, Read.val_main_v199, Read.val_main_v200, Read.val_main_cst_57, Read.val_main_v201, Read.val_main_v202, Read.val_main_cst_58, Read.val_main_v203, Read.val_main_v204, Read.val_main_cst_59, Read.val_main_call19_v0, Read.val_main_call19_v1, Read.val_main_v205, Read.val_main_v206, Read.val_main_v207, Read.val_main_cst_60, Read.val_main_v208, Read.val_main_v209, Read.val_main_cst_61, Read.val_main_v210, Read.val_main_v211, Read.val_main_cst_62, Read.val_main_v212, Read.val_main_v213, Read.val_main_v214, Read.val_main_v215, Read.val_main_v216, Read.val_main_v217, Read.val_main_v218, Read.val_main_v219, Read.val_main_v220, Read.val_main_cst_63, Read.val_main_v221]; done) | (simp only [a0, a1, a2, a3, a4, a5, a6, a7, a8, l_v116, l_v126, l_v127, l_v159, l_v175, l_v196, Read.val_main_v197, Read.val_main_v198, Read.val_main_cst_56, Read.val_main_v199, Read.val_main_v200, Read.val_main_cst_57, Read.val_main_v201, Read.val_main_v202, Read.val_main_cst_58, Read.val_main_v203, Read.val_main_v204, Read.val_main_cst_59, Read.val_main_call19_v0, Read.val_main_call19_v1, Read.val_main_v205, Read.val_main_v206, Read.val_main_v207, Read.val_main_cst_60, Read.val_main_v208, Read.val_main_v209, Read.val_main_cst_61, Read.val_main_v210, Read.val_main_v211, Read.val_main_cst_62, Read.val_main_v212, Read.val_main_v213, Read.val_main_v214, Read.val_main_v215, Read.val_main_v216, Read.val_main_v217, Read.val_main_v218, Read.val_main_v219, Read.val_main_v220, Read.val_main_cst_63, Read.val_main_v221]; rfl))

end Cert.ReferenceIdeal.RefRun

end
-- ==== Proof.ReferenceWin19.lean ====
/-
  Operations 500 … 516 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win19 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v159 : W (Proc.devRef .tc main_v159) = Read.val_main_v159 (F := Ideal) x1 x5 x6 x7 x8) (l_v175 : W (Proc.devRef .tc main_v175) = Read.val_main_v175 (F := Ideal) x1 x2) (l_v196 : W (Proc.devRef .tc main_v196) = Read.val_main_v196 (F := Ideal) x1 x3) (l_v221 : W (Proc.devRef .tc main_v221) = Read.val_main_v221 (F := Ideal) x1 x2 x4) :
    StableHlo.after (((Value.ops (F := Ideal)).drop 500).take 17) W (Proc.devRef .tc main_v116) = Read.val_main_v116 (F := Ideal) x0 x2 x3 x4 x5 x6 x7 x8
    ∧ StableHlo.after (((Value.ops (F := Ideal)).drop 500).take 17) W (Proc.devRef .tc main_v226) = Read.val_main_v226 (F := Ideal) x1 x5 x6 x7 x8
    ∧ StableHlo.after (((Value.ops (F := Ideal)).drop 500).take 17) W (Proc.devRef .tc main_v228) = Read.val_main_v228 (F := Ideal) x1 x2
    ∧ StableHlo.after (((Value.ops (F := Ideal)).drop 500).take 17) W (Proc.devRef .tc main_v230) = Read.val_main_v230 (F := Ideal) x1 x3
    ∧ StableHlo.after (((Value.ops (F := Ideal)).drop 500).take 17) W (Proc.devRef .tc main_v232) = Read.val_main_v232 (F := Ideal) x1 x2 x4
    ∧ StableHlo.after (((Value.ops (F := Ideal)).drop 500).take 17) W (Proc.devRef .tc main_arg0) = x0
    ∧ StableHlo.after (((Value.ops (F := Ideal)).drop 500).take 17) W (Proc.devRef .tc main_arg1) = x1
    ∧ StableHlo.after (((Value.ops (F := Ideal)).drop 500).take 17) W (Proc.devRef .tc main_arg2) = x2
    ∧ StableHlo.after (((Value.ops (F := Ideal)).drop 500).take 17) W (Proc.devRef .tc main_arg3) = x3
    ∧ StableHlo.after (((Value.ops (F := Ideal)).drop 500).take 17) W (Proc.devRef .tc main_arg4) = x4
    ∧ StableHlo.after (((Value.ops (F := Ideal)).drop 500).take 17) W (Proc.devRef .tc main_arg5) = x5
    ∧ StableHlo.after (((Value.ops (F := Ideal)).drop 500).take 17) W (Proc.devRef .tc main_arg6) = x6
    ∧ StableHlo.after (((Value.ops (F := Ideal)).drop 500).take 17) W (Proc.devRef .tc main_arg7) = x7
    ∧ StableHlo.after (((Value.ops (F := Ideal)).drop 500).take 17) W (Proc.devRef .tc main_arg8) = x8 := by
  refine ⟨?_, ?_, ?_, ?_, ?_, ?_, ?_, ?_, ?_, ?_, ?_, ?_, ?_, ?_⟩
  all_goals (dsimp only [Value.ops, List.drop, List.take]; after_results)
  all_goals (first | assumption | (simp only [a0, a1, a2, a3, a4, a5, a6, a7, a8, l_v116, l_v159, l_v175, l_v196, l_v221, Read.val_main_cst_64, Read.val_main_v222, Read.val_main_v223, Read.val_main_cst_65, Read.val_main_v224, Read.val_main_cst_66, Read.val_main_v225, Read.val_main_v226, Read.val_main_cst_67, Read.val_main_v227, Read.val_main_v228, Read.val_main_cst_68, Read.val_main_v229, Read.val_main_v230, Read.val_main_cst_69, Read.val_main_v231, Read.val_main_v232]; done) | (simp only [a0, a1, a2, a3, a4, a5, a6, a7, a8, l_v116, l_v159, l_v175, l_v196, l_v221, Read.val_main_cst_64, Read.val_main_v222, Read.val_main_v223, Read.val_main_cst_65, Read.val_main_v224, Read.val_main_cst_66, Read.val_main_v225, Read.val_main_v226, Read.val_main_cst_67, Read.val_main_v227, Read.val_main_v228, Read.val_main_cst_68, Read.val_main_v229, Read.val_main_v230, Read.val_main_cst_69, Read.val_main_v231, Read.val_main_v232]; rfl))

end Cert.ReferenceIdeal.RefRun

end
-- ==== Proof.ReferenceWin20.lean ====
/-
  Operations 517 … 517 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

theorem after_singleton20 (op : HloOp τ sig (Elt Ideal)) (V : Valuation τ sig (Elt Ideal)) : StableHlo.after [op] V = op.result V := rfl

set_option maxHeartbeats 8000000 in
theorem win20 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v226 : W (Proc.devRef .tc main_v226) = Read.val_main_v226 (F := Ideal) x1 x5 x6 x7 x8) (l_v228 : W (Proc.devRef .tc main_v228) = Read.val_main_v228 (F := Ideal) x1 x2) (l_v230 : W (Proc.devRef .tc main_v230) = Read.val_main_v230 (F := Ideal) x1 x3) (l_v232 : W (Proc.devRef .tc main_v232) = Read.val_main_v232 (F := Ideal) x1 x2 x4) :
    StableHlo.after (((Value.ops (F := Ideal)).drop 517).take 1) W (Proc.devRef .tc main_v116) = Read.val_main_v116 (F := Ideal) x0 x2 x3 x4 x5 x6 x7 x8
    ∧ StableHlo.after (((Value.ops (F := Ideal)).drop 517).take 1) W (Proc.devRef .tc main_v233) = Read.val_main_v233 (F := Ideal) x1 x2 x3 x4 x5 x6 x7 x8
    ∧ StableHlo.after (((Value.ops (F := Ideal)).drop 517).take 1) W (Proc.devRef .tc main_arg0) = x0
    ∧ StableHlo.after (((Value.ops (F := Ideal)).drop 517).take 1) W (Proc.devRef .tc main_arg1) = x1
    ∧ StableHlo.after (((Value.ops (F := Ideal)).drop 517).take 1) W (Proc.devRef .tc main_arg2) = x2
    ∧ StableHlo.after (((Value.ops (F := Ideal)).drop 517).take 1) W (Proc.devRef .tc main_arg3) = x3
    ∧ StableHlo.after (((Value.ops (F := Ideal)).drop 517).take 1) W (Proc.devRef .tc main_arg4) = x4
    ∧ StableHlo.after (((Value.ops (F := Ideal)).drop 517).take 1) W (Proc.devRef .tc main_arg5) = x5
    ∧ StableHlo.after (((Value.ops (F := Ideal)).drop 517).take 1) W (Proc.devRef .tc main_arg6) = x6
    ∧ StableHlo.after (((Value.ops (F := Ideal)).drop 517).take 1) W (Proc.devRef .tc main_arg7) = x7
    ∧ StableHlo.after (((Value.ops (F := Ideal)).drop 517).take 1) W (Proc.devRef .tc main_arg8) = x8 := by
  refine ⟨?_, ?_, ?_, ?_, ?_, ?_, ?_, ?_, ?_, ?_, ?_⟩
  pick_goal 2
  · dsimp only [Value.ops, List.drop, List.take]
    rw [after_singleton20, StableHlo.nary_result]
    refine Eq.trans (show _ = concatenate S97 0 [⟨S1, W (Proc.devRef .tc main_v226)⟩, ⟨S32, W (Proc.devRef .tc main_v228)⟩, ⟨S32, W (Proc.devRef .tc main_v230)⟩, ⟨S32, W (Proc.devRef .tc main_v232)⟩] concatenates_S1_S32_S32_S32_S97_d0 from rfl) ?_
    rw [l_v226, l_v228, l_v230, l_v232]
    rfl
  all_goals (dsimp only [Value.ops, List.drop, List.take]; after_results)
  all_goals (first | assumption | (simp only [a0, a1, a2, a3, a4, a5, a6, a7, a8, l_v116, l_v226, l_v228, l_v230, l_v232, Read.val_main_v233]; done) | (simp only [a0, a1, a2, a3, a4, a5, a6, a7, a8, l_v116, l_v226, l_v228, l_v230, l_v232, Read.val_main_v233]; rfl))

end Cert.ReferenceIdeal.RefRun

end
-- ==== Proof.ReferenceWin21.lean ====
/-
  Operations 518 … 520 of the reference, run from any contents of the buffers in which the values the earlier
  operations computed and later ones still read are the stage functions of the arguments: afterwards the values still
  read by later operations are again the stage functions of the arguments, and the arguments are as they were.
-/
import proofs.«111430_j72988674228458_2_alg».proof.Proof.ReferenceRead
import proofs.«111430_j72988674228458_2_alg».proof.Proof.LibFold
import Idealize.ShloMosaic.Lib.StableHlo.Run

set_option maxRecDepth 200000

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 8000000 in
theorem win21 (W : Valuation τ sig (Elt Ideal)) (x0 : (⟨S32x7x256x256, .f32⟩ : BufTy).Contents (Elt Ideal)) (x1 : (⟨S32x7x256x256, .f32⟩ : BufTy).Contents (Elt Ideal)) (x2 : (⟨S32x1x256x256, .f32⟩ : BufTy).Contents (Elt Ideal)) (x3 : (⟨S32x1x2x256x256, .f32⟩ : BufTy).Contents (Elt Ideal)) (x4 : (⟨S32x1x2x256x256, .f32⟩ : BufTy).Contents (Elt Ideal)) (x5 : (⟨S32x9, .i32⟩ : BufTy).Contents (Elt Ideal)) (x6 : (⟨S32x9, .i32⟩ : BufTy).Contents (Elt Ideal)) (x7 : (⟨S32x9, .i32⟩ : BufTy).Contents (Elt Ideal)) (x8 : (⟨S32x8, .i32⟩ : BufTy).Contents (Elt Ideal))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8)
    (l_v116 : W (Proc.devRef .tc main_v116) = Read.val_main_v116 (F := Ideal) x0 x2 x3 x4 x5 x6 x7 x8) (l_v233 : W (Proc.devRef .tc main_v233) = Read.val_main_v233 (F := Ideal) x1 x2 x3 x4 x5 x6 x7 x8) :
    StableHlo.after (((Value.ops (F := Ideal)).drop 518).take 3) W (Proc.devRef .tc main_v236) = Read.val_main_v236 (F := Ideal) x0 x1 x2 x3 x4 x5 x6 x7 x8
    ∧ StableHlo.after (((Value.ops (F := Ideal)).drop 518).take 3) W (Proc.devRef .tc main_arg0) = x0
    ∧ StableHlo.after (((Value.ops (F := Ideal)).drop 518).take 3) W (Proc.devRef .tc main_arg1) = x1
    ∧ StableHlo.after (((Value.ops (F := Ideal)).drop 518).take 3) W (Proc.devRef .tc main_arg2) = x2
    ∧ StableHlo.after (((Value.ops (F := Ideal)).drop 518).take 3) W (Proc.devRef .tc main_arg3) = x3
    ∧ StableHlo.after (((Value.ops (F := Ideal)).drop 518).take 3) W (Proc.devRef .tc main_arg4) = x4
    ∧ StableHlo.after (((Value.ops (F := Ideal)).drop 518).take 3) W (Proc.devRef .tc main_arg5) = x5
    ∧ StableHlo.after (((Value.ops (F := Ideal)).drop 518).take 3) W (Proc.devRef .tc main_arg6) = x6
    ∧ StableHlo.after (((Value.ops (F := Ideal)).drop 518).take 3) W (Proc.devRef .tc main_arg7) = x7
    ∧ StableHlo.after (((Value.ops (F := Ideal)).drop 518).take 3) W (Proc.devRef .tc main_arg8) = x8 := by
  refine ⟨?_, ?_, ?_, ?_, ?_, ?_, ?_, ?_, ?_, ?_⟩
  all_goals (dsimp only [Value.ops, List.drop, List.take]; after_results)
  pick_goal 1
  · rw [l_v116, l_v233]; rfl
  all_goals (first | assumption | rfl)

end Cert.ReferenceIdeal.RefRun

end
-- ==== Proof.ReferenceRun.lean ====
/-
  The reference's run, read stretch by stretch. Its entry function is a straight line of 521 host operations, so every
  weakly fair execution terminates with each buffer at the fold of the operations over the initial memory. The fold is
  taken in 22 consecutive stretches; before each stretch the values that earlier operations computed and later ones
  still read are the stage functions of the arguments, and each stretch re-establishes this for the next. After the
  last stretch the result buffer holds the last stage function of the arguments, and no operation writes an argument.
-/
import proofs.«111430_j72988674228458_2_alg».proof.Proof.ReferenceWin00
import proofs.«111430_j72988674228458_2_alg».proof.Proof.ReferenceWin01
import proofs.«111430_j72988674228458_2_alg».proof.Proof.ReferenceWin02
import proofs.«111430_j72988674228458_2_alg».proof.Proof.ReferenceWin03
import proofs.«111430_j72988674228458_2_alg».proof.Proof.ReferenceWin04
import proofs.«111430_j72988674228458_2_alg».proof.Proof.ReferenceWin05
import proofs.«111430_j72988674228458_2_alg».proof.Proof.ReferenceWin06
import proofs.«111430_j72988674228458_2_alg».proof.Proof.ReferenceWin07
import proofs.«111430_j72988674228458_2_alg».proof.Proof.ReferenceWin08
import proofs.«111430_j72988674228458_2_alg».proof.Proof.ReferenceWin09
import proofs.«111430_j72988674228458_2_alg».proof.Proof.ReferenceWin10
import proofs.«111430_j72988674228458_2_alg».proof.Proof.ReferenceWin11
import proofs.«111430_j72988674228458_2_alg».proof.Proof.ReferenceWin12
import proofs.«111430_j72988674228458_2_alg».proof.Proof.ReferenceWin13
import proofs.«111430_j72988674228458_2_alg».proof.Proof.ReferenceWin14
import proofs.«111430_j72988674228458_2_alg».proof.Proof.ReferenceWin15
import proofs.«111430_j72988674228458_2_alg».proof.Proof.ReferenceWin16
import proofs.«111430_j72988674228458_2_alg».proof.Proof.ReferenceWin17
import proofs.«111430_j72988674228458_2_alg».proof.Proof.ReferenceWin18
import proofs.«111430_j72988674228458_2_alg».proof.Proof.ReferenceWin19
import proofs.«111430_j72988674228458_2_alg».proof.Proof.ReferenceWin20
import proofs.«111430_j72988674228458_2_alg».proof.Proof.ReferenceWin21

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 4000000 in
/-- The operation list is its 22 stretches in order. -/
theorem ops_split : (Value.ops (F := Ideal)) = (((Value.ops (F := Ideal)).drop 0).take 14) ++ ((((Value.ops (F := Ideal)).drop 14).take 22) ++ ((((Value.ops (F := Ideal)).drop 36).take 22) ++ ((((Value.ops (F := Ideal)).drop 58).take 22) ++ ((((Value.ops (F := Ideal)).drop 80).take 36) ++ ((((Value.ops (F := Ideal)).drop 116).take 33) ++ ((((Value.ops (F := Ideal)).drop 149).take 26) ++ ((((Value.ops (F := Ideal)).drop 175).take 32) ++ ((((Value.ops (F := Ideal)).drop 207).take 35) ++ ((((Value.ops (F := Ideal)).drop 242).take 17) ++ ((((Value.ops (F := Ideal)).drop 259).take 1) ++ ((((Value.ops (F := Ideal)).drop 260).take 34) ++ ((((Value.ops (F := Ideal)).drop 294).take 22) ++ ((((Value.ops (F := Ideal)).drop 316).take 22) ++ ((((Value.ops (F := Ideal)).drop 338).take 36) ++ ((((Value.ops (F := Ideal)).drop 374).take 33) ++ ((((Value.ops (F := Ideal)).drop 407).take 26) ++ ((((Value.ops (F := Ideal)).drop 433).take 32) ++ ((((Value.ops (F := Ideal)).drop 465).take 35) ++ ((((Value.ops (F := Ideal)).drop 500).take 17) ++ ((((Value.ops (F := Ideal)).drop 517).take 1) ++ ((((Value.ops (F := Ideal)).drop 518).take 3)))))))))))))))))))))) := rfl

set_option maxHeartbeats 4000000 in
theorem after_ops (V : Valuation τ sig (Elt Ideal)) :
    StableHlo.after (Value.ops (F := Ideal)) V = (StableHlo.after (((Value.ops (F := Ideal)).drop 518).take 3) (StableHlo.after (((Value.ops (F := Ideal)).drop 517).take 1) (StableHlo.after (((Value.ops (F := Ideal)).drop 500).take 17) (StableHlo.after (((Value.ops (F := Ideal)).drop 465).take 35) (StableHlo.after (((Value.ops (F := Ideal)).drop 433).take 32) (StableHlo.after (((Value.ops (F := Ideal)).drop 407).take 26) (StableHlo.after (((Value.ops (F := Ideal)).drop 374).take 33) (StableHlo.after (((Value.ops (F := Ideal)).drop 338).take 36) (StableHlo.after (((Value.ops (F := Ideal)).drop 316).take 22) (StableHlo.after (((Value.ops (F := Ideal)).drop 294).take 22) (StableHlo.after (((Value.ops (F := Ideal)).drop 260).take 34) (StableHlo.after (((Value.ops (F := Ideal)).drop 259).take 1) (StableHlo.after (((Value.ops (F := Ideal)).drop 242).take 17) (StableHlo.after (((Value.ops (F := Ideal)).drop 207).take 35) (StableHlo.after (((Value.ops (F := Ideal)).drop 175).take 32) (StableHlo.after (((Value.ops (F := Ideal)).drop 149).take 26) (StableHlo.after (((Value.ops (F := Ideal)).drop 116).take 33) (StableHlo.after (((Value.ops (F := Ideal)).drop 80).take 36) (StableHlo.after (((Value.ops (F := Ideal)).drop 58).take 22) (StableHlo.after (((Value.ops (F := Ideal)).drop 36).take 22) (StableHlo.after (((Value.ops (F := Ideal)).drop 14).take 22) (StableHlo.after (((Value.ops (F := Ideal)).drop 0).take 14) V)))))))))))))))))))))) := by
  conv_lhs => rw [ops_split]
  simp only [StableHlo.after_append]

set_option maxHeartbeats 16000000 in
/-- The fold of all the operations over the initial memory, read at the result and at the arguments. -/
theorem chain (m : (ℓ : Loc nD τ sig) → Buf (Elt Ideal) ℓ) (c : Dev nD) :
    StableHlo.after (Value.ops (F := Ideal)) (launchContents m c) (Proc.devRef .tc main_v236) = Read.val_main_v236 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    ∧ StableHlo.after (Value.ops (F := Ideal)) (launchContents m c) (Proc.devRef .tc main_arg0) = (m ((c.tc : Thread nD τ).loc main_arg0))
    ∧ StableHlo.after (Value.ops (F := Ideal)) (launchContents m c) (Proc.devRef .tc main_arg1) = (m ((c.tc : Thread nD τ).loc main_arg1))
    ∧ StableHlo.after (Value.ops (F := Ideal)) (launchContents m c) (Proc.devRef .tc main_arg2) = (m ((c.tc : Thread nD τ).loc main_arg2))
    ∧ StableHlo.after (Value.ops (F := Ideal)) (launchContents m c) (Proc.devRef .tc main_arg3) = (m ((c.tc : Thread nD τ).loc main_arg3))
    ∧ StableHlo.after (Value.ops (F := Ideal)) (launchContents m c) (Proc.devRef .tc main_arg4) = (m ((c.tc : Thread nD τ).loc main_arg4))
    ∧ StableHlo.after (Value.ops (F := Ideal)) (launchContents m c) (Proc.devRef .tc main_arg5) = (m ((c.tc : Thread nD τ).loc main_arg5))
    ∧ StableHlo.after (Value.ops (F := Ideal)) (launchContents m c) (Proc.devRef .tc main_arg6) = (m ((c.tc : Thread nD τ).loc main_arg6))
    ∧ StableHlo.after (Value.ops (F := Ideal)) (launchContents m c) (Proc.devRef .tc main_arg7) = (m ((c.tc : Thread nD τ).loc main_arg7))
    ∧ StableHlo.after (Value.ops (F := Ideal)) (launchContents m c) (Proc.devRef .tc main_arg8) = (m ((c.tc : Thread nD τ).loc main_arg8)) := by
  rw [after_ops]
  generalize hV0 : launchContents m c = V0
  have a0_0 : V0 (Proc.devRef .tc main_arg0) = (m ((c.tc : Thread nD τ).loc main_arg0)) := by rw [← hV0]
  have a0_1 : V0 (Proc.devRef .tc main_arg1) = (m ((c.tc : Thread nD τ).loc main_arg1)) := by rw [← hV0]
  have a0_2 : V0 (Proc.devRef .tc main_arg2) = (m ((c.tc : Thread nD τ).loc main_arg2)) := by rw [← hV0]
  have a0_3 : V0 (Proc.devRef .tc main_arg3) = (m ((c.tc : Thread nD τ).loc main_arg3)) := by rw [← hV0]
  have a0_4 : V0 (Proc.devRef .tc main_arg4) = (m ((c.tc : Thread nD τ).loc main_arg4)) := by rw [← hV0]
  have a0_5 : V0 (Proc.devRef .tc main_arg5) = (m ((c.tc : Thread nD τ).loc main_arg5)) := by rw [← hV0]
  have a0_6 : V0 (Proc.devRef .tc main_arg6) = (m ((c.tc : Thread nD τ).loc main_arg6)) := by rw [← hV0]
  have a0_7 : V0 (Proc.devRef .tc main_arg7) = (m ((c.tc : Thread nD τ).loc main_arg7)) := by rw [← hV0]
  have a0_8 : V0 (Proc.devRef .tc main_arg8) = (m ((c.tc : Thread nD τ).loc main_arg8)) := by rw [← hV0]
  clear hV0
  obtain ⟨l1_cst_0, l1_v3, l1_v8, l1_v9, l1_v10, l1_v11, a1_0, a1_1, a1_2, a1_3, a1_4, a1_5, a1_6, a1_7, a1_8⟩ := win0 V0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a0_0 a0_1 a0_2 a0_3 a0_4 a0_5 a0_6 a0_7 a0_8
  generalize StableHlo.after (((Value.ops (F := Ideal)).drop 0).take 14) V0 = V1 at *
  obtain ⟨l2_cst_0, l2_v3, l2_v8, l2_v9, l2_v10, l2_v11, l2_v12, a2_0, a2_1, a2_2, a2_3, a2_4, a2_5, a2_6, a2_7, a2_8⟩ := win1 V1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a1_0 a1_1 a1_2 a1_3 a1_4 a1_5 a1_6 a1_7 a1_8 l1_cst_0 l1_v3 l1_v8 l1_v9 l1_v10 l1_v11
  generalize StableHlo.after (((Value.ops (F := Ideal)).drop 14).take 22) V1 = V2 at *
  obtain ⟨l3_cst_0, l3_v3, l3_v8, l3_v9, l3_v10, l3_v11, l3_v12, l3_v13, a3_0, a3_1, a3_2, a3_3, a3_4, a3_5, a3_6, a3_7, a3_8⟩ := win2 V2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a2_0 a2_1 a2_2 a2_3 a2_4 a2_5 a2_6 a2_7 a2_8 l2_cst_0 l2_v3 l2_v8 l2_v9 l2_v10 l2_v11 l2_v12
  generalize StableHlo.after (((Value.ops (F := Ideal)).drop 36).take 22) V2 = V3 at *
  obtain ⟨l4_cst_0, l4_v3, l4_v8, l4_v9, l4_v10, l4_v11, l4_v12, l4_v13, l4_v14, a4_0, a4_1, a4_2, a4_3, a4_4, a4_5, a4_6, a4_7, a4_8⟩ := win3 V3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a3_0 a3_1 a3_2 a3_3 a3_4 a3_5 a3_6 a3_7 a3_8 l3_cst_0 l3_v3 l3_v8 l3_v9 l3_v10 l3_v11 l3_v12 l3_v13
  generalize StableHlo.after (((Value.ops (F := Ideal)).drop 58).take 22) V3 = V4 at *
  obtain ⟨l5_cst_0, l5_v3, l5_v8, l5_v9, l5_v10, l5_v23, l5_v24, l5_v26, a5_0, a5_1, a5_2, a5_3, a5_4, a5_5, a5_6, a5_7, a5_8⟩ := win4 V4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a4_0 a4_1 a4_2 a4_3 a4_4 a4_5 a4_6 a4_7 a4_8 l4_cst_0 l4_v3 l4_v8 l4_v9 l4_v10 l4_v11 l4_v12 l4_v13 l4_v14
  generalize StableHlo.after (((Value.ops (F := Ideal)).drop 80).take 36) V4 = V5 at *
  obtain ⟨l6_cst_0, l6_v8, l6_v9, l6_v10, l6_v42, l6_call6_v5, a6_0, a6_1, a6_2, a6_3, a6_4, a6_5, a6_6, a6_7, a6_8⟩ := win5 V5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a5_0 a5_1 a5_2 a5_3 a5_4 a5_5 a5_6 a5_7 a5_8 l5_cst_0 l5_v3 l5_v8 l5_v9 l5_v10 l5_v23 l5_v24 l5_v26
  generalize StableHlo.after (((Value.ops (F := Ideal)).drop 116).take 33) V5 = V6 at *
  obtain ⟨l7_cst_0, l7_v8, l7_v9, l7_v10, l7_v42, l7_v58, a7_0, a7_1, a7_2, a7_3, a7_4, a7_5, a7_6, a7_7, a7_8⟩ := win6 V6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a6_0 a6_1 a6_2 a6_3 a6_4 a6_5 a6_6 a6_7 a6_8 l6_cst_0 l6_v8 l6_v9 l6_v10 l6_v42 l6_call6_v5
  generalize StableHlo.after (((Value.ops (F := Ideal)).drop 149).take 26) V6 = V7 at *
  obtain ⟨l8_cst_0, l8_v9, l8_v10, l8_v42, l8_v58, l8_v79, a8_0, a8_1, a8_2, a8_3, a8_4, a8_5, a8_6, a8_7, a8_8⟩ := win7 V7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a7_0 a7_1 a7_2 a7_3 a7_4 a7_5 a7_6 a7_7 a7_8 l7_cst_0 l7_v8 l7_v9 l7_v10 l7_v42 l7_v58
  generalize StableHlo.after (((Value.ops (F := Ideal)).drop 175).take 32) V7 = V8 at *
  obtain ⟨l9_cst_0, l9_v42, l9_v58, l9_v79, l9_v104, a9_0, a9_1, a9_2, a9_3, a9_4, a9_5, a9_6, a9_7, a9_8⟩ := win8 V8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a8_0 a8_1 a8_2 a8_3 a8_4 a8_5 a8_6 a8_7 a8_8 l8_cst_0 l8_v9 l8_v10 l8_v42 l8_v58 l8_v79
  generalize StableHlo.after (((Value.ops (F := Ideal)).drop 207).take 35) V8 = V9 at *
  obtain ⟨l10_cst_0, l10_v109, l10_v111, l10_v113, l10_v115, a10_0, a10_1, a10_2, a10_3, a10_4, a10_5, a10_6, a10_7, a10_8⟩ := win9 V9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a9_0 a9_1 a9_2 a9_3 a9_4 a9_5 a9_6 a9_7 a9_8 l9_cst_0 l9_v42 l9_v58 l9_v79 l9_v104
  generalize StableHlo.after (((Value.ops (F := Ideal)).drop 242).take 17) V9 = V10 at *
  obtain ⟨l11_cst_0, l11_v116, a11_0, a11_1, a11_2, a11_3, a11_4, a11_5, a11_6, a11_7, a11_8⟩ := win10 V10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a10_0 a10_1 a10_2 a10_3 a10_4 a10_5 a10_6 a10_7 a10_8 l10_cst_0 l10_v109 l10_v111 l10_v113 l10_v115
  generalize StableHlo.after (((Value.ops (F := Ideal)).drop 259).take 1) V10 = V11 at *
  obtain ⟨l12_v116, l12_v120, l12_v125, l12_v126, l12_v127, l12_v128, l12_v129, a12_0, a12_1, a12_2, a12_3, a12_4, a12_5, a12_6, a12_7, a12_8⟩ := win11 V11 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a11_0 a11_1 a11_2 a11_3 a11_4 a11_5 a11_6 a11_7 a11_8 l11_cst_0 l11_v116
  generalize StableHlo.after (((Value.ops (F := Ideal)).drop 260).take 34) V11 = V12 at *
  obtain ⟨l13_v116, l13_v120, l13_v125, l13_v126, l13_v127, l13_v128, l13_v129, l13_v130, a13_0, a13_1, a13_2, a13_3, a13_4, a13_5, a13_6, a13_7, a13_8⟩ := win12 V12 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a12_0 a12_1 a12_2 a12_3 a12_4 a12_5 a12_6 a12_7 a12_8 l12_v116 l12_v120 l12_v125 l12_v126 l12_v127 l12_v128 l12_v129
  generalize StableHlo.after (((Value.ops (F := Ideal)).drop 294).take 22) V12 = V13 at *
  obtain ⟨l14_v116, l14_v120, l14_v125, l14_v126, l14_v127, l14_v128, l14_v129, l14_v130, l14_v131, a14_0, a14_1, a14_2, a14_3, a14_4, a14_5, a14_6, a14_7, a14_8⟩ := win13 V13 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a13_0 a13_1 a13_2 a13_3 a13_4 a13_5 a13_6 a13_7 a13_8 l13_v116 l13_v120 l13_v125 l13_v126 l13_v127 l13_v128 l13_v129 l13_v130
  generalize StableHlo.after (((Value.ops (F := Ideal)).drop 316).take 22) V13 = V14 at *
  obtain ⟨l15_v116, l15_v120, l15_v125, l15_v126, l15_v127, l15_v140, l15_v141, l15_v143, a15_0, a15_1, a15_2, a15_3, a15_4, a15_5, a15_6, a15_7, a15_8⟩ := win14 V14 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a14_0 a14_1 a14_2 a14_3 a14_4 a14_5 a14_6 a14_7 a14_8 l14_v116 l14_v120 l14_v125 l14_v126 l14_v127 l14_v128 l14_v129 l14_v130 l14_v131
  generalize StableHlo.after (((Value.ops (F := Ideal)).drop 338).take 36) V14 = V15 at *
  obtain ⟨l16_v116, l16_v125, l16_v126, l16_v127, l16_v159, l16_call16_v5, a16_0, a16_1, a16_2, a16_3, a16_4, a16_5, a16_6, a16_7, a16_8⟩ := win15 V15 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a15_0 a15_1 a15_2 a15_3 a15_4 a15_5 a15_6 a15_7 a15_8 l15_v116 l15_v120 l15_v125 l15_v126 l15_v127 l15_v140 l15_v141 l15_v143
  generalize StableHlo.after (((Value.ops (F := Ideal)).drop 374).take 33) V15 = V16 at *
  obtain ⟨l17_v116, l17_v125, l17_v126, l17_v127, l17_v159, l17_v175, a17_0, a17_1, a17_2, a17_3, a17_4, a17_5, a17_6, a17_7, a17_8⟩ := win16 V16 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a16_0 a16_1 a16_2 a16_3 a16_4 a16_5 a16_6 a16_7 a16_8 l16_v116 l16_v125 l16_v126 l16_v127 l16_v159 l16_call16_v5
  generalize StableHlo.after (((Value.ops (F := Ideal)).drop 407).take 26) V16 = V17 at *
  obtain ⟨l18_v116, l18_v126, l18_v127, l18_v159, l18_v175, l18_v196, a18_0, a18_1, a18_2, a18_3, a18_4, a18_5, a18_6, a18_7, a18_8⟩ := win17 V17 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a17_0 a17_1 a17_2 a17_3 a17_4 a17_5 a17_6 a17_7 a17_8 l17_v116 l17_v125 l17_v126 l17_v127 l17_v159 l17_v175
  generalize StableHlo.after (((Value.ops (F := Ideal)).drop 433).take 32) V17 = V18 at *
  obtain ⟨l19_v116, l19_v159, l19_v175, l19_v196, l19_v221, a19_0, a19_1, a19_2, a19_3, a19_4, a19_5, a19_6, a19_7, a19_8⟩ := win18 V18 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a18_0 a18_1 a18_2 a18_3 a18_4 a18_5 a18_6 a18_7 a18_8 l18_v116 l18_v126 l18_v127 l18_v159 l18_v175 l18_v196
  generalize StableHlo.after (((Value.ops (F := Ideal)).drop 465).take 35) V18 = V19 at *
  obtain ⟨l20_v116, l20_v226, l20_v228, l20_v230, l20_v232, a20_0, a20_1, a20_2, a20_3, a20_4, a20_5, a20_6, a20_7, a20_8⟩ := win19 V19 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a19_0 a19_1 a19_2 a19_3 a19_4 a19_5 a19_6 a19_7 a19_8 l19_v116 l19_v159 l19_v175 l19_v196 l19_v221
  generalize StableHlo.after (((Value.ops (F := Ideal)).drop 500).take 17) V19 = V20 at *
  obtain ⟨l21_v116, l21_v233, a21_0, a21_1, a21_2, a21_3, a21_4, a21_5, a21_6, a21_7, a21_8⟩ := win20 V20 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a20_0 a20_1 a20_2 a20_3 a20_4 a20_5 a20_6 a20_7 a20_8 l20_v116 l20_v226 l20_v228 l20_v230 l20_v232
  generalize StableHlo.after (((Value.ops (F := Ideal)).drop 517).take 1) V20 = V21 at *
  obtain ⟨l22_v236, a22_0, a22_1, a22_2, a22_3, a22_4, a22_5, a22_6, a22_7, a22_8⟩ := win21 V21 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) a21_0 a21_1 a21_2 a21_3 a21_4 a21_5 a21_6 a21_7 a21_8 l21_v116 l21_v233
  generalize StableHlo.after (((Value.ops (F := Ideal)).drop 518).take 3) V21 = V22 at *
  exact ⟨l22_v236, a22_0, a22_1, a22_2, a22_3, a22_4, a22_5, a22_6, a22_7, a22_8⟩

set_option maxHeartbeats 16000000 in
/-- Every weakly fair execution of the reference terminates without a fault, with the result buffer at the last stage
    function of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v236) = Read.val_main_v236 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => by
    obtain ⟨e, e0, e1, e2, e3, e4, e5, e6, e7, e8⟩ := chain m c
    exact ⟨(h c main_v236).trans e, (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8⟩)
    (run_seq Value.scopedRefs_eq Value.scopedSems_eq defs main (fun _ => Value.ops) Value.main_eq (fun _ => Value.ops_sub) m ρ)

end Cert.ReferenceIdeal.RefRun

end
-- ==== Proof.KernelAround.lean ====
/-
  The host side of `Kernel`'s entry function. The function is a straight line: 260 host operations (the two
  triplet losses on the centre channel: slices, gathers, squares, hinges, means), then the one region that
  streams the heat maps, then 23 host operations that take column 0 of each of the region's six results and
  lay the two result rows out. Here: the contents of every buffer when the region is entered, as the fold of
  the 260 operations over the initial memory (`V0`, `V`); that the entry function is those operations, the
  region, and the later operations (`hmain`); that the later operations stay inside the buffers the region
  does not scope, allocate nothing, and write neither an array the region stages nor an argument; the set of
  buffers they do write (`T`); and that no operation before the region writes an argument, so the region
  finds each argument as it was at the start (`V_main_argK`).
-/
import proofs.«111430_j72988674228458_2_alg».proof.Proof.Gen.Kernel.Launch
import proofs.«111430_j72988674228458_2_alg».proof.Proof.Gen.Kernel.Skeleton
import proofs.«111430_j72988674228458_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations before the region -/

/-- The stretches of host operations before the region, in order. -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Every buffer's contents on core `c` when the region is entered: the operations before it folded over the
    initial memory. -/
abbrev V0 (c : Dev nD) : Valuation τ sig (Elt F) := StableHlo.after (List.flatten (pre (F := F))) (fun b => m (c, b))
/-- The same, read at one reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is: the operations before the region, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-! ## The operations after the region -/

/-- They touch only arrays the region stages and buffers it does not scope. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1000000 in
/-- Each writes its own result buffer, which is none of the eleven arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The buffers the operations after the region write: their 23 results. -/
def T : Finset (Ref sig .tc) := {main_v69, main_v70, main_v71, main_v72, main_v73, main_v74, main_v75, main_v76, main_v77, main_v78, main_v79, main_v80, main_v81, main_v82, main_v83, main_v84, main_v85, main_v86, main_v87, main_v88, main_v89, main_cst_14, main_cst_15}
set_option maxHeartbeats 1000000 in
theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.nary_writes, Finset.mem_singleton] at hb; cases Proc.devRef_injective _ hb; decide

/-! ## The arguments at the region's entry -/

set_option maxHeartbeats 4000000 in
/-- No operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Around

end
-- ==== Proof.KernelBody.lean ====
/-
  The region's body, run once, saying only that it runs. The body is handed eighteen whole buffers: the blocks of
  the two prediction stacks, of the corner target, of the offset targets and of the bin targets; the six result
  blocks; and seven accumulators (one per loss and stack, and the count of positive pixels). It zeroes the
  accumulators when the row-tile coordinate is 0, adds this tile's seven partial sums to them, and, when the
  row-tile coordinate is 3, divides by the number of pixels and writes the six results. Every load and store is
  of a whole buffer, so from any contents of the eighteen buffers the body runs to its end without a fault and
  hands all eighteen back at some contents. That is all a claim that does not name the results needs; which of the
  two conditionals are taken only decides which stores happen, so there is one run per way they can go.
-/
import proofs.«111430_j72988674228458_2_alg».proof.Proof.Gen.Kernel.Launch
import proofs.«111430_j72988674228458_2_alg».proof.Proof.Gen.Kernel.Skeleton
import proofs.«111430_j72988674228458_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional's test: the row-tile coordinate is 0. -/
abbrev first (i : grid0.Coords) : Prop := (Scalar.cmpi .ne (Scalar.extui (Scalar.cmpi .eq (BitVec.ofNat 32 (i 1).val) 0#32)) 0#32) = 1#1
/-- The second conditional's test: the row-tile coordinate is 3. -/
abbrev last (i : grid0.Coords) : Prop := k0_cond2 i = 1#1

set_option maxHeartbeats 4000000 in
theorem run_mid (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : ¬first i) (h2 : ¬last i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

set_option maxHeartbeats 4000000 in
theorem run_first (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : first i) (h2 : ¬last i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

set_option maxHeartbeats 4000000 in
theorem run_last (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : ¬first i) (h2 : last i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

set_option maxHeartbeats 4000000 in
theorem run_both (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : first i) (h2 : last i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

/-- The body from any contents, whichever way its two conditionals go. -/
theorem run (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  by_cases h1 : first i <;> by_cases h2 : last i
  · exact run_both c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 E K
  · exact run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 E K
  · exact run_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 E K
  · exact run_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 E K

end Cert.Kernel.Body

end
-- ==== Proof.KernelFrame.lean ====
/-
  `Kernel` runs to its end, faults nowhere, and leaves its nine arguments as they were.
  The region is launched with proof data that relate, rather than name, what the body leaves in a staging buffer:
  of every window's buffer nothing is asked (the body's loads and stores are of whole buffers, whatever they hold),
  and the invariant between grid points is the seven accumulators at some contents and the generator register at
  some state. The body obligation is then the run of the body from any contents. What the launch concludes: an
  array the region only reads (the five heat-map arguments) ends as the region found it; a buffer neither staged
  nor written by the operations after the region (the four index arguments) ends as the region found it; and the
  region found every argument as it was at the start, since no operation before it writes one.
-/
import proofs.«111430_j72988674228458_2_alg».proof.Proof.KernelAround
import proofs.«111430_j72988674228458_2_alg».proof.Proof.KernelBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Around Cert.Kernel.Body

/-- The proof data on core `c`: the staged arrays as the region finds them; any contents may be left in any staging
    buffer; between points the accumulators and the generator register at anything; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdats m c).A w = V m c (Pipeline.arrRef spec0 w) := by
  dsimp only [rdats]

/-- The invariant spelled out: each of the seven accumulators owned at some contents, and the generator register. -/
theorem PhiA_eq (c : Dev nD) :
    (Pipeline.ΦA spec0 c : sProp 𝕄)
      = iprop(iprop((∃ d, owns (c : Thread nD τ) (Memref.whole cc0_scratch0 : Memref sig .tc .vmem S8x128 .f32) fullShare d) ∗ (∃ d, owns (c : Thread nD τ) (Memref.whole cc0_scratch1 : Memref sig .tc .vmem S8x128 .f32) fullShare d) ∗ (∃ d, owns (c : Thread nD τ) (Memref.whole cc0_scratch2 : Memref sig .tc .vmem S8x128 .f32) fullShare d) ∗ (∃ d, owns (c : Thread nD τ) (Memref.whole cc0_scratch3 : Memref sig .tc .vmem S8x128 .f32) fullShare d) ∗ (∃ d, owns (c : Thread nD τ) (Memref.whole cc0_scratch4 : Memref sig .tc .vmem S8x128 .f32) fullShare d) ∗ (∃ d, owns (c : Thread nD τ) (Memref.whole cc0_scratch5 : Memref sig .tc .vmem S8x128 .f32) fullShare d) ∗ (∃ d, owns (c : Thread nD τ) (Memref.whole cc0_scratch6 : Memref sig .tc .vmem S8x128 .f32) fullShare d)) ∗ (∃ r, prngReg c r)) := by
  unfold Pipeline.ΦA; rw [scopedRest0_eq]; simp only [owns_whole]; try rfl

set_option maxHeartbeats 4000000 in
/-- The body at any point, from any contents of the eleven staging buffers: it runs, and hands everything back. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
      ∗ owns (c : Thread nD τ) (st0_0 t) fullShare (Y 0)
      ∗ owns (c : Thread nD τ) (st0_1 t) fullShare (Y 1)
      ∗ owns (c : Thread nD τ) (st0_2 t) fullShare (Y 2)
      ∗ owns (c : Thread nD τ) (st0_3 t) fullShare (Y 3)
      ∗ owns (c : Thread nD τ) (st0_4 t) fullShare (Y 4)
      ∗ owns (c : Thread nD τ) (st0_5 t) fullShare (Y 5)
      ∗ owns (c : Thread nD τ) (st0_6 t) fullShare (Y 6)
      ∗ owns (c : Thread nD τ) (st0_7 t) fullShare (Y 7)
      ∗ owns (c : Thread nD τ) (st0_8 t) fullShare (Y 8)
      ∗ owns (c : Thread nD τ) (st0_9 t) fullShare (Y 9)
      ∗ owns (c : Thread nD τ) (st0_10 t) fullShare (Y 10))
    ⊢ wp frame (wpE (defs₀ (F := F)) Variants.none c none) Set.univ (bodyAt0 t) (fun _ =>
      iprop((rdats m c).Φ t.succ ∗ (rdats m c).owesAt () t.succ
        ∗ (∃ X, ⌜True⌝ ∗ owns (c : Thread nD τ) (st0_0 t) fullShare X)
        ∗ (∃ X, ⌜True⌝ ∗ owns (c : Thread nD τ) (st0_1 t) fullShare X)
        ∗ (∃ X, ⌜True⌝ ∗ owns (c : Thread nD τ) (st0_2 t) fullShare X)
        ∗ (∃ X, ⌜True⌝ ∗ owns (c : Thread nD τ) (st0_3 t) fullShare X)
        ∗ (∃ X, ⌜True⌝ ∗ owns (c : Thread nD τ) (st0_4 t) fullShare X)
        ∗ (∃ X, ⌜True⌝ ∗ owns (c : Thread nD τ) (st0_5 t) fullShare X)
        ∗ (∃ X, ⌜True⌝ ∗ owns (c : Thread nD τ) (st0_6 t) fullShare X)
        ∗ (∃ X, ⌜True⌝ ∗ owns (c : Thread nD τ) (st0_7 t) fullShare X)
        ∗ (∃ X, ⌜True⌝ ∗ owns (c : Thread nD τ) (st0_8 t) fullShare X)
        ∗ (∃ X, ⌜True⌝ ∗ owns (c : Thread nD τ) (st0_9 t) fullShare X)
        ∗ (∃ X, ⌜True⌝ ∗ owns (c : Thread nD τ) (st0_10 t) fullShare X))) := by
  unfold bodyAt0
  rw [show (rdats m c).owesAt () t.succ = (rdats m c).owesAt () t.castSucc from rfl]
  rw [show (rdats m c).Φ t.succ = Pipeline.ΦA spec0 c from rfl, show (rdats m c).Φ t.castSucc = Pipeline.ΦA spec0 c from rfl, PhiA_eq]
  iintro ⟨⟨⟨S0, S1, S2, S3, S4, S5, S6⟩, Hg⟩, Ho, H0, H1, H2, H3, H4, H5, H6, H7, H8, H9, H10⟩
  iapply (Body.run c (grid0.coords t) _ _ _ _ _ _ _ _ _ _ _ _ _ _ _ _ _ _ _ _ _ _ _ _ _ _ _ _ _ _ _ _ _ _ _ _ Set.univ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]
  · iexists _; isplitr
    · ipureintro; trivial
    iexact H0
  isplitl [H1]
  · iexists _; isplitr
    · ipureintro; trivial
    iexact H1
  isplitl [H2]
  · iexists _; isplitr
    · ipureintro; trivial
    iexact H2
  isplitl [H3]
  · iexists _; isplitr
    · ipureintro; trivial
    iexact H3
  isplitl [H4]
  · iexists _; isplitr
    · ipureintro; trivial
    iexact H4
  isplitl [H5]
  · iexists _; isplitr
    · ipureintro; trivial
    iexact H5
  isplitl [H6]
  · iexists _; isplitr
    · ipureintro; trivial
    iexact H6
  isplitl [H7]
  · iexists _; isplitr
    · ipureintro; trivial
    iexact H7
  isplitl [H8]
  · iexists _; isplitr
    · ipureintro; trivial
    iexact H8
  isplitl [H9]
  · iexists _; isplitr
    · ipureintro; trivial
    iexact H9
  iexists _; isplitr
  · ipureintro; trivial
  iexact H10

/-- The library's obligation for relational data, at every point and for all contents handed in. -/
theorem body_obligation (c : Dev nD) : (rdats (F := F) m c).BodyObligation (defs₀ (F := F)) Variants.none () Set.univ := fun t Y _ => by
  rw [bigSep_W0, bigSep_W0]
  exact sound_body m c t Y

theorem share_eq (c : Dev nD) (w : Fin cfg0.W) : (rdats m c).share w = fullShare := by
  unfold RDat.share; split <;> rfl

set_option backward.isDefEq.respectTransparency.types false in
/-- Every weakly fair execution of the entry function terminates without a fault; at the end each array the region
    only reads is as the region found it, and so is every unscoped buffer the later operations do not write. -/
theorem run_main : θ_run defs (onTc (τ := τ) (main (F := F))) (s₀ m ρ) (Pipeline.RDat.FramePostR cfg0 (rdats m) T (V m)) :=
  Pipeline.RDat.θ_run_frame_around_T cfgs (0 : Fin 1) launch0 defs₀ Variants.none (rdats m) T m ρ main
    (hbody := body_obligation m) (hshare := share_eq m) (howed := fun _ _ => rfl)
    (V₀ := V0 m) (opss := [hostOps1]) (hsub := sfx_sub) (hfresh := sfx_fresh) (hkeep := sfx_keeps) (hT := sfx_writes)
    (hmain := hmain m Variants.none) (hA := A_eq m) (hΦ := fun _ _ => rfl)

set_option maxHeartbeats 4000000 in
/-- The frame: the run, read at the nine arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    refine ⟨?_, ?_, ?_, ?_, ?_, ?_, ?_, ?_, ?_⟩
    · have h0 := (h c).1 0
      rw [RDat.ArrAt_in (rdats m c) 0 rfl] at h0
      exact h0.trans (V_main_arg0 m c)
    · have h1 := (h c).1 1
      rw [RDat.ArrAt_in (rdats m c) 1 rfl] at h1
      exact h1.trans (V_main_arg1 m c)
    · have h2 := (h c).1 2
      rw [RDat.ArrAt_in (rdats m c) 2 rfl] at h2
      exact h2.trans (V_main_arg2 m c)
    · have h3 := (h c).1 3
      rw [RDat.ArrAt_in (rdats m c) 3 rfl] at h3
      exact h3.trans (V_main_arg3 m c)
    · have h4 := (h c).1 4
      rw [RDat.ArrAt_in (rdats m c) 4 rfl] at h4
      exact h4.trans (V_main_arg4 m c)
    · exact ((h c).2 main_arg5 (by decide)).trans (V_main_arg5 m c)
    · exact ((h c).2 main_arg6 (by decide)).trans (V_main_arg6 m c)
    · exact ((h c).2 main_arg7 (by decide)).trans (V_main_arg7 m c)
    · exact ((h c).2 main_arg8 (by decide)).trans (V_main_arg8 m c)) (run_main m ρ)

end Cert.Kernel.Frame

end
-- ==== Proof.KernelIdealAround.lean ====
/-
  The host side of `KernelIdeal`'s entry function. The function is a straight line: 260 host operations (the two
  triplet losses on the centre channel: slices, gathers, squares, hinges, means), then the one region that
  streams the heat maps, then 23 host operations that take column 0 of each of the region's six results and
  lay the two result rows out. Here: the contents of every buffer when the region is entered, as the fold of
  the 260 operations over the initial memory (`V0`, `V`); that the entry function is those operations, the
  region, and the later operations (`hmain`); that the later operations stay inside the buffers the region
  does not scope, allocate nothing, and write neither an array the region stages nor an argument; the set of
  buffers they do write (`T`); and that no operation before the region writes an argument, so the region
  finds each argument as it was at the start (`V_main_argK`).
-/
import proofs.«111430_j72988674228458_2_alg».proof.Proof.Gen.KernelIdeal.Launch
import proofs.«111430_j72988674228458_2_alg».proof.Proof.Gen.KernelIdeal.Skeleton
import proofs.«111430_j72988674228458_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations before the region -/

/-- The stretches of host operations before the region, in order. -/
abbrev pre : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Every buffer's contents on core `c` when the region is entered: the operations before it folded over the
    initial memory. -/
abbrev V0 (c : Dev nD) : Valuation τ sig (Elt F) := StableHlo.after (List.flatten (pre (F := F))) (fun b => m (c, b))
/-- The same, read at one reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is: the operations before the region, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-! ## The operations after the region -/

/-- They touch only arrays the region stages and buffers it does not scope. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 1000000 in
/-- Each writes its own result buffer, which is none of the eleven arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The buffers the operations after the region write: their 23 results. -/
def T : Finset (Ref sig .tc) := {main_v69, main_v70, main_v71, main_v72, main_v73, main_v74, main_v75, main_v76, main_v77, main_v78, main_v79, main_v80, main_v81, main_v82, main_v83, main_v84, main_v85, main_v86, main_v87, main_v88, main_v89, main_cst_14, main_cst_15}
set_option maxHeartbeats 1000000 in
theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.nary_writes, Finset.mem_singleton] at hb; cases Proc.devRef_injective _ hb; decide

/-! ## The arguments at the region's entry -/

set_option maxHeartbeats 4000000 in
/-- No operation before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No operation before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Around

end
-- ==== Proof.KernelIdealBody.lean ====
/-
  The region's body, run once, saying only that it runs. The body is handed eighteen whole buffers: the blocks of
  the two prediction stacks, of the corner target, of the offset targets and of the bin targets; the six result
  blocks; and seven accumulators (one per loss and stack, and the count of positive pixels). It zeroes the
  accumulators when the row-tile coordinate is 0, adds this tile's seven partial sums to them, and, when the
  row-tile coordinate is 3, divides by the number of pixels and writes the six results. Every load and store is
  of a whole buffer, so from any contents of the eighteen buffers the body runs to its end without a fault and
  hands all eighteen back at some contents. That is all a claim that does not name the results needs; which of the
  two conditionals are taken only decides which stores happen, so there is one run per way they can go.
-/
import proofs.«111430_j72988674228458_2_alg».proof.Proof.Gen.KernelIdeal.Launch
import proofs.«111430_j72988674228458_2_alg».proof.Proof.Gen.KernelIdeal.Skeleton
import proofs.«111430_j72988674228458_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional's test: the row-tile coordinate is 0. -/
abbrev first (i : grid0.Coords) : Prop := (Scalar.cmpi .ne (Scalar.extui (Scalar.cmpi .eq (BitVec.ofNat 32 (i 1).val) 0#32)) 0#32) = 1#1
/-- The second conditional's test: the row-tile coordinate is 3. -/
abbrev last (i : grid0.Coords) : Prop := k0_cond2 i = 1#1

set_option maxHeartbeats 4000000 in
theorem run_mid (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : ¬first i) (h2 : ¬last i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

set_option maxHeartbeats 4000000 in
theorem run_first (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : first i) (h2 : ¬last i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

set_option maxHeartbeats 4000000 in
theorem run_last (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : ¬first i) (h2 : last i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

set_option maxHeartbeats 4000000 in
theorem run_both (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : first i) (h2 : last i) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

/-- The body from any contents, whichever way its two conditionals go. -/
theorem run (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (E : Set ℕ) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  by_cases h1 : first i <;> by_cases h2 : last i
  · exact run_both c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 E K
  · exact run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 E K
  · exact run_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 E K
  · exact run_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h1 h2 E K

end Cert.KernelIdeal.Body

end
-- ==== Proof.KernelIdealFrame.lean ====
/-
  `KernelIdeal` runs to its end, faults nowhere, and leaves its nine arguments as they were.
  The region is launched with proof data that relate, rather than name, what the body leaves in a staging buffer:
  of every window's buffer nothing is asked (the body's loads and stores are of whole buffers, whatever they hold),
  and the invariant between grid points is the seven accumulators at some contents and the generator register at
  some state. The body obligation is then the run of the body from any contents. What the launch concludes: an
  array the region only reads (the five heat-map arguments) ends as the region found it; a buffer neither staged
  nor written by the operations after the region (the four index arguments) ends as the region found it; and the
  region found every argument as it was at the start, since no operation before it writes one.
-/
import proofs.«111430_j72988674228458_2_alg».proof.Proof.KernelIdealAround
import proofs.«111430_j72988674228458_2_alg».proof.Proof.KernelIdealBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Around Cert.KernelIdeal.Body

/-- The proof data on core `c`: the staged arrays as the region finds them; any contents may be left in any staging
    buffer; between points the accumulators and the generator register at anything; nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdats m c).A w = V m c (Pipeline.arrRef spec0 w) := by
  dsimp only [rdats]

/-- The invariant spelled out: each of the seven accumulators owned at some contents, and the generator register. -/
theorem PhiA_eq (c : Dev nD) :
    (Pipeline.ΦA spec0 c : sProp 𝕄)
      = iprop(iprop((∃ d, owns (c : Thread nD τ) (Memref.whole cc0_scratch0 : Memref sig .tc .vmem S8x128 .f32) fullShare d) ∗ (∃ d, owns (c : Thread nD τ) (Memref.whole cc0_scratch1 : Memref sig .tc .vmem S8x128 .f32) fullShare d) ∗ (∃ d, owns (c : Thread nD τ) (Memref.whole cc0_scratch2 : Memref sig .tc .vmem S8x128 .f32) fullShare d) ∗ (∃ d, owns (c : Thread nD τ) (Memref.whole cc0_scratch3 : Memref sig .tc .vmem S8x128 .f32) fullShare d) ∗ (∃ d, owns (c : Thread nD τ) (Memref.whole cc0_scratch4 : Memref sig .tc .vmem S8x128 .f32) fullShare d) ∗ (∃ d, owns (c : Thread nD τ) (Memref.whole cc0_scratch5 : Memref sig .tc .vmem S8x128 .f32) fullShare d) ∗ (∃ d, owns (c : Thread nD τ) (Memref.whole cc0_scratch6 : Memref sig .tc .vmem S8x128 .f32) fullShare d)) ∗ (∃ r, prngReg c r)) := by
  unfold Pipeline.ΦA; rw [scopedRest0_eq]; simp only [owns_whole]; try rfl

set_option maxHeartbeats 4000000 in
/-- The body at any point, from any contents of the eleven staging buffers: it runs, and hands everything back. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
      ∗ owns (c : Thread nD τ) (st0_0 t) fullShare (Y 0)
      ∗ owns (c : Thread nD τ) (st0_1 t) fullShare (Y 1)
      ∗ owns (c : Thread nD τ) (st0_2 t) fullShare (Y 2)
      ∗ owns (c : Thread nD τ) (st0_3 t) fullShare (Y 3)
      ∗ owns (c : Thread nD τ) (st0_4 t) fullShare (Y 4)
      ∗ owns (c : Thread nD τ) (st0_5 t) fullShare (Y 5)
      ∗ owns (c : Thread nD τ) (st0_6 t) fullShare (Y 6)
      ∗ owns (c : Thread nD τ) (st0_7 t) fullShare (Y 7)
      ∗ owns (c : Thread nD τ) (st0_8 t) fullShare (Y 8)
      ∗ owns (c : Thread nD τ) (st0_9 t) fullShare (Y 9)
      ∗ owns (c : Thread nD τ) (st0_10 t) fullShare (Y 10))
    ⊢ wp frame (wpE (defs₀ (F := F)) Variants.none c none) Set.univ (bodyAt0 t) (fun _ =>
      iprop((rdats m c).Φ t.succ ∗ (rdats m c).owesAt () t.succ
        ∗ (∃ X, ⌜True⌝ ∗ owns (c : Thread nD τ) (st0_0 t) fullShare X)
        ∗ (∃ X, ⌜True⌝ ∗ owns (c : Thread nD τ) (st0_1 t) fullShare X)
        ∗ (∃ X, ⌜True⌝ ∗ owns (c : Thread nD τ) (st0_2 t) fullShare X)
        ∗ (∃ X, ⌜True⌝ ∗ owns (c : Thread nD τ) (st0_3 t) fullShare X)
        ∗ (∃ X, ⌜True⌝ ∗ owns (c : Thread nD τ) (st0_4 t) fullShare X)
        ∗ (∃ X, ⌜True⌝ ∗ owns (c : Thread nD τ) (st0_5 t) fullShare X)
        ∗ (∃ X, ⌜True⌝ ∗ owns (c : Thread nD τ) (st0_6 t) fullShare X)
        ∗ (∃ X, ⌜True⌝ ∗ owns (c : Thread nD τ) (st0_7 t) fullShare X)
        ∗ (∃ X, ⌜True⌝ ∗ owns (c : Thread nD τ) (st0_8 t) fullShare X)
        ∗ (∃ X, ⌜True⌝ ∗ owns (c : Thread nD τ) (st0_9 t) fullShare X)
        ∗ (∃ X, ⌜True⌝ ∗ owns (c : Thread nD τ) (st0_10 t) fullShare X))) := by
  unfold bodyAt0
  rw [show (rdats m c).owesAt () t.succ = (rdats m c).owesAt () t.castSucc from rfl]
  rw [show (rdats m c).Φ t.succ = Pipeline.ΦA spec0 c from rfl, show (rdats m c).Φ t.castSucc = Pipeline.ΦA spec0 c from rfl, PhiA_eq]
  iintro ⟨⟨⟨S0, S1, S2, S3, S4, S5, S6⟩, Hg⟩, Ho, H0, H1, H2, H3, H4, H5, H6, H7, H8, H9, H10⟩
  iapply (Body.run c (grid0.coords t) _ _ _ _ _ _ _ _ _ _ _ _ _ _ _ _ _ _ _ _ _ _ _ _ _ _ _ _ _ _ _ _ _ _ _ _ Set.univ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]
  · iexists _; isplitr
    · ipureintro; trivial
    iexact H0
  isplitl [H1]
  · iexists _; isplitr
    · ipureintro; trivial
    iexact H1
  isplitl [H2]
  · iexists _; isplitr
    · ipureintro; trivial
    iexact H2
  isplitl [H3]
  · iexists _; isplitr
    · ipureintro; trivial
    iexact H3
  isplitl [H4]
  · iexists _; isplitr
    · ipureintro; trivial
    iexact H4
  isplitl [H5]
  · iexists _; isplitr
    · ipureintro; trivial
    iexact H5
  isplitl [H6]
  · iexists _; isplitr
    · ipureintro; trivial
    iexact H6
  isplitl [H7]
  · iexists _; isplitr
    · ipureintro; trivial
    iexact H7
  isplitl [H8]
  · iexists _; isplitr
    · ipureintro; trivial
    iexact H8
  isplitl [H9]
  · iexists _; isplitr
    · ipureintro; trivial
    iexact H9
  iexists _; isplitr
  · ipureintro; trivial
  iexact H10

/-- The library's obligation for relational data, at every point and for all contents handed in. -/
theorem body_obligation (c : Dev nD) : (rdats (F := F) m c).BodyObligation (defs₀ (F := F)) Variants.none () Set.univ := fun t Y _ => by
  rw [bigSep_W0, bigSep_W0]
  exact sound_body m c t Y

theorem share_eq (c : Dev nD) (w : Fin cfg0.W) : (rdats m c).share w = fullShare := by
  unfold RDat.share; split <;> rfl

set_option backward.isDefEq.respectTransparency.types false in
/-- Every weakly fair execution of the entry function terminates without a fault; at the end each array the region
    only reads is as the region found it, and so is every unscoped buffer the later operations do not write. -/
theorem run_main : θ_run defs (onTc (τ := τ) (main (F := F))) (s₀ m ρ) (Pipeline.RDat.FramePostR cfg0 (rdats m) T (V m)) :=
  Pipeline.RDat.θ_run_frame_around_T cfgs (0 : Fin 1) launch0 defs₀ Variants.none (rdats m) T m ρ main
    (hbody := body_obligation m) (hshare := share_eq m) (howed := fun _ _ => rfl)
    (V₀ := V0 m) (opss := [hostOps1]) (hsub := sfx_sub) (hfresh := sfx_fresh) (hkeep := sfx_keeps) (hT := sfx_writes)
    (hmain := hmain m Variants.none) (hA := A_eq m) (hΦ := fun _ _ => rfl)

set_option maxHeartbeats 4000000 in
/-- The frame: the run, read at the nine arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    refine ⟨?_, ?_, ?_, ?_, ?_, ?_, ?_, ?_, ?_⟩
    · have h0 := (h c).1 0
      rw [RDat.ArrAt_in (rdats m c) 0 rfl] at h0
      exact h0.trans (V_main_arg0 m c)
    · have h1 := (h c).1 1
      rw [RDat.ArrAt_in (rdats m c) 1 rfl] at h1
      exact h1.trans (V_main_arg1 m c)
    · have h2 := (h c).1 2
      rw [RDat.ArrAt_in (rdats m c) 2 rfl] at h2
      exact h2.trans (V_main_arg2 m c)
    · have h3 := (h c).1 3
      rw [RDat.ArrAt_in (rdats m c) 3 rfl] at h3
      exact h3.trans (V_main_arg3 m c)
    · have h4 := (h c).1 4
      rw [RDat.ArrAt_in (rdats m c) 4 rfl] at h4
      exact h4.trans (V_main_arg4 m c)
    · exact ((h c).2 main_arg5 (by decide)).trans (V_main_arg5 m c)
    · exact ((h c).2 main_arg6 (by decide)).trans (V_main_arg6 m c)
    · exact ((h c).2 main_arg7 (by decide)).trans (V_main_arg7 m c)
    · exact ((h c).2 main_arg8 (by decide)).trans (V_main_arg8 m c)) (run_main m ρ)

end Cert.KernelIdeal.Frame

end
-- ==== Proof.KernelIdealStep.lean ====
/-
  One grid point of the region as a function. The body keeps seven running sums, one row per image of the batch
  tile: the corner, offset and bin losses of each of the two stacks, and the number of positive pixels. At a
  point it adds to each the sum, over the 64 x 256 pixels of the point's row tile, of that loss's per-pixel
  term (`step`); the sums start from zero at the first row tile (`zero`); after the last row tile each loss is
  divided by the number of pixels, the bin losses also by the fraction of positive pixels, and scaled by its
  weight (`finals`). Written over the body's own terms, one per store, so that the body's run can be stated
  through them.
-/
import proofs.«111430_j72988674228458_2_alg».proof.Proof.Gen.KernelIdeal.Skeleton

noncomputable section

namespace Cert.KernelIdeal.Step

open Cert.KernelIdeal Cert.KernelIdeal.Gen Idealize.ShloMosaic

variable {F : FTy → Type} [FloatOps F]

/-- The seven running sums. -/
structure Acc (F : FTy → Type) [FloatOps F] where
  c0 : Vec F S8x128 .f32
  o0 : Vec F S8x128 .f32
  b0 : Vec F S8x128 .f32
  c1 : Vec F S8x128 .f32
  o1 : Vec F S8x128 .f32
  b1 : Vec F S8x128 .f32
  pos : Vec F S8x128 .f32

/-- All seven at zero. -/
def zero : Acc F := ⟨k0_pay12, k0_pay13, k0_pay14, k0_pay15, k0_pay16, k0_pay17, k0_pay18⟩

/-- The sums after a point, from the point's five blocks (the two stacks, the corner target, the offset targets,
    the bin targets) and the sums before it. -/
def step (x0 x1 : Vec F S8x7x64x256 .f32) (x2 : Vec F S8x1x64x256 .f32) (x3 x4 : Vec F S8x1x2x64x256 .f32) (s : Acc F) : Acc F where
  c0 := k0_pay29 (k0_pay19 x2) (k0_pay26 x0) (k0_pay27 x0) (k0_pay28 x0) s.c0
  o0 := k0_pay37 (k0_pay22 x3) (k0_pay23 x3) (k0_pay31 (k0_pay21 x3) x0) (k0_pay32 (k0_pay20 x3) x0) (k0_pay33 (k0_pay21 x3) x0)
          (k0_pay34 (k0_pay20 x3) x0) (k0_pay35 (k0_pay20 x3) x0) k0_pay36 s.o0
  b0 := k0_pay39 s.b0 (k0_pay38 (k0_pay19 x2) (k0_pay24 x4) (k0_pay25 x4) x0)
  c1 := k0_pay40 (k0_pay19 x2) x1 s.c1
  o1 := k0_pay42 (k0_pay20 x3) (k0_pay21 x3) (k0_pay22 x3) (k0_pay23 x3) x1 (k0_pay41 x1) s.o1
  b1 := k0_pay1 (k0_pay19 x2) (k0_pay24 x4) (k0_pay25 x4) (k0_pay43 x1) (k0_pay44 x1) k0_pay45 s.b1
  pos := k0_pay2 (k0_pay19 x2) s.pos

/-- The six results written after the last row tile, from the completed sums. -/
structure Outs (F : FTy → Type) [FloatOps F] where
  lc0 : Vec F S8x128 .f32
  lo0 : Vec F S8x128 .f32
  lb0 : Vec F S8x128 .f32
  lc1 : Vec F S8x128 .f32
  lo1 : Vec F S8x128 .f32
  lb1 : Vec F S8x128 .f32

def finals (s : Acc F) : Outs F where
  lc0 := k0_pay7 s.c0
  lo0 := k0_pay8 s.o0
  lb0 := k0_pay9 s.pos s.b0
  lc1 := k0_pay3 (k0_pay10 s.c1) k0_pay11
  lo1 := k0_pay4 s.o1
  lb1 := k0_pay5 (k0_pay6 s.pos) s.b1

end Cert.KernelIdeal.Step

end
-- ==== Proof.LibWholeStore.lean ====
/-
  A store through the rectangle that is the whole of a shape, made last, decides what the buffer reads as: its
  payload, whatever was stored before and whatever the buffer held. (The rectangle is given by its offset, which is
  zero on every axis, and the shape's own sizes.)
-/
import Idealize.ShloMosaic.Lib.Pipeline.Value
import Idealize.ShloMosaic.Lib.Pipeline.FrameBody

namespace Idealize.ShloMosaic.View

variable {Val : EltTy → Type} [∀ e, Nonempty (Val e)] {sig : RefSig} {κ : Kind} {sp : Space} {S : Shape} {e : EltTy}

/-- Reading a view after a list of stores whose last one covers the whole shape gives that store's payload. -/
theorem read_writes_whole_last (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  subst h
  rw [read_writes_eq_canon v f _ (fun y => ⟨_, List.mem_cons_self, by
    show y ∈ (Rect.whole S).set; rw [Rect.set_whole]; exact Finset.mem_univ y⟩), canon_cons_unit_zero rfl]

end Idealize.ShloMosaic.View
-- ==== Proof.KernelIdealNamed.lean ====
/-
  The region's body at one grid point, with what it leaves named. From the point's five input blocks and the seven
  running sums as the point finds them, the body leaves the inputs as they were and the running sums advanced by one
  step (`Step.step`): from zero when the row-tile coordinate is 0 (whatever the accumulators held), from what the
  previous point left otherwise. When the row-tile coordinate is 3 it also writes the six results, computed from the
  advanced sums (`Step.finals`); at the other points it leaves the six result buffers exactly as it found them.
  Each buffer is stored whole, so after the run a buffer reads as the value of its last store, and each value
  loaded from an accumulator is what was last stored there.
-/
import proofs.«111430_j72988674228458_2_alg».proof.Proof.Gen.KernelIdeal.Launch
import proofs.«111430_j72988674228458_2_alg».proof.Proof.Gen.KernelIdeal.Skeleton
import proofs.«111430_j72988674228458_2_alg».proof.Proof.Gen.KernelIdeal.Points
import proofs.«111430_j72988674228458_2_alg».proof.Proof.KernelIdealStep
import proofs.«111430_j72988674228458_2_alg».proof.Proof.LibWholeStore
import Idealize.ShloMosaic.Lib.Pipeline.FrameBody
import Idealize.ShloMosaic.Lib.Ring
import Idealize.ShloMosaic.Lib.Tactic

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Step (Acc)

abbrev first (i : grid0.Coords) : Prop := (Scalar.cmpi .ne (Scalar.extui (Scalar.cmpi .eq (BitVec.ofNat 32 (i 1).val) 0#32)) 0#32) = 1#1
abbrev last (i : grid0.Coords) : Prop := k0_cond2 i = 1#1

theorem hz2 : (![0, 0] : Fin 2 → ℕ) = fun _ => 0 := by funext a; fin_cases a <;> rfl
theorem hz4 : (![0, 0, 0, 0] : Fin 4 → ℕ) = fun _ => 0 := by funext a; fin_cases a <;> rfl
theorem hz5 : (![0, 0, 0, 0, 0] : Fin 5 → ℕ) = fun _ => 0 := by funext a; fin_cases a <;> rfl

set_option maxHeartbeats 8000000 in
theorem run_mid (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : ¬first i) (h2 : ¬last i) (E : Set ℕ) (K : PUnit → sProp 𝕄)
    (x0 x1 : Vec F S8x7x64x256 .f32) (x2 : Vec F S8x1x64x256 .f32) (x3 x4 : Vec F S8x1x2x64x256 .f32) (y7 y8 y9 y10 y11 y12 : Vec F S8x128 .f32) (s : Step.Acc F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare s.c0 ∗ owns (c : Thread nD τ) arg14 fullShare s.o0 ∗ owns (c : Thread nD τ) arg15 fullShare s.b0 ∗ owns (c : Thread nD τ) arg16 fullShare s.c1 ∗ owns (c : Thread nD τ) arg17 fullShare s.o1 ∗ owns (c : Thread nD τ) arg18 fullShare s.b1 ∗ owns (c : Thread nD τ) arg19 fullShare s.pos
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare (Step.step x0 x1 x2 x3 x4 s).c0 ∗ owns (c : Thread nD τ) arg14 fullShare (Step.step x0 x1 x2 x3 x4 s).o0 ∗ owns (c : Thread nD τ) arg15 fullShare (Step.step x0 x1 x2 x3 x4 s).b0 ∗ owns (c : Thread nD τ) arg16 fullShare (Step.step x0 x1 x2 x3 x4 s).c1 ∗ owns (c : Thread nD τ) arg17 fullShare (Step.step x0 x1 x2 x3 x4 s).o1 ∗ owns (c : Thread nD τ) arg18 fullShare (Step.step x0 x1 x2 x3 x4 s).b1 ∗ owns (c : Thread nD τ) arg19 fullShare (Step.step x0 x1 x2 x3 x4 s).pos) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  sl_exec (disch := first | exact h1 | exact h2)
  sl_step
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; exact hf11
  isplitl [H12]
  · iexists _; isplitr
    swap; · iexact H12
    ipureintro; exact hf12
  isplitl [H13]
  · iexists _; isplitr
    swap; · iexact H13
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H14]
  · iexists _; isplitr
    swap; · iexact H14
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H15]
  · iexists _; isplitr
    swap; · iexact H15
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H16]
  · iexists _; isplitr
    swap; · iexact H16
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H17]
  · iexists _; isplitr
    swap; · iexact H17
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H18]
  · iexists _; isplitr
    swap; · iexact H18
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  iexists _; isplitr
  swap; · iexact H19
  ipureintro
  sl_unfold_words
  rw [View.read_writes_whole_last (S := S8x128) _ _ hz2]
  simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
  rfl

set_option maxHeartbeats 8000000 in
theorem run_first (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : first i) (h2 : ¬last i) (E : Set ℕ) (K : PUnit → sProp 𝕄)
    (x0 x1 : Vec F S8x7x64x256 .f32) (x2 : Vec F S8x1x64x256 .f32) (x3 x4 : Vec F S8x1x2x64x256 .f32) (y7 y8 y9 y10 y11 y12 : Vec F S8x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare (Step.step x0 x1 x2 x3 x4 Step.zero).c0 ∗ owns (c : Thread nD τ) arg14 fullShare (Step.step x0 x1 x2 x3 x4 Step.zero).o0 ∗ owns (c : Thread nD τ) arg15 fullShare (Step.step x0 x1 x2 x3 x4 Step.zero).b0 ∗ owns (c : Thread nD τ) arg16 fullShare (Step.step x0 x1 x2 x3 x4 Step.zero).c1 ∗ owns (c : Thread nD τ) arg17 fullShare (Step.step x0 x1 x2 x3 x4 Step.zero).o1 ∗ owns (c : Thread nD τ) arg18 fullShare (Step.step x0 x1 x2 x3 x4 Step.zero).b1 ∗ owns (c : Thread nD τ) arg19 fullShare (Step.step x0 x1 x2 x3 x4 Step.zero).pos) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  sl_exec (disch := first | exact h1 | exact h2)
  sl_step
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; isplitr
    swap; · iexact H9
    ipureintro; exact hf9
  isplitl [H10]
  · iexists _; isplitr
    swap; · iexact H10
    ipureintro; exact hf10
  isplitl [H11]
  · iexists _; isplitr
    swap; · iexact H11
    ipureintro; exact hf11
  isplitl [H12]
  · iexists _; isplitr
    swap; · iexact H12
    ipureintro; exact hf12
  isplitl [H13]
  · iexists _; isplitr
    swap; · iexact H13
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6]
    rfl
  isplitl [H14]
  · iexists _; isplitr
    swap; · iexact H14
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6]
    rfl
  isplitl [H15]
  · iexists _; isplitr
    swap; · iexact H15
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6]
    rfl
  isplitl [H16]
  · iexists _; isplitr
    swap; · iexact H16
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6]
    rfl
  isplitl [H17]
  · iexists _; isplitr
    swap; · iexact H17
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6]
    rfl
  isplitl [H18]
  · iexists _; isplitr
    swap; · iexact H18
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6]
    rfl
  iexists _; isplitr
  swap; · iexact H19
  ipureintro
  sl_unfold_words
  rw [View.read_writes_whole_last (S := S8x128) _ _ hz2]
  simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6]
  rfl

set_option maxHeartbeats 8000000 in
theorem run_last (c : Dev nD) (i : grid0.Coords) (arg2 : Memref sig .tc .vmem S8x7x64x256 .f32) (harg2 : arg2.IsWhole) (arg3 : Memref sig .tc .vmem S8x7x64x256 .f32) (harg3 : arg3.IsWhole) (arg4 : Memref sig .tc .vmem S8x1x64x256 .f32) (harg4 : arg4.IsWhole) (arg5 : Memref sig .tc .vmem S8x1x2x64x256 .f32) (harg5 : arg5.IsWhole) (arg6 : Memref sig .tc .vmem S8x1x2x64x256 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole)
    (h1 : ¬first i) (h2 : last i) (E : Set ℕ) (K : PUnit → sProp 𝕄)
    (x0 x1 : Vec F S8x7x64x256 .f32) (x2 : Vec F S8x1x64x256 .f32) (x3 x4 : Vec F S8x1x2x64x256 .f32) (s : Step.Acc F) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s.c0 ∗ owns (c : Thread nD τ) arg14 fullShare s.o0 ∗ owns (c : Thread nD τ) arg15 fullShare s.b0 ∗ owns (c : Thread nD τ) arg16 fullShare s.c1 ∗ owns (c : Thread nD τ) arg17 fullShare s.o1 ∗ owns (c : Thread nD τ) arg18 fullShare s.b1 ∗ owns (c : Thread nD τ) arg19 fullShare s.pos
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (Step.finals (Step.step x0 x1 x2 x3 x4 s)).lc0 ∗ owns (c : Thread nD τ) arg8 fullShare (Step.finals (Step.step x0 x1 x2 x3 x4 s)).lo0 ∗ owns (c : Thread nD τ) arg9 fullShare (Step.finals (Step.step x0 x1 x2 x3 x4 s)).lb0 ∗ owns (c : Thread nD τ) arg10 fullShare (Step.finals (Step.step x0 x1 x2 x3 x4 s)).lc1 ∗ owns (c : Thread nD τ) arg11 fullShare (Step.finals (Step.step x0 x1 x2 x3 x4 s)).lo1 ∗ owns (c : Thread nD τ) arg12 fullShare (Step.finals (Step.step x0 x1 x2 x3 x4 s)).lb1 ∗ owns (c : Thread nD τ) arg13 fullShare (Step.step x0 x1 x2 x3 x4 s).c0 ∗ owns (c : Thread nD τ) arg14 fullShare (Step.step x0 x1 x2 x3 x4 s).o0 ∗ owns (c : Thread nD τ) arg15 fullShare (Step.step x0 x1 x2 x3 x4 s).b0 ∗ owns (c : Thread nD τ) arg16 fullShare (Step.step x0 x1 x2 x3 x4 s).c1 ∗ owns (c : Thread nD τ) arg17 fullShare (Step.step x0 x1 x2 x3 x4 s).o1 ∗ owns (c : Thread nD τ) arg18 fullShare (Step.step x0 x1 x2 x3 x4 s).b1 ∗ owns (c : Thread nD τ) arg19 fullShare (Step.step x0 x1 x2 x3 x4 s).pos) -∗ K ⟨⟩))
      ⊢ wp frame (wpE (defs₀ (F := F)) Variants.none c none) E (cc0__heatmap_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heatmap_kernel_eq_skeleton]; unfold cc0__heatmap_kernel_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  sl_exec (disch := first | exact h1 | exact h2)
  sl_step
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H8]
  · iexists _; isplitr
    swap; · iexact H8
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H9]
  · iexists _; isplitr
    swap; · iexact H9
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H10]
  · iexists _; isplitr
    swap; · iexact H10
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H11]
  · iexists _; isplitr
    swap; · iexact H11
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H12]
  · iexists _; isplitr
    swap; · iexact H12
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H13]
  · iexists _; isplitr
    swap; · iexact H13
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H14]
  · iexists _; isplitr
    swap; · iexact H14
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H15]
  · iexists _; isplitr
    swap; · iexact H15
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H16]
  · iexists _; isplitr
    swap; · iexact H16
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H17]
  · iexists _; isplitr
    swap; · iexact H17
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  isplitl [H18]
  · iexists _; isplitr
    swap; · iexact H18
    ipureintro
    sl_unfold_words
    rw [View.read_writes_whole_last (S := S8x128) _ _ hz2]
    simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
    rfl
  iexists _; isplitr
  swap; · iexact H19
  ipureintro
  sl_unfold_words
  rw [View.read_writes_whole_last (S := S8x128) _ _ hz2]
  simp only [View.readAt_eq_ld, View.readCov_unit_zero (S := S8x128) _ hz2, View.ld_unit_zero (S := S8x128) hz2, View.ld_unit_zero (S := S8x7x64x256) hz4, View.ld_unit_zero (S := S8x1x64x256) hz4, View.ld_unit_zero (S := S8x1x2x64x256) hz5, hf2, hf3, hf4, hf5, hf6, hf13, hf14, hf15, hf16, hf17, hf18, hf19]
  rfl

end Cert.KernelIdeal.Named

end
-- ==== Proof.KernelIdealNamedFrame.lean ====
/-
  `KernelIdeal` run with what it leaves named. The proof data name, for every grid point, what each staging buffer holds
  after the body: an input's buffer holds its block of the argument array; the running sums after point n are those
  after point n - 1 advanced by the point's blocks, starting again from zero at each first row tile (`accAt`); the
  six result buffers hold, at a last row tile, the results computed from the completed sums, and at the other points
  they are idle: handed back as found and not written back. Between points the invariant holds the seven accumulators
  at `accAt` of the point before (at anything before the first point). The body obligation is then the three
  named runs of the body, chosen by the point's position in its row of tiles.
-/
import proofs.«111430_j72988674228458_2_alg».proof.Proof.KernelIdealAround
import proofs.«111430_j72988674228458_2_alg».proof.Proof.KernelIdealNamed

set_option maxRecDepth 16384

noncomputable section

namespace Cert.KernelIdeal.NamedFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Around Cert.KernelIdeal.Named Cert.KernelIdeal.Step

/-! ## The two conditions over the grid, and where the result windows are idle -/

theorem hfirst : ∀ t : Fin cfg0.N, first (grid0.coords t) ↔ t.val % 4 = 0 :=
  (by decide +kernel : ∀ t : Fin grid0.N, first (grid0.coords t) ↔ t.val % 4 = 0)
theorem hlast : ∀ t : Fin cfg0.N, last (grid0.coords t) ↔ t.val % 4 = 3 :=
  (by decide +kernel : ∀ t : Fin grid0.N, last (grid0.coords t) ↔ t.val % 4 = 3)

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
theorem live_in4 : ∀ t : Fin cfg0.N, cfg0.idle 4 (grid0.coords t) = false := by decide +kernel
theorem idle_out5 : ∀ t : Fin cfg0.N, ¬last (grid0.coords t) → cfg0.idle 5 (grid0.coords t) = true := by decide +kernel
theorem noFlush_out5 : ∀ t : Fin cfg0.N, ¬last (grid0.coords t) → (cfg0.win 5).flush t = false := by decide +kernel
theorem live_out5 : ∀ t : Fin cfg0.N, last (grid0.coords t) → cfg0.idle 5 (grid0.coords t) = false := by decide +kernel
theorem idle_out6 : ∀ t : Fin cfg0.N, ¬last (grid0.coords t) → cfg0.idle 6 (grid0.coords t) = true := by decide +kernel
theorem noFlush_out6 : ∀ t : Fin cfg0.N, ¬last (grid0.coords t) → (cfg0.win 6).flush t = false := by decide +kernel
theorem live_out6 : ∀ t : Fin cfg0.N, last (grid0.coords t) → cfg0.idle 6 (grid0.coords t) = false := by decide +kernel
theorem idle_out7 : ∀ t : Fin cfg0.N, ¬last (grid0.coords t) → cfg0.idle 7 (grid0.coords t) = true := by decide +kernel
theorem noFlush_out7 : ∀ t : Fin cfg0.N, ¬last (grid0.coords t) → (cfg0.win 7).flush t = false := by decide +kernel
theorem live_out7 : ∀ t : Fin cfg0.N, last (grid0.coords t) → cfg0.idle 7 (grid0.coords t) = false := by decide +kernel
theorem idle_out8 : ∀ t : Fin cfg0.N, ¬last (grid0.coords t) → cfg0.idle 8 (grid0.coords t) = true := by decide +kernel
theorem noFlush_out8 : ∀ t : Fin cfg0.N, ¬last (grid0.coords t) → (cfg0.win 8).flush t = false := by decide +kernel
theorem live_out8 : ∀ t : Fin cfg0.N, last (grid0.coords t) → cfg0.idle 8 (grid0.coords t) = false := by decide +kernel
theorem idle_out9 : ∀ t : Fin cfg0.N, ¬last (grid0.coords t) → cfg0.idle 9 (grid0.coords t) = true := by decide +kernel
theorem noFlush_out9 : ∀ t : Fin cfg0.N, ¬last (grid0.coords t) → (cfg0.win 9).flush t = false := by decide +kernel
theorem live_out9 : ∀ t : Fin cfg0.N, last (grid0.coords t) → cfg0.idle 9 (grid0.coords t) = false := by decide +kernel
theorem idle_out10 : ∀ t : Fin cfg0.N, ¬last (grid0.coords t) → cfg0.idle 10 (grid0.coords t) = true := by decide +kernel
theorem noFlush_out10 : ∀ t : Fin cfg0.N, ¬last (grid0.coords t) → (cfg0.win 10).flush t = false := by decide +kernel
theorem live_out10 : ∀ t : Fin cfg0.N, last (grid0.coords t) → cfg0.idle 10 (grid0.coords t) = false := by decide +kernel

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The running sums after each point -/

/-- The seven running sums after the point at position `n`. -/
def accAt (c : Dev nD) : (n : ℕ) → n < cfg0.N → Acc F
  | 0, hn => Step.step (iblk m c 0 ⟨0, hn⟩) (iblk m c 1 ⟨0, hn⟩) (iblk m c 2 ⟨0, hn⟩) (iblk m c 3 ⟨0, hn⟩) (iblk m c 4 ⟨0, hn⟩) Step.zero
  | n + 1, hn => Step.step (iblk m c 0 ⟨n + 1, hn⟩) (iblk m c 1 ⟨n + 1, hn⟩) (iblk m c 2 ⟨n + 1, hn⟩) (iblk m c 3 ⟨n + 1, hn⟩) (iblk m c 4 ⟨n + 1, hn⟩)
      (if (n + 1) % 4 = 0 then Step.zero else accAt c n (Nat.lt_of_succ_lt hn))

theorem accAt_first (c : Dev nD) (t : Fin cfg0.N) (h0 : t.val % 4 = 0) :
    accAt m c t.val t.isLt = Step.step (iblk m c 0 t) (iblk m c 1 t) (iblk m c 2 t) (iblk m c 3 t) (iblk m c 4 t) Step.zero := by
  obtain ⟨n, hn⟩ := t
  cases n with
  | zero => rfl
  | succ n => show Step.step _ _ _ _ _ (if (n + 1) % 4 = 0 then _ else _) = _; rw [if_pos h0]

theorem accAt_next (c : Dev nD) (t : Fin cfg0.N) (h0 : ¬t.val % 4 = 0) :
    accAt m c t.val t.isLt = Step.step (iblk m c 0 t) (iblk m c 1 t) (iblk m c 2 t) (iblk m c 3 t) (iblk m c 4 t) (accAt m c (t.val - 1) (Nat.lt_of_le_of_lt (Nat.sub_le _ _) t.isLt)) := by
  obtain ⟨n, hn⟩ := t
  cases n with
  | zero => exact absurd (Nat.zero_mod _) h0
  | succ n => show Step.step _ _ _ _ _ (if (n + 1) % 4 = 0 then _ else _) = _; rw [if_neg h0]; rfl

/-- The invariant before position `n`: before the first point, the accumulators at anything; afterwards, at the
    running sums the point before left. -/
def PhiS (c : Dev nD) : (n : ℕ) → n ≤ cfg0.N → sProp 𝕄
  | 0, _ => Pipeline.ΦA spec0 c
  | n + 1, hn => iprop(iprop(owns (c : Thread nD τ) (Memref.whole cc0_scratch0 : Memref sig .tc .vmem S8x128 .f32) fullShare (accAt m c n hn).c0 ∗ owns (c : Thread nD τ) (Memref.whole cc0_scratch1 : Memref sig .tc .vmem S8x128 .f32) fullShare (accAt m c n hn).o0 ∗ owns (c : Thread nD τ) (Memref.whole cc0_scratch2 : Memref sig .tc .vmem S8x128 .f32) fullShare (accAt m c n hn).b0 ∗ owns (c : Thread nD τ) (Memref.whole cc0_scratch3 : Memref sig .tc .vmem S8x128 .f32) fullShare (accAt m c n hn).c1 ∗ owns (c : Thread nD τ) (Memref.whole cc0_scratch4 : Memref sig .tc .vmem S8x128 .f32) fullShare (accAt m c n hn).o1 ∗ owns (c : Thread nD τ) (Memref.whole cc0_scratch5 : Memref sig .tc .vmem S8x128 .f32) fullShare (accAt m c n hn).b1 ∗ owns (c : Thread nD τ) (Memref.whole cc0_scratch6 : Memref sig .tc .vmem S8x128 .f32) fullShare (accAt m c n hn).pos) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) (Memref.whole cc0_scratch0 : Memref sig .tc .vmem S8x128 .f32) fullShare (accAt m c n hn).c0 ∗ owns (c : Thread nD τ) (Memref.whole cc0_scratch1 : Memref sig .tc .vmem S8x128 .f32) fullShare (accAt m c n hn).o0 ∗ owns (c : Thread nD τ) (Memref.whole cc0_scratch2 : Memref sig .tc .vmem S8x128 .f32) fullShare (accAt m c n hn).b0 ∗ owns (c : Thread nD τ) (Memref.whole cc0_scratch3 : Memref sig .tc .vmem S8x128 .f32) fullShare (accAt m c n hn).c1 ∗ owns (c : Thread nD τ) (Memref.whole cc0_scratch4 : Memref sig .tc .vmem S8x128 .f32) fullShare (accAt m c n hn).o1 ∗ owns (c : Thread nD τ) (Memref.whole cc0_scratch5 : Memref sig .tc .vmem S8x128 .f32) fullShare (accAt m c n hn).b1 ∗ owns (c : Thread nD τ) (Memref.whole cc0_scratch6 : Memref sig .tc .vmem S8x128 .f32) fullShare (accAt m c n hn).pos) ∗ (∃ r, prngReg c r)) := rfl
theorem PhiS_pos (c : Dev nD) (n : ℕ) (h : n ≤ cfg0.N) (hz : n ≠ 0) :
    PhiS m c n h = iprop(iprop(owns (c : Thread nD τ) (Memref.whole cc0_scratch0 : Memref sig .tc .vmem S8x128 .f32) fullShare (accAt m c (n - 1) (by omega)).c0 ∗ owns (c : Thread nD τ) (Memref.whole cc0_scratch1 : Memref sig .tc .vmem S8x128 .f32) fullShare (accAt m c (n - 1) (by omega)).o0 ∗ owns (c : Thread nD τ) (Memref.whole cc0_scratch2 : Memref sig .tc .vmem S8x128 .f32) fullShare (accAt m c (n - 1) (by omega)).b0 ∗ owns (c : Thread nD τ) (Memref.whole cc0_scratch3 : Memref sig .tc .vmem S8x128 .f32) fullShare (accAt m c (n - 1) (by omega)).c1 ∗ owns (c : Thread nD τ) (Memref.whole cc0_scratch4 : Memref sig .tc .vmem S8x128 .f32) fullShare (accAt m c (n - 1) (by omega)).o1 ∗ owns (c : Thread nD τ) (Memref.whole cc0_scratch5 : Memref sig .tc .vmem S8x128 .f32) fullShare (accAt m c (n - 1) (by omega)).b1 ∗ owns (c : Thread nD τ) (Memref.whole cc0_scratch6 : Memref sig .tc .vmem S8x128 .f32) fullShare (accAt m c (n - 1) (by omega)).pos) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) (Memref.whole cc0_scratch0 : Memref sig .tc .vmem S8x128 .f32) fullShare d) ∗ (∃ d, owns (c : Thread nD τ) (Memref.whole cc0_scratch1 : Memref sig .tc .vmem S8x128 .f32) fullShare d) ∗ (∃ d, owns (c : Thread nD τ) (Memref.whole cc0_scratch2 : Memref sig .tc .vmem S8x128 .f32) fullShare d) ∗ (∃ d, owns (c : Thread nD τ) (Memref.whole cc0_scratch3 : Memref sig .tc .vmem S8x128 .f32) fullShare d) ∗ (∃ d, owns (c : Thread nD τ) (Memref.whole cc0_scratch4 : Memref sig .tc .vmem S8x128 .f32) fullShare d) ∗ (∃ d, owns (c : Thread nD τ) (Memref.whole cc0_scratch5 : Memref sig .tc .vmem S8x128 .f32) fullShare d) ∗ (∃ d, owns (c : Thread nD τ) (Memref.whole cc0_scratch6 : Memref sig .tc .vmem S8x128 .f32) fullShare d)) ∗ (∃ r, prngReg c r)) := by
  unfold Pipeline.ΦA; rw [scopedRest0_eq]; simp only [owns_whole]; try rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (Step.finals (accAt m c t.val t.isLt)).lc0
    | ⟨6, _⟩ => (Step.finals (accAt m c t.val t.isLt)).lo0
    | ⟨7, _⟩ => (Step.finals (accAt m c t.val t.isLt)).lb0
    | ⟨8, _⟩ => (Step.finals (accAt m c t.val t.isLt)).lc1
    | ⟨9, _⟩ => (Step.finals (accAt m c t.val t.isLt)).lo1
    | ⟨10, _⟩ => (Step.finals (accAt m c t.val t.isLt)).lb1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (Step.finals (accAt m c t.val t.isLt)).lc0 := by dsimp only [dats]
theorem after0_6 (c : Dev nD) (t : Fin cfg0.N) : (dats m 0 c).after 6 t = (Step.finals (accAt m c t.val t.isLt)).lo0 := by dsimp only [dats]
theorem after0_7 (c : Dev nD) (t : Fin cfg0.N) : (dats m 0 c).after 7 t = (Step.finals (accAt m c t.val t.isLt)).lb0 := by dsimp only [dats]
theorem after0_8 (c : Dev nD) (t : Fin cfg0.N) : (dats m 0 c).after 8 t = (Step.finals (accAt m c t.val t.isLt)).lc1 := by dsimp only [dats]
theorem after0_9 (c : Dev nD) (t : Fin cfg0.N) : (dats m 0 c).after 9 t = (Step.finals (accAt m c t.val t.isLt)).lo1 := by dsimp only [dats]
theorem after0_10 (c : Dev nD) (t : Fin cfg0.N) : (dats m 0 c).after 10 t = (Step.finals (accAt m c t.val t.isLt)).lb1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 16000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (st0_0 t) fullShare ((dats m 0 c).after 0 t) from by
    unfold Dat.leavesExact; rw [live_in0 t], after0_0]
  rw [show (dats m 0 c).leavesExact 1 t = owns (c : Thread nD τ) (st0_1 t) fullShare ((dats m 0 c).after 1 t) from by
    unfold Dat.leavesExact; rw [live_in1 t], after0_1]
  rw [show (dats m 0 c).leavesExact 2 t = owns (c : Thread nD τ) (st0_2 t) fullShare ((dats m 0 c).after 2 t) from by
    unfold Dat.leavesExact; rw [live_in2 t], after0_2]
  rw [show (dats m 0 c).leavesExact 3 t = owns (c : Thread nD τ) (st0_3 t) fullShare ((dats m 0 c).after 3 t) from by
    unfold Dat.leavesExact; rw [live_in3 t], after0_3]
  rw [show (dats m 0 c).leavesExact 4 t = owns (c : Thread nD τ) (st0_4 t) fullShare ((dats m 0 c).after 4 t) from by
    unfold Dat.leavesExact; rw [live_in4 t], after0_4]
  by_cases h0 : t.val % 4 = 0
  · have hf : first (grid0.coords t) := (hfirst t).mpr h0
    have hl : ¬last (grid0.coords t) := fun h => by have := (hlast t).mp h; omega
    rw [Dat.leavesExact_idle (dats m 0 c) 5 t (idle_out5 t hl) (noFlush_out5 t hl),
      Dat.leavesExact_idle (dats m 0 c) 6 t (idle_out6 t hl) (noFlush_out6 t hl),
      Dat.leavesExact_idle (dats m 0 c) 7 t (idle_out7 t hl) (noFlush_out7 t hl),
      Dat.leavesExact_idle (dats m 0 c) 8 t (idle_out8 t hl) (noFlush_out8 t hl),
      Dat.leavesExact_idle (dats m 0 c) 9 t (idle_out9 t hl) (noFlush_out9 t hl),
      Dat.leavesExact_idle (dats m 0 c) 10 t (idle_out10 t hl) (noFlush_out10 t hl)]
    rw [accAt_first m c t h0]
    by_cases hz : t.val = 0
    · rw [PhiS_castSucc m c t, PhiS_zero m c _ _ hz, PhiA_eq]
      iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (Named.run_first c (grid0.coords t) _ _ _ _ _ _ _ _ _ _ _ _ _ _ _ _ _ _ _ _ _ _ _ _ _ _ _ _ _ _ _ _ _ _ _ _ hf hl Set.univ _ (iblk m c 0 t) (iblk m c 1 t) (iblk m c 2 t) (iblk m c 3 t) (iblk m c 4 t) _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexact S0
      isplitl [S1]; · iexact S1
      isplitl [S2]; · iexact S2
      isplitl [S3]; · iexact S3
      isplitl [S4]; · iexact S4
      isplitl [S5]; · iexact S5
      isplitl [S6]; · iexact S6
      iintro ⟨H0, H1, H2, H3, H4, H5, H6, H7, H8, H9, H10, S0, S1, S2, S3, S4, S5, S6⟩
      isplitl [S0 S1 S2 S3 S4 S5 S6 Hg]
      · isplitl [S0 S1 S2 S3 S4 S5 S6]
        · isplitl [S0]; · iexact S0
          isplitl [S1]; · iexact S1
          isplitl [S2]; · iexact S2
          isplitl [S3]; · iexact S3
          isplitl [S4]; · iexact S4
          isplitl [S5]; · iexact S5
          iexact S6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      iexists _; iexact H10
    · rw [PhiS_castSucc m c t, PhiS_pos m c _ _ hz]
      iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (Named.run_first c (grid0.coords t) _ _ _ _ _ _ _ _ _ _ _ _ _ _ _ _ _ _ _ _ _ _ _ _ _ _ _ _ _ _ _ _ _ _ _ _ hf hl Set.univ _ (iblk m c 0 t) (iblk m c 1 t) (iblk m c 2 t) (iblk m c 3 t) (iblk m c 4 t) _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iintro ⟨H0, H1, H2, H3, H4, H5, H6, H7, H8, H9, H10, S0, S1, S2, S3, S4, S5, S6⟩
      isplitl [S0 S1 S2 S3 S4 S5 S6 Hg]
      · isplitl [S0 S1 S2 S3 S4 S5 S6]
        · isplitl [S0]; · iexact S0
          isplitl [S1]; · iexact S1
          isplitl [S2]; · iexact S2
          isplitl [S3]; · iexact S3
          isplitl [S4]; · iexact S4
          isplitl [S5]; · iexact S5
          iexact S6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      iexists _; iexact H10
  · have hf : ¬first (grid0.coords t) := fun h => h0 ((hfirst t).mp h)
    have hz : t.val ≠ 0 := fun h => h0 (by rw [h])
    rw [accAt_next m c t h0]
    by_cases h3 : t.val % 4 = 3
    · have hl : last (grid0.coords t) := (hlast t).mpr h3
      rw [show (dats m 0 c).leavesExact 5 t = owns (c : Thread nD τ) (st0_5 t) fullShare ((dats m 0 c).after 5 t) from by
        unfold Dat.leavesExact; rw [live_out5 t hl], after0_5]
      rw [show (dats m 0 c).leavesExact 6 t = owns (c : Thread nD τ) (st0_6 t) fullShare ((dats m 0 c).after 6 t) from by
        unfold Dat.leavesExact; rw [live_out6 t hl], after0_6]
      rw [show (dats m 0 c).leavesExact 7 t = owns (c : Thread nD τ) (st0_7 t) fullShare ((dats m 0 c).after 7 t) from by
        unfold Dat.leavesExact; rw [live_out7 t hl], after0_7]
      rw [show (dats m 0 c).leavesExact 8 t = owns (c : Thread nD τ) (st0_8 t) fullShare ((dats m 0 c).after 8 t) from by
        unfold Dat.leavesExact; rw [live_out8 t hl], after0_8]
      rw [show (dats m 0 c).leavesExact 9 t = owns (c : Thread nD τ) (st0_9 t) fullShare ((dats m 0 c).after 9 t) from by
        unfold Dat.leavesExact; rw [live_out9 t hl], after0_9]
      rw [show (dats m 0 c).leavesExact 10 t = owns (c : Thread nD τ) (st0_10 t) fullShare ((dats m 0 c).after 10 t) from by
        unfold Dat.leavesExact; rw [live_out10 t hl], after0_10]
      rw [accAt_next m c t h0]
      rw [PhiS_castSucc m c t, PhiS_pos m c _ _ hz]
      iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (Named.run_last c (grid0.coords t) _ _ _ _ _ _ _ _ _ _ _ _ _ _ _ _ _ _ _ _ _ _ _ _ _ _ _ _ _ _ _ _ _ _ _ _ hf hl Set.univ _ (iblk m c 0 t) (iblk m c 1 t) (iblk m c 2 t) (iblk m c 3 t) (iblk m c 4 t) (accAt m c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [S0]; · iexact S0
      isplitl [S1]; · iexact S1
      isplitl [S2]; · iexact S2
      isplitl [S3]; · iexact S3
      isplitl [S4]; · iexact S4
      isplitl [S5]; · iexact S5
      isplitl [S6]; · iexact S6
      iintro ⟨H0, H1, H2, H3, H4, H5, H6, H7, H8, H9, H10, S0, S1, S2, S3, S4, S5, S6⟩
      isplitl [S0 S1 S2 S3 S4 S5 S6 Hg]
      · isplitl [S0 S1 S2 S3 S4 S5 S6]
        · isplitl [S0]; · iexact S0
          isplitl [S1]; · iexact S1
          isplitl [S2]; · iexact S2
          isplitl [S3]; · iexact S3
          isplitl [S4]; · iexact S4
          isplitl [S5]; · iexact S5
          iexact S6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hl : ¬last (grid0.coords t) := fun h => h3 ((hlast t).mp h)
      rw [Dat.leavesExact_idle (dats m 0 c) 5 t (idle_out5 t hl) (noFlush_out5 t hl),
      Dat.leavesExact_idle (dats m 0 c) 6 t (idle_out6 t hl) (noFlush_out6 t hl),
      Dat.leavesExact_idle (dats m 0 c) 7 t (idle_out7 t hl) (noFlush_out7 t hl),
      Dat.leavesExact_idle (dats m 0 c) 8 t (idle_out8 t hl) (noFlush_out8 t hl),
      Dat.leavesExact_idle (dats m 0 c) 9 t (idle_out9 t hl) (noFlush_out9 t hl),
      Dat.leavesExact_idle (dats m 0 c) 10 t (idle_out10 t hl) (noFlush_out10 t hl)]
      rw [PhiS_castSucc m c t, PhiS_pos m c _ _ hz]
      iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (Named.run_mid c (grid0.coords t) _ _ _ _ _ _ _ _ _ _ _ _ _ _ _ _ _ _ _ _ _ _ _ _ _ _ _ _ _ _ _ _ _ _ _ _ hf hl Set.univ _ (iblk m c 0 t) (iblk m c 1 t) (iblk m c 2 t) (iblk m c 3 t) (iblk m c 4 t) _ _ _ _ _ _ (accAt m c (t.val - 1) (Nat.lt_of_le_of_lt (Nat.sub_le _ _) t.isLt)))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexact S0
      isplitl [S1]; · iexact S1
      isplitl [S2]; · iexact S2
      isplitl [S3]; · iexact S3
      isplitl [S4]; · iexact S4
      isplitl [S5]; · iexact S5
      isplitl [S6]; · iexact S6
      iintro ⟨H0, H1, H2, H3, H4, H5, H6, H7, H8, H9, H10, S0, S1, S2, S3, S4, S5, S6⟩
      isplitl [S0 S1 S2 S3 S4 S5 S6 Hg]
      · isplitl [S0 S1 S2 S3 S4 S5 S6]
        · isplitl [S0]; · iexact S0
          isplitl [S1]; · iexact S1
          isplitl [S2]; · iexact S2
          isplitl [S3]; · iexact S3
          isplitl [S4]; · iexact S4
          isplitl [S5]; · iexact S5
          iexact S6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      iexists _; iexact H10

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨S0, S1, S2, S3, S4, S5, S6⟩, Hg⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

theorem hout (c : Dev nD) : (dats m 0 c).Φ (Fin.last cfg0.N) ⊢ Pipeline.ΦA spec0 c :=
  Phi_out m c _ (by rw [Fin.val_last]; have : cfg0.N = 16 := N_0; omega)

/-! ## The run -/

set_option backward.isDefEq.respectTransparency.types false in
/-- Every weakly fair execution terminates without a fault; at the end every staged array holds what the library
    computes from the proof data, and every other unscoped buffer what the later operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.NamedFrame

end
-- ==== Proof.KernelIdealTail.lean ====
/-
  The 23 host operations after the region, read as one function. They take column 0 of each of the region's six
  results (a slice and a reshape), multiply each of the two centre losses by the weight 1, and lay out the two result
  rows: each row is the concatenation of the centre loss (one entry) and the three per-image losses (32 entries
  each), and the result stacks the two rows. The line is read in five stretches, cut at the two four-piece
  concatenations, each stretch against whatever the stretch before it left.
-/
import proofs.«111430_j72988674228458_2_alg».proof.Proof.KernelIdealAround
import proofs.«111430_j72988674228458_2_alg».proof.Proof.LibFold
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Around

/-- Column 0 of a [32, 128] result, as a vector of 32. -/
def col0 (o : FVec F S32x128 .f32) : FVec F S32 .f32 :=
  shapeCast S32 (extractStridedSlice S32x1 ![0, 0] o slices_S32x128_S32x1_0_0) shapeCasts_S32x1_S32

/-- One result row: the weighted centre loss, then the three per-image losses. -/
def row (cw : FVec F S_ .f32) (l1 l2 l3 : FVec F S32 .f32) : FVec F S97 .f32 :=
  concatenate S97 0 [⟨S1, broadcastInDim S1 ![] bcast_S_S1 cw⟩, ⟨S32, l1⟩, ⟨S32, l2⟩, ⟨S32, l3⟩] concatenates_S1_S32_S32_S32_S97_d0

/-- The two rows stacked. -/
def stack (r0 r1 : FVec F S97 .f32) : FVec F S2x97 .f32 :=
  concatenate S2x97 0 [⟨S1x97, broadcastInDim S1x97 ![1] bcast_S97_S1x97_1 r0⟩, ⟨S1x97, broadcastInDim S1x97 ![1] bcast_S97_S1x97_1 r1⟩] concatenates_S1x97_S1x97_S2x97_d0

theorem after_singleton (op : HloOp τ sig (Elt F)) (V : Valuation τ sig (Elt F)) : StableHlo.after [op] V = op.result V := rfl

/-- The line cut into its five stretches. -/
theorem split : (hostOps1 (F := F)) = ((hostOps1 (F := F)).take 15) ++ (((hostOps1 (F := F)).drop 15).take 1) ++ ((((hostOps1 (F := F)).drop 16).take 3) ++ ((((hostOps1 (F := F)).drop 19).take 1) ++ ((hostOps1 (F := F)).drop 20))) := rfl

theorem after_split (W : Valuation τ sig (Elt F)) :
    StableHlo.after (hostOps1 (F := F)) W = StableHlo.after ((hostOps1 (F := F)).drop 20) (StableHlo.after (((hostOps1 (F := F)).drop 19).take 1) (StableHlo.after (((hostOps1 (F := F)).drop 16).take 3) (StableHlo.after (((hostOps1 (F := F)).drop 15).take 1) (StableHlo.after ((hostOps1 (F := F)).take 15) W)))) := by
  conv_lhs => rw [split]
  simp only [StableHlo.after_append]

/-! ## The first stretch: the six columns and the first centre loss -/

theorem A_v70 (V : Valuation τ sig (Elt F)) : StableHlo.after ((hostOps1 (F := F)).take 15) V (Proc.devRef .tc main_v70) = col0 (V (Proc.devRef .tc main_v68_0)) := by
  dsimp only [hostOps1, List.take, List.drop]
  after_results
  rfl
theorem A_v72 (V : Valuation τ sig (Elt F)) : StableHlo.after ((hostOps1 (F := F)).take 15) V (Proc.devRef .tc main_v72) = col0 (V (Proc.devRef .tc main_v68_1)) := by
  dsimp only [hostOps1, List.take, List.drop]
  after_results
  rfl
theorem A_v74 (V : Valuation τ sig (Elt F)) : StableHlo.after ((hostOps1 (F := F)).take 15) V (Proc.devRef .tc main_v74) = col0 (V (Proc.devRef .tc main_v68_2)) := by
  dsimp only [hostOps1, List.take, List.drop]
  after_results
  rfl
theorem A_v76 (V : Valuation τ sig (Elt F)) : StableHlo.after ((hostOps1 (F := F)).take 15) V (Proc.devRef .tc main_v76) = col0 (V (Proc.devRef .tc main_v68_3)) := by
  dsimp only [hostOps1, List.take, List.drop]
  after_results
  rfl
theorem A_v78 (V : Valuation τ sig (Elt F)) : StableHlo.after ((hostOps1 (F := F)).take 15) V (Proc.devRef .tc main_v78) = col0 (V (Proc.devRef .tc main_v68_4)) := by
  dsimp only [hostOps1, List.take, List.drop]
  after_results
  rfl
theorem A_v80 (V : Valuation τ sig (Elt F)) : StableHlo.after ((hostOps1 (F := F)).take 15) V (Proc.devRef .tc main_v80) = col0 (V (Proc.devRef .tc main_v68_5)) := by
  dsimp only [hostOps1, List.take, List.drop]
  after_results
  rfl
theorem A_v82 (V : Valuation τ sig (Elt F)) :
    StableHlo.after ((hostOps1 (F := F)).take 15) V (Proc.devRef .tc main_v82) = broadcastInDim S1 ![] bcast_S_S1 (mulf (V (Proc.devRef .tc main_v33)) (constant S_ .f32 0x3F800000#32)) := by
  dsimp only [hostOps1, List.take, List.drop]
  after_results
theorem A_v67 (V : Valuation τ sig (Elt F)) : StableHlo.after ((hostOps1 (F := F)).take 15) V (Proc.devRef .tc main_v67) = V (Proc.devRef .tc main_v67) :=
  StableHlo.after_of_forall_not_mem (b := (Proc.devRef .tc main_v67)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The first concatenation -/

theorem N1_v83 (V : Valuation τ sig (Elt F)) :
    StableHlo.after (((hostOps1 (F := F)).drop 15).take 1) V (Proc.devRef .tc main_v83)
      = concatenate S97 0 [⟨S1, V (Proc.devRef .tc main_v82)⟩, ⟨S32, V (Proc.devRef .tc main_v70)⟩, ⟨S32, V (Proc.devRef .tc main_v72)⟩, ⟨S32, V (Proc.devRef .tc main_v74)⟩] concatenates_S1_S32_S32_S32_S97_d0 := by
  dsimp only [hostOps1, List.take, List.drop]
  rw [after_singleton, StableHlo.nary_result]
  rfl
theorem N1_v67 (V : Valuation τ sig (Elt F)) : StableHlo.after (((hostOps1 (F := F)).drop 15).take 1) V (Proc.devRef .tc main_v67) = V (Proc.devRef .tc main_v67) :=
  StableHlo.after_of_forall_not_mem (b := (Proc.devRef .tc main_v67)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem N1_v76 (V : Valuation τ sig (Elt F)) : StableHlo.after (((hostOps1 (F := F)).drop 15).take 1) V (Proc.devRef .tc main_v76) = V (Proc.devRef .tc main_v76) :=
  StableHlo.after_of_forall_not_mem (b := (Proc.devRef .tc main_v76)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem N1_v78 (V : Valuation τ sig (Elt F)) : StableHlo.after (((hostOps1 (F := F)).drop 15).take 1) V (Proc.devRef .tc main_v78) = V (Proc.devRef .tc main_v78) :=
  StableHlo.after_of_forall_not_mem (b := (Proc.devRef .tc main_v78)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem N1_v80 (V : Valuation τ sig (Elt F)) : StableHlo.after (((hostOps1 (F := F)).drop 15).take 1) V (Proc.devRef .tc main_v80) = V (Proc.devRef .tc main_v80) :=
  StableHlo.after_of_forall_not_mem (b := (Proc.devRef .tc main_v80)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The second centre loss -/

theorem B_v85 (V : Valuation τ sig (Elt F)) :
    StableHlo.after (((hostOps1 (F := F)).drop 16).take 3) V (Proc.devRef .tc main_v85) = broadcastInDim S1 ![] bcast_S_S1 (mulf (V (Proc.devRef .tc main_v67)) (constant S_ .f32 0x3F800000#32)) := by
  dsimp only [hostOps1, List.take, List.drop]
  after_results
theorem B_v83 (V : Valuation τ sig (Elt F)) : StableHlo.after (((hostOps1 (F := F)).drop 16).take 3) V (Proc.devRef .tc main_v83) = V (Proc.devRef .tc main_v83) :=
  StableHlo.after_of_forall_not_mem (b := (Proc.devRef .tc main_v83)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem B_v76 (V : Valuation τ sig (Elt F)) : StableHlo.after (((hostOps1 (F := F)).drop 16).take 3) V (Proc.devRef .tc main_v76) = V (Proc.devRef .tc main_v76) :=
  StableHlo.after_of_forall_not_mem (b := (Proc.devRef .tc main_v76)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem B_v78 (V : Valuation τ sig (Elt F)) : StableHlo.after (((hostOps1 (F := F)).drop 16).take 3) V (Proc.devRef .tc main_v78) = V (Proc.devRef .tc main_v78) :=
  StableHlo.after_of_forall_not_mem (b := (Proc.devRef .tc main_v78)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem B_v80 (V : Valuation τ sig (Elt F)) : StableHlo.after (((hostOps1 (F := F)).drop 16).take 3) V (Proc.devRef .tc main_v80) = V (Proc.devRef .tc main_v80) :=
  StableHlo.after_of_forall_not_mem (b := (Proc.devRef .tc main_v80)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The second concatenation -/

theorem N2_v86 (V : Valuation τ sig (Elt F)) :
    StableHlo.after (((hostOps1 (F := F)).drop 19).take 1) V (Proc.devRef .tc main_v86)
      = concatenate S97 0 [⟨S1, V (Proc.devRef .tc main_v85)⟩, ⟨S32, V (Proc.devRef .tc main_v76)⟩, ⟨S32, V (Proc.devRef .tc main_v78)⟩, ⟨S32, V (Proc.devRef .tc main_v80)⟩] concatenates_S1_S32_S32_S32_S97_d0 := by
  dsimp only [hostOps1, List.take, List.drop]
  rw [after_singleton, StableHlo.nary_result]
  rfl
theorem N2_v83 (V : Valuation τ sig (Elt F)) : StableHlo.after (((hostOps1 (F := F)).drop 19).take 1) V (Proc.devRef .tc main_v83) = V (Proc.devRef .tc main_v83) :=
  StableHlo.after_of_forall_not_mem (b := (Proc.devRef .tc main_v83)) _ _ (List.forall_iff_forall_mem.mp (by
    simp only [hostOps1, List.take, List.drop, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The stack -/

theorem C_v89 (V : Valuation τ sig (Elt F)) :
    StableHlo.after ((hostOps1 (F := F)).drop 20) V (Proc.devRef .tc main_v89) = stack (V (Proc.devRef .tc main_v83)) (V (Proc.devRef .tc main_v86)) := by
  dsimp only [hostOps1, List.take, List.drop]
  after_results
  rfl

/-- The result buffer after the 23 operations, from the two centre losses and the region's six results as the
    operations find them. -/
theorem result (W : Valuation τ sig (Elt F)) :
    StableHlo.after (hostOps1 (F := F)) W (Proc.devRef .tc main_v89)
      = stack (row (mulf (W (Proc.devRef .tc main_v33)) (constant S_ .f32 0x3F800000#32)) (col0 (W (Proc.devRef .tc main_v68_0))) (col0 (W (Proc.devRef .tc main_v68_1))) (col0 (W (Proc.devRef .tc main_v68_2))))
              (row (mulf (W (Proc.devRef .tc main_v67)) (constant S_ .f32 0x3F800000#32)) (col0 (W (Proc.devRef .tc main_v68_3))) (col0 (W (Proc.devRef .tc main_v68_4))) (col0 (W (Proc.devRef .tc main_v68_5)))) := by
  rw [after_split, C_v89, N2_v83, N2_v86, B_v83, B_v85, B_v76, B_v78, B_v80, N1_v83, N1_v67, N1_v76, N1_v78, N1_v80,
    A_v82, A_v70, A_v72, A_v74, A_v76, A_v78, A_v80, A_v67]
  rfl

end Cert.KernelIdeal.Tail

end
-- ==== Proof.KernelIdealArrays.lean ====
/-
  What the six result arrays end holding, and the entry function's run with its result named.
  A result array has 32 rows (images) of 128 equal lanes. It is written back once per batch tile, at the tile's last
  row tile, eight rows at a time: rows 8b … 8b + 7 get the results computed from the running sums completed at that
  point. So row R holds, in every lane, the result of image R computed from the sums after point 4 (R / 8) + 3, and
  the eight-row blocks of the four batch tiles cover the array. After the region the 23 host operations read column 0
  of the six arrays and the two centre losses the host computed before the region, and lay the result out.
-/
import proofs.«111430_j72988674228458_2_alg».proof.Proof.KernelIdealNamedFrame
import proofs.«111430_j72988674228458_2_alg».proof.Proof.KernelIdealTail
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Around Cert.KernelIdeal.Named Cert.KernelIdeal.Step Cert.KernelIdeal.NamedFrame Cert.KernelIdeal.Tail
open Idealize.ShloMosaic.ValueIdx

theorem idx_out5 : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)
theorem idx_out6 : ∀ t : Fin cfg0.N, win0_6.index t (0 : Fin 2) = t.val / 4 ∧ win0_6.index t (1 : Fin 2) = 0 :=
  (by decide +kernel : ∀ t : Fin grid0.N, win0_6.index t (0 : Fin 2) = t.val / 4 ∧ win0_6.index t (1 : Fin 2) = 0)
theorem idx_out7 : ∀ t : Fin cfg0.N, win0_7.index t (0 : Fin 2) = t.val / 4 ∧ win0_7.index t (1 : Fin 2) = 0 :=
  (by decide +kernel : ∀ t : Fin grid0.N, win0_7.index t (0 : Fin 2) = t.val / 4 ∧ win0_7.index t (1 : Fin 2) = 0)
theorem idx_out8 : ∀ t : Fin cfg0.N, win0_8.index t (0 : Fin 2) = t.val / 4 ∧ win0_8.index t (1 : Fin 2) = 0 :=
  (by decide +kernel : ∀ t : Fin grid0.N, win0_8.index t (0 : Fin 2) = t.val / 4 ∧ win0_8.index t (1 : Fin 2) = 0)
theorem idx_out9 : ∀ t : Fin cfg0.N, win0_9.index t (0 : Fin 2) = t.val / 4 ∧ win0_9.index t (1 : Fin 2) = 0 :=
  (by decide +kernel : ∀ t : Fin grid0.N, win0_9.index t (0 : Fin 2) = t.val / 4 ∧ win0_9.index t (1 : Fin 2) = 0)
theorem idx_out10 : ∀ t : Fin cfg0.N, win0_10.index t (0 : Fin 2) = t.val / 4 ∧ win0_10.index t (1 : Fin 2) = 0 :=
  (by decide +kernel : ∀ t : Fin grid0.N, win0_10.index t (0 : Fin 2) = t.val / 4 ∧ win0_10.index t (1 : Fin 2) = 0)

theorem accAt_nat_congr (c : Dev nD) {n n' : ℕ} (h : n = n') (hn : n < cfg0.N) (hn' : n' < cfg0.N) :
    accAt m c n hn = accAt m c n' hn' := by subst h; rfl

/-- Row `R`, lane `l` of a result array: the result of image `R` from the sums completed at its batch tile's last point. -/
def outRow (c : Dev nD) (sel : Outs F → Vec F S8x128 .f32) (R : ℕ) (hR : R < 32) (l : Fin 128) : Elt F .f32 :=
  sel (Step.finals (accAt m c (4 * (R / 8) + 3) (by rw [show cfg0.N = 16 from N_0]; omega))) (ix2 ⟨R % 8, Nat.mod_lt _ (by decide)⟩ l)

/-- A result array, whole. -/
def Gout (c : Dev nD) (sel : Outs F → Vec F S8x128 .f32) : S32x128.Idx → Elt F .f32 :=
  fun i => outRow m c sel (i 0).val (i 0).isLt (i 1)

/-- At a last row tile `t`, entry `j` of the block written back is the array's entry at row 8 (t / 4) + j₀. -/
theorem outRow_eq (c : Dev nD) (sel : Outs F → Vec F S8x128 .f32) (t : Fin cfg0.N) (h3 : t.val % 4 = 3) (j : S8x128.Idx)
    (R : ℕ) (hR : R < 32) (l : Fin 128) (hRv : R = t.val / 4 * 8 + (j 0).val) (hl : l.val = (j 1).val) :
    outRow m c sel R hR l = sel (Step.finals (accAt m c t.val t.isLt)) j := by
  have hj : (j 0).val < 8 := (j 0).isLt
  have e1 : 4 * (R / 8) + 3 = t.val := by omega
  unfold outRow
  rw [accAt_nat_congr m c e1 _ t.isLt]
  congr 1
  funext a
  match a with
  | ⟨0, _⟩ => exact Fin.ext (by show R % 8 = (j 0).val; omega)
  | ⟨1, _⟩ => exact Fin.ext hl

/-! ## Result window 5 -/

theorem flushed5 (c : Dev nD) (t : Fin cfg0.N) (hf : (cfg0.win 5).flush t = true) :
    (dats m 0 c).flushed 5 t = ((cfg0.win 5).blk t).view.read (Elt F) (Gout m c (fun o => o.lc0)) := by
  have h3 : t.val % 4 = 3 := (flush0_5 t).mp hf
  obtain ⟨e0, e1⟩ := idx_out5 t
  show (cfg0.win 5).cut (grid0.coords t) ((dats m 0 c).after 5 t) = _
  rw [after0_5]
  funext j
  show (Step.finals (accAt m c t.val t.isLt)).lc0 j = Gout m c (fun o => o.lc0) (((cfg0.win 5).blk t).view.emb j)
  refine (outRow_eq m c (fun o => o.lc0) t h3 j _ _ _ ?_ ?_).symm
  · show win0_5.index t (0 : Fin 2) * 8 + 1 * (j 0).val = t.val / 4 * 8 + (j 0).val
    rw [e0]; omega
  · show win0_5.index t (1 : Fin 2) * 128 + 1 * (j 1).val = (j 1).val
    rw [e1]; omega

theorem mem_blk5 (t : Fin cfg0.N) (i : S32x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v68_0).slice (win0_5.rect t)).set ↔ _
  rw [View.set_slice_whole, Rect.mem_set_unit]
  exact Iff.rfl

theorem cover5 (i : S32x128.Idx) : ∃ t : Fin cfg0.N, (cfg0.win 5).flush t = true ∧ i ∈ ((cfg0.win 5).blk t).view.set := by
  have hi0 : (i 0).val < 32 := (i 0).isLt
  have hi1 : (i 1).val < 128 := (i 1).isLt
  have hN : cfg0.N = 16 := N_0
  obtain ⟨e0, e1⟩ := idx_out5 ⟨4 * ((i 0).val / 8) + 3, by omega⟩
  refine ⟨⟨4 * ((i 0).val / 8) + 3, by omega⟩, (flush0_5 _).mpr (by show (4 * ((i 0).val / 8) + 3) % 4 = 3; omega), ?_⟩
  rw [mem_blk5]
  intro a
  match a with
  | ⟨0, _⟩ =>
    show win0_5.index _ (0 : Fin 2) * 8 ≤ (i 0).val ∧ (i 0).val < win0_5.index _ (0 : Fin 2) * 8 + 8
    rw [e0]; show (4 * ((i 0).val / 8) + 3) / 4 * 8 ≤ (i 0).val ∧ (i 0).val < (4 * ((i 0).val / 8) + 3) / 4 * 8 + 8; omega
  | ⟨1, _⟩ =>
    show win0_5.index _ (1 : Fin 2) * 128 ≤ (i 1).val ∧ (i 1).val < win0_5.index _ (1 : Fin 2) * 128 + 128
    rw [e1]; omega

theorem final5 (c : Dev nD) : (dats m 0 c).arrAt 5 cfg0.N = Gout m c (fun o => o.lc0) :=
  (dats m 0 c).arrAt_eq_of_cover 5 (Gout m c (fun o => o.lc0)) (flushed5 m c) cover5

/-! ## Result window 6 -/

theorem flushed6 (c : Dev nD) (t : Fin cfg0.N) (hf : (cfg0.win 6).flush t = true) :
    (dats m 0 c).flushed 6 t = ((cfg0.win 6).blk t).view.read (Elt F) (Gout m c (fun o => o.lo0)) := by
  have h3 : t.val % 4 = 3 := (flush0_6 t).mp hf
  obtain ⟨e0, e1⟩ := idx_out6 t
  show (cfg0.win 6).cut (grid0.coords t) ((dats m 0 c).after 6 t) = _
  rw [after0_6]
  funext j
  show (Step.finals (accAt m c t.val t.isLt)).lo0 j = Gout m c (fun o => o.lo0) (((cfg0.win 6).blk t).view.emb j)
  refine (outRow_eq m c (fun o => o.lo0) t h3 j _ _ _ ?_ ?_).symm
  · show win0_6.index t (0 : Fin 2) * 8 + 1 * (j 0).val = t.val / 4 * 8 + (j 0).val
    rw [e0]; omega
  · show win0_6.index t (1 : Fin 2) * 128 + 1 * (j 1).val = (j 1).val
    rw [e1]; omega

theorem mem_blk6 (t : Fin cfg0.N) (i : S32x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v68_1).slice (win0_6.rect t)).set ↔ _
  rw [View.set_slice_whole, Rect.mem_set_unit]
  exact Iff.rfl

theorem cover6 (i : S32x128.Idx) : ∃ t : Fin cfg0.N, (cfg0.win 6).flush t = true ∧ i ∈ ((cfg0.win 6).blk t).view.set := by
  have hi0 : (i 0).val < 32 := (i 0).isLt
  have hi1 : (i 1).val < 128 := (i 1).isLt
  have hN : cfg0.N = 16 := N_0
  obtain ⟨e0, e1⟩ := idx_out6 ⟨4 * ((i 0).val / 8) + 3, by omega⟩
  refine ⟨⟨4 * ((i 0).val / 8) + 3, by omega⟩, (flush0_6 _).mpr (by show (4 * ((i 0).val / 8) + 3) % 4 = 3; omega), ?_⟩
  rw [mem_blk6]
  intro a
  match a with
  | ⟨0, _⟩ =>
    show win0_6.index _ (0 : Fin 2) * 8 ≤ (i 0).val ∧ (i 0).val < win0_6.index _ (0 : Fin 2) * 8 + 8
    rw [e0]; show (4 * ((i 0).val / 8) + 3) / 4 * 8 ≤ (i 0).val ∧ (i 0).val < (4 * ((i 0).val / 8) + 3) / 4 * 8 + 8; omega
  | ⟨1, _⟩ =>
    show win0_6.index _ (1 : Fin 2) * 128 ≤ (i 1).val ∧ (i 1).val < win0_6.index _ (1 : Fin 2) * 128 + 128
    rw [e1]; omega

theorem final6 (c : Dev nD) : (dats m 0 c).arrAt 6 cfg0.N = Gout m c (fun o => o.lo0) :=
  (dats m 0 c).arrAt_eq_of_cover 6 (Gout m c (fun o => o.lo0)) (flushed6 m c) cover6

/-! ## Result window 7 -/

theorem flushed7 (c : Dev nD) (t : Fin cfg0.N) (hf : (cfg0.win 7).flush t = true) :
    (dats m 0 c).flushed 7 t = ((cfg0.win 7).blk t).view.read (Elt F) (Gout m c (fun o => o.lb0)) := by
  have h3 : t.val % 4 = 3 := (flush0_7 t).mp hf
  obtain ⟨e0, e1⟩ := idx_out7 t
  show (cfg0.win 7).cut (grid0.coords t) ((dats m 0 c).after 7 t) = _
  rw [after0_7]
  funext j
  show (Step.finals (accAt m c t.val t.isLt)).lb0 j = Gout m c (fun o => o.lb0) (((cfg0.win 7).blk t).view.emb j)
  refine (outRow_eq m c (fun o => o.lb0) t h3 j _ _ _ ?_ ?_).symm
  · show win0_7.index t (0 : Fin 2) * 8 + 1 * (j 0).val = t.val / 4 * 8 + (j 0).val
    rw [e0]; omega
  · show win0_7.index t (1 : Fin 2) * 128 + 1 * (j 1).val = (j 1).val
    rw [e1]; omega

theorem mem_blk7 (t : Fin cfg0.N) (i : S32x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v68_2).slice (win0_7.rect t)).set ↔ _
  rw [View.set_slice_whole, Rect.mem_set_unit]
  exact Iff.rfl

theorem cover7 (i : S32x128.Idx) : ∃ t : Fin cfg0.N, (cfg0.win 7).flush t = true ∧ i ∈ ((cfg0.win 7).blk t).view.set := by
  have hi0 : (i 0).val < 32 := (i 0).isLt
  have hi1 : (i 1).val < 128 := (i 1).isLt
  have hN : cfg0.N = 16 := N_0
  obtain ⟨e0, e1⟩ := idx_out7 ⟨4 * ((i 0).val / 8) + 3, by omega⟩
  refine ⟨⟨4 * ((i 0).val / 8) + 3, by omega⟩, (flush0_7 _).mpr (by show (4 * ((i 0).val / 8) + 3) % 4 = 3; omega), ?_⟩
  rw [mem_blk7]
  intro a
  match a with
  | ⟨0, _⟩ =>
    show win0_7.index _ (0 : Fin 2) * 8 ≤ (i 0).val ∧ (i 0).val < win0_7.index _ (0 : Fin 2) * 8 + 8
    rw [e0]; show (4 * ((i 0).val / 8) + 3) / 4 * 8 ≤ (i 0).val ∧ (i 0).val < (4 * ((i 0).val / 8) + 3) / 4 * 8 + 8; omega
  | ⟨1, _⟩ =>
    show win0_7.index _ (1 : Fin 2) * 128 ≤ (i 1).val ∧ (i 1).val < win0_7.index _ (1 : Fin 2) * 128 + 128
    rw [e1]; omega

theorem final7 (c : Dev nD) : (dats m 0 c).arrAt 7 cfg0.N = Gout m c (fun o => o.lb0) :=
  (dats m 0 c).arrAt_eq_of_cover 7 (Gout m c (fun o => o.lb0)) (flushed7 m c) cover7

/-! ## Result window 8 -/

theorem flushed8 (c : Dev nD) (t : Fin cfg0.N) (hf : (cfg0.win 8).flush t = true) :
    (dats m 0 c).flushed 8 t = ((cfg0.win 8).blk t).view.read (Elt F) (Gout m c (fun o => o.lc1)) := by
  have h3 : t.val % 4 = 3 := (flush0_8 t).mp hf
  obtain ⟨e0, e1⟩ := idx_out8 t
  show (cfg0.win 8).cut (grid0.coords t) ((dats m 0 c).after 8 t) = _
  rw [after0_8]
  funext j
  show (Step.finals (accAt m c t.val t.isLt)).lc1 j = Gout m c (fun o => o.lc1) (((cfg0.win 8).blk t).view.emb j)
  refine (outRow_eq m c (fun o => o.lc1) t h3 j _ _ _ ?_ ?_).symm
  · show win0_8.index t (0 : Fin 2) * 8 + 1 * (j 0).val = t.val / 4 * 8 + (j 0).val
    rw [e0]; omega
  · show win0_8.index t (1 : Fin 2) * 128 + 1 * (j 1).val = (j 1).val
    rw [e1]; omega

theorem mem_blk8 (t : Fin cfg0.N) (i : S32x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v68_3).slice (win0_8.rect t)).set ↔ _
  rw [View.set_slice_whole, Rect.mem_set_unit]
  exact Iff.rfl

theorem cover8 (i : S32x128.Idx) : ∃ t : Fin cfg0.N, (cfg0.win 8).flush t = true ∧ i ∈ ((cfg0.win 8).blk t).view.set := by
  have hi0 : (i 0).val < 32 := (i 0).isLt
  have hi1 : (i 1).val < 128 := (i 1).isLt
  have hN : cfg0.N = 16 := N_0
  obtain ⟨e0, e1⟩ := idx_out8 ⟨4 * ((i 0).val / 8) + 3, by omega⟩
  refine ⟨⟨4 * ((i 0).val / 8) + 3, by omega⟩, (flush0_8 _).mpr (by show (4 * ((i 0).val / 8) + 3) % 4 = 3; omega), ?_⟩
  rw [mem_blk8]
  intro a
  match a with
  | ⟨0, _⟩ =>
    show win0_8.index _ (0 : Fin 2) * 8 ≤ (i 0).val ∧ (i 0).val < win0_8.index _ (0 : Fin 2) * 8 + 8
    rw [e0]; show (4 * ((i 0).val / 8) + 3) / 4 * 8 ≤ (i 0).val ∧ (i 0).val < (4 * ((i 0).val / 8) + 3) / 4 * 8 + 8; omega
  | ⟨1, _⟩ =>
    show win0_8.index _ (1 : Fin 2) * 128 ≤ (i 1).val ∧ (i 1).val < win0_8.index _ (1 : Fin 2) * 128 + 128
    rw [e1]; omega

theorem final8 (c : Dev nD) : (dats m 0 c).arrAt 8 cfg0.N = Gout m c (fun o => o.lc1) :=
  (dats m 0 c).arrAt_eq_of_cover 8 (Gout m c (fun o => o.lc1)) (flushed8 m c) cover8

/-! ## Result window 9 -/

theorem flushed9 (c : Dev nD) (t : Fin cfg0.N) (hf : (cfg0.win 9).flush t = true) :
    (dats m 0 c).flushed 9 t = ((cfg0.win 9).blk t).view.read (Elt F) (Gout m c (fun o => o.lo1)) := by
  have h3 : t.val % 4 = 3 := (flush0_9 t).mp hf
  obtain ⟨e0, e1⟩ := idx_out9 t
  show (cfg0.win 9).cut (grid0.coords t) ((dats m 0 c).after 9 t) = _
  rw [after0_9]
  funext j
  show (Step.finals (accAt m c t.val t.isLt)).lo1 j = Gout m c (fun o => o.lo1) (((cfg0.win 9).blk t).view.emb j)
  refine (outRow_eq m c (fun o => o.lo1) t h3 j _ _ _ ?_ ?_).symm
  · show win0_9.index t (0 : Fin 2) * 8 + 1 * (j 0).val = t.val / 4 * 8 + (j 0).val
    rw [e0]; omega
  · show win0_9.index t (1 : Fin 2) * 128 + 1 * (j 1).val = (j 1).val
    rw [e1]; omega

theorem mem_blk9 (t : Fin cfg0.N) (i : S32x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v68_4).slice (win0_9.rect t)).set ↔ _
  rw [View.set_slice_whole, Rect.mem_set_unit]
  exact Iff.rfl

theorem cover9 (i : S32x128.Idx) : ∃ t : Fin cfg0.N, (cfg0.win 9).flush t = true ∧ i ∈ ((cfg0.win 9).blk t).view.set := by
  have hi0 : (i 0).val < 32 := (i 0).isLt
  have hi1 : (i 1).val < 128 := (i 1).isLt
  have hN : cfg0.N = 16 := N_0
  obtain ⟨e0, e1⟩ := idx_out9 ⟨4 * ((i 0).val / 8) + 3, by omega⟩
  refine ⟨⟨4 * ((i 0).val / 8) + 3, by omega⟩, (flush0_9 _).mpr (by show (4 * ((i 0).val / 8) + 3) % 4 = 3; omega), ?_⟩
  rw [mem_blk9]
  intro a
  match a with
  | ⟨0, _⟩ =>
    show win0_9.index _ (0 : Fin 2) * 8 ≤ (i 0).val ∧ (i 0).val < win0_9.index _ (0 : Fin 2) * 8 + 8
    rw [e0]; show (4 * ((i 0).val / 8) + 3) / 4 * 8 ≤ (i 0).val ∧ (i 0).val < (4 * ((i 0).val / 8) + 3) / 4 * 8 + 8; omega
  | ⟨1, _⟩ =>
    show win0_9.index _ (1 : Fin 2) * 128 ≤ (i 1).val ∧ (i 1).val < win0_9.index _ (1 : Fin 2) * 128 + 128
    rw [e1]; omega

theorem final9 (c : Dev nD) : (dats m 0 c).arrAt 9 cfg0.N = Gout m c (fun o => o.lo1) :=
  (dats m 0 c).arrAt_eq_of_cover 9 (Gout m c (fun o => o.lo1)) (flushed9 m c) cover9

/-! ## Result window 10 -/

theorem flushed10 (c : Dev nD) (t : Fin cfg0.N) (hf : (cfg0.win 10).flush t = true) :
    (dats m 0 c).flushed 10 t = ((cfg0.win 10).blk t).view.read (Elt F) (Gout m c (fun o => o.lb1)) := by
  have h3 : t.val % 4 = 3 := (flush0_10 t).mp hf
  obtain ⟨e0, e1⟩ := idx_out10 t
  show (cfg0.win 10).cut (grid0.coords t) ((dats m 0 c).after 10 t) = _
  rw [after0_10]
  funext j
  show (Step.finals (accAt m c t.val t.isLt)).lb1 j = Gout m c (fun o => o.lb1) (((cfg0.win 10).blk t).view.emb j)
  refine (outRow_eq m c (fun o => o.lb1) t h3 j _ _ _ ?_ ?_).symm
  · show win0_10.index t (0 : Fin 2) * 8 + 1 * (j 0).val = t.val / 4 * 8 + (j 0).val
    rw [e0]; omega
  · show win0_10.index t (1 : Fin 2) * 128 + 1 * (j 1).val = (j 1).val
    rw [e1]; omega

theorem mem_blk10 (t : Fin cfg0.N) (i : S32x128.Idx) :
    i ∈ ((cfg0.win 10).blk t).view.set ↔ ∀ a : Fin 2, win0_10.index t a * S8x128.size a ≤ (i a).val ∧ (i a).val < win0_10.index t a * S8x128.size a + S8x128.size a := by
  show i ∈ ((View.whole main_v68_5).slice (win0_10.rect t)).set ↔ _
  rw [View.set_slice_whole, Rect.mem_set_unit]
  exact Iff.rfl

theorem cover10 (i : S32x128.Idx) : ∃ t : Fin cfg0.N, (cfg0.win 10).flush t = true ∧ i ∈ ((cfg0.win 10).blk t).view.set := by
  have hi0 : (i 0).val < 32 := (i 0).isLt
  have hi1 : (i 1).val < 128 := (i 1).isLt
  have hN : cfg0.N = 16 := N_0
  obtain ⟨e0, e1⟩ := idx_out10 ⟨4 * ((i 0).val / 8) + 3, by omega⟩
  refine ⟨⟨4 * ((i 0).val / 8) + 3, by omega⟩, (flush0_10 _).mpr (by show (4 * ((i 0).val / 8) + 3) % 4 = 3; omega), ?_⟩
  rw [mem_blk10]
  intro a
  match a with
  | ⟨0, _⟩ =>
    show win0_10.index _ (0 : Fin 2) * 8 ≤ (i 0).val ∧ (i 0).val < win0_10.index _ (0 : Fin 2) * 8 + 8
    rw [e0]; show (4 * ((i 0).val / 8) + 3) / 4 * 8 ≤ (i 0).val ∧ (i 0).val < (4 * ((i 0).val / 8) + 3) / 4 * 8 + 8; omega
  | ⟨1, _⟩ =>
    show win0_10.index _ (1 : Fin 2) * 128 ≤ (i 1).val ∧ (i 1).val < win0_10.index _ (1 : Fin 2) * 128 + 128
    rw [e1]; omega

theorem final10 (c : Dev nD) : (dats m 0 c).arrAt 10 cfg0.N = Gout m c (fun o => o.lb1) :=
  (dats m 0 c).arrAt_eq_of_cover 10 (Gout m c (fun o => o.lb1)) (flushed10 m c) cover10

/-! ## The result -/

/-- The result buffer as the 23 operations after the region leave it. -/
theorem tail_value (c : Dev nD) :
    Pipeline.afterTail₀ cfgs (dats m) 0 (V0 m) [hostOps1] c main_v89
      = stack (row (mulf (V m c main_v33) (constant S_ .f32 0x3F800000#32)) (col0 (Gout m c (fun o => o.lc0))) (col0 (Gout m c (fun o => o.lo0))) (col0 (Gout m c (fun o => o.lb0))))
              (row (mulf (V m c main_v67) (constant S_ .f32 0x3F800000#32)) (col0 (Gout m c (fun o => o.lc1))) (col0 (Gout m c (fun o => o.lo1))) (col0 (Gout m c (fun o => o.lb1)))) := by
  unfold Pipeline.afterTail₀
  show StableHlo.after hostOps1 _ (Proc.devRef .tc main_v89) = _
  rw [Tail.result]
  rw [Pipeline.withArrays_arr spec0 launch0.win.arr_inj c _ _ 5, Pipeline.withArrays_arr spec0 launch0.win.arr_inj c _ _ 6, Pipeline.withArrays_arr spec0 launch0.win.arr_inj c _ _ 7, Pipeline.withArrays_arr spec0 launch0.win.arr_inj c _ _ 8, Pipeline.withArrays_arr spec0 launch0.win.arr_inj c _ _ 9, Pipeline.withArrays_arr spec0 launch0.win.arr_inj c _ _ 10,
    Pipeline.withArrays_of_ne _ c _ _ main_v33 (by decide), Pipeline.withArrays_of_ne _ c _ _ main_v67 (by decide),
    final5, final6, final7, final8, final9, final10]

set_option maxHeartbeats 1000000 in
/-- The operations after the region do not write argument 5, and no window stages it. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
set_option maxHeartbeats 1000000 in
/-- The operations after the region do not write argument 6, and no window stages it. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
set_option maxHeartbeats 1000000 in
/-- The operations after the region do not write argument 7, and no window stages it. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
set_option maxHeartbeats 1000000 in
/-- The operations after the region do not write argument 8, and no window stages it. -/
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 4000000 in
/-- The entry function runs to its end without a fault; the result buffer ends at the laid-out losses and the nine
    arguments as they were. -/
theorem run : θ_run defs (onTc (τ := τ) (main (F := F))) ⟨m, fun _ => 0, ρ⟩ (fun r => ∀ c : Dev nD,
      r.2.mem ((c.tc : Thread nD τ).loc main_v89)
        = stack (row (mulf (V m c main_v33) (constant S_ .f32 0x3F800000#32)) (col0 (Gout m c (fun o => o.lc0))) (col0 (Gout m c (fun o => o.lo0))) (col0 (Gout m c (fun o => o.lb0))))
                (row (mulf (V m c main_v67) (constant S_ .f32 0x3F800000#32)) (col0 (Gout m c (fun o => o.lc1))) (col0 (Gout m c (fun o => o.lo1))) (col0 (Gout m c (fun o => o.lb1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    refine ⟨?_, ?_, ?_, ?_, ?_, ?_, ?_, ?_, ?_, ?_⟩
    · exact ((h c).2 main_v89 (by decide)).trans (tail_value m c)
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
    · exact ((h c).1 4).trans (((dats m 0 c).arrAt_in 4 rfl _).trans ((A_eq m c 4).trans (V_main_arg4 m c)))
    · exact ((h c).2 main_arg5 (by decide)).trans (W_main_arg5 m c)
    · exact ((h c).2 main_arg6 (by decide)).trans (W_main_arg6 m c)
    · exact ((h c).2 main_arg7 (by decide)).trans (W_main_arg7 m c)
    · exact ((h c).2 main_arg8 (by decide)).trans (W_main_arg8 m c)) (run_main m ρ)

end Cert.KernelIdeal.Arrays

end
-- ==== Proof.KernelPx.lean ====
/-
  The kernel's arithmetic at one pixel, in plain extended-real mathematics and in the kernel's own arrangement: the
  three loss terms a pixel contributes (corner, offset, bin) and the guarded divisor of the final normalisation. Each
  float literal is written as the word the kernel carries: 0x461C4000 is 10000, 0x43800000 is 256, 0x3F000000 is 1/2,
  0x3F800000 is 1, 0x47800000 is 65536.
-/
import Idealize.ShloMosaic.PureOps.Ideal

noncomputable section

namespace Cert.KernelPx

open Idealize.ShloMosaic

/-- The corner term at a pixel with target `p` and the two class scores `a`, `b`: with `M = max a b` and
    `L = log (exp (a - M) + exp (b - M))`, so that `L + M` is the log-sum-exp of the two scores,
    `(p * (L + M - b)) * 10000 + (1 - p) * (L + M - a)`. -/
def cornerPx (p a b : EReal) : EReal :=
  (p * (Ideal.log (Ideal.exp (a - max a b) + Ideal.exp (b - max a b)) + max a b - b)) * Ideal.ofBits .f32 0x461C4000#32
    + (Ideal.ofBits .f32 0x3F800000#32 - p) * (Ideal.log (Ideal.exp (a - max a b) + Ideal.exp (b - max a b)) + max a b - a)

/-- The weight of an offset target: 10000 where the target is not zero, 1 where it is. -/
def mask (t : EReal) : EReal :=
  if t ≠ 0 then Ideal.ofBits .f32 0x461C4000#32 else Ideal.ofBits .f32 0x3F800000#32

/-- The smooth absolute value of a difference `d`: `(1/2 * d) * d` where `|d| < 1`, else `|d| - 1/2`; `|d|` is
    `max d (-d)`. -/
def sl (d : EReal) : EReal :=
  if max d (-d) < Ideal.ofBits .f32 0x3F800000#32 then (Ideal.ofBits .f32 0x3F000000#32 * d) * d
  else max d (-d) - Ideal.ofBits .f32 0x3F000000#32

/-- The offset term at a pixel with the two offset targets `t0`, `t1` and the two raw offset scores `o3`, `o4`: each
    score is squashed to `tanh o * 256`, compared with its target through `sl`, and weighted by the target's mask. -/
def offPx (t0 t1 o3 o4 : EReal) : EReal :=
  mask t0 * sl (Ideal.tanh o3 * Ideal.ofBits .f32 0x43800000#32 - t0)
    + mask t1 * sl (Ideal.tanh o4 * Ideal.ofBits .f32 0x43800000#32 - t1)

/-- The bin term at a pixel with corner target `p`, the two bin targets `b0`, `b1` and the two raw bin scores `o5`, `o6`:
    `|logistic o5 - 1/2 - b0| * p + |logistic o6 - 1/2 - b1| * p`, `|z|` being `max z (-z)`. -/
def binPx (p b0 b1 o5 o6 : EReal) : EReal :=
  max (Ideal.logistic o5 - Ideal.ofBits .f32 0x3F000000#32 - b0) (-(Ideal.logistic o5 - Ideal.ofBits .f32 0x3F000000#32 - b0)) * p
    + max (Ideal.logistic o6 - Ideal.ofBits .f32 0x3F000000#32 - b1) (-(Ideal.logistic o6 - Ideal.ofBits .f32 0x3F000000#32 - b1)) * p

/-- The guarded divisor of the normalisation: the positives count over 65536, replaced by 1 where that quotient is zero. -/
def wOf (x : EReal) : EReal :=
  if Ideal.div x (Ideal.ofBits .f32 0x47800000#32) = 0 then Ideal.ofBits .f32 0x3F800000#32
  else Ideal.div x (Ideal.ofBits .f32 0x47800000#32)

end Cert.KernelPx

end
-- ==== Proof.KernelBlock.lean ====
/-
  The kernel's arithmetic at an index. Every accumulator update of the kernel has one form: a block of per-pixel values
  is summed over the columns (a lane sum), then over the rows, the eight per-image sums are spread along the 128 lanes and
  added to the accumulator. Here each update is read at an accumulator entry `(r, l)` as the entry plus the double sum,
  over the rows and columns of image `r`'s block, of the pixel's term (`Cert.KernelPx`) at the block's entries; the zero
  splats and the final normalisations are read at an entry too. In the finals the float literals are kept as the words the
  kernel carries (0x47800000 is 65536, 0x3F800000 is 1, 0x3E800000 is 1/4).
-/
import proofs.«111430_j72988674228458_2_alg».proof.Proof.Gen.KernelIdeal.Skeleton
import proofs.«111430_j72988674228458_2_alg».proof.Proof.KernelPx
import Idealize.ShloMosaic.Lib.ValueLayout
import Idealize.ShloMosaic.PureOps.Ideal.Laws

noncomputable section
open scoped BigOperators
open Idealize.ShloMosaic Idealize.ShloMosaic.ValueIdx
open Cert.KernelIdeal Cert.KernelIdeal.Gen

namespace Cert.KernelIdeal.Block

/-- A sum over the columns of one row of one image. -/
theorem sumCols (w : FVec Ideal S8x64x256 .f32) (r : Fin 8) (y : Fin 64) :
    multiReduction .add [2] S8x64 w 0x00000000#32 reduces_S8x64x256_S8x64 (.inl rfl) rfl (ix2 r y)
      = ∑ x : Fin 256, w (ix3 r y x) := by
  refine (Ideal.multiReduction_add_single w 0x00000000#32 reduces_S8x64x256_S8x64 (.inl rfl) rfl (ix2 r y)).trans ?_
  refine Finset.sum_congr rfl fun x _ => congrArg w ?_
  funext c
  match c with
  | ⟨0, _⟩ => exact Fin.ext rfl
  | ⟨1, _⟩ => exact Fin.ext rfl
  | ⟨2, _⟩ => exact Fin.ext rfl

/-- A sum over the rows of one image. -/
theorem sumRows (u : FVec Ideal S8x64 .f32) (r : Fin 8) :
    multiReduction .add [1] S8 u 0x00000000#32 reduces_S8x64_S8 (.inl rfl) rfl (ix1 r)
      = ∑ y : Fin 64, u (ix2 r y) := by
  refine (Ideal.multiReduction_add_single u 0x00000000#32 reduces_S8x64_S8 (.inl rfl) rfl (ix1 r)).trans ?_
  refine Finset.sum_congr rfl fun y _ => congrArg u ?_
  funext c
  match c with
  | ⟨0, _⟩ => exact Fin.ext rfl
  | ⟨1, _⟩ => exact Fin.ext rfl

/-- A vector of 8 entries read as a column. -/
theorem col_apply {α : Type} (v : (⟨1, ![8]⟩ : Shape).Idx → α) (h : S8.ShapeCasts S8x1) (r : Fin 8) (u : Fin 1) :
    shapeCast S8x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column broadcast along the lanes. -/
theorem lanes_apply {α : Type} (v : (⟨2, ![8, 1]⟩ : Shape).Idx → α) (h : S8x1.Broadcasts S8x128) (r : Fin 8) (l : Fin 128) :
    broadcastTo S8x128 v h (ix2 r l) = v (ix2 r (0 : Fin 1)) := by
  refine broadcastTo_apply v h (ix2 r l) (ix2 r (0 : Fin 1)) fun ax => ?_
  match ax with
  | ⟨0, _⟩ => rfl
  | ⟨1, _⟩ => rfl

/-- The common tail of every accumulator update: the block's pixel values summed over the columns, then over the rows,
    and added to every lane of the image's accumulator row. -/
theorem tail (w : FVec Ideal S8x64x256 .f32) (s : Vec Ideal S8x128 .f32) (r : Fin 8) (l : Fin 128) :
    shapeCast S8x128
        (addf s
          (broadcastTo S8x128
            (shapeCast S8x1
              (shapeCast S8x1
                (multiReduction .add [1] S8
                  (multiReduction .add [2] S8x64 w 0x00000000#32 reduces_S8x64x256_S8x64 (.inl rfl) rfl)
                  0x00000000#32 reduces_S8x64_S8 (.inl rfl) rfl)
                shapeCasts_S8_S8x1)
              shapeCasts_S8x1_S8x1)
            broadcasts_S8x1_S8x128))
        shapeCasts_S8x128_S8x128 (ix2 r l)
      = s (ix2 r l) + ∑ y : Fin 64, ∑ x : Fin 256, w (ix3 r y x) := by
  rw [shapeCast_self, shapeCast_self]
  refine (addf_apply _ _ _).trans ?_
  refine congrArg (s (ix2 r l) + ·) ?_
  refine (lanes_apply _ _ r l).trans ?_
  refine (col_apply _ _ r 0).trans ?_
  refine (sumRows _ r).trans ?_
  exact Finset.sum_congr rfl fun y _ => sumCols w r y

/-- The corner target block with its unit channel axis dropped. -/
theorem pay19_apply (v3 : Vec Ideal S8x1x64x256 .f32) (r : Fin 8) (y : Fin 64) (x : Fin 256) :
    k0_pay19 v3 (ix3 r y x) = v3 (ix4 r (0 : Fin 1) y x) := by
  unfold k0_pay19
  exact shapeCast_apply v3 _ _ _ (by
    rw [Shape.rowMajor_val_four, Shape.rowMajor_val_three]
    show ((r.val * 1 + 0) * 64 + y.val) * 256 + x.val = (r.val * 64 + y.val) * 256 + x.val
    rw [Nat.mul_one, Nat.add_zero])

/-- The positives count: the corner target summed over the block. -/
theorem pay2_apply (v3 : Vec Ideal S8x1x64x256 .f32) (s : Vec Ideal S8x128 .f32) (r : Fin 8) (l : Fin 128) :
    k0_pay2 (k0_pay19 v3) s (ix2 r l) = s (ix2 r l) + ∑ y : Fin 64, ∑ x : Fin 256, v3 (ix4 r (0 : Fin 1) y x) := by
  unfold k0_pay2
  refine (tail _ s r l).trans ?_
  exact congrArg (s (ix2 r l) + ·) (Finset.sum_congr rfl fun y _ => Finset.sum_congr rfl fun x _ => pay19_apply v3 r y x)

/-! ## The layout operations at a pixel -/

/-- One of the two planes of an offset or bin target block, its two unit axes dropped. -/
theorem plane_apply (v : Vec Ideal S8x1x2x64x256 .f32) (c : Nat) (h : S8x1x2x64x256.Slices ![0, 0, c, 0, 0] S8x1x1x64x256)
    (k : Fin 2) (hk : k.val = c) (r : Fin 8) (y : Fin 64) (x : Fin 256) :
    shapeCast S8x64x256 (extractStridedSlice S8x1x1x64x256 ![0, 0, c, 0, 0] v h) shapeCasts_S8x1x1x64x256_S8x64x256 (ix3 r y x)
      = v (ix5 r (0 : Fin 1) k y x) := by
  refine (shapeCast_apply _ _ (ix3 r y x) (ix5 r (0 : Fin 1) (0 : Fin 1) y x) ?_).trans ?_
  · rw [Shape.rowMajor_val_five, Shape.rowMajor_val_three]
    show (((r.val * 1 + 0) * 1 + 0) * 64 + y.val) * 256 + x.val = (r.val * 64 + y.val) * 256 + x.val
    simp only [Nat.mul_one, Nat.add_zero]
  · exact extractStridedSlice_apply _ v h _ _ (fun ax => by
      match ax with
      | ⟨0, _⟩ => exact (Nat.zero_add _).symm
      | ⟨1, _⟩ => exact (Nat.zero_add _).symm
      | ⟨2, _⟩ => exact hk
      | ⟨3, _⟩ => exact (Nat.zero_add _).symm
      | ⟨4, _⟩ => exact (Nat.zero_add _).symm)

/-- One channel of a stack block as the kernel cuts it: the slice, then the unit axis dropped. -/
abbrev chan (v : Vec Ideal S8x7x64x256 .f32) (c : Nat) (h : S8x7x64x256.Slices ![0, c, 0, 0] S8x1x64x256) :
    FVec Ideal S8x64x256 .f32 :=
  shapeCast S8x64x256 (extractStridedSlice S8x1x64x256 ![0, c, 0, 0] v h) shapeCasts_S8x1x64x256_S8x64x256

/-- Channel `c` of a stack block at a pixel. -/
theorem chan_apply (v : Vec Ideal S8x7x64x256 .f32) (c : Nat) (h : S8x7x64x256.Slices ![0, c, 0, 0] S8x1x64x256)
    (k : Fin 7) (hk : k.val = c) (r : Fin 8) (y : Fin 64) (x : Fin 256) :
    chan v c h (ix3 r y x) = v (ix4 r k y x) := by
  refine (shapeCast_apply _ _ (ix3 r y x) (ix4 r (0 : Fin 1) y x) ?_).trans ?_
  · rw [Shape.rowMajor_val_four, Shape.rowMajor_val_three]
    show ((r.val * 1 + 0) * 64 + y.val) * 256 + x.val = (r.val * 64 + y.val) * 256 + x.val
    rw [Nat.mul_one, Nat.add_zero]
  · exact extractStridedSlice_apply _ v h _ _ (fun ax => by
      match ax with
      | ⟨0, _⟩ => exact (Nat.zero_add _).symm
      | ⟨1, _⟩ => exact hk
      | ⟨2, _⟩ => exact (Nat.zero_add _).symm
      | ⟨3, _⟩ => exact (Nat.zero_add _).symm)

theorem pay20_apply (v5 : Vec Ideal S8x1x2x64x256 .f32) (r : Fin 8) (y : Fin 64) (x : Fin 256) :
    k0_pay20 v5 (ix3 r y x) = v5 (ix5 r (0 : Fin 1) (0 : Fin 2) y x) := by
  unfold k0_pay20; exact plane_apply v5 0 _ 0 rfl r y x
theorem pay21_apply (v5 : Vec Ideal S8x1x2x64x256 .f32) (r : Fin 8) (y : Fin 64) (x : Fin 256) :
    k0_pay21 v5 (ix3 r y x) = v5 (ix5 r (0 : Fin 1) (1 : Fin 2) y x) := by
  unfold k0_pay21; exact plane_apply v5 1 _ 1 rfl r y x
theorem pay24_apply (v6 : Vec Ideal S8x1x2x64x256 .f32) (r : Fin 8) (y : Fin 64) (x : Fin 256) :
    k0_pay24 v6 (ix3 r y x) = v6 (ix5 r (0 : Fin 1) (0 : Fin 2) y x) := by
  unfold k0_pay24; exact plane_apply v6 0 _ 0 rfl r y x
theorem pay25_apply (v6 : Vec Ideal S8x1x2x64x256 .f32) (r : Fin 8) (y : Fin 64) (x : Fin 256) :
    k0_pay25 v6 (ix3 r y x) = v6 (ix5 r (0 : Fin 1) (1 : Fin 2) y x) := by
  unfold k0_pay25; exact plane_apply v6 1 _ 1 rfl r y x
theorem pay26_apply (v25 : Vec Ideal S8x7x64x256 .f32) (r : Fin 8) (y : Fin 64) (x : Fin 256) :
    k0_pay26 v25 (ix3 r y x) = v25 (ix4 r (1 : Fin 7) y x) := by
  unfold k0_pay26; exact chan_apply v25 1 _ 1 rfl r y x
theorem pay27_apply (v25 : Vec Ideal S8x7x64x256 .f32) (r : Fin 8) (y : Fin 64) (x : Fin 256) :
    k0_pay27 v25 (ix3 r y x) = v25 (ix4 r (2 : Fin 7) y x) := by
  unfold k0_pay27; exact chan_apply v25 2 _ 2 rfl r y x

/-! ## Selects as conditionals -/

/-- A select on the bit of a decided proposition is the conditional on it. -/
theorem select_ofBool {α : Type} (P : Prop) [Decidable P] (a b : α) :
    Scalar.select (BitVec.ofBool (decide P)) a b = if P then a else b := by
  unfold Scalar.select
  by_cases h : P
  · simp [h]
  · simp [h]

/-- The corner term of a pixel, as the kernel's operations spell it. -/
theorem cornerPx_pixel (v4 a b : FVec Ideal S8x64x256 .f32) (i : S8x64x256.Idx) :
    addf (mulf (mulf v4 (subf (addf (log (addf (exp (subf a (maximumf a b))) (exp (subf b (maximumf a b))))) (maximumf a b)) b))
          (broadcast S8x64x256 (Scalar.ofBits .f32 0x461C4000#32)))
        (mulf (subf (broadcast S8x64x256 (Scalar.ofBits .f32 0x3F800000#32)) v4)
          (subf (addf (log (addf (exp (subf a (maximumf a b))) (exp (subf b (maximumf a b))))) (maximumf a b)) a)) i
      = KernelPx.cornerPx (v4 i) (a i) (b i) := rfl

theorem pay29_apply (v3 : Vec Ideal S8x1x64x256 .f32) (v25 : Vec Ideal S8x7x64x256 .f32) (s : Vec Ideal S8x128 .f32)
    (r : Fin 8) (l : Fin 128) :
    k0_pay29 (k0_pay19 v3) (k0_pay26 v25) (k0_pay27 v25) (k0_pay28 v25) s (ix2 r l)
      = s (ix2 r l) + ∑ y : Fin 64, ∑ x : Fin 256,
          KernelPx.cornerPx (v3 (ix4 r (0 : Fin 1) y x)) (v25 (ix4 r (1 : Fin 7) y x)) (v25 (ix4 r (2 : Fin 7) y x)) := by
  unfold k0_pay29
  refine (tail _ s r l).trans ?_
  refine congrArg (s (ix2 r l) + ·) (Finset.sum_congr rfl fun y _ => Finset.sum_congr rfl fun x _ => ?_)
  refine (cornerPx_pixel (k0_pay19 v3) (k0_pay26 v25) (k0_pay27 v25) (ix3 r y x)).trans ?_
  rw [pay19_apply, pay26_apply, pay27_apply]

theorem pay40_apply (v3 : Vec Ideal S8x1x64x256 .f32) (v127 : Vec Ideal S8x7x64x256 .f32) (s : Vec Ideal S8x128 .f32)
    (r : Fin 8) (l : Fin 128) :
    k0_pay40 (k0_pay19 v3) v127 s (ix2 r l)
      = s (ix2 r l) + ∑ y : Fin 64, ∑ x : Fin 256,
          KernelPx.cornerPx (v3 (ix4 r (0 : Fin 1) y x)) (v127 (ix4 r (1 : Fin 7) y x)) (v127 (ix4 r (2 : Fin 7) y x)) := by
  unfold k0_pay40
  refine (tail _ s r l).trans ?_
  refine congrArg (s (ix2 r l) + ·) (Finset.sum_congr rfl fun y _ => Finset.sum_congr rfl fun x _ => ?_)
  refine (cornerPx_pixel (k0_pay19 v3) (chan v127 1 slices_S8x7x64x256_o0_1_0_0_S8x1x64x256)
    (chan v127 2 slices_S8x7x64x256_o0_2_0_0_S8x1x64x256) (ix3 r y x)).trans ?_
  rw [pay19_apply, chan_apply v127 1 _ 1 rfl, chan_apply v127 2 _ 2 rfl]

/-! ## The offset term -/

/-- The weight of an offset target, as the kernel's select spells it. -/
theorem mask_sel (t : EReal) :
    Scalar.select (FloatOps.cmpf (F := Ideal) (φ := .f32) .one t (Scalar.ofBits .f32 0x00000000#32))
        (Scalar.ofBits (F := Ideal) .f32 0x461C4000#32) (Scalar.ofBits (F := Ideal) .f32 0x3F800000#32)
      = KernelPx.mask t := by
  show Scalar.select (BitVec.ofBool (decide (t ≠ Ideal.ofBits .f32 0x00000000#32))) _ _ = _
  rw [select_ofBool, Ideal.ofBits_zero_f32]
  rfl

/-- The smooth absolute value, as the kernel's select spells it. -/
theorem sl_sel (d : EReal) :
    Scalar.select (FloatOps.cmpf (F := Ideal) (φ := .f32) .olt (FloatOps.absf d) (Scalar.ofBits .f32 0x3F800000#32))
        (FloatOps.mulf (FloatOps.mulf (Scalar.ofBits (F := Ideal) .f32 0x3F000000#32) d) d)
        (FloatOps.subf (FloatOps.absf d) (Scalar.ofBits (F := Ideal) .f32 0x3F000000#32))
      = KernelPx.sl d := by
  show Scalar.select (BitVec.ofBool (decide (max d (-d) < Ideal.ofBits .f32 0x3F800000#32))) _ _ = _
  rw [select_ofBool]
  rfl

/-- The weight of a block of offset targets. -/
def maskV (t : FVec Ideal S8x64x256 .f32) : FVec Ideal S8x64x256 .f32 :=
  select (cmpf .one t (broadcast S8x64x256 (Scalar.ofBits .f32 0x00000000#32)))
    (broadcast S8x64x256 (Scalar.ofBits .f32 0x461C4000#32)) (broadcast S8x64x256 (Scalar.ofBits .f32 0x3F800000#32))

/-- The squashed score of a block less its target. -/
def diffV (o t : FVec Ideal S8x64x256 .f32) : FVec Ideal S8x64x256 .f32 :=
  subf (mulf (tanh o) (broadcast S8x64x256 (Scalar.ofBits .f32 0x43800000#32))) t

/-- The smooth absolute value of a block of differences. -/
def slV (d : FVec Ideal S8x64x256 .f32) : FVec Ideal S8x64x256 .f32 :=
  select (cmpf .olt (absf d) (broadcast S8x64x256 (Scalar.ofBits .f32 0x3F800000#32)))
    (mulf (mulf (broadcast S8x64x256 (Scalar.ofBits .f32 0x3F000000#32)) d) d)
    (subf (absf d) (broadcast S8x64x256 (Scalar.ofBits .f32 0x3F000000#32)))

/-- The offset term of a pixel, as the kernel's operations spell it. -/
theorem offPx_pixel (t0 t1 o3 o4 : FVec Ideal S8x64x256 .f32) (i : S8x64x256.Idx) :
    addf (mulf (maskV t0) (slV (diffV o3 t0))) (mulf (maskV t1) (slV (diffV o4 t1))) i
      = KernelPx.offPx (t0 i) (t1 i) (o3 i) (o4 i) :=
  congrArg₂ (· + ·) (congrArg₂ (· * ·) (mask_sel (t0 i)) (sl_sel _)) (congrArg₂ (· * ·) (mask_sel (t1 i)) (sl_sel _))

theorem pay37_apply (v5 : Vec Ideal S8x1x2x64x256 .f32) (v25 : Vec Ideal S8x7x64x256 .f32) (s : Vec Ideal S8x128 .f32)
    (r : Fin 8) (l : Fin 128) :
    k0_pay37 (k0_pay22 v5) (k0_pay23 v5) (k0_pay31 (k0_pay21 v5) v25) (k0_pay32 (k0_pay20 v5) v25)
        (k0_pay33 (k0_pay21 v5) v25) (k0_pay34 (k0_pay20 v5) v25) (k0_pay35 (k0_pay20 v5) v25) k0_pay36 s (ix2 r l)
      = s (ix2 r l) + ∑ y : Fin 64, ∑ x : Fin 256,
          KernelPx.offPx (v5 (ix5 r (0 : Fin 1) (0 : Fin 2) y x)) (v5 (ix5 r (0 : Fin 1) (1 : Fin 2) y x))
            (v25 (ix4 r (3 : Fin 7) y x)) (v25 (ix4 r (4 : Fin 7) y x)) := by
  unfold k0_pay37
  refine (tail _ s r l).trans ?_
  refine congrArg (s (ix2 r l) + ·) (Finset.sum_congr rfl fun y _ => Finset.sum_congr rfl fun x _ => ?_)
  refine (offPx_pixel (k0_pay20 v5) (k0_pay21 v5) (chan v25 3 slices_S8x7x64x256_o0_3_0_0_S8x1x64x256)
    (chan v25 4 slices_S8x7x64x256_o0_4_0_0_S8x1x64x256) (ix3 r y x)).trans ?_
  rw [pay20_apply, pay21_apply, chan_apply v25 3 _ 3 rfl, chan_apply v25 4 _ 4 rfl]

theorem pay42_apply (v5 : Vec Ideal S8x1x2x64x256 .f32) (v127 : Vec Ideal S8x7x64x256 .f32) (s : Vec Ideal S8x128 .f32)
    (r : Fin 8) (l : Fin 128) :
    k0_pay42 (k0_pay20 v5) (k0_pay21 v5) (k0_pay22 v5) (k0_pay23 v5) v127 (k0_pay41 v127) s (ix2 r l)
      = s (ix2 r l) + ∑ y : Fin 64, ∑ x : Fin 256,
          KernelPx.offPx (v5 (ix5 r (0 : Fin 1) (0 : Fin 2) y x)) (v5 (ix5 r (0 : Fin 1) (1 : Fin 2) y x))
            (v127 (ix4 r (3 : Fin 7) y x)) (v127 (ix4 r (4 : Fin 7) y x)) := by
  unfold k0_pay42
  refine (tail _ s r l).trans ?_
  refine congrArg (s (ix2 r l) + ·) (Finset.sum_congr rfl fun y _ => Finset.sum_congr rfl fun x _ => ?_)
  refine (offPx_pixel (k0_pay20 v5) (k0_pay21 v5) (chan v127 3 slices_S8x7x64x256_o0_3_0_0_S8x1x64x256)
    (chan v127 4 slices_S8x7x64x256_o0_4_0_0_S8x1x64x256) (ix3 r y x)).trans ?_
  rw [pay20_apply, pay21_apply, chan_apply v127 3 _ 3 rfl, chan_apply v127 4 _ 4 rfl]

/-! ## The bin term -/

/-- The bin term of a pixel, as the kernel's operations spell it. -/
theorem binPx_pixel (p b0 b1 o5 o6 : FVec Ideal S8x64x256 .f32) (i : S8x64x256.Idx) :
    addf (mulf (absf (subf (subf (logistic o5) (broadcast S8x64x256 (Scalar.ofBits .f32 0x3F000000#32))) b0)) p)
        (mulf (absf (subf (subf (logistic o6) (broadcast S8x64x256 (Scalar.ofBits .f32 0x3F000000#32))) b1)) p) i
      = KernelPx.binPx (p i) (b0 i) (b1 i) (o5 i) (o6 i) := rfl

theorem pay39_apply (v3 : Vec Ideal S8x1x64x256 .f32) (v6 : Vec Ideal S8x1x2x64x256 .f32) (v25 : Vec Ideal S8x7x64x256 .f32)
    (s : Vec Ideal S8x128 .f32) (r : Fin 8) (l : Fin 128) :
    k0_pay39 s (k0_pay38 (k0_pay19 v3) (k0_pay24 v6) (k0_pay25 v6) v25) (ix2 r l)
      = s (ix2 r l) + ∑ y : Fin 64, ∑ x : Fin 256,
          KernelPx.binPx (v3 (ix4 r (0 : Fin 1) y x)) (v6 (ix5 r (0 : Fin 1) (0 : Fin 2) y x))
            (v6 (ix5 r (0 : Fin 1) (1 : Fin 2) y x)) (v25 (ix4 r (5 : Fin 7) y x)) (v25 (ix4 r (6 : Fin 7) y x)) := by
  unfold k0_pay39 k0_pay38
  refine (tail _ s r l).trans ?_
  refine congrArg (s (ix2 r l) + ·) (Finset.sum_congr rfl fun y _ => Finset.sum_congr rfl fun x _ => ?_)
  refine (binPx_pixel (k0_pay19 v3) (k0_pay24 v6) (k0_pay25 v6) (chan v25 5 slices_S8x7x64x256_o0_5_0_0_S8x1x64x256)
    (chan v25 6 slices_S8x7x64x256_o0_6_0_0_S8x1x64x256) (ix3 r y x)).trans ?_
  rw [pay19_apply, pay24_apply, pay25_apply, chan_apply v25 5 _ 5 rfl, chan_apply v25 6 _ 6 rfl]

theorem pay1_apply (v3 : Vec Ideal S8x1x64x256 .f32) (v6 : Vec Ideal S8x1x2x64x256 .f32) (v127 : Vec Ideal S8x7x64x256 .f32)
    (s : Vec Ideal S8x128 .f32) (r : Fin 8) (l : Fin 128) :
    k0_pay1 (k0_pay19 v3) (k0_pay24 v6) (k0_pay25 v6) (k0_pay43 v127) (k0_pay44 v127) k0_pay45 s (ix2 r l)
      = s (ix2 r l) + ∑ y : Fin 64, ∑ x : Fin 256,
          KernelPx.binPx (v3 (ix4 r (0 : Fin 1) y x)) (v6 (ix5 r (0 : Fin 1) (0 : Fin 2) y x))
            (v6 (ix5 r (0 : Fin 1) (1 : Fin 2) y x)) (v127 (ix4 r (5 : Fin 7) y x)) (v127 (ix4 r (6 : Fin 7) y x)) := by
  unfold k0_pay1
  refine (tail _ s r l).trans ?_
  refine congrArg (s (ix2 r l) + ·) (Finset.sum_congr rfl fun y _ => Finset.sum_congr rfl fun x _ => ?_)
  refine (binPx_pixel (k0_pay19 v3) (k0_pay24 v6) (k0_pay25 v6) (chan v127 5 slices_S8x7x64x256_o0_5_0_0_S8x1x64x256)
    (chan v127 6 slices_S8x7x64x256_o0_6_0_0_S8x1x64x256) (ix3 r y x)).trans ?_
  rw [pay19_apply, pay24_apply, pay25_apply, chan_apply v127 5 _ 5 rfl, chan_apply v127 6 _ 6 rfl]

/-! ## The zero splats -/

theorem pay12_apply (r : Fin 8) (l : Fin 128) : k0_pay12 (F := Ideal) (ix2 r l) = 0 := Ideal.ofBits_zero_f32
theorem pay13_apply (r : Fin 8) (l : Fin 128) : k0_pay13 (F := Ideal) (ix2 r l) = 0 := Ideal.ofBits_zero_f32
theorem pay14_apply (r : Fin 8) (l : Fin 128) : k0_pay14 (F := Ideal) (ix2 r l) = 0 := Ideal.ofBits_zero_f32
theorem pay15_apply (r : Fin 8) (l : Fin 128) : k0_pay15 (F := Ideal) (ix2 r l) = 0 := Ideal.ofBits_zero_f32
theorem pay16_apply (r : Fin 8) (l : Fin 128) : k0_pay16 (F := Ideal) (ix2 r l) = 0 := Ideal.ofBits_zero_f32
theorem pay17_apply (r : Fin 8) (l : Fin 128) : k0_pay17 (F := Ideal) (ix2 r l) = 0 := Ideal.ofBits_zero_f32
theorem pay18_apply (r : Fin 8) (l : Fin 128) : k0_pay18 (F := Ideal) (ix2 r l) = 0 := Ideal.ofBits_zero_f32

/-! ## The finals (literals kept as the kernel's words) -/

/-- The guarded divisor, as the kernel's select spells it. -/
theorem pay6_apply (s6 : Vec Ideal S8x128 .f32) (r : Fin 8) (l : Fin 128) :
    k0_pay6 s6 (ix2 r l) = KernelPx.wOf (s6 (ix2 r l)) := by
  show Scalar.select (BitVec.ofBool (decide (Ideal.div (s6 (ix2 r l)) (Ideal.ofBits .f32 0x47800000#32)
    = Ideal.ofBits .f32 0x00000000#32))) _ _ = _
  rw [select_ofBool, Ideal.ofBits_zero_f32]
  rfl

theorem pay7_apply (s : Vec Ideal S8x128 .f32) (r : Fin 8) (l : Fin 128) :
    k0_pay7 s (ix2 r l)
      = Ideal.div (s (ix2 r l)) (Ideal.ofBits .f32 0x47800000#32) * Ideal.ofBits .f32 0x3F800000#32 := rfl

theorem pay8_apply (s : Vec Ideal S8x128 .f32) (r : Fin 8) (l : Fin 128) :
    k0_pay8 s (ix2 r l)
      = Ideal.div (s (ix2 r l)) (Ideal.ofBits .f32 0x47800000#32) * Ideal.ofBits .f32 0x3E800000#32 := rfl

theorem pay9_apply (s6 s2 : Vec Ideal S8x128 .f32) (r : Fin 8) (l : Fin 128) :
    k0_pay9 s6 s2 (ix2 r l)
      = Ideal.div (Ideal.div (s2 (ix2 r l)) (Ideal.ofBits .f32 0x47800000#32)) (KernelPx.wOf (s6 (ix2 r l)))
          * Ideal.ofBits .f32 0x3F800000#32 := by
  rw [← pay6_apply]
  rfl

theorem pay3_apply (s : Vec Ideal S8x128 .f32) (r : Fin 8) (l : Fin 128) :
    k0_pay3 (k0_pay10 s) k0_pay11 (ix2 r l)
      = Ideal.div (s (ix2 r l)) (Ideal.ofBits .f32 0x47800000#32) * Ideal.ofBits .f32 0x3F800000#32 := rfl

theorem pay4_apply (s : Vec Ideal S8x128 .f32) (r : Fin 8) (l : Fin 128) :
    k0_pay4 s (ix2 r l)
      = Ideal.div (s (ix2 r l)) (Ideal.ofBits .f32 0x47800000#32) * Ideal.ofBits .f32 0x3E800000#32 := rfl

theorem pay5_apply (s6 s5 : Vec Ideal S8x128 .f32) (r : Fin 8) (l : Fin 128) :
    k0_pay5 (k0_pay6 s6) s5 (ix2 r l)
      = Ideal.div (Ideal.div (s5 (ix2 r l)) (Ideal.ofBits .f32 0x47800000#32)) (KernelPx.wOf (s6 (ix2 r l)))
          * Ideal.ofBits .f32 0x3F800000#32 := by
  rw [← pay6_apply]
  rfl

end Cert.KernelIdeal.Block

end
-- ==== Proof.LibSumTiles.lean ====
/-
  A sum over 256 rows taken tile by tile: four tiles of 64 rows each, row `Y` of the whole being row `y` of tile `h`
  with `Y = 64 h + y`. The pairs `(h, y)` and the rows `Y` correspond one to one, so the double sum over the pairs is the
  sum over the rows, in any commutative monoid.
-/
import Mathlib.Algebra.BigOperators.Fin

open scoped BigOperators

namespace Cert.LibSumTiles

/-- The sum over the rows of four tiles of 64 rows is the sum over the 256 rows. -/
theorem sum_tiles4 {M : Type*} [AddCommMonoid M] (g : Fin 256 → M) :
    ∑ h : Fin 4, ∑ y : Fin 64, g ⟨64 * h.val + y.val, by omega⟩ = ∑ Y : Fin 256, g Y := by
  rw [← Equiv.sum_comp (finProdFinEquiv (m := 4) (n := 64)) g, Fintype.sum_prod_type]
  refine Finset.sum_congr rfl fun h _ => Finset.sum_congr rfl fun y _ => congrArg g (Fin.ext ?_)
  show 64 * h.val + y.val = y.val + 64 * h.val
  omega

end Cert.LibSumTiles
-- ==== Proof.KernelIdealSums.lean ====
/-
  One batch tile of eight images through its four row tiles. The body visits the tile's row tiles h = 0, 1, 2, 3 in order:
  the running sums start at zero and each visit adds the row tile's per-pixel terms. Addition of extended reals is
  associative and commutative, so after the fourth visit each running sum is the sum of its term over all 256 x 256 pixels
  of the image, row `Y = 64 h + y` of the image being row `y` of row tile `h`. The six results follow by the final
  normalisations. The blocks are given as families over the four row tiles, with the hypothesis that block `h` of a family
  is the whole array's block at batch tile `b` and row tile `h`.
-/
import proofs.«111430_j72988674228458_2_alg».proof.Proof.KernelIdealStep
import proofs.«111430_j72988674228458_2_alg».proof.Proof.KernelBlock
import proofs.«111430_j72988674228458_2_alg».proof.Proof.LibSumTiles

noncomputable section
open scoped BigOperators
open Idealize.ShloMosaic Idealize.ShloMosaic.ValueIdx
open Cert.KernelIdeal Cert.KernelIdeal.Gen

namespace Cert.KernelIdeal.Sums

/-- The running sums after the four row tiles of one batch tile, visited in order from zero. -/
def run4 (X0 X1 : Fin 4 → Vec Ideal S8x7x64x256 .f32) (X2 : Fin 4 → Vec Ideal S8x1x64x256 .f32)
    (X3 X4 : Fin 4 → Vec Ideal S8x1x2x64x256 .f32) : Step.Acc Ideal :=
  Step.step (X0 3) (X1 3) (X2 3) (X3 3) (X4 3)
    (Step.step (X0 2) (X1 2) (X2 2) (X3 2) (X4 2)
      (Step.step (X0 1) (X1 1) (X2 1) (X3 1) (X4 1)
        (Step.step (X0 0) (X1 0) (X2 0) (X3 0) (X4 0) Step.zero)))

/-- Four updates of one running sum from zero: if update `h` adds `T h r` to every lane of row `r`, the row holds the sum
    of the four `T h r`. -/
theorem four_steps (P : Fin 4 → Vec Ideal S8x128 .f32 → Vec Ideal S8x128 .f32) (T : Fin 4 → Fin 8 → EReal)
    (hP : ∀ (h : Fin 4) (s : Vec Ideal S8x128 .f32) (r : Fin 8) (l : Fin 128), P h s (ix2 r l) = s (ix2 r l) + T h r)
    (z : Vec Ideal S8x128 .f32) (hz : ∀ (r : Fin 8) (l : Fin 128), z (ix2 r l) = 0) (r : Fin 8) (l : Fin 128) :
    P 3 (P 2 (P 1 (P 0 z))) (ix2 r l) = ∑ h : Fin 4, T h r := by
  rw [hP, hP, hP, hP, hz, zero_add, Fin.sum_univ_four]

/-- The pixels of an image taken row tile by row tile are its pixels. -/
theorem sum_tiles_px (G : Fin 256 → Fin 256 → EReal) :
    ∑ h : Fin 4, ∑ y : Fin 64, ∑ x : Fin 256, G ⟨64 * h.val + y.val, by omega⟩ x
      = ∑ Y : Fin 256, ∑ x : Fin 256, G Y x :=
  LibSumTiles.sum_tiles4 (fun Y => ∑ x : Fin 256, G Y x)

/-! ## The running sums after the four row tiles -/

/-- The corner sum of stack 0 after the four row tiles: the corner term summed over the image's 256 x 256 pixels. -/
theorem c0_run4 (X0 X1 : Fin 4 → Vec Ideal S8x7x64x256 .f32) (X2 : Fin 4 → Vec Ideal S8x1x64x256 .f32)
    (X3 X4 : Fin 4 → Vec Ideal S8x1x2x64x256 .f32)
    (a0 : S32x7x256x256.Idx → EReal)
    (a2 : S32x1x256x256.Idx → EReal)
    (b : Fin 4)
    (hX0 : ∀ (h : Fin 4) (r : Fin 8) (ch : Fin 7) (y : Fin 64) (x : Fin 256),
      X0 h (ix4 r ch y x) = a0 (ix4 ⟨8 * b.val + r.val, by omega⟩ ch ⟨64 * h.val + y.val, by omega⟩ x))
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (r : Fin 8) (l : Fin 128) :
    (run4 X0 X1 X2 X3 X4).c0 (ix2 r l)
      = ∑ Y : Fin 256, ∑ x : Fin 256,
          KernelPx.cornerPx (a2 (ix4 ⟨8 * b.val + r.val, by omega⟩ (0 : Fin 1) Y x))
          (a0 (ix4 ⟨8 * b.val + r.val, by omega⟩ (1 : Fin 7) Y x))
          (a0 (ix4 ⟨8 * b.val + r.val, by omega⟩ (2 : Fin 7) Y x)) := by
  refine (four_steps
    (fun h s => k0_pay29 (k0_pay19 (X2 h)) (k0_pay26 (X0 h)) (k0_pay27 (X0 h)) (k0_pay28 (X0 h)) s)
    (fun h r => ∑ y : Fin 64, ∑ x : Fin 256,
          KernelPx.cornerPx (X2 h (ix4 r (0 : Fin 1) y x)) (X0 h (ix4 r (1 : Fin 7) y x))
          (X0 h (ix4 r (2 : Fin 7) y x)))
    (fun h s r l => Block.pay29_apply (X2 h) (X0 h) s r l) (k0_pay12 (F := Ideal)) Block.pay12_apply r l).trans ?_
  refine Eq.trans
    (Finset.sum_congr rfl fun h _ => Finset.sum_congr rfl fun y _ => Finset.sum_congr rfl fun x _ => ?_)
    (sum_tiles_px (fun Y x =>
          KernelPx.cornerPx (a2 (ix4 ⟨8 * b.val + r.val, by omega⟩ (0 : Fin 1) Y x))
          (a0 (ix4 ⟨8 * b.val + r.val, by omega⟩ (1 : Fin 7) Y x))
          (a0 (ix4 ⟨8 * b.val + r.val, by omega⟩ (2 : Fin 7) Y x))))
  rw [hX0, hX0, hX2]

/-- The offset sum of stack 0 after the four row tiles. -/
theorem o0_run4 (X0 X1 : Fin 4 → Vec Ideal S8x7x64x256 .f32) (X2 : Fin 4 → Vec Ideal S8x1x64x256 .f32)
    (X3 X4 : Fin 4 → Vec Ideal S8x1x2x64x256 .f32)
    (a0 : S32x7x256x256.Idx → EReal)
    (a3 : S32x1x2x256x256.Idx → EReal)
    (b : Fin 4)
    (hX0 : ∀ (h : Fin 4) (r : Fin 8) (ch : Fin 7) (y : Fin 64) (x : Fin 256),
      X0 h (ix4 r ch y x) = a0 (ix4 ⟨8 * b.val + r.val, by omega⟩ ch ⟨64 * h.val + y.val, by omega⟩ x))
    (hX3 : ∀ (h : Fin 4) (r : Fin 8) (k : Fin 2) (y : Fin 64) (x : Fin 256),
      X3 h (ix5 r (0 : Fin 1) k y x) = a3 (ix5 ⟨8 * b.val + r.val, by omega⟩ (0 : Fin 1) k ⟨64 * h.val + y.val, by omega⟩ x))
    (r : Fin 8) (l : Fin 128) :
    (run4 X0 X1 X2 X3 X4).o0 (ix2 r l)
      = ∑ Y : Fin 256, ∑ x : Fin 256,
          KernelPx.offPx (a3 (ix5 ⟨8 * b.val + r.val, by omega⟩ (0 : Fin 1) (0 : Fin 2) Y x))
          (a3 (ix5 ⟨8 * b.val + r.val, by omega⟩ (0 : Fin 1) (1 : Fin 2) Y x))
          (a0 (ix4 ⟨8 * b.val + r.val, by omega⟩ (3 : Fin 7) Y x))
          (a0 (ix4 ⟨8 * b.val + r.val, by omega⟩ (4 : Fin 7) Y x)) := by
  refine (four_steps
    (fun h s => k0_pay37 (k0_pay22 (X3 h)) (k0_pay23 (X3 h)) (k0_pay31 (k0_pay21 (X3 h)) (X0 h))
      (k0_pay32 (k0_pay20 (X3 h)) (X0 h)) (k0_pay33 (k0_pay21 (X3 h)) (X0 h)) (k0_pay34 (k0_pay20 (X3 h)) (X0 h))
      (k0_pay35 (k0_pay20 (X3 h)) (X0 h)) k0_pay36 s)
    (fun h r => ∑ y : Fin 64, ∑ x : Fin 256,
          KernelPx.offPx (X3 h (ix5 r (0 : Fin 1) (0 : Fin 2) y x)) (X3 h (ix5 r (0 : Fin 1) (1 : Fin 2) y x))
          (X0 h (ix4 r (3 : Fin 7) y x)) (X0 h (ix4 r (4 : Fin 7) y x)))
    (fun h s r l => Block.pay37_apply (X3 h) (X0 h) s r l) (k0_pay13 (F := Ideal)) Block.pay13_apply r l).trans ?_
  refine Eq.trans
    (Finset.sum_congr rfl fun h _ => Finset.sum_congr rfl fun y _ => Finset.sum_congr rfl fun x _ => ?_)
    (sum_tiles_px (fun Y x =>
          KernelPx.offPx (a3 (ix5 ⟨8 * b.val + r.val, by omega⟩ (0 : Fin 1) (0 : Fin 2) Y x))
          (a3 (ix5 ⟨8 * b.val + r.val, by omega⟩ (0 : Fin 1) (1 : Fin 2) Y x))
          (a0 (ix4 ⟨8 * b.val + r.val, by omega⟩ (3 : Fin 7) Y x))
          (a0 (ix4 ⟨8 * b.val + r.val, by omega⟩ (4 : Fin 7) Y x))))
  rw [hX0, hX0, hX3, hX3]

/-- The bin sum of stack 0 after the four row tiles. -/
theorem b0_run4 (X0 X1 : Fin 4 → Vec Ideal S8x7x64x256 .f32) (X2 : Fin 4 → Vec Ideal S8x1x64x256 .f32)
    (X3 X4 : Fin 4 → Vec Ideal S8x1x2x64x256 .f32)
    (a0 : S32x7x256x256.Idx → EReal)
    (a2 : S32x1x256x256.Idx → EReal)
    (a4 : S32x1x2x256x256.Idx → EReal)
    (b : Fin 4)
    (hX0 : ∀ (h : Fin 4) (r : Fin 8) (ch : Fin 7) (y : Fin 64) (x : Fin 256),
      X0 h (ix4 r ch y x) = a0 (ix4 ⟨8 * b.val + r.val, by omega⟩ ch ⟨64 * h.val + y.val, by omega⟩ x))
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (hX4 : ∀ (h : Fin 4) (r : Fin 8) (k : Fin 2) (y : Fin 64) (x : Fin 256),
      X4 h (ix5 r (0 : Fin 1) k y x) = a4 (ix5 ⟨8 * b.val + r.val, by omega⟩ (0 : Fin 1) k ⟨64 * h.val + y.val, by omega⟩ x))
    (r : Fin 8) (l : Fin 128) :
    (run4 X0 X1 X2 X3 X4).b0 (ix2 r l)
      = ∑ Y : Fin 256, ∑ x : Fin 256,
          KernelPx.binPx (a2 (ix4 ⟨8 * b.val + r.val, by omega⟩ (0 : Fin 1) Y x))
          (a4 (ix5 ⟨8 * b.val + r.val, by omega⟩ (0 : Fin 1) (0 : Fin 2) Y x))
          (a4 (ix5 ⟨8 * b.val + r.val, by omega⟩ (0 : Fin 1) (1 : Fin 2) Y x))
          (a0 (ix4 ⟨8 * b.val + r.val, by omega⟩ (5 : Fin 7) Y x))
          (a0 (ix4 ⟨8 * b.val + r.val, by omega⟩ (6 : Fin 7) Y x)) := by
  refine (four_steps
    (fun h s => k0_pay39 s (k0_pay38 (k0_pay19 (X2 h)) (k0_pay24 (X4 h)) (k0_pay25 (X4 h)) (X0 h)))
    (fun h r => ∑ y : Fin 64, ∑ x : Fin 256,
          KernelPx.binPx (X2 h (ix4 r (0 : Fin 1) y x)) (X4 h (ix5 r (0 : Fin 1) (0 : Fin 2) y x))
          (X4 h (ix5 r (0 : Fin 1) (1 : Fin 2) y x)) (X0 h (ix4 r (5 : Fin 7) y x)) (X0 h (ix4 r (6 : Fin 7) y x)))
    (fun h s r l => Block.pay39_apply (X2 h) (X4 h) (X0 h) s r l) (k0_pay14 (F := Ideal)) Block.pay14_apply r l).trans ?_
  refine Eq.trans
    (Finset.sum_congr rfl fun h _ => Finset.sum_congr rfl fun y _ => Finset.sum_congr rfl fun x _ => ?_)
    (sum_tiles_px (fun Y x =>
          KernelPx.binPx (a2 (ix4 ⟨8 * b.val + r.val, by omega⟩ (0 : Fin 1) Y x))
          (a4 (ix5 ⟨8 * b.val + r.val, by omega⟩ (0 : Fin 1) (0 : Fin 2) Y x))
          (a4 (ix5 ⟨8 * b.val + r.val, by omega⟩ (0 : Fin 1) (1 : Fin 2) Y x))
          (a0 (ix4 ⟨8 * b.val + r.val, by omega⟩ (5 : Fin 7) Y x))
          (a0 (ix4 ⟨8 * b.val + r.val, by omega⟩ (6 : Fin 7) Y x))))
  rw [hX0, hX0, hX2, hX4, hX4]

/-- The corner sum of stack 1 after the four row tiles: the corner term summed over the image's 256 x 256 pixels. -/
theorem c1_run4 (X0 X1 : Fin 4 → Vec Ideal S8x7x64x256 .f32) (X2 : Fin 4 → Vec Ideal S8x1x64x256 .f32)
    (X3 X4 : Fin 4 → Vec Ideal S8x1x2x64x256 .f32)
    (a1 : S32x7x256x256.Idx → EReal)
    (a2 : S32x1x256x256.Idx → EReal)
    (b : Fin 4)
    (hX1 : ∀ (h : Fin 4) (r : Fin 8) (ch : Fin 7) (y : Fin 64) (x : Fin 256),
      X1 h (ix4 r ch y x) = a1 (ix4 ⟨8 * b.val + r.val, by omega⟩ ch ⟨64 * h.val + y.val, by omega⟩ x))
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (r : Fin 8) (l : Fin 128) :
    (run4 X0 X1 X2 X3 X4).c1 (ix2 r l)
      = ∑ Y : Fin 256, ∑ x : Fin 256,
          KernelPx.cornerPx (a2 (ix4 ⟨8 * b.val + r.val, by omega⟩ (0 : Fin 1) Y x))
          (a1 (ix4 ⟨8 * b.val + r.val, by omega⟩ (1 : Fin 7) Y x))
          (a1 (ix4 ⟨8 * b.val + r.val, by omega⟩ (2 : Fin 7) Y x)) := by
  refine (four_steps
    (fun h s => k0_pay40 (k0_pay19 (X2 h)) (X1 h) s)
    (fun h r => ∑ y : Fin 64, ∑ x : Fin 256,
          KernelPx.cornerPx (X2 h (ix4 r (0 : Fin 1) y x)) (X1 h (ix4 r (1 : Fin 7) y x))
          (X1 h (ix4 r (2 : Fin 7) y x)))
    (fun h s r l => Block.pay40_apply (X2 h) (X1 h) s r l) (k0_pay15 (F := Ideal)) Block.pay15_apply r l).trans ?_
  refine Eq.trans
    (Finset.sum_congr rfl fun h _ => Finset.sum_congr rfl fun y _ => Finset.sum_congr rfl fun x _ => ?_)
    (sum_tiles_px (fun Y x =>
          KernelPx.cornerPx (a2 (ix4 ⟨8 * b.val + r.val, by omega⟩ (0 : Fin 1) Y x))
          (a1 (ix4 ⟨8 * b.val + r.val, by omega⟩ (1 : Fin 7) Y x))
          (a1 (ix4 ⟨8 * b.val + r.val, by omega⟩ (2 : Fin 7) Y x))))
  rw [hX1, hX1, hX2]

/-- The offset sum of stack 1 after the four row tiles. -/
theorem o1_run4 (X0 X1 : Fin 4 → Vec Ideal S8x7x64x256 .f32) (X2 : Fin 4 → Vec Ideal S8x1x64x256 .f32)
    (X3 X4 : Fin 4 → Vec Ideal S8x1x2x64x256 .f32)
    (a1 : S32x7x256x256.Idx → EReal)
    (a3 : S32x1x2x256x256.Idx → EReal)
    (b : Fin 4)
    (hX1 : ∀ (h : Fin 4) (r : Fin 8) (ch : Fin 7) (y : Fin 64) (x : Fin 256),
      X1 h (ix4 r ch y x) = a1 (ix4 ⟨8 * b.val + r.val, by omega⟩ ch ⟨64 * h.val + y.val, by omega⟩ x))
    (hX3 : ∀ (h : Fin 4) (r : Fin 8) (k : Fin 2) (y : Fin 64) (x : Fin 256),
      X3 h (ix5 r (0 : Fin 1) k y x) = a3 (ix5 ⟨8 * b.val + r.val, by omega⟩ (0 : Fin 1) k ⟨64 * h.val + y.val, by omega⟩ x))
    (r : Fin 8) (l : Fin 128) :
    (run4 X0 X1 X2 X3 X4).o1 (ix2 r l)
      = ∑ Y : Fin 256, ∑ x : Fin 256,
          KernelPx.offPx (a3 (ix5 ⟨8 * b.val + r.val, by omega⟩ (0 : Fin 1) (0 : Fin 2) Y x))
          (a3 (ix5 ⟨8 * b.val + r.val, by omega⟩ (0 : Fin 1) (1 : Fin 2) Y x))
          (a1 (ix4 ⟨8 * b.val + r.val, by omega⟩ (3 : Fin 7) Y x))
          (a1 (ix4 ⟨8 * b.val + r.val, by omega⟩ (4 : Fin 7) Y x)) := by
  refine (four_steps
    (fun h s => k0_pay42 (k0_pay20 (X3 h)) (k0_pay21 (X3 h)) (k0_pay22 (X3 h)) (k0_pay23 (X3 h)) (X1 h)
      (k0_pay41 (X1 h)) s)
    (fun h r => ∑ y : Fin 64, ∑ x : Fin 256,
          KernelPx.offPx (X3 h (ix5 r (0 : Fin 1) (0 : Fin 2) y x)) (X3 h (ix5 r (0 : Fin 1) (1 : Fin 2) y x))
          (X1 h (ix4 r (3 : Fin 7) y x)) (X1 h (ix4 r (4 : Fin 7) y x)))
    (fun h s r l => Block.pay42_apply (X3 h) (X1 h) s r l) (k0_pay16 (F := Ideal)) Block.pay16_apply r l).trans ?_
  refine Eq.trans
    (Finset.sum_congr rfl fun h _ => Finset.sum_congr rfl fun y _ => Finset.sum_congr rfl fun x _ => ?_)
    (sum_tiles_px (fun Y x =>
          KernelPx.offPx (a3 (ix5 ⟨8 * b.val + r.val, by omega⟩ (0 : Fin 1) (0 : Fin 2) Y x))
          (a3 (ix5 ⟨8 * b.val + r.val, by omega⟩ (0 : Fin 1) (1 : Fin 2) Y x))
          (a1 (ix4 ⟨8 * b.val + r.val, by omega⟩ (3 : Fin 7) Y x))
          (a1 (ix4 ⟨8 * b.val + r.val, by omega⟩ (4 : Fin 7) Y x))))
  rw [hX1, hX1, hX3, hX3]

/-- The bin sum of stack 1 after the four row tiles. -/
theorem b1_run4 (X0 X1 : Fin 4 → Vec Ideal S8x7x64x256 .f32) (X2 : Fin 4 → Vec Ideal S8x1x64x256 .f32)
    (X3 X4 : Fin 4 → Vec Ideal S8x1x2x64x256 .f32)
    (a1 : S32x7x256x256.Idx → EReal)
    (a2 : S32x1x256x256.Idx → EReal)
    (a4 : S32x1x2x256x256.Idx → EReal)
    (b : Fin 4)
    (hX1 : ∀ (h : Fin 4) (r : Fin 8) (ch : Fin 7) (y : Fin 64) (x : Fin 256),
      X1 h (ix4 r ch y x) = a1 (ix4 ⟨8 * b.val + r.val, by omega⟩ ch ⟨64 * h.val + y.val, by omega⟩ x))
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (hX4 : ∀ (h : Fin 4) (r : Fin 8) (k : Fin 2) (y : Fin 64) (x : Fin 256),
      X4 h (ix5 r (0 : Fin 1) k y x) = a4 (ix5 ⟨8 * b.val + r.val, by omega⟩ (0 : Fin 1) k ⟨64 * h.val + y.val, by omega⟩ x))
    (r : Fin 8) (l : Fin 128) :
    (run4 X0 X1 X2 X3 X4).b1 (ix2 r l)
      = ∑ Y : Fin 256, ∑ x : Fin 256,
          KernelPx.binPx (a2 (ix4 ⟨8 * b.val + r.val, by omega⟩ (0 : Fin 1) Y x))
          (a4 (ix5 ⟨8 * b.val + r.val, by omega⟩ (0 : Fin 1) (0 : Fin 2) Y x))
          (a4 (ix5 ⟨8 * b.val + r.val, by omega⟩ (0 : Fin 1) (1 : Fin 2) Y x))
          (a1 (ix4 ⟨8 * b.val + r.val, by omega⟩ (5 : Fin 7) Y x))
          (a1 (ix4 ⟨8 * b.val + r.val, by omega⟩ (6 : Fin 7) Y x)) := by
  refine (four_steps
    (fun h s => k0_pay1 (k0_pay19 (X2 h)) (k0_pay24 (X4 h)) (k0_pay25 (X4 h)) (k0_pay43 (X1 h)) (k0_pay44 (X1 h))
      k0_pay45 s)
    (fun h r => ∑ y : Fin 64, ∑ x : Fin 256,
          KernelPx.binPx (X2 h (ix4 r (0 : Fin 1) y x)) (X4 h (ix5 r (0 : Fin 1) (0 : Fin 2) y x))
          (X4 h (ix5 r (0 : Fin 1) (1 : Fin 2) y x)) (X1 h (ix4 r (5 : Fin 7) y x)) (X1 h (ix4 r (6 : Fin 7) y x)))
    (fun h s r l => Block.pay1_apply (X2 h) (X4 h) (X1 h) s r l) (k0_pay17 (F := Ideal)) Block.pay17_apply r l).trans ?_
  refine Eq.trans
    (Finset.sum_congr rfl fun h _ => Finset.sum_congr rfl fun y _ => Finset.sum_congr rfl fun x _ => ?_)
    (sum_tiles_px (fun Y x =>
          KernelPx.binPx (a2 (ix4 ⟨8 * b.val + r.val, by omega⟩ (0 : Fin 1) Y x))
          (a4 (ix5 ⟨8 * b.val + r.val, by omega⟩ (0 : Fin 1) (0 : Fin 2) Y x))
          (a4 (ix5 ⟨8 * b.val + r.val, by omega⟩ (0 : Fin 1) (1 : Fin 2) Y x))
          (a1 (ix4 ⟨8 * b.val + r.val, by omega⟩ (5 : Fin 7) Y x))
          (a1 (ix4 ⟨8 * b.val + r.val, by omega⟩ (6 : Fin 7) Y x))))
  rw [hX1, hX1, hX2, hX4, hX4]

/-- The positives count after the four row tiles: the corner target summed over the image. -/
theorem pos_run4 (X0 X1 : Fin 4 → Vec Ideal S8x7x64x256 .f32) (X2 : Fin 4 → Vec Ideal S8x1x64x256 .f32)
    (X3 X4 : Fin 4 → Vec Ideal S8x1x2x64x256 .f32)
    (a2 : S32x1x256x256.Idx → EReal)
    (b : Fin 4)
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (r : Fin 8) (l : Fin 128) :
    (run4 X0 X1 X2 X3 X4).pos (ix2 r l)
      = ∑ Y : Fin 256, ∑ x : Fin 256,
          a2 (ix4 ⟨8 * b.val + r.val, by omega⟩ (0 : Fin 1) Y x) := by
  refine (four_steps
    (fun h s => k0_pay2 (k0_pay19 (X2 h)) s)
    (fun h r => ∑ y : Fin 64, ∑ x : Fin 256,
          X2 h (ix4 r (0 : Fin 1) y x))
    (fun h s r l => Block.pay2_apply (X2 h) s r l) (k0_pay18 (F := Ideal)) Block.pay18_apply r l).trans ?_
  refine Eq.trans
    (Finset.sum_congr rfl fun h _ => Finset.sum_congr rfl fun y _ => Finset.sum_congr rfl fun x _ => ?_)
    (sum_tiles_px (fun Y x =>
          a2 (ix4 ⟨8 * b.val + r.val, by omega⟩ (0 : Fin 1) Y x)))
  rw [hX2]

/-! ## The six results -/

/-- The corner loss of stack 0 of image `8 b + r`: the corner sum over its pixels, divided by 65536 and scaled by 1. -/
theorem lc0_run4 (X0 X1 : Fin 4 → Vec Ideal S8x7x64x256 .f32) (X2 : Fin 4 → Vec Ideal S8x1x64x256 .f32)
    (X3 X4 : Fin 4 → Vec Ideal S8x1x2x64x256 .f32)
    (a0 : S32x7x256x256.Idx → EReal)
    (a2 : S32x1x256x256.Idx → EReal)
    (b : Fin 4)
    (hX0 : ∀ (h : Fin 4) (r : Fin 8) (ch : Fin 7) (y : Fin 64) (x : Fin 256),
      X0 h (ix4 r ch y x) = a0 (ix4 ⟨8 * b.val + r.val, by omega⟩ ch ⟨64 * h.val + y.val, by omega⟩ x))
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (r : Fin 8) (l : Fin 128) :
    (Step.finals (run4 X0 X1 X2 X3 X4)).lc0 (ix2 r l)
      = Ideal.div (∑ Y : Fin 256, ∑ x : Fin 256,
          KernelPx.cornerPx (a2 (ix4 ⟨8 * b.val + r.val, by omega⟩ (0 : Fin 1) Y x))
          (a0 (ix4 ⟨8 * b.val + r.val, by omega⟩ (1 : Fin 7) Y x))
          (a0 (ix4 ⟨8 * b.val + r.val, by omega⟩ (2 : Fin 7) Y x)))
          (Ideal.ofBits .f32 0x47800000#32) * Ideal.ofBits .f32 0x3F800000#32 := by
  refine (Block.pay7_apply _ r l).trans ?_
  rw [c0_run4 X0 X1 X2 X3 X4 a0 a2 b hX0 hX2 r l]

/-- The offset loss of stack 0 of image `8 b + r`: the offset sum over its pixels, divided by 65536 and scaled by 1/4. -/
theorem lo0_run4 (X0 X1 : Fin 4 → Vec Ideal S8x7x64x256 .f32) (X2 : Fin 4 → Vec Ideal S8x1x64x256 .f32)
    (X3 X4 : Fin 4 → Vec Ideal S8x1x2x64x256 .f32)
    (a0 : S32x7x256x256.Idx → EReal)
    (a3 : S32x1x2x256x256.Idx → EReal)
    (b : Fin 4)
    (hX0 : ∀ (h : Fin 4) (r : Fin 8) (ch : Fin 7) (y : Fin 64) (x : Fin 256),
      X0 h (ix4 r ch y x) = a0 (ix4 ⟨8 * b.val + r.val, by omega⟩ ch ⟨64 * h.val + y.val, by omega⟩ x))
    (hX3 : ∀ (h : Fin 4) (r : Fin 8) (k : Fin 2) (y : Fin 64) (x : Fin 256),
      X3 h (ix5 r (0 : Fin 1) k y x) = a3 (ix5 ⟨8 * b.val + r.val, by omega⟩ (0 : Fin 1) k ⟨64 * h.val + y.val, by omega⟩ x))
    (r : Fin 8) (l : Fin 128) :
    (Step.finals (run4 X0 X1 X2 X3 X4)).lo0 (ix2 r l)
      = Ideal.div (∑ Y : Fin 256, ∑ x : Fin 256,
          KernelPx.offPx (a3 (ix5 ⟨8 * b.val + r.val, by omega⟩ (0 : Fin 1) (0 : Fin 2) Y x))
          (a3 (ix5 ⟨8 * b.val + r.val, by omega⟩ (0 : Fin 1) (1 : Fin 2) Y x))
          (a0 (ix4 ⟨8 * b.val + r.val, by omega⟩ (3 : Fin 7) Y x))
          (a0 (ix4 ⟨8 * b.val + r.val, by omega⟩ (4 : Fin 7) Y x)))
          (Ideal.ofBits .f32 0x47800000#32) * Ideal.ofBits .f32 0x3E800000#32 := by
  refine (Block.pay8_apply _ r l).trans ?_
  rw [o0_run4 X0 X1 X2 X3 X4 a0 a3 b hX0 hX3 r l]

/-- The bin loss of stack 0 of image `8 b + r`: the bin sum over its pixels, divided by 65536, then by the guarded fraction of positive pixels, and scaled by 1. -/
theorem lb0_run4 (X0 X1 : Fin 4 → Vec Ideal S8x7x64x256 .f32) (X2 : Fin 4 → Vec Ideal S8x1x64x256 .f32)
    (X3 X4 : Fin 4 → Vec Ideal S8x1x2x64x256 .f32)
    (a0 : S32x7x256x256.Idx → EReal)
    (a2 : S32x1x256x256.Idx → EReal)
    (a4 : S32x1x2x256x256.Idx → EReal)
    (b : Fin 4)
    (hX0 : ∀ (h : Fin 4) (r : Fin 8) (ch : Fin 7) (y : Fin 64) (x : Fin 256),
      X0 h (ix4 r ch y x) = a0 (ix4 ⟨8 * b.val + r.val, by omega⟩ ch ⟨64 * h.val + y.val, by omega⟩ x))
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (hX4 : ∀ (h : Fin 4) (r : Fin 8) (k : Fin 2) (y : Fin 64) (x : Fin 256),
      X4 h (ix5 r (0 : Fin 1) k y x) = a4 (ix5 ⟨8 * b.val + r.val, by omega⟩ (0 : Fin 1) k ⟨64 * h.val + y.val, by omega⟩ x))
    (r : Fin 8) (l : Fin 128) :
    (Step.finals (run4 X0 X1 X2 X3 X4)).lb0 (ix2 r l)
      = Ideal.div (Ideal.div (∑ Y : Fin 256, ∑ x : Fin 256,
          KernelPx.binPx (a2 (ix4 ⟨8 * b.val + r.val, by omega⟩ (0 : Fin 1) Y x))
          (a4 (ix5 ⟨8 * b.val + r.val, by omega⟩ (0 : Fin 1) (0 : Fin 2) Y x))
          (a4 (ix5 ⟨8 * b.val + r.val, by omega⟩ (0 : Fin 1) (1 : Fin 2) Y x))
          (a0 (ix4 ⟨8 * b.val + r.val, by omega⟩ (5 : Fin 7) Y x))
          (a0 (ix4 ⟨8 * b.val + r.val, by omega⟩ (6 : Fin 7) Y x)))
          (Ideal.ofBits .f32 0x47800000#32))
          (KernelPx.wOf (∑ Y : Fin 256, ∑ x : Fin 256, a2 (ix4 ⟨8 * b.val + r.val, by omega⟩ (0 : Fin 1) Y x))) * Ideal.ofBits .f32 0x3F800000#32 := by
  refine (Block.pay9_apply _ _ r l).trans ?_
  rw [b0_run4 X0 X1 X2 X3 X4 a0 a2 a4 b hX0 hX2 hX4 r l,
    pos_run4 X0 X1 X2 X3 X4 a2 b hX2 r l]

/-- The corner loss of stack 1 of image `8 b + r`: the corner sum over its pixels, divided by 65536 and scaled by 1. -/
theorem lc1_run4 (X0 X1 : Fin 4 → Vec Ideal S8x7x64x256 .f32) (X2 : Fin 4 → Vec Ideal S8x1x64x256 .f32)
    (X3 X4 : Fin 4 → Vec Ideal S8x1x2x64x256 .f32)
    (a1 : S32x7x256x256.Idx → EReal)
    (a2 : S32x1x256x256.Idx → EReal)
    (b : Fin 4)
    (hX1 : ∀ (h : Fin 4) (r : Fin 8) (ch : Fin 7) (y : Fin 64) (x : Fin 256),
      X1 h (ix4 r ch y x) = a1 (ix4 ⟨8 * b.val + r.val, by omega⟩ ch ⟨64 * h.val + y.val, by omega⟩ x))
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (r : Fin 8) (l : Fin 128) :
    (Step.finals (run4 X0 X1 X2 X3 X4)).lc1 (ix2 r l)
      = Ideal.div (∑ Y : Fin 256, ∑ x : Fin 256,
          KernelPx.cornerPx (a2 (ix4 ⟨8 * b.val + r.val, by omega⟩ (0 : Fin 1) Y x))
          (a1 (ix4 ⟨8 * b.val + r.val, by omega⟩ (1 : Fin 7) Y x))
          (a1 (ix4 ⟨8 * b.val + r.val, by omega⟩ (2 : Fin 7) Y x)))
          (Ideal.ofBits .f32 0x47800000#32) * Ideal.ofBits .f32 0x3F800000#32 := by
  refine (Block.pay3_apply _ r l).trans ?_
  rw [c1_run4 X0 X1 X2 X3 X4 a1 a2 b hX1 hX2 r l]

/-- The offset loss of stack 1 of image `8 b + r`: the offset sum over its pixels, divided by 65536 and scaled by 1/4. -/
theorem lo1_run4 (X0 X1 : Fin 4 → Vec Ideal S8x7x64x256 .f32) (X2 : Fin 4 → Vec Ideal S8x1x64x256 .f32)
    (X3 X4 : Fin 4 → Vec Ideal S8x1x2x64x256 .f32)
    (a1 : S32x7x256x256.Idx → EReal)
    (a3 : S32x1x2x256x256.Idx → EReal)
    (b : Fin 4)
    (hX1 : ∀ (h : Fin 4) (r : Fin 8) (ch : Fin 7) (y : Fin 64) (x : Fin 256),
      X1 h (ix4 r ch y x) = a1 (ix4 ⟨8 * b.val + r.val, by omega⟩ ch ⟨64 * h.val + y.val, by omega⟩ x))
    (hX3 : ∀ (h : Fin 4) (r : Fin 8) (k : Fin 2) (y : Fin 64) (x : Fin 256),
      X3 h (ix5 r (0 : Fin 1) k y x) = a3 (ix5 ⟨8 * b.val + r.val, by omega⟩ (0 : Fin 1) k ⟨64 * h.val + y.val, by omega⟩ x))
    (r : Fin 8) (l : Fin 128) :
    (Step.finals (run4 X0 X1 X2 X3 X4)).lo1 (ix2 r l)
      = Ideal.div (∑ Y : Fin 256, ∑ x : Fin 256,
          KernelPx.offPx (a3 (ix5 ⟨8 * b.val + r.val, by omega⟩ (0 : Fin 1) (0 : Fin 2) Y x))
          (a3 (ix5 ⟨8 * b.val + r.val, by omega⟩ (0 : Fin 1) (1 : Fin 2) Y x))
          (a1 (ix4 ⟨8 * b.val + r.val, by omega⟩ (3 : Fin 7) Y x))
          (a1 (ix4 ⟨8 * b.val + r.val, by omega⟩ (4 : Fin 7) Y x)))
          (Ideal.ofBits .f32 0x47800000#32) * Ideal.ofBits .f32 0x3E800000#32 := by
  refine (Block.pay4_apply _ r l).trans ?_
  rw [o1_run4 X0 X1 X2 X3 X4 a1 a3 b hX1 hX3 r l]

/-- The bin loss of stack 1 of image `8 b + r`: the bin sum over its pixels, divided by 65536, then by the guarded fraction of positive pixels, and scaled by 1. -/
theorem lb1_run4 (X0 X1 : Fin 4 → Vec Ideal S8x7x64x256 .f32) (X2 : Fin 4 → Vec Ideal S8x1x64x256 .f32)
    (X3 X4 : Fin 4 → Vec Ideal S8x1x2x64x256 .f32)
    (a1 : S32x7x256x256.Idx → EReal)
    (a2 : S32x1x256x256.Idx → EReal)
    (a4 : S32x1x2x256x256.Idx → EReal)
    (b : Fin 4)
    (hX1 : ∀ (h : Fin 4) (r : Fin 8) (ch : Fin 7) (y : Fin 64) (x : Fin 256),
      X1 h (ix4 r ch y x) = a1 (ix4 ⟨8 * b.val + r.val, by omega⟩ ch ⟨64 * h.val + y.val, by omega⟩ x))
    (hX2 : ∀ (h : Fin 4) (r : Fin 8) (y : Fin 64) (x : Fin 256),
      X2 h (ix4 r (0 : Fin 1) y x) = a2 (ix4 ⟨8 * b.val + r.val, by omega⟩ (0 : Fin 1) ⟨64 * h.val + y.val, by omega⟩ x))
    (hX4 : ∀ (h : Fin 4) (r : Fin 8) (k : Fin 2) (y : Fin 64) (x : Fin 256),
      X4 h (ix5 r (0 : Fin 1) k y x) = a4 (ix5 ⟨8 * b.val + r.val, by omega⟩ (0 : Fin 1) k ⟨64 * h.val + y.val, by omega⟩ x))
    (r : Fin 8) (l : Fin 128) :
    (Step.finals (run4 X0 X1 X2 X3 X4)).lb1 (ix2 r l)
      = Ideal.div (Ideal.div (∑ Y : Fin 256, ∑ x : Fin 256,
          KernelPx.binPx (a2 (ix4 ⟨8 * b.val + r.val, by omega⟩ (0 : Fin 1) Y x))
          (a4 (ix5 ⟨8 * b.val + r.val, by omega⟩ (0 : Fin 1) (0 : Fin 2) Y x))
          (a4 (ix5 ⟨8 * b.val + r.val, by omega⟩ (0 : Fin 1) (1 : Fin 2) Y x))
          (a1 (ix4 ⟨8 * b.val + r.val, by omega⟩ (5 : Fin 7) Y x))
          (a1 (ix4 ⟨8 * b.val + r.val, by omega⟩ (6 : Fin 7) Y x)))
          (Ideal.ofBits .f32 0x47800000#32))
          (KernelPx.wOf (∑ Y : Fin 256, ∑ x : Fin 256, a2 (ix4 ⟨8 * b.val + r.val, by omega⟩ (0 : Fin 1) Y x))) * Ideal.ofBits .f32 0x3F800000#32 := by
  refine (Block.pay5_apply _ _ r l).trans ?_
  rw [b1_run4 X0 X1 X2 X3 X4 a1 a2 a4 b hX1 hX2 hX4 r l,
    pos_run4 X0 X1 X2 X3 X4 a2 b hX2 r l]

end Cert.KernelIdeal.Sums

end
-- ==== Proof.KernelIdealTiles.lean ====
/-
  The grid's points seen as four batch tiles of four row tiles each. Point 4 b + h is row tile h of batch tile b:
  its block of a stack is images 8 b … 8 b + 7, all channels, rows 64 h … 64 h + 63, all columns of the argument,
  and likewise for the three target arrays. The running sums at a batch tile's last point are the four steps of its
  four row tiles started from zero.
-/
import proofs.«111430_j72988674228458_2_alg».proof.Proof.KernelIdealArrays
import proofs.«111430_j72988674228458_2_alg».proof.Proof.KernelIdealSums

set_option maxRecDepth 16384

noncomputable section

namespace Cert.KernelIdeal.Tiles

open Cert.KernelIdeal Cert.KernelIdeal.Gen
open Idealize.ShloMosaic Idealize.ShloMosaic.TcCoe Idealize.SL.Sem Idealize.ShloMosaic.ValueIdx
open Cert.KernelIdeal.Around Cert.KernelIdeal.Named Cert.KernelIdeal.Step Cert.KernelIdeal.NamedFrame Cert.KernelIdeal.Arrays

variable (m : (ℓ : Loc nD τ sig) → Buf (Elt Ideal) ℓ)

theorem idx_in0 : ∀ t : Fin cfg0.N, win0_0.index t (0 : Fin 4) = t.val / 4 ∧ win0_0.index t (1 : Fin 4) = 0 ∧ win0_0.index t (2 : Fin 4) = t.val % 4 ∧ win0_0.index t (3 : Fin 4) = 0 :=
  (by decide +kernel : ∀ t : Fin grid0.N, win0_0.index t (0 : Fin 4) = t.val / 4 ∧ win0_0.index t (1 : Fin 4) = 0 ∧ win0_0.index t (2 : Fin 4) = t.val % 4 ∧ win0_0.index t (3 : Fin 4) = 0)
theorem idx_in1 : ∀ t : Fin cfg0.N, win0_1.index t (0 : Fin 4) = t.val / 4 ∧ win0_1.index t (1 : Fin 4) = 0 ∧ win0_1.index t (2 : Fin 4) = t.val % 4 ∧ win0_1.index t (3 : Fin 4) = 0 :=
  (by decide +kernel : ∀ t : Fin grid0.N, win0_1.index t (0 : Fin 4) = t.val / 4 ∧ win0_1.index t (1 : Fin 4) = 0 ∧ win0_1.index t (2 : Fin 4) = t.val % 4 ∧ win0_1.index t (3 : Fin 4) = 0)
theorem idx_in2 : ∀ t : Fin cfg0.N, win0_2.index t (0 : Fin 4) = t.val / 4 ∧ win0_2.index t (1 : Fin 4) = 0 ∧ win0_2.index t (2 : Fin 4) = t.val % 4 ∧ win0_2.index t (3 : Fin 4) = 0 :=
  (by decide +kernel : ∀ t : Fin grid0.N, win0_2.index t (0 : Fin 4) = t.val / 4 ∧ win0_2.index t (1 : Fin 4) = 0 ∧ win0_2.index t (2 : Fin 4) = t.val % 4 ∧ win0_2.index t (3 : Fin 4) = 0)
theorem idx_in3 : ∀ t : Fin cfg0.N, win0_3.index t (0 : Fin 5) = t.val / 4 ∧ win0_3.index t (1 : Fin 5) = 0 ∧ win0_3.index t (2 : Fin 5) = 0 ∧ win0_3.index t (3 : Fin 5) = t.val % 4 ∧ win0_3.index t (4 : Fin 5) = 0 :=
  (by decide +kernel : ∀ t : Fin grid0.N, win0_3.index t (0 : Fin 5) = t.val / 4 ∧ win0_3.index t (1 : Fin 5) = 0 ∧ win0_3.index t (2 : Fin 5) = 0 ∧ win0_3.index t (3 : Fin 5) = t.val % 4 ∧ win0_3.index t (4 : Fin 5) = 0)
theorem idx_in4 : ∀ t : Fin cfg0.N, win0_4.index t (0 : Fin 5) = t.val / 4 ∧ win0_4.index t (1 : Fin 5) = 0 ∧ win0_4.index t (2 : Fin 5) = 0 ∧ win0_4.index t (3 : Fin 5) = t.val % 4 ∧ win0_4.index t (4 : Fin 5) = 0 :=
  (by decide +kernel : ∀ t : Fin grid0.N, win0_4.index t (0 : Fin 5) = t.val / 4 ∧ win0_4.index t (1 : Fin 5) = 0 ∧ win0_4.index t (2 : Fin 5) = 0 ∧ win0_4.index t (3 : Fin 5) = t.val % 4 ∧ win0_4.index t (4 : Fin 5) = 0)

/-- Row tile `h` of batch tile `b`, as a grid point. -/
def tilePt (b h : Fin 4) : Fin cfg0.N := ⟨4 * b.val + h.val, by rw [show cfg0.N = 16 from N_0]; omega⟩

theorem hX0 (c : Dev nD) (b : Fin 4) : ∀ (h : Fin 4) (r : Fin 8) (ch : Fin 7) (y : Fin 64) (x : Fin 256),
    (iblk m c 0 (tilePt b h) : Vec Ideal S8x7x64x256 .f32) (ix4 r ch y x)
      = (m ((c : Thread nD τ).loc main_arg0) : S32x7x256x256.Idx → EReal) (ix4 ⟨8 * b.val + r.val, by omega⟩ ch ⟨64 * h.val + y.val, by omega⟩ x) := by
  intro h r ch y x
  obtain ⟨e0, e1, e2, e3⟩ := idx_in0 (tilePt b h)
  have hv : (tilePt b h).val = 4 * b.val + h.val := rfl
  unfold iblk
  rw [View.read_apply]
  refine (congrFun (V_main_arg0 m c) _).trans (congrArg (m ((c : Thread nD τ).loc main_arg0)) (funext fun a => Fin.ext ?_))
  match a with
  | ⟨0, _⟩ => show win0_0.index (tilePt b h) (0 : Fin 4) * 8 + 1 * r.val = 8 * b.val + r.val; rw [e0, hv]; omega
  | ⟨1, _⟩ => show win0_0.index (tilePt b h) (1 : Fin 4) * 7 + 1 * ch.val = ch.val; rw [e1]; omega
  | ⟨2, _⟩ => show win0_0.index (tilePt b h) (2 : Fin 4) * 64 + 1 * y.val = 64 * h.val + y.val; rw [e2, hv]; omega
  | ⟨3, _⟩ => show win0_0.index (tilePt b h) (3 : Fin 4) * 256 + 1 * x.val = x.val; rw [e3]; omega

theorem hX1 (c : Dev nD) (b : Fin 4) : ∀ (h : Fin 4) (r : Fin 8) (ch : Fin 7) (y : Fin 64) (x : Fin 256),
    (iblk m c 1 (tilePt b h) : Vec Ideal S8x7x64x256 .f32) (ix4 r ch y x)
      = (m ((c : Thread nD τ).loc main_arg1) : S32x7x256x256.Idx → EReal) (ix4 ⟨8 * b.val + r.val, by omega⟩ ch ⟨64 * h.val + y.val, by omega⟩ x) := by
  intro h r ch y x
  obtain ⟨e0, e1, e2, e3⟩ := idx_in1 (tilePt b h)
  have hv : (tilePt b h).val = 4 * b.val + h.val := rfl
  unfold iblk
  rw [View.read_apply]
  refine (congrFun (V_main_arg1 m c) _).trans (congrArg (m ((c : Thread nD τ).loc main_arg1)) (funext fun a => Fin.ext ?_))
  match a with
  | ⟨0, _⟩ => show win0_1.index (tilePt b h) (0 : Fin 4) * 8 + 1 * r.val = 8 * b.val + r.val; rw [e0, hv]; omega
  | ⟨1, _⟩ => show win0_1.index (tilePt b h) (1 : Fin 4) * 7 + 1 * ch.val = ch.val; rw [e1]; omega
  | ⟨2, _⟩ => show win0_1.index (tilePt b h) (2 : Fin 4) * 64 + 1 * y.val = 64 * h.val + y.val; rw [e2, hv]; omega
  | ⟨3, _⟩ => show win0_1.index (tilePt b h) (3 : Fin 4) * 256 + 1 * x.val = x.val; rw [e3]; omega

theorem hX2 (c : Dev nD) (b : Fin 4) : ∀ (h : Fin 4) (r : Fin 8) (y : Fin 64) (x : Fin 256),
    (iblk m c 2 (tilePt b h) : Vec Ideal S8x1x64x256 .f32) (ix4 r (0 : Fin 1) y x)
      = (m ((c : Thread nD τ).loc main_arg2) : S32x1x256x256.Idx → EReal) (ix4 ⟨8 * b.val + r.val, by omega⟩ (0 : Fin 1) ⟨64 * h.val + y.val, by omega⟩ x) := by
  intro h r y x
  obtain ⟨e0, e1, e2, e3⟩ := idx_in2 (tilePt b h)
  have hv : (tilePt b h).val = 4 * b.val + h.val := rfl
  unfold iblk
  rw [View.read_apply]
  refine (congrFun (V_main_arg2 m c) _).trans (congrArg (m ((c : Thread nD τ).loc main_arg2)) (funext fun a => Fin.ext ?_))
  match a with
  | ⟨0, _⟩ => show win0_2.index (tilePt b h) (0 : Fin 4) * 8 + 1 * r.val = 8 * b.val + r.val; rw [e0, hv]; omega
  | ⟨1, _⟩ => show win0_2.index (tilePt b h) (1 : Fin 4) * 1 + 1 * 0 = 0; rw [e1]
  | ⟨2, _⟩ => show win0_2.index (tilePt b h) (2 : Fin 4) * 64 + 1 * y.val = 64 * h.val + y.val; rw [e2, hv]; omega
  | ⟨3, _⟩ => show win0_2.index (tilePt b h) (3 : Fin 4) * 256 + 1 * x.val = x.val; rw [e3]; omega

theorem hX3 (c : Dev nD) (b : Fin 4) : ∀ (h : Fin 4) (r : Fin 8) (k : Fin 2) (y : Fin 64) (x : Fin 256),
    (iblk m c 3 (tilePt b h) : Vec Ideal S8x1x2x64x256 .f32) (ix5 r (0 : Fin 1) k y x)
      = (m ((c : Thread nD τ).loc main_arg3) : S32x1x2x256x256.Idx → EReal) (ix5 ⟨8 * b.val + r.val, by omega⟩ (0 : Fin 1) k ⟨64 * h.val + y.val, by omega⟩ x) := by
  intro h r k y x
  obtain ⟨e0, e1, e2, e3, e4⟩ := idx_in3 (tilePt b h)
  have hv : (tilePt b h).val = 4 * b.val + h.val := rfl
  unfold iblk
  rw [View.read_apply]
  refine (congrFun (V_main_arg3 m c) _).trans (congrArg (m ((c : Thread nD τ).loc main_arg3)) (funext fun a => Fin.ext ?_))
  match a with
  | ⟨0, _⟩ => show win0_3.index (tilePt b h) (0 : Fin 5) * 8 + 1 * r.val = 8 * b.val + r.val; rw [e0, hv]; omega
  | ⟨1, _⟩ => show win0_3.index (tilePt b h) (1 : Fin 5) * 1 + 1 * 0 = 0; rw [e1]
  | ⟨2, _⟩ => show win0_3.index (tilePt b h) (2 : Fin 5) * 2 + 1 * k.val = k.val; rw [e2]; omega
  | ⟨3, _⟩ => show win0_3.index (tilePt b h) (3 : Fin 5) * 64 + 1 * y.val = 64 * h.val + y.val; rw [e3, hv]; omega
  | ⟨4, _⟩ => show win0_3.index (tilePt b h) (4 : Fin 5) * 256 + 1 * x.val = x.val; rw [e4]; omega

theorem hX4 (c : Dev nD) (b : Fin 4) : ∀ (h : Fin 4) (r : Fin 8) (k : Fin 2) (y : Fin 64) (x : Fin 256),
    (iblk m c 4 (tilePt b h) : Vec Ideal S8x1x2x64x256 .f32) (ix5 r (0 : Fin 1) k y x)
      = (m ((c : Thread nD τ).loc main_arg4) : S32x1x2x256x256.Idx → EReal) (ix5 ⟨8 * b.val + r.val, by omega⟩ (0 : Fin 1) k ⟨64 * h.val + y.val, by omega⟩ x) := by
  intro h r k y x
  obtain ⟨e0, e1, e2, e3, e4⟩ := idx_in4 (tilePt b h)
  have hv : (tilePt b h).val = 4 * b.val + h.val := rfl
  unfold iblk
  rw [View.read_apply]
  refine (congrFun (V_main_arg4 m c) _).trans (congrArg (m ((c : Thread nD τ).loc main_arg4)) (funext fun a => Fin.ext ?_))
  match a with
  | ⟨0, _⟩ => show win0_4.index (tilePt b h) (0 : Fin 5) * 8 + 1 * r.val = 8 * b.val + r.val; rw [e0, hv]; omega
  | ⟨1, _⟩ => show win0_4.index (tilePt b h) (1 : Fin 5) * 1 + 1 * 0 = 0; rw [e1]
  | ⟨2, _⟩ => show win0_4.index (tilePt b h) (2 : Fin 5) * 2 + 1 * k.val = k.val; rw [e2]; omega
  | ⟨3, _⟩ => show win0_4.index (tilePt b h) (3 : Fin 5) * 64 + 1 * y.val = 64 * h.val + y.val; rw [e3, hv]; omega
  | ⟨4, _⟩ => show win0_4.index (tilePt b h) (4 : Fin 5) * 256 + 1 * x.val = x.val; rw [e4]; omega

/-- The running sums at the last point of batch tile `b`: the four row tiles' steps from zero. -/
theorem acc_last (c : Dev nD) (b : Fin 4) :
    accAt m c (tilePt b 3).val (tilePt b 3).isLt = Sums.run4 (fun h => iblk m c 0 (tilePt b h)) (fun h => iblk m c 1 (tilePt b h)) (fun h => iblk m c 2 (tilePt b h)) (fun h => iblk m c 3 (tilePt b h)) (fun h => iblk m c 4 (tilePt b h)) := by
  rw [accAt_next m c (tilePt b 3) (by show ¬(4 * b.val + 3) % 4 = 0; omega),
    accAt_nat_congr m c (show (tilePt b 3).val - 1 = (tilePt b 2).val from by show 4 * b.val + 3 - 1 = 4 * b.val + 2; omega) _ (tilePt b 2).isLt,
    accAt_next m c (tilePt b 2) (by show ¬(4 * b.val + 2) % 4 = 0; omega),
    accAt_nat_congr m c (show (tilePt b 2).val - 1 = (tilePt b 1).val from by show 4 * b.val + 2 - 1 = 4 * b.val + 1; omega) _ (tilePt b 1).isLt,
    accAt_next m c (tilePt b 1) (by show ¬(4 * b.val + 1) % 4 = 0; omega),
    accAt_nat_congr m c (show (tilePt b 1).val - 1 = (tilePt b 0).val from by show 4 * b.val + 1 - 1 = 4 * b.val + 0; omega) _ (tilePt b 0).isLt,
    accAt_first m c (tilePt b 0) (by show (4 * b.val + 0) % 4 = 0; omega)]
  rfl

end Cert.KernelIdeal.Tiles

end
-- ==== Proof.RefPx.lean ====
import Idealize.ShloMosaic.PureOps.Ideal
import Idealize.ShloMosaic.Lib.ValueIdx

/-!
# The reference's losses, pixel by pixel, in extended-real arithmetic

The reference computes, for each of two stacks of predicted maps (shape [32, 7, 256, 256]) against shared
targets, a vector of 97 numbers: one centre triplet loss, and for each of the 32 images a corner
cross-entropy, a corner-offset smooth-L1 loss and a corner-bin sigmoid-L1 loss, each a mean over the
256 × 256 pixels of the image. This file states those numbers as plain functions of the argument arrays,
in the reference's own arrangement of the arithmetic, with every float literal kept as the extended real its
32-bit word denotes:
`0x00000000` is 0, `0x3F800000` is 1, `0x3F000000` is 1/2, `0x3E800000` is 1/4, `0x43800000` is 256,
`0x461C4000` is 10000, `0x47800000` is 65536, `0xFF800000` is -∞.
-/

noncomputable section

open scoped BigOperators

namespace Cert.RefPx

open Idealize.ShloMosaic Idealize.ShloMosaic.ValueIdx

/-! ## Shapes -/

abbrev S_ : Shape := ⟨0, ![]⟩
abbrev S1 : Shape := ⟨1, ![1]⟩
abbrev S32 : Shape := ⟨1, ![32]⟩
abbrev S32x9 : Shape := ⟨2, ![32, 9]⟩
abbrev S32x8 : Shape := ⟨2, ![32, 8]⟩
abbrev S32x9x1 : Shape := ⟨3, ![32, 9, 1]⟩
abbrev S32x8x1 : Shape := ⟨3, ![32, 8, 1]⟩
abbrev S1x1x1 : Shape := ⟨3, ![1, 1, 1]⟩
abbrev S32x65536 : Shape := ⟨2, ![32, 65536]⟩
abbrev S32x7x256x256 : Shape := ⟨4, ![32, 7, 256, 256]⟩
abbrev S32x1x256x256 : Shape := ⟨4, ![32, 1, 256, 256]⟩
abbrev S32x1x2x256x256 : Shape := ⟨5, ![32, 1, 2, 256, 256]⟩
abbrev S2x97 : Shape := ⟨2, ![2, 97]⟩

/-! ## The corner cross-entropy at one pixel

`l0`, `l1` are the two corner logits, `pos` the corner target (0 or 1 on the inputs of interest). The
reference takes the log-softmax over the two classes by subtracting the running maximum `m` (started from
-∞), `nlogp c = -((l c - m) - log (0 + (exp (l0 - m) + exp (l1 - m))))`, and weighs the positive class by 10000. -/

/-- The stabilising maximum of the two logits, folded from -∞ and joined with -∞ once more. -/
def lmax (l0 l1 : EReal) : EReal :=
  max (Ideal.ofBits .f32 0xFF800000#32) (max l0 (max l1 (Ideal.ofBits .f32 0xFF800000#32)))

/-- The log of the sum of the two shifted exponentials. -/
def lse (l0 l1 : EReal) : EReal :=
  Ideal.log (Ideal.ofBits .f32 0x00000000#32 + (Ideal.exp (l0 - lmax l0 l1) + Ideal.exp (l1 - lmax l0 l1)))

/-- Minus the log-probability of the class whose logit is `lc`. -/
def nlogp (l0 l1 lc : EReal) : EReal :=
  -((lc - lmax l0 l1) - lse l0 l1)

/-- The corner loss at one pixel: `pos · nlogp₁ · 10000 + (1 - pos) · nlogp₀`. -/
def cornerPx (pos l0 l1 : EReal) : EReal :=
  pos * nlogp l0 l1 l1 * (Ideal.ofBits .f32 0x461C4000#32) + ((Ideal.ofBits .f32 0x3F800000#32) - pos) * nlogp l0 l1 l0

/-! ## The corner-offset smooth-L1 loss at one pixel and coordinate

`t` is the target offset, `o` the predicted logit; the prediction is `tanh o · 256`, the residual
`d = tanh o · 256 - t`, the loss `d²/2` for `|d| < 1` and `|d| - 1/2` otherwise, weighed by 10000 where the
target is non-zero. -/

/-- The residual `tanh o · 256 - t`. -/
def offRes (t o : EReal) : EReal := Ideal.tanh o * (Ideal.ofBits .f32 0x43800000#32) - t

/-- Smooth L1 of a residual, with `|d| = max d (-d)`. -/
def smoothL1 (d : EReal) : EReal :=
  if max d (-d) < Ideal.ofBits .f32 0x3F800000#32 then (Ideal.ofBits .f32 0x3F000000#32) * d * d else max d (-d) - (Ideal.ofBits .f32 0x3F000000#32)

/-- The weighted smooth-L1 loss at one pixel and coordinate. -/
def offPx (t o : EReal) : EReal :=
  (if t ≠ Ideal.ofBits .f32 0x00000000#32 then Ideal.ofBits .f32 0x461C4000#32 else Ideal.ofBits .f32 0x3F800000#32) * smoothL1 (offRes t o)

/-! ## The corner-bin sigmoid-L1 loss at one pixel and coordinate

`|1 / (1 + exp (-o)) - 1/2 - t| · (pos / w)`, where `w` is the image's fraction of corner pixels, replaced
by 1 when it is 0. -/

/-- The bin loss at one pixel and coordinate, given the image's weight `w`. -/
def binPx (o t pos w : EReal) : EReal :=
  max (Ideal.div (Ideal.ofBits .f32 0x3F800000#32) ((Ideal.ofBits .f32 0x3F800000#32) + Ideal.exp (-o)) - (Ideal.ofBits .f32 0x3F000000#32) - t)
      (-(Ideal.div (Ideal.ofBits .f32 0x3F800000#32) ((Ideal.ofBits .f32 0x3F800000#32) + Ideal.exp (-o)) - (Ideal.ofBits .f32 0x3F000000#32) - t))
    * Ideal.div pos w

/-! ## The per-image losses: means over the 256 × 256 pixels -/

/-- The fraction of corner pixels of image `b`, or 1 when there is none. -/
def posWeight (a2 : FVec Ideal S32x1x256x256 .f32) (b : Fin 32) : EReal :=
  if Ideal.div (Ideal.ofBits .f32 0x00000000#32 + ∑ y : Fin 256, ∑ x : Fin 256, a2 (ix4 b 0 y x)) (Ideal.ofBits .f32 0x47800000#32) = Ideal.ofBits .f32 0x00000000#32
  then Ideal.ofBits .f32 0x3F800000#32
  else Ideal.div (Ideal.ofBits .f32 0x00000000#32 + ∑ y : Fin 256, ∑ x : Fin 256, a2 (ix4 b 0 y x)) (Ideal.ofBits .f32 0x47800000#32)

/-- The corner loss of image `b`: the pixel mean, times the loss weight 1. -/
def cornerLoss (o : FVec Ideal S32x7x256x256 .f32) (a2 : FVec Ideal S32x1x256x256 .f32) (b : Fin 32) : EReal :=
  Ideal.div (Ideal.ofBits .f32 0x00000000#32 + ∑ y : Fin 256, ∑ x : Fin 256,
      cornerPx (a2 (ix4 b 0 y x)) (o (ix4 b 1 y x)) (o (ix4 b 2 y x))) (Ideal.ofBits .f32 0x47800000#32) * (Ideal.ofBits .f32 0x3F800000#32)

/-- The pixel mean of the offset loss of image `b` on coordinate `k` (map channel `ch = 3 + k`). -/
def offMean (o : FVec Ideal S32x7x256x256 .f32) (a3 : FVec Ideal S32x1x2x256x256 .f32) (b : Fin 32)
    (k : Fin 2) (ch : Fin 7) : EReal :=
  Ideal.div (Ideal.ofBits .f32 0x00000000#32 + ∑ y : Fin 256, ∑ x : Fin 256, offPx (a3 (ix5 b 0 k y x)) (o (ix4 b ch y x))) (Ideal.ofBits .f32 0x47800000#32)

/-- The corner-offset loss of image `b`: the two coordinates' pixel means added, times the loss weight 1/4. -/
def offsetLoss (o : FVec Ideal S32x7x256x256 .f32) (a3 : FVec Ideal S32x1x2x256x256 .f32) (b : Fin 32) : EReal :=
  (Ideal.ofBits .f32 0x00000000#32 + (offMean o a3 b 0 3 + offMean o a3 b 1 4)) * (Ideal.ofBits .f32 0x3E800000#32)

/-- The pixel mean of the bin loss of image `b` on coordinate `k` (map channel `ch = 5 + k`). -/
def binMean (o : FVec Ideal S32x7x256x256 .f32) (a2 : FVec Ideal S32x1x256x256 .f32)
    (a4 : FVec Ideal S32x1x2x256x256 .f32) (b : Fin 32) (k : Fin 2) (ch : Fin 7) : EReal :=
  Ideal.div (Ideal.ofBits .f32 0x00000000#32 + ∑ y : Fin 256, ∑ x : Fin 256,
      binPx (o (ix4 b ch y x)) (a4 (ix5 b 0 k y x)) (a2 (ix4 b 0 y x)) (posWeight a2 b)) (Ideal.ofBits .f32 0x47800000#32)

/-- The corner-bin loss of image `b`: the two coordinates' pixel means added, times the loss weight 1. -/
def binLoss (o : FVec Ideal S32x7x256x256 .f32) (a2 : FVec Ideal S32x1x256x256 .f32)
    (a4 : FVec Ideal S32x1x2x256x256 .f32) (b : Fin 32) : EReal :=
  (Ideal.ofBits .f32 0x00000000#32 + (binMean o a2 a4 b 0 5 + binMean o a2 a4 b 1 6)) * (Ideal.ofBits .f32 0x3F800000#32)

/-! ## The centre triplet loss

The centre map (channel 0 of a stack) is flattened to [32, 65536]; the four integer arrays pick, per image,
anchor, positive and two kinds of negative pixels out of it; the loss is a mean of hinges of squared
differences. It is kept as the chain of array operations itself, from the flattened map to the scalar, in
program order: two programs that run this same chain on equal flattened maps agree by congruence, and
nothing in it needs to be opened. -/

/-- The flattened centre map of a stack: entry `(b, p)` is the stack at image `b`, channel 0, row `p / 256`,
    column `p % 256`. -/
def pdfOf (o : FVec Ideal S32x7x256x256 .f32) : FVec Ideal S32x65536 .f32 :=
  fun i => o (ix4 (i 0) 0 ⟨(i 1).val / 256, Nat.div_lt_of_lt_mul (idx2_lt1 i)⟩ ⟨(i 1).val % 256, Nat.mod_lt _ (by decide)⟩)

/-! The shape relations the chain's operations cite, decided on the literal shapes. -/

theorem bcast_S_S32x9 : S_.BroadcastsInDim S32x9 (![] : Fin 0 → Fin S32x9.rank) := by decide
theorem shapeCasts_S32x9_S32x9x1 : S32x9.ShapeCasts S32x9x1 := by decide
theorem bcast_S_S32x9x1 : S_.BroadcastsInDim S32x9x1 (![] : Fin 0 → Fin S32x9x1.rank) := by decide
theorem bcast_S1_S1x1x1_2 : S1.BroadcastsInDim S1x1x1 (![2] : Fin 1 → Fin S1x1x1.rank) := by decide
theorem bcast_S1x1x1_S32x9x1_0_1_2 : S1x1x1.BroadcastsInDim S32x9x1 (![0, 1, 2] : Fin 3 → Fin S32x9x1.rank) := by decide
theorem reducesTo_S32x9x1_S32x9_d2 : S32x9x1.ReducesTo [2] S32x9 := by decide
theorem h_S_ : 0 < S_.numel := by decide
theorem gather_S32x65536_S32x9x1_S32x9_n_1_0_0_1_2_11_wf : GatherDims.WF S32x65536 S32x9x1 S32x9 [] [1] [0] [1] [0] 2 ![1, 1] := by decide
theorem bcast_S_S32x8 : S_.BroadcastsInDim S32x8 (![] : Fin 0 → Fin S32x8.rank) := by decide
theorem shapeCasts_S32x8_S32x8x1 : S32x8.ShapeCasts S32x8x1 := by decide
theorem bcast_S_S32x8x1 : S_.BroadcastsInDim S32x8x1 (![] : Fin 0 → Fin S32x8x1.rank) := by decide
theorem bcast_S1x1x1_S32x8x1_0_1_2 : S1x1x1.BroadcastsInDim S32x8x1 (![0, 1, 2] : Fin 3 → Fin S32x8x1.rank) := by decide
theorem reducesTo_S32x8x1_S32x8_d2 : S32x8x1.ReducesTo [2] S32x8 := by decide
theorem gather_S32x65536_S32x8x1_S32x8_n_1_0_0_1_2_11_wf : GatherDims.WF S32x65536 S32x8x1 S32x8 [] [1] [0] [1] [0] 2 ![1, 1] := by decide
theorem slices_S32x9_S32x8_0_1 : S32x9.Slices ![0, 1] S32x8 := by decide
theorem bcast_S_S1 : S_.BroadcastsInDim S1 (![] : Fin 0 → Fin S1.rank) := by decide
theorem scatter_S32x9_S1_S32x8_01_n_1_0_wf : ScatterDims.WF S32x9 S1 S32x8 [0, 1] [] [1] 0 := by decide
theorem reducesTo_S32x9_S32_d1 : S32x9.ReducesTo [1] S32 := by decide
theorem bcast_S_S32 : S_.BroadcastsInDim S32 (![] : Fin 0 → Fin S32.rank) := by decide
theorem reducesTo_S32_S_d0 : S32.ReducesTo [0] S_ := by decide

/-- The dimension numbers of a gather along axis 1 of [32, 65536] by a [32, 9, 1] array of indices. -/
def gather9 : GatherDims S32x65536 S32x9x1 S32x9 where
  offsetDims := []
  collapsedSliceDims := [1]
  operandBatchingDims := [0]
  startIndicesBatchingDims := [0]
  startIndexMap := [1]
  indexVectorDim := 2
  sliceSizes := ![1, 1]
  wf := gather_S32x65536_S32x9x1_S32x9_n_1_0_0_1_2_11_wf

/-- The same by a [32, 8, 1] array of indices. -/
def gather8 : GatherDims S32x65536 S32x8x1 S32x8 where
  offsetDims := []
  collapsedSliceDims := [1]
  operandBatchingDims := [0]
  startIndicesBatchingDims := [0]
  startIndexMap := [1]
  indexVectorDim := 2
  sliceSizes := ![1, 1]
  wf := gather_S32x65536_S32x8x1_S32x8_n_1_0_0_1_2_11_wf

/-- The dimension numbers of writing a [32, 8] block into columns 1 … 8 of a [32, 9] array. -/
def scatter98 : ScatterDims S32x9 S1 S32x8 where
  updateWindowDims := [0, 1]
  insertedWindowDims := []
  scatterDimsToOperandDims := [1]
  indexVectorDim := 0
  wf := scatter_S32x9_S1_S32x8_01_n_1_0_wf

/-- An index array with 65536 added to its negative entries, as a [32, 9, 1] array of start indices. -/
def wrap9 (a : IVec S32x9 32) : IVec S32x9x1 32 :=
  shapeCast _ (select (cmpi .slt a (broadcastInDim S32x9 ![] bcast_S_S32x9 (constantI S_ 32 0#32)))
    (addi a (broadcastInDim S32x9 ![] bcast_S_S32x9 (constantI S_ 32 65536#32))) a) shapeCasts_S32x9_S32x9x1

/-- Whether the wrapped index lies in [0, 65535]. -/
def valid9 (a : IVec S32x9 32) : IVec S32x9 1 :=
  Host.reduce IntOp.andi
    (andi (cmpi .sge (wrap9 a) (broadcastInDim S32x9x1 ![] bcast_S_S32x9x1 (constantI S_ 32 0#32)))
      (cmpi .sle (wrap9 a) (broadcastInDim S32x9x1 ![0, 1, 2] bcast_S1x1x1_S32x9x1_0_1_2
        (broadcastInDim S1x1x1 ![2] bcast_S1_S1x1x1_2 (constantI S1 32 65535#32)))))
    (constantI S_ 1 1#1) reducesTo_S32x9x1_S32x9_d2 h_S_

/-- The flattened map taken along its pixel axis at nine indices per image; an out-of-range index gives the
    word `0x7FC00000`. -/
def take9 (pdf : FVec Ideal S32x65536 .f32) (a : IVec S32x9 32) : FVec Ideal S32x9 .f32 :=
  select (valid9 a) (Host.gather gather9 pdf (wrap9 a))
    (broadcastInDim S32x9 ![] bcast_S_S32x9 (constant (F := Ideal) S_ .f32 0x7FC00000#32))

/-- The same three steps for eight indices per image. -/
def wrap8 (a : IVec S32x8 32) : IVec S32x8x1 32 :=
  shapeCast _ (select (cmpi .slt a (broadcastInDim S32x8 ![] bcast_S_S32x8 (constantI S_ 32 0#32)))
    (addi a (broadcastInDim S32x8 ![] bcast_S_S32x8 (constantI S_ 32 65536#32))) a) shapeCasts_S32x8_S32x8x1

def valid8 (a : IVec S32x8 32) : IVec S32x8 1 :=
  Host.reduce IntOp.andi
    (andi (cmpi .sge (wrap8 a) (broadcastInDim S32x8x1 ![] bcast_S_S32x8x1 (constantI S_ 32 0#32)))
      (cmpi .sle (wrap8 a) (broadcastInDim S32x8x1 ![0, 1, 2] bcast_S1x1x1_S32x8x1_0_1_2
        (broadcastInDim S1x1x1 ![2] bcast_S1_S1x1x1_2 (constantI S1 32 65535#32)))))
    (constantI S_ 1 1#1) reducesTo_S32x8x1_S32x8_d2 h_S_

def take8 (pdf : FVec Ideal S32x65536 .f32) (a : IVec S32x8 32) : FVec Ideal S32x8 .f32 :=
  select (valid8 a) (Host.gather gather8 pdf (wrap8 a))
    (broadcastInDim S32x8 ![] bcast_S_S32x8 (constant (F := Ideal) S_ .f32 0x7FC00000#32))

/-- The squared difference `(u - v)²` of two [32, 9] arrays. -/
def sqDiff9 (u v : FVec Ideal S32x9 .f32) : FVec Ideal S32x9 .f32 :=
  mulf (F := Ideal) (subf (F := Ideal) u v) (subf (F := Ideal) u v)

/-- The first hinge, `max ((va - vp)² - (va - vn1)² + 10) 0`, on all nine centres. -/
def hinge9 (va vp vn1 : FVec Ideal S32x9 .f32) : FVec Ideal S32x9 .f32 :=
  maximumf (F := Ideal)
    (addf (F := Ideal) (subf (F := Ideal) (sqDiff9 va vp) (sqDiff9 va vn1))
      (broadcastInDim S32x9 ![] bcast_S_S32x9 (constant (F := Ideal) S_ .f32 0x41200000#32)))
    (broadcastInDim S32x9 ![] bcast_S_S32x9 (constant (F := Ideal) S_ .f32 0x00000000#32))

/-- The second hinge, on the eight non-zero centres (columns 1 … 8), against the other kind of negative. -/
def hinge8 (va vp : FVec Ideal S32x9 .f32) (vn2 : FVec Ideal S32x8 .f32) : FVec Ideal S32x8 .f32 :=
  maximumf (F := Ideal)
    (addf (F := Ideal)
      (subf (F := Ideal) (extractStridedSlice S32x8 ![0, 1] (sqDiff9 va vp) slices_S32x9_S32x8_0_1)
        (mulf (F := Ideal)
          (subf (F := Ideal) (extractStridedSlice S32x8 ![0, 1] va slices_S32x9_S32x8_0_1) vn2)
          (subf (F := Ideal) (extractStridedSlice S32x8 ![0, 1] va slices_S32x9_S32x8_0_1) vn2)))
      (broadcastInDim S32x8 ![] bcast_S_S32x8 (constant (F := Ideal) S_ .f32 0x41200000#32)))
    (broadcastInDim S32x8 ![] bcast_S_S32x8 (constant (F := Ideal) S_ .f32 0x00000000#32))

/-- The per-centre loss: the first hinge, with columns 1 … 8 overwritten by half the sum of the two hinges. -/
def perCentre (va vp vn1 : FVec Ideal S32x9 .f32) (vn2 : FVec Ideal S32x8 .f32) : FVec Ideal S32x9 .f32 :=
  Host.scatter scatter98 (fun _ b => b) (hinge9 va vp vn1)
    (broadcastInDim S1 ![] bcast_S_S1 (constantI S_ 32 1#32))
    (mulf (F := Ideal) (broadcastInDim S32x8 ![] bcast_S_S32x8 (constant (F := Ideal) S_ .f32 0x3F000000#32))
      (addf (F := Ideal) (extractStridedSlice S32x8 ![0, 1] (hinge9 va vp vn1) slices_S32x9_S32x8_0_1)
        (hinge8 va vp vn2)))

/-- The mean over images of the row sums divided by 9, times the loss weight 1. -/
def tripletMean (pc : FVec Ideal S32x9 .f32) : FVec Ideal S_ .f32 :=
  mulf (F := Ideal)
    (Host.divf (F := Ideal)
      (Host.reduceAdd (F := Ideal)
        (Host.divf (F := Ideal)
          (Host.reduceAdd (F := Ideal) pc (constant (F := Ideal) S_ .f32 0x00000000#32) reducesTo_S32x9_S32_d1 h_S_)
          (broadcastInDim S32 ![] bcast_S_S32 (constant (F := Ideal) S_ .f32 0x41100000#32)))
        (constant (F := Ideal) S_ .f32 0x00000000#32) reducesTo_S32_S_d0 h_S_)
      (constant (F := Ideal) S_ .f32 0x42000000#32))
    (constant (F := Ideal) S_ .f32 0x3F800000#32)

/-- The centre triplet loss as the chain of array operations from the flattened centre map `pdf` and the four
    index arrays to the scalar: four gathers along the pixel axis (each index wrapped when negative, and the
    entry replaced by a not-a-number word when the wrapped index is out of range), the squared differences,
    the two hinges with margin 10, their average written over columns 1 … 8, the row sums divided by 9, their
    sum divided by 32, and the loss weight 1. -/
def centre (pdf : FVec Ideal S32x65536 .f32) (a5 a6 a7 : IVec S32x9 32) (a8 : IVec S32x8 32) : FVec Ideal S_ .f32 :=
  tripletMean (perCentre (take9 pdf a5) (take9 pdf a6) (take9 pdf a7) (take8 pdf a8))

/-! ## The result's pieces

The program ends by laying one row per stack out of four pieces — the centre loss as a one-element array
and the three per-image loss vectors — and stacking the two rows. The pieces, as functions of the arguments: -/

/-- The centre loss of a stack, as a scalar array. -/
def centreS (o : FVec Ideal S32x7x256x256 .f32) (a5 a6 a7 : IVec S32x9 32) (a8 : IVec S32x8 32) : FVec Ideal S_ .f32 :=
  centre (pdfOf o) a5 a6 a7 a8

/-- The 32 corner losses of a stack. -/
def cornerVec (o : FVec Ideal S32x7x256x256 .f32) (a2 : FVec Ideal S32x1x256x256 .f32) : FVec Ideal S32 .f32 :=
  fun i => cornerLoss o a2 (i 0)

/-- The 32 corner-offset losses of a stack. -/
def offsetVec (o : FVec Ideal S32x7x256x256 .f32) (a3 : FVec Ideal S32x1x2x256x256 .f32) : FVec Ideal S32 .f32 :=
  fun i => offsetLoss o a3 (i 0)

/-- The 32 corner-bin losses of a stack. -/
def binVec (o : FVec Ideal S32x7x256x256 .f32) (a2 : FVec Ideal S32x1x256x256 .f32)
    (a4 : FVec Ideal S32x1x2x256x256 .f32) : FVec Ideal S32 .f32 :=
  fun i => binLoss o a2 a4 (i 0)

/-! ## The whole result -/

/-- The reference's result at index `(s, c)` of [2, 97]: row `s` is computed from stack `s` (argument 0 or
    argument 1); column 0 is the centre triplet loss, columns `1 + b`, `33 + b`, `65 + b` (`b < 32`) the corner,
    corner-offset and corner-bin losses of image `b`. -/
def Gr (a0 a1 : FVec Ideal S32x7x256x256 .f32) (a2 : FVec Ideal S32x1x256x256 .f32)
    (a3 a4 : FVec Ideal S32x1x2x256x256 .f32) (a5 a6 a7 : IVec S32x9 32) (a8 : IVec S32x8 32) :
    FVec Ideal S2x97 .f32 := fun i =>
  if h0 : (i 1).val = 0 then centreS (if (i 0).val = 0 then a0 else a1) a5 a6 a7 a8 ix0
  else if h1 : (i 1).val < 33 then cornerLoss (if (i 0).val = 0 then a0 else a1) a2 ⟨(i 1).val - 1, by omega⟩
  else if h2 : (i 1).val < 65 then offsetLoss (if (i 0).val = 0 then a0 else a1) a3 ⟨(i 1).val - 33, by omega⟩
  else binLoss (if (i 0).val = 0 then a0 else a1) a2 a4 ⟨(i 1).val - 65, by have := idx2_lt1 i; omega⟩

end Cert.RefPx
-- ==== Proof.KernelIdealLayout.lean ====
/-
  The two layout facts of the kernel's host side. Column 0 of a [32, 128] result, taken by a slice [32, 1] and a reshape
  to [32], reads at `b` the result's entry `(b, 0)`. And the flattened centre map the kernel's host side builds — channel 0
  sliced out of a [32, 7, 256, 256] stack, reshaped to [32, 256, 256] and then to [32, 65536] — is the reference's
  flattened centre map: its entry `(b, q)` is the stack at image `b`, channel 0, row `q / 256`, column `q % 256`,
  because both reshapes keep the row-major position and `q = (q / 256) * 256 + q % 256`.
-/
import proofs.«111430_j72988674228458_2_alg».proof.Proof.KernelIdealTail
import proofs.«111430_j72988674228458_2_alg».proof.Proof.RefPx
import Idealize.ShloMosaic.Lib.Pipeline.Value
import Idealize.ShloMosaic.Lib.ValueLayout
import Idealize.ShloMosaic.Lib.ValueIdx

noncomputable section

namespace Cert.KernelIdeal.Layout

open Idealize.ShloMosaic Idealize.ShloMosaic.ValueIdx Cert.KernelIdeal Cert.KernelIdeal.Facts₀

/-- Column 0 of a [32, 128] result at `b` is the result's entry `(b, 0)`. -/
theorem col0_apply (o : FVec Ideal S32x128 .f32) (b : Fin 32) :
    Tail.col0 (F := Ideal) o (ValueIdx.ix1 b) = o (ValueIdx.ix2 b (0 : Fin 128)) := by
  unfold Tail.col0
  refine (shapeCast_apply _ _ (ix1 b) (ix2 b (0 : Fin 1)) ?_).trans ?_
  · rw [Shape.rowMajor_val_two, Shape.rowMajor_val_one]
    show b.val * 1 + 0 = b.val
    omega
  · exact extractStridedSlice_apply _ o _ _ (ix2 b (0 : Fin 128)) fun c =>
      match c with
      | ⟨0, _⟩ => (Nat.zero_add _).symm
      | ⟨1, _⟩ => (Nat.zero_add _).symm

/-- The flattened centre map as the kernel's host side builds it: channel 0 sliced out, then two reshapes. -/
def pdfK (a : FVec Ideal S32x7x256x256 .f32) : FVec Ideal S32x65536 .f32 :=
  shapeCast S32x65536 (shapeCast S32x256x256 (extractStridedSlice S32x1x256x256 ![0, 0, 0, 0] a slices_S32x7x256x256_S32x1x256x256_0_0_0_0) shapeCasts_S32x1x256x256_S32x256x256) shapeCasts_S32x256x256_S32x65536

/-- It is the reference's flattened centre map. -/
theorem pdfK_eq (a : FVec Ideal S32x7x256x256 .f32) : pdfK a = Cert.RefPx.pdfOf a := by
  funext i
  have h1 : (i 1).val < 65536 := idx2_lt1 i
  have hy : (i 1).val / 256 < 256 := by omega
  have hx : (i 1).val % 256 < 256 := Nat.mod_lt _ (by decide)
  unfold pdfK Cert.RefPx.pdfOf
  refine (shapeCast_apply _ _ i (ix3 (n0 := 32) (n1 := 256) (n2 := 256) (i 0) ⟨(i 1).val / 256, hy⟩ ⟨(i 1).val % 256, hx⟩) ?_).trans ?_
  · rw [Shape.rowMajor_val_three, Shape.rowMajor_val_two]
    show ((i 0).val * 256 + (i 1).val / 256) * 256 + (i 1).val % 256 = (i 0).val * 65536 + (i 1).val
    omega
  refine (shapeCast_apply _ _ _ (ix4 (n0 := 32) (n1 := 1) (n2 := 256) (n3 := 256) (i 0) 0 ⟨(i 1).val / 256, hy⟩ ⟨(i 1).val % 256, hx⟩) ?_).trans ?_
  · rw [Shape.rowMajor_val_four, Shape.rowMajor_val_three]
    show (((i 0).val * 1 + 0) * 256 + (i 1).val / 256) * 256 + (i 1).val % 256
      = ((i 0).val * 256 + (i 1).val / 256) * 256 + (i 1).val % 256
    omega
  · exact extractStridedSlice_apply _ a _ _
      (ix4 (n0 := 32) (n1 := 7) (n2 := 256) (n3 := 256) (i 0) 0 ⟨(i 1).val / 256, hy⟩ ⟨(i 1).val % 256, hx⟩) fun c =>
      match c with
      | ⟨0, _⟩ => (Nat.zero_add _).symm
      | ⟨1, _⟩ => (Nat.zero_add _).symm
      | ⟨2, _⟩ => (Nat.zero_add _).symm
      | ⟨3, _⟩ => (Nat.zero_add _).symm

end Cert.KernelIdeal.Layout

end
-- ==== Proof.KernelIdealCentre0.lean ====
/-
  The centre triplet loss of stack 0, as the host computes it before the region: channel 0 of the stack is sliced out
  and flattened to one row of 65536 pixels per image; four gathers along the pixel axis read the anchor, positive and
  the two kinds of negative pixels; then squared differences, the two hinges with margin 10, their average over the
  non-zero centres, the mean over the nine centres and over the 32 images. After the region the value is multiplied by
  its weight 1. The chain is the same composition of array operations as the reference's, on the same flattened map.
-/
import proofs.«111430_j72988674228458_2_alg».proof.Proof.KernelIdealAround
import proofs.«111430_j72988674228458_2_alg».proof.Proof.KernelIdealLayout
import proofs.«111430_j72988674228458_2_alg».proof.Proof.RefPx
import Idealize.ShloMosaic.Lib.StableHlo.Run

set_option maxRecDepth 16384

noncomputable section

namespace Cert.KernelIdeal.Centre

open Cert.KernelIdeal Cert.KernelIdeal.Gen Cert.KernelIdeal.Around
open Idealize.ShloMosaic Idealize.ShloMosaic.TcCoe Idealize.SL.Sem

variable (m : (ℓ : Loc nD τ sig) → Buf (Elt Ideal) ℓ)

set_option maxHeartbeats 8000000 in
theorem centre0 (c : Dev nD) :
    mulf (F := Ideal) (V (F := Ideal) m c main_v33) (constant (F := Ideal) S_ .f32 0x3F800000#32)
      = Cert.RefPx.centreS (m ((c : Thread nD τ).loc main_arg0)) (m ((c : Thread nD τ).loc main_arg5)) (m ((c : Thread nD τ).loc main_arg6))
          (m ((c : Thread nD τ).loc main_arg7)) (m ((c : Thread nD τ).loc main_arg8)) := by
  show _ = Cert.RefPx.centre (Cert.RefPx.pdfOf _) _ _ _ _
  rw [← Layout.pdfK_eq]
  dsimp only [V, V0]
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.Centre

end
-- ==== Proof.KernelIdealCentre1.lean ====
/-
  The centre triplet loss of stack 1, as the host computes it before the region: channel 0 of the stack is sliced out
  and flattened to one row of 65536 pixels per image; four gathers along the pixel axis read the anchor, positive and
  the two kinds of negative pixels; then squared differences, the two hinges with margin 10, their average over the
  non-zero centres, the mean over the nine centres and over the 32 images. After the region the value is multiplied by
  its weight 1. The chain is the same composition of array operations as the reference's, on the same flattened map.
-/
import proofs.«111430_j72988674228458_2_alg».proof.Proof.KernelIdealAround
import proofs.«111430_j72988674228458_2_alg».proof.Proof.KernelIdealLayout
import proofs.«111430_j72988674228458_2_alg».proof.Proof.RefPx
import Idealize.ShloMosaic.Lib.StableHlo.Run

set_option maxRecDepth 16384

noncomputable section

namespace Cert.KernelIdeal.Centre

open Cert.KernelIdeal Cert.KernelIdeal.Gen Cert.KernelIdeal.Around
open Idealize.ShloMosaic Idealize.ShloMosaic.TcCoe Idealize.SL.Sem

variable (m : (ℓ : Loc nD τ sig) → Buf (Elt Ideal) ℓ)

set_option maxHeartbeats 8000000 in
theorem centre1 (c : Dev nD) :
    mulf (F := Ideal) (V (F := Ideal) m c main_v67) (constant (F := Ideal) S_ .f32 0x3F800000#32)
      = Cert.RefPx.centreS (m ((c : Thread nD τ).loc main_arg1)) (m ((c : Thread nD τ).loc main_arg5)) (m ((c : Thread nD τ).loc main_arg6))
          (m ((c : Thread nD τ).loc main_arg7)) (m ((c : Thread nD τ).loc main_arg8)) := by
  show _ = Cert.RefPx.centre (Cert.RefPx.pdfOf _) _ _ _ _
  rw [← Layout.pdfK_eq]
  dsimp only [V, V0]
  simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results_simp
  rfl

end Cert.KernelIdeal.Centre

end
-- ==== Proof.LibERealFinite.lean ====
/-
  Extended reals that are real numbers: general facts used to carry an identity of real arithmetic over to the
  extended reals. A coerced real stays a coerced real under finite sums, maxima, absolute values, case
  distinctions and the exact operations (division by a nonzero real, the logarithm of a positive real); and the
  32-bit words of a few small constants denote the reals one expects.
-/
import Idealize.ShloMosaic.PureOps.Ideal

noncomputable section

open scoped BigOperators

namespace Cert.LibERealFinite

open Idealize.ShloMosaic

/-! ## Sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same for a double sum over two finite types. -/
theorem coe_sum₂ {ι κ : Type*} [Fintype ι] [Fintype κ] (f : ι → κ → ℝ) :
    ((∑ i, ∑ j, f i j : ℝ) : EReal) = ∑ i, ∑ j, (f i j : EReal) := by
  rw [coe_sum]
  exact Finset.sum_congr rfl fun i _ => coe_sum _ _

/-- A finite sum of extended reals that are all real is real. -/
theorem exists_real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-! ## Order operations -/

/-- The coercion of a maximum of two reals is the maximum of the coercions. -/
theorem coe_max (a b : ℝ) : ((max a b : ℝ) : EReal) = max (a : EReal) (b : EReal) :=
  Monotone.map_max EReal.coe_strictMono.monotone

/-- `max x (-x)` of a real is its absolute value. -/
theorem max_neg_coe (a : ℝ) : max (a : EReal) (-(a : EReal)) = ((|a| : ℝ) : EReal) := by
  rw [← EReal.coe_neg, ← coe_max, abs_eq_max_neg]

/-- The lattice's bottom is neutral for `max`, on either side. -/
theorem max_bot_left' (x : EReal) : max ⊥ x = x := max_eq_right bot_le
theorem max_bot_right' (x : EReal) : max x ⊥ = x := max_eq_left bot_le

/-- A case distinction between two coerced reals is the coercion of the case distinction. -/
theorem ite_coe (c : Prop) [Decidable c] (a b : ℝ) :
    (if c then (a : EReal) else (b : EReal)) = ((if c then a else b : ℝ) : EReal) := by
  split <;> rfl

/-! ## The exact operations on reals -/

/-- Dividing a real by a nonzero real. -/
theorem div_coe_coe {y : ℝ} (hy : y ≠ 0) (x : ℝ) : Ideal.div (x : EReal) (y : EReal) = ((x / y : ℝ) : EReal) := by
  rw [Ideal.div_coe hy, ← EReal.coe_mul, mul_one_div]

/-- The logarithm of a positive real. -/
theorem log_coe_pos {r : ℝ} (h : 0 < r) : Ideal.log (r : EReal) = ((Real.log r : ℝ) : EReal) := by
  rw [Ideal.log_coe, if_neg (not_le.mpr h)]

/-- The exponential of a real. -/
theorem exp_coe' (r : ℝ) : Ideal.exp (r : EReal) = ((Real.exp r : ℝ) : EReal) := rfl

/-- The hyperbolic tangent of a real. -/
theorem tanh_coe' (r : ℝ) : Ideal.tanh (r : EReal) = ((Real.tanh r : ℝ) : EReal) := rfl

/-- The expansion `1 / (1 + exp (-x))` of the logistic function at a real. -/
theorem div_one_add_exp_neg_coe (r : ℝ) :
    Ideal.div 1 (1 + Ideal.exp (-(r : EReal))) = (((1 + Real.exp (-r))⁻¹ : ℝ) : EReal) :=
  Ideal.logistic_coe r

/-! ## The words of a few constants -/

theorem ofBits_f32_zero : Ideal.ofBits .f32 0x00000000#32 = ((0 : ℝ) : EReal) := by
  simp [Ideal.ofBits, Ideal.ieee]

theorem ofBits_f32_one : Ideal.ofBits .f32 0x3F800000#32 = ((1 : ℝ) : EReal) := by
  simp [Ideal.ofBits, Ideal.ieee, -EReal.coe_mul]; norm_num

theorem ofBits_f32_half : Ideal.ofBits .f32 0x3F000000#32 = ((1 / 2 : ℝ) : EReal) := by
  simp [Ideal.ofBits, Ideal.ieee, -EReal.coe_mul]; norm_num

theorem ofBits_f32_quarter : Ideal.ofBits .f32 0x3E800000#32 = ((1 / 4 : ℝ) : EReal) := by
  simp [Ideal.ofBits, Ideal.ieee, -EReal.coe_mul]; norm_num

theorem ofBits_f32_256 : Ideal.ofBits .f32 0x43800000#32 = ((256 : ℝ) : EReal) := by
  simp [Ideal.ofBits, Ideal.ieee, -EReal.coe_mul]; norm_num

theorem ofBits_f32_10000 : Ideal.ofBits .f32 0x461C4000#32 = ((10000 : ℝ) : EReal) := by
  simp [Ideal.ofBits, Ideal.ieee, -EReal.coe_mul]; norm_num

theorem ofBits_f32_65536 : Ideal.ofBits .f32 0x47800000#32 = ((65536 : ℝ) : EReal) := by
  simp [Ideal.ofBits, Ideal.ieee, -EReal.coe_mul]; norm_num

theorem ofBits_f32_neg_inf : Ideal.ofBits .f32 0xFF800000#32 = ⊥ := by
  simp [Ideal.ofBits, Ideal.ieee]

end Cert.LibERealFinite

end
-- ==== Proof.LossAlgebra.lean ====
/-
  The algebra that joins the kernel's and the reference's arrangements of the three per-image heat-map losses, over the
  extended reals, for finite inputs. Each loss is a mean over the 256 × 256 pixels of an image of a per-pixel term.

  * Corner: the two sides compute the negative log-probability of a class as `log (e^(a-M) + e^(b-M)) + M - c` and as
    `-((c - M) - log (0 + e^(a-M) + e^(b-M)))`, `M` the larger score; at real scores these are one real number, so the
    per-pixel terms agree and nothing else is needed.
  * Offset: the kernel takes the mean of the sum of the two coordinates' terms, the reference adds the two coordinates'
    means. This is distributivity, which needs every term to be a real number.
  * Bin: the kernel divides the mean of `|s₀ - 1/2 - b₀|·p + |s₁ - 1/2 - b₁|·p` by the guarded weight `w`, the reference
    adds the two means of `|s_k - 1/2 - b_k|·(p / w)`. The weight is never zero, and with real inputs every quantity is
    real, so this is an identity of real arithmetic.

  The right-hand sides are stated over abstract pixel functions (`refCorner`, `refOffset`, `refBin`); the reference's
  per-image losses are these at the image's pixel functions, by unfolding (`cornerLoss_eq`, `offsetLoss_eq`, `binLoss_eq`).
-/
import proofs.«111430_j72988674228458_2_alg».proof.Proof.KernelPx
import proofs.«111430_j72988674228458_2_alg».proof.Proof.RefPx
import proofs.«111430_j72988674228458_2_alg».proof.Proof.LibERealFinite

noncomputable section

open scoped BigOperators

namespace Cert.LossAlgebra

open Idealize.ShloMosaic Cert.LibERealFinite

/-! ## The corner loss -/

/-- At real scores the kernel's and the reference's negative log-probabilities are the same real number, so the two
    corner terms of a pixel agree, whatever the target. -/
theorem cornerPx_eq (p : EReal) (a b : ℝ) :
    KernelPx.cornerPx p (a : EReal) (b : EReal) = RefPx.cornerPx p (a : EReal) (b : EReal) := by
  have hM : RefPx.lmax (a : EReal) (b : EReal) = ((max a b : ℝ) : EReal) := by
    rw [RefPx.lmax, ofBits_f32_neg_inf, max_bot_left', max_bot_right', coe_max]
  have hM' : max (a : EReal) (b : EReal) = ((max a b : ℝ) : EReal) := (coe_max a b).symm
  have hpos : 0 < Real.exp (a - max a b) + Real.exp (b - max a b) := by positivity
  have hL : Ideal.log (Ideal.exp ((a : EReal) - ((max a b : ℝ) : EReal)) + Ideal.exp ((b : EReal) - ((max a b : ℝ) : EReal)))
      = ((Real.log (Real.exp (a - max a b) + Real.exp (b - max a b)) : ℝ) : EReal) := by
    rw [← EReal.coe_sub, ← EReal.coe_sub, exp_coe', exp_coe', ← EReal.coe_add, log_coe_pos hpos]
  have e : ∀ l m c : ℝ, (l : EReal) + (m : EReal) - (c : EReal) = -(((c : EReal) - (m : EReal)) - (l : EReal)) := by
    intro l m c
    rw [← EReal.coe_add, ← EReal.coe_sub, ← EReal.coe_sub, ← EReal.coe_sub, ← EReal.coe_neg]
    congr 1; ring
  unfold KernelPx.cornerPx RefPx.cornerPx RefPx.nlogp RefPx.lse
  rw [hM, hM', ofBits_f32_zero, EReal.coe_zero, zero_add, hL, e, e]

/-- The reference's corner loss of an image, over abstract pixel functions: target `p`, scores `a`, `b`. -/
def refCorner (p a b : Fin 256 → Fin 256 → EReal) : EReal :=
  Ideal.div (Ideal.ofBits .f32 0x00000000#32 + ∑ y : Fin 256, ∑ x : Fin 256,
      RefPx.cornerPx (p y x) (a y x) (b y x)) (Ideal.ofBits .f32 0x47800000#32) * (Ideal.ofBits .f32 0x3F800000#32)

theorem corner_eq (p a b : Fin 256 → Fin 256 → EReal)
    (hp : ∀ y x, ∃ r : ℝ, p y x = (r : EReal)) (ha : ∀ y x, ∃ r : ℝ, a y x = (r : EReal))
    (hb : ∀ y x, ∃ r : ℝ, b y x = (r : EReal)) :
    Ideal.div (∑ y : Fin 256, ∑ x : Fin 256, KernelPx.cornerPx (p y x) (a y x) (b y x)) (Ideal.ofBits .f32 0x47800000#32)
        * (Ideal.ofBits .f32 0x3F800000#32)
      = refCorner p a b := by
  have hpx : ∀ y x, KernelPx.cornerPx (p y x) (a y x) (b y x) = RefPx.cornerPx (p y x) (a y x) (b y x) := by
    intro y x
    obtain ⟨ar, har⟩ := ha y x
    obtain ⟨br, hbr⟩ := hb y x
    rw [har, hbr, cornerPx_eq]
  unfold refCorner
  rw [ofBits_f32_zero, EReal.coe_zero, zero_add]
  simp only [hpx]

/-- The reference's corner loss of image `i` is `refCorner` of that image's pixel functions. -/
theorem cornerLoss_eq (o : FVec Ideal RefPx.S32x7x256x256 .f32) (a2 : FVec Ideal RefPx.S32x1x256x256 .f32) (i : Fin 32) :
    RefPx.cornerLoss o a2 i
      = refCorner (fun y x => a2 (ValueIdx.ix4 i 0 y x)) (fun y x => o (ValueIdx.ix4 i 1 y x))
          (fun y x => o (ValueIdx.ix4 i 2 y x)) := rfl

/-! ## Sums of reals divided by a real -/

/-- The mean of a pointwise sum of two real-valued functions is the sum of the two means: distributivity, which holds
    because every quantity is a real number. -/
theorem div_sum₂_add {ι κ : Type*} [Fintype ι] [Fintype κ] (f g : ι → κ → ℝ) {n : ℝ} (hn : n ≠ 0) :
    Ideal.div (∑ i, ∑ j, ((f i j : EReal) + (g i j : EReal))) (n : EReal)
      = Ideal.div (∑ i, ∑ j, (f i j : EReal)) (n : EReal) + Ideal.div (∑ i, ∑ j, (g i j : EReal)) (n : EReal) := by
  simp only [← EReal.coe_add]
  rw [← coe_sum₂, ← coe_sum₂, ← coe_sum₂, div_coe_coe hn, div_coe_coe hn, div_coe_coe hn, ← EReal.coe_add]
  congr 1
  simp only [Finset.sum_add_distrib]
  rw [add_div]

/-! ## The offset loss -/

/-- The smooth absolute value of a real. -/
def slR (d : ℝ) : ℝ := if |d| < 1 then 1 / 2 * d * d else |d| - 1 / 2

/-- The weighted smooth-L1 term of a real target `t` and a real score `o`. -/
def offR (t o : ℝ) : ℝ := (if t ≠ 0 then 10000 else 1) * slR (Real.tanh o * 256 - t)

/-- The reference's offset term of one coordinate at real arguments is a real number. -/
theorem refOffPx_coe (t o : ℝ) : RefPx.offPx (t : EReal) (o : EReal) = ((offR t o : ℝ) : EReal) := by
  unfold RefPx.offPx RefPx.smoothL1 RefPx.offRes
  rw [ofBits_f32_zero, ofBits_f32_10000, ofBits_f32_one, ofBits_f32_half, ofBits_f32_256, tanh_coe',
    ← EReal.coe_mul, ← EReal.coe_sub, max_neg_coe]
  simp only [← EReal.coe_mul, ← EReal.coe_sub, ite_coe, EReal.coe_lt_coe_iff, ne_eq, EReal.coe_eq_coe_iff]
  rfl

/-- The kernel's offset term of a pixel is the sum of the reference's two coordinate terms. -/
theorem offPx_eq (t0 t1 o3 o4 : EReal) :
    KernelPx.offPx t0 t1 o3 o4 = RefPx.offPx t0 o3 + RefPx.offPx t1 o4 := by
  unfold KernelPx.offPx KernelPx.mask KernelPx.sl RefPx.offPx RefPx.smoothL1 RefPx.offRes
  rw [ofBits_f32_zero, EReal.coe_zero]

/-- The pixel mean of the reference's offset term of one coordinate, over abstract pixel functions. -/
def refOffMean (t o : Fin 256 → Fin 256 → EReal) : EReal :=
  Ideal.div (Ideal.ofBits .f32 0x00000000#32 + ∑ y : Fin 256, ∑ x : Fin 256, RefPx.offPx (t y x) (o y x))
    (Ideal.ofBits .f32 0x47800000#32)

/-- The reference's offset loss of an image, over abstract pixel functions. -/
def refOffset (t0 t1 o3 o4 : Fin 256 → Fin 256 → EReal) : EReal :=
  (Ideal.ofBits .f32 0x00000000#32 + (refOffMean t0 o3 + refOffMean t1 o4)) * (Ideal.ofBits .f32 0x3E800000#32)

theorem offset_eq (t0 t1 o3 o4 : Fin 256 → Fin 256 → EReal)
    (ht0 : ∀ y x, ∃ r : ℝ, t0 y x = (r : EReal)) (ht1 : ∀ y x, ∃ r : ℝ, t1 y x = (r : EReal))
    (ho3 : ∀ y x, ∃ r : ℝ, o3 y x = (r : EReal)) (ho4 : ∀ y x, ∃ r : ℝ, o4 y x = (r : EReal)) :
    Ideal.div (∑ y : Fin 256, ∑ x : Fin 256, KernelPx.offPx (t0 y x) (t1 y x) (o3 y x) (o4 y x))
        (Ideal.ofBits .f32 0x47800000#32) * (Ideal.ofBits .f32 0x3E800000#32)
      = refOffset t0 t1 o3 o4 := by
  choose t0r ht0r using ht0
  choose t1r ht1r using ht1
  choose o3r ho3r using ho3
  choose o4r ho4r using ho4
  unfold refOffset refOffMean
  simp only [offPx_eq, ht0r, ht1r, ho3r, ho4r, refOffPx_coe]
  rw [ofBits_f32_zero, EReal.coe_zero, zero_add, zero_add, zero_add, ofBits_f32_65536,
    div_sum₂_add _ _ (by norm_num : (65536 : ℝ) ≠ 0)]

/-- The reference's offset loss of image `i` is `refOffset` of that image's pixel functions. -/
theorem offsetLoss_eq (o : FVec Ideal RefPx.S32x7x256x256 .f32) (a3 : FVec Ideal RefPx.S32x1x2x256x256 .f32) (i : Fin 32) :
    RefPx.offsetLoss o a3 i
      = refOffset (fun y x => a3 (ValueIdx.ix5 i 0 0 y x)) (fun y x => a3 (ValueIdx.ix5 i 0 1 y x))
          (fun y x => o (ValueIdx.ix4 i 3 y x)) (fun y x => o (ValueIdx.ix4 i 4 y x)) := rfl

/-! ## The bin loss -/

/-- The absolute deviation `|1 / (1 + e^(-o)) - 1/2 - t|` of a real score from a real target. -/
def binA (o t : ℝ) : ℝ := |(1 + Real.exp (-o))⁻¹ - 1 / 2 - t|

/-- The guarded divisor at a real count: the count over 65536, or 1 when that is zero. -/
def wR (s : ℝ) : ℝ := if s / 65536 = 0 then 1 else s / 65536

theorem wR_ne_zero (s : ℝ) : wR s ≠ 0 := by
  unfold wR
  split
  · exact one_ne_zero
  · assumption

/-- The kernel's guarded divisor at a real count is a real number. -/
theorem wOf_coe (s : ℝ) : KernelPx.wOf (s : EReal) = ((wR s : ℝ) : EReal) := by
  unfold KernelPx.wOf wR
  rw [ofBits_f32_65536, ofBits_f32_one, div_coe_coe (by norm_num : (65536 : ℝ) ≠ 0)]
  simp only [EReal.coe_eq_zero, ite_coe]

/-- The kernel's bin term of a pixel at real arguments is a real number. -/
theorem kerBinPx_coe (p b0 b1 o5 o6 : ℝ) :
    KernelPx.binPx (p : EReal) (b0 : EReal) (b1 : EReal) (o5 : EReal) (o6 : EReal)
      = ((binA o5 b0 * p + binA o6 b1 * p : ℝ) : EReal) := by
  unfold KernelPx.binPx binA
  rw [Ideal.logistic_coe, Ideal.logistic_coe, ofBits_f32_half]
  simp only [← EReal.coe_sub, max_neg_coe, ← EReal.coe_mul, ← EReal.coe_add]

/-- The reference's bin term of one coordinate at real arguments and a nonzero real weight is a real number. -/
theorem refBinPx_coe (o t pos : ℝ) {w : ℝ} (hw : w ≠ 0) :
    RefPx.binPx (o : EReal) (t : EReal) (pos : EReal) (w : EReal) = ((binA o t * (pos / w) : ℝ) : EReal) := by
  unfold RefPx.binPx binA
  rw [ofBits_f32_one, EReal.coe_one, div_one_add_exp_neg_coe, ofBits_f32_half, div_coe_coe hw]
  simp only [← EReal.coe_sub, max_neg_coe, ← EReal.coe_mul]

/-- The identity of real arithmetic behind the bin loss: dividing the pixel sum of `F·p + G·p` by `n` and then by
    `w` gives the sum of the two pixel means of `F·(p/w)` and `G·(p/w)`. -/
theorem real_bin {ι κ : Type*} [Fintype ι] [Fintype κ] (F G p : ι → κ → ℝ) (n w : ℝ) :
    (∑ i, ∑ j, (F i j * p i j + G i j * p i j)) / n / w
      = (∑ i, ∑ j, F i j * (p i j / w)) / n + (∑ i, ∑ j, G i j * (p i j / w)) / n := by
  simp only [Finset.sum_add_distrib, ← mul_div_assoc, ← Finset.sum_div]
  ring

/-- The reference's guarded divisor of an image, over an abstract target function. -/
def refW (p : Fin 256 → Fin 256 → EReal) : EReal :=
  if Ideal.div (Ideal.ofBits .f32 0x00000000#32 + ∑ y : Fin 256, ∑ x : Fin 256, p y x) (Ideal.ofBits .f32 0x47800000#32)
      = Ideal.ofBits .f32 0x00000000#32
  then Ideal.ofBits .f32 0x3F800000#32
  else Ideal.div (Ideal.ofBits .f32 0x00000000#32 + ∑ y : Fin 256, ∑ x : Fin 256, p y x) (Ideal.ofBits .f32 0x47800000#32)

/-- The two guarded divisors are the same function of the target. -/
theorem refW_eq (p : Fin 256 → Fin 256 → EReal) : refW p = KernelPx.wOf (∑ y : Fin 256, ∑ x : Fin 256, p y x) := by
  unfold refW KernelPx.wOf
  rw [ofBits_f32_zero, EReal.coe_zero, zero_add]

/-- The pixel mean of the reference's bin term of one coordinate, over abstract pixel functions. -/
def refBinMean (o t p : Fin 256 → Fin 256 → EReal) : EReal :=
  Ideal.div (Ideal.ofBits .f32 0x00000000#32 + ∑ y : Fin 256, ∑ x : Fin 256,
      RefPx.binPx (o y x) (t y x) (p y x) (refW p)) (Ideal.ofBits .f32 0x47800000#32)

/-- The reference's bin loss of an image, over abstract pixel functions. -/
def refBin (p b0 b1 o5 o6 : Fin 256 → Fin 256 → EReal) : EReal :=
  (Ideal.ofBits .f32 0x00000000#32 + (refBinMean o5 b0 p + refBinMean o6 b1 p)) * (Ideal.ofBits .f32 0x3F800000#32)

theorem bin_eq (p b0 b1 o5 o6 : Fin 256 → Fin 256 → EReal)
    (hp : ∀ y x, ∃ r : ℝ, p y x = (r : EReal)) (hb0 : ∀ y x, ∃ r : ℝ, b0 y x = (r : EReal))
    (hb1 : ∀ y x, ∃ r : ℝ, b1 y x = (r : EReal)) (ho5 : ∀ y x, ∃ r : ℝ, o5 y x = (r : EReal))
    (ho6 : ∀ y x, ∃ r : ℝ, o6 y x = (r : EReal)) :
    Ideal.div (Ideal.div (∑ y : Fin 256, ∑ x : Fin 256, KernelPx.binPx (p y x) (b0 y x) (b1 y x) (o5 y x) (o6 y x))
          (Ideal.ofBits .f32 0x47800000#32)) (KernelPx.wOf (∑ y : Fin 256, ∑ x : Fin 256, p y x))
        * (Ideal.ofBits .f32 0x3F800000#32)
      = refBin p b0 b1 o5 o6 := by
  choose pr hpr using hp
  choose b0r hb0r using hb0
  choose b1r hb1r using hb1
  choose o5r ho5r using ho5
  choose o6r ho6r using ho6
  have hS : (∑ y : Fin 256, ∑ x : Fin 256, p y x) = ((∑ y : Fin 256, ∑ x : Fin 256, pr y x : ℝ) : EReal) := by
    rw [coe_sum₂]; simp only [hpr]
  have hw := wR_ne_zero (∑ y : Fin 256, ∑ x : Fin 256, pr y x)
  unfold refBin refBinMean
  rw [refW_eq, hS, wOf_coe]
  simp only [hpr, hb0r, hb1r, ho5r, ho6r, kerBinPx_coe, refBinPx_coe _ _ _ hw]
  rw [ofBits_f32_zero, EReal.coe_zero, zero_add, zero_add, zero_add, ofBits_f32_65536, ← coe_sum₂, ← coe_sum₂, ← coe_sum₂,
    div_coe_coe (by norm_num : (65536 : ℝ) ≠ 0), div_coe_coe (by norm_num : (65536 : ℝ) ≠ 0),
    div_coe_coe (by norm_num : (65536 : ℝ) ≠ 0), div_coe_coe hw, ← EReal.coe_add, real_bin]

/-- The reference's bin loss of image `i` is `refBin` of that image's pixel functions. -/
theorem binLoss_eq (o : FVec Ideal RefPx.S32x7x256x256 .f32) (a2 : FVec Ideal RefPx.S32x1x256x256 .f32)
    (a4 : FVec Ideal RefPx.S32x1x2x256x256 .f32) (i : Fin 32) :
    RefPx.binLoss o a2 a4 i
      = refBin (fun y x => a2 (ValueIdx.ix4 i 0 y x)) (fun y x => a4 (ValueIdx.ix5 i 0 0 y x))
          (fun y x => a4 (ValueIdx.ix5 i 0 1 y x)) (fun y x => o (ValueIdx.ix4 i 5 y x))
          (fun y x => o (ValueIdx.ix4 i 6 y x)) := rfl

end Cert.LossAlgebra

end
-- ==== Proof.KernelIdealBridge.lean ====
/-
  The kernel's result, piece by piece, is the reference's. Column 0 of each result array holds, for image R, the
  loss computed from the sums over the image's four row tiles; those sums are sums over all 256 x 256 pixels of the
  kernel's per-pixel terms; and for finite inputs the kernel's arrangement of each loss (one quotient of one sum) is
  the reference's (its own arrangement of the log-probabilities, one mean per coordinate, the positive weight inside
  the sum). The two centre losses are the same chain of operations on the same flattened map.
-/
import proofs.«111430_j72988674228458_2_alg».proof.Proof.KernelIdealTiles
import proofs.«111430_j72988674228458_2_alg».proof.Proof.KernelIdealLayout
import proofs.«111430_j72988674228458_2_alg».proof.Proof.KernelIdealCentre0
import proofs.«111430_j72988674228458_2_alg».proof.Proof.KernelIdealCentre1
import proofs.«111430_j72988674228458_2_alg».proof.Proof.LossAlgebra
import proofs.«111430_j72988674228458_2_alg».proof.Proof.RefPx

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Cert.KernelIdeal.Around Cert.KernelIdeal.Named Cert.KernelIdeal.Step Cert.KernelIdeal.NamedFrame Cert.KernelIdeal.Arrays
open Cert.KernelIdeal.Tail Cert.KernelIdeal.Tiles

variable (m : (ℓ : Loc nD τ sig) → Buf (Elt Ideal) ℓ) (c : Dev nD)

/-- Row `b` of a result array through the four steps of its batch tile. -/
theorem outRow_run4 (sel : Outs Ideal → Vec Ideal S8x128 .f32) (b : Fin 32) (l : Fin 128) :
    outRow m c sel b.val b.isLt l
      = sel (Step.finals (Sums.run4 (fun h => iblk m c 0 (tilePt ⟨b.val / 8, by have := b.isLt; omega⟩ h)) (fun h => iblk m c 1 (tilePt ⟨b.val / 8, by have := b.isLt; omega⟩ h)) (fun h => iblk m c 2 (tilePt ⟨b.val / 8, by have := b.isLt; omega⟩ h)) (fun h => iblk m c 3 (tilePt ⟨b.val / 8, by have := b.isLt; omega⟩ h)) (fun h => iblk m c 4 (tilePt ⟨b.val / 8, by have := b.isLt; omega⟩ h))))
          (ix2 ⟨b.val % 8, Nat.mod_lt _ (by decide)⟩ l) := by
  unfold outRow
  rw [accAt_nat_congr m c (show 4 * (b.val / 8) + 3 = (tilePt ⟨b.val / 8, by have := b.isLt; omega⟩ 3).val from rfl) _ (tilePt _ 3).isLt, acc_last]

/-- Image 8 (b / 8) + b % 8 is image b. -/
theorem rowOf (b : Fin 32) : (⟨8 * (b.val / 8) + b.val % 8, by have := b.isLt; omega⟩ : Fin 32) = b :=
  Fin.ext (by show 8 * (b.val / 8) + b.val % 8 = b.val; omega)

variable (h0 : ∀ i, ∃ r : ℝ, ((m ((c : Thread nD τ).loc main_arg0)) : S32x7x256x256.Idx → EReal) i = (r : EReal))
  (h1 : ∀ i, ∃ r : ℝ, ((m ((c : Thread nD τ).loc main_arg1)) : S32x7x256x256.Idx → EReal) i = (r : EReal))
  (h2 : ∀ i, ∃ r : ℝ, ((m ((c : Thread nD τ).loc main_arg2)) : S32x1x256x256.Idx → EReal) i = (r : EReal))
  (h3 : ∀ i, ∃ r : ℝ, ((m ((c : Thread nD τ).loc main_arg3)) : S32x1x2x256x256.Idx → EReal) i = (r : EReal))
  (h4 : ∀ i, ∃ r : ℝ, ((m ((c : Thread nD τ).loc main_arg4)) : S32x1x2x256x256.Idx → EReal) i = (r : EReal))

include h0 h2 in
theorem col_lc0 : col0 (Gout m c (fun o => o.lc0)) = Cert.RefPx.cornerVec (m ((c : Thread nD τ).loc main_arg0)) (m ((c : Thread nD τ).loc main_arg2)) := by
  funext i
  obtain ⟨b, rfl⟩ : ∃ b : Fin 32, i = ix1 b := ⟨i 0, eq_ix1 i⟩
  rw [Layout.col0_apply]
  show outRow m c (fun o => o.lc0) b.val b.isLt (0 : Fin 128) = Cert.RefPx.cornerLoss (m ((c : Thread nD τ).loc main_arg0)) (m ((c : Thread nD τ).loc main_arg2)) b
  have hb : b.val < 32 := b.isLt
  rw [outRow_run4 m c, Sums.lc0_run4 _ _ _ _ _ (m ((c : Thread nD τ).loc main_arg0)) (m ((c : Thread nD τ).loc main_arg2)) ⟨b.val / 8, by omega⟩ (hX0 m c _) (hX2 m c _) ⟨b.val % 8, Nat.mod_lt _ (by decide)⟩ (0 : Fin 128)]
  rw [Cert.LossAlgebra.cornerLoss_eq]
  simp only [Fin.val_mk, rowOf b]
  exact Cert.LossAlgebra.corner_eq _ _ _ (fun _ _ => h2 _) (fun _ _ => h0 _) (fun _ _ => h0 _)

include h0 h3 in
theorem col_lo0 : col0 (Gout m c (fun o => o.lo0)) = Cert.RefPx.offsetVec (m ((c : Thread nD τ).loc main_arg0)) (m ((c : Thread nD τ).loc main_arg3)) := by
  funext i
  obtain ⟨b, rfl⟩ : ∃ b : Fin 32, i = ix1 b := ⟨i 0, eq_ix1 i⟩
  rw [Layout.col0_apply]
  show outRow m c (fun o => o.lo0) b.val b.isLt (0 : Fin 128) = Cert.RefPx.offsetLoss (m ((c : Thread nD τ).loc main_arg0)) (m ((c : Thread nD τ).loc main_arg3)) b
  have hb : b.val < 32 := b.isLt
  rw [outRow_run4 m c, Sums.lo0_run4 _ _ _ _ _ (m ((c : Thread nD τ).loc main_arg0)) (m ((c : Thread nD τ).loc main_arg3)) ⟨b.val / 8, by omega⟩ (hX0 m c _) (hX3 m c _) ⟨b.val % 8, Nat.mod_lt _ (by decide)⟩ (0 : Fin 128)]
  rw [Cert.LossAlgebra.offsetLoss_eq]
  simp only [Fin.val_mk, rowOf b]
  exact Cert.LossAlgebra.offset_eq _ _ _ _ (fun _ _ => h3 _) (fun _ _ => h3 _) (fun _ _ => h0 _) (fun _ _ => h0 _)

include h0 h2 h4 in
theorem col_lb0 : col0 (Gout m c (fun o => o.lb0)) = Cert.RefPx.binVec (m ((c : Thread nD τ).loc main_arg0)) (m ((c : Thread nD τ).loc main_arg2)) (m ((c : Thread nD τ).loc main_arg4)) := by
  funext i
  obtain ⟨b, rfl⟩ : ∃ b : Fin 32, i = ix1 b := ⟨i 0, eq_ix1 i⟩
  rw [Layout.col0_apply]
  show outRow m c (fun o => o.lb0) b.val b.isLt (0 : Fin 128) = Cert.RefPx.binLoss (m ((c : Thread nD τ).loc main_arg0)) (m ((c : Thread nD τ).loc main_arg2)) (m ((c : Thread nD τ).loc main_arg4)) b
  have hb : b.val < 32 := b.isLt
  rw [outRow_run4 m c, Sums.lb0_run4 _ _ _ _ _ (m ((c : Thread nD τ).loc main_arg0)) (m ((c : Thread nD τ).loc main_arg2)) (m ((c : Thread nD τ).loc main_arg4)) ⟨b.val / 8, by omega⟩ (hX0 m c _) (hX2 m c _) (hX4 m c _) ⟨b.val % 8, Nat.mod_lt _ (by decide)⟩ (0 : Fin 128)]
  rw [Cert.LossAlgebra.binLoss_eq]
  simp only [Fin.val_mk, rowOf b]
  exact Cert.LossAlgebra.bin_eq _ _ _ _ _ (fun _ _ => h2 _) (fun _ _ => h4 _) (fun _ _ => h4 _) (fun _ _ => h0 _) (fun _ _ => h0 _)

include h1 h2 in
theorem col_lc1 : col0 (Gout m c (fun o => o.lc1)) = Cert.RefPx.cornerVec (m ((c : Thread nD τ).loc main_arg1)) (m ((c : Thread nD τ).loc main_arg2)) := by
  funext i
  obtain ⟨b, rfl⟩ : ∃ b : Fin 32, i = ix1 b := ⟨i 0, eq_ix1 i⟩
  rw [Layout.col0_apply]
  show outRow m c (fun o => o.lc1) b.val b.isLt (0 : Fin 128) = Cert.RefPx.cornerLoss (m ((c : Thread nD τ).loc main_arg1)) (m ((c : Thread nD τ).loc main_arg2)) b
  have hb : b.val < 32 := b.isLt
  rw [outRow_run4 m c, Sums.lc1_run4 _ _ _ _ _ (m ((c : Thread nD τ).loc main_arg1)) (m ((c : Thread nD τ).loc main_arg2)) ⟨b.val / 8, by omega⟩ (hX1 m c _) (hX2 m c _) ⟨b.val % 8, Nat.mod_lt _ (by decide)⟩ (0 : Fin 128)]
  rw [Cert.LossAlgebra.cornerLoss_eq]
  simp only [Fin.val_mk, rowOf b]
  exact Cert.LossAlgebra.corner_eq _ _ _ (fun _ _ => h2 _) (fun _ _ => h1 _) (fun _ _ => h1 _)

include h1 h3 in
theorem col_lo1 : col0 (Gout m c (fun o => o.lo1)) = Cert.RefPx.offsetVec (m ((c : Thread nD τ).loc main_arg1)) (m ((c : Thread nD τ).loc main_arg3)) := by
  funext i
  obtain ⟨b, rfl⟩ : ∃ b : Fin 32, i = ix1 b := ⟨i 0, eq_ix1 i⟩
  rw [Layout.col0_apply]
  show outRow m c (fun o => o.lo1) b.val b.isLt (0 : Fin 128) = Cert.RefPx.offsetLoss (m ((c : Thread nD τ).loc main_arg1)) (m ((c : Thread nD τ).loc main_arg3)) b
  have hb : b.val < 32 := b.isLt
  rw [outRow_run4 m c, Sums.lo1_run4 _ _ _ _ _ (m ((c : Thread nD τ).loc main_arg1)) (m ((c : Thread nD τ).loc main_arg3)) ⟨b.val / 8, by omega⟩ (hX1 m c _) (hX3 m c _) ⟨b.val % 8, Nat.mod_lt _ (by decide)⟩ (0 : Fin 128)]
  rw [Cert.LossAlgebra.offsetLoss_eq]
  simp only [Fin.val_mk, rowOf b]
  exact Cert.LossAlgebra.offset_eq _ _ _ _ (fun _ _ => h3 _) (fun _ _ => h3 _) (fun _ _ => h1 _) (fun _ _ => h1 _)

include h1 h2 h4 in
theorem col_lb1 : col0 (Gout m c (fun o => o.lb1)) = Cert.RefPx.binVec (m ((c : Thread nD τ).loc main_arg1)) (m ((c : Thread nD τ).loc main_arg2)) (m ((c : Thread nD τ).loc main_arg4)) := by
  funext i
  obtain ⟨b, rfl⟩ : ∃ b : Fin 32, i = ix1 b := ⟨i 0, eq_ix1 i⟩
  rw [Layout.col0_apply]
  show outRow m c (fun o => o.lb1) b.val b.isLt (0 : Fin 128) = Cert.RefPx.binLoss (m ((c : Thread nD τ).loc main_arg1)) (m ((c : Thread nD τ).loc main_arg2)) (m ((c : Thread nD τ).loc main_arg4)) b
  have hb : b.val < 32 := b.isLt
  rw [outRow_run4 m c, Sums.lb1_run4 _ _ _ _ _ (m ((c : Thread nD τ).loc main_arg1)) (m ((c : Thread nD τ).loc main_arg2)) (m ((c : Thread nD τ).loc main_arg4)) ⟨b.val / 8, by omega⟩ (hX1 m c _) (hX2 m c _) (hX4 m c _) ⟨b.val % 8, Nat.mod_lt _ (by decide)⟩ (0 : Fin 128)]
  rw [Cert.LossAlgebra.binLoss_eq]
  simp only [Fin.val_mk, rowOf b]
  exact Cert.LossAlgebra.bin_eq _ _ _ _ _ (fun _ _ => h2 _) (fun _ _ => h4 _) (fun _ _ => h4 _) (fun _ _ => h1 _) (fun _ _ => h1 _)

include h0 h1 h2 h3 h4 in
/-- The kernel's laid-out result is the reference's pieces laid out the same way. -/
theorem value :
    stack (row (mulf (F := Ideal) (V (F := Ideal) m c main_v33) (constant (F := Ideal) S_ .f32 0x3F800000#32)) (col0 (Gout m c (fun o => o.lc0))) (col0 (Gout m c (fun o => o.lo0))) (col0 (Gout m c (fun o => o.lb0))))
          (row (mulf (F := Ideal) (V (F := Ideal) m c main_v67) (constant (F := Ideal) S_ .f32 0x3F800000#32)) (col0 (Gout m c (fun o => o.lc1))) (col0 (Gout m c (fun o => o.lo1))) (col0 (Gout m c (fun o => o.lb1))))
      = stack (row (Cert.RefPx.centreS (m ((c : Thread nD τ).loc main_arg0)) (m ((c : Thread nD τ).loc main_arg5)) (m ((c : Thread nD τ).loc main_arg6)) (m ((c : Thread nD τ).loc main_arg7)) (m ((c : Thread nD τ).loc main_arg8))) (Cert.RefPx.cornerVec (m ((c : Thread nD τ).loc main_arg0)) (m ((c : Thread nD τ).loc main_arg2))) (Cert.RefPx.offsetVec (m ((c : Thread nD τ).loc main_arg0)) (m ((c : Thread nD τ).loc main_arg3))) (Cert.RefPx.binVec (m ((c : Thread nD τ).loc main_arg0)) (m ((c : Thread nD τ).loc main_arg2)) (m ((c : Thread nD τ).loc main_arg4))))
              (row (Cert.RefPx.centreS (m ((c : Thread nD τ).loc main_arg1)) (m ((c : Thread nD τ).loc main_arg5)) (m ((c : Thread nD τ).loc main_arg6)) (m ((c : Thread nD τ).loc main_arg7)) (m ((c : Thread nD τ).loc main_arg8))) (Cert.RefPx.cornerVec (m ((c : Thread nD τ).loc main_arg1)) (m ((c : Thread nD τ).loc main_arg2))) (Cert.RefPx.offsetVec (m ((c : Thread nD τ).loc main_arg1)) (m ((c : Thread nD τ).loc main_arg3))) (Cert.RefPx.binVec (m ((c : Thread nD τ).loc main_arg1)) (m ((c : Thread nD τ).loc main_arg2)) (m ((c : Thread nD τ).loc main_arg4)))) := by
  rw [Centre.centre0 m c, Centre.centre1 m c, col_lc0 m c h0 h2, col_lo0 m c h0 h3, col_lb0 m c h0 h2 h4, col_lc1 m c h1 h2, col_lo1 m c h1 h3, col_lb1 m c h1 h2 h4]

end Cert.KernelIdeal.Bridge

end
-- ==== Proof.LibHostRead.lean ====
import Idealize.ShloMosaic.PureOps.Ideal.Laws
import Idealize.ShloMosaic.Lib.ValueIdx

/-!
# Sums over the two image axes, a two-element maximum, and a select on a decided proposition

A host sum over several axes is, at each kept index, the initial value plus the sum of the operand over the
indices that drop to it. For the two shapes met here — [32, 256, 256] summed over its last two axes and
[2, 32, 256, 256] likewise — those indices are exactly the ones with the kept coordinates fixed, so the sum
is the double sum over rows and columns.
-/

noncomputable section

open scoped BigOperators

namespace Cert.LibHostRead

open Idealize.ShloMosaic Idealize.ShloMosaic.ValueIdx

abbrev S32 : Shape := ⟨1, ![32]⟩
abbrev S2x32 : Shape := ⟨2, ![2, 32]⟩
abbrev S32x256x256 : Shape := ⟨3, ![32, 256, 256]⟩
abbrev S2x32x256x256 : Shape := ⟨4, ![2, 32, 256, 256]⟩

/-- The indices of [32, 256, 256] that drop to `b` are `(b, y, x)`: their sum is the double sum. -/
theorem sum_filter_drop3 {α : Type} [AddCommMonoid α] (h : S32x256x256.ReducesTo [1, 2] S32)
    (f : S32x256x256.Idx → α) (b : Fin 32) :
    ∑ i ∈ Finset.univ.filter (fun i => h.drop i = ix1 b), f i = ∑ y : Fin 256, ∑ x : Fin 256, f (ix3 b y x) := by
  rw [← Finset.sum_product']
  refine Finset.sum_nbij' (fun i => (i 1, i 2)) (fun p => ix3 b p.1 p.2) ?_ ?_ ?_ ?_ ?_
  · intro i _; exact Finset.mem_product.2 ⟨Finset.mem_univ _, Finset.mem_univ _⟩
  · intro p _
    refine Finset.mem_filter.2 ⟨Finset.mem_univ _, ?_⟩
    funext d
    match d with
    | ⟨0, _⟩ => exact Fin.ext (h.drop_apply_val_of_eq (ix3 b p.1 p.2) 0 0)
  · intro i hi
    have hj := (Finset.mem_filter.1 hi).2
    have h0 : (i 0).val = b.val := by
      rw [← h.drop_apply_val_of_eq i 0 0, hj]
    funext d
    match d with
    | ⟨0, _⟩ => exact Fin.ext h0.symm
    | ⟨1, _⟩ => rfl
    | ⟨2, _⟩ => rfl
  · intro p _; rfl
  · intro i hi
    have hj := (Finset.mem_filter.1 hi).2
    have h0 : (i 0).val = b.val := by
      rw [← h.drop_apply_val_of_eq i 0 0, hj]
    refine congrArg f ?_
    funext d
    match d with
    | ⟨0, _⟩ => exact Fin.ext h0
    | ⟨1, _⟩ => rfl
    | ⟨2, _⟩ => rfl

/-- The host's sum of a [32, 256, 256] array over its two image axes, at image `b`. -/
theorem hostReduceAdd_yx3 (h : S32x256x256.ReducesTo [1, 2] S32) (f : S32x256x256.Idx → EReal) (init : EReal)
    (b : Fin 32) :
    Ideal.hostReduceAdd h f init (ix1 b) = init + ∑ y : Fin 256, ∑ x : Fin 256, f (ix3 b y x) := by
  unfold Ideal.hostReduceAdd
  rw [sum_filter_drop3]

/-- The indices of [2, 32, 256, 256] that drop to `(k, b)` are `(k, b, y, x)`: their sum is the double sum. -/
theorem sum_filter_drop4 {α : Type} [AddCommMonoid α] (h : S2x32x256x256.ReducesTo [2, 3] S2x32)
    (f : S2x32x256x256.Idx → α) (k : Fin 2) (b : Fin 32) :
    ∑ i ∈ Finset.univ.filter (fun i => h.drop i = ix2 k b), f i = ∑ y : Fin 256, ∑ x : Fin 256, f (ix4 k b y x) := by
  rw [← Finset.sum_product']
  refine Finset.sum_nbij' (fun i => (i 2, i 3)) (fun p => ix4 k b p.1 p.2) ?_ ?_ ?_ ?_ ?_
  · intro i _; exact Finset.mem_product.2 ⟨Finset.mem_univ _, Finset.mem_univ _⟩
  · intro p _
    refine Finset.mem_filter.2 ⟨Finset.mem_univ _, ?_⟩
    funext d
    match d with
    | ⟨0, _⟩ => exact Fin.ext (h.drop_apply_val_of_eq (ix4 k b p.1 p.2) 0 0)
    | ⟨1, _⟩ => exact Fin.ext (h.drop_apply_val_of_eq (ix4 k b p.1 p.2) 1 1)
  · intro i hi
    have hj := (Finset.mem_filter.1 hi).2
    have h0 : (i 0).val = k.val := by
      rw [← h.drop_apply_val_of_eq i 0 0, hj]
    have h1 : (i 1).val = b.val := by
      rw [← h.drop_apply_val_of_eq i 1 1, hj]
    funext d
    match d with
    | ⟨0, _⟩ => exact Fin.ext h0.symm
    | ⟨1, _⟩ => exact Fin.ext h1.symm
    | ⟨2, _⟩ => rfl
    | ⟨3, _⟩ => rfl
  · intro p _; rfl
  · intro i hi
    have hj := (Finset.mem_filter.1 hi).2
    have h0 : (i 0).val = k.val := by
      rw [← h.drop_apply_val_of_eq i 0 0, hj]
    have h1 : (i 1).val = b.val := by
      rw [← h.drop_apply_val_of_eq i 1 1, hj]
    refine congrArg f ?_
    funext d
    match d with
    | ⟨0, _⟩ => exact Fin.ext h0
    | ⟨1, _⟩ => exact Fin.ext h1
    | ⟨2, _⟩ => rfl
    | ⟨3, _⟩ => rfl

/-- The host's sum of a [2, 32, 256, 256] array over its two image axes, at coordinate `k` and image `b`. -/
theorem hostReduceAdd_yx4 (h : S2x32x256x256.ReducesTo [2, 3] S2x32) (f : S2x32x256x256.Idx → EReal) (init : EReal)
    (k : Fin 2) (b : Fin 32) :
    Ideal.hostReduceAdd h f init (ix2 k b) = init + ∑ y : Fin 256, ∑ x : Fin 256, f (ix4 k b y x) := by
  unfold Ideal.hostReduceAdd
  rw [sum_filter_drop4]

/-- A maximum folded over the two elements of `Fin 2` from `b`. -/
theorem fold_max_fin2 (b : EReal) (g : Fin 2 → EReal) :
    (Finset.univ : Finset (Fin 2)).fold max b g = max (g 0) (max (g 1) b) := by
  rw [show (Finset.univ : Finset (Fin 2)) = insert 0 {1} from by decide,
    Finset.fold_insert (by decide), Finset.fold_singleton]

/-- A select on the bit of a decided proposition is the `if` on the proposition. -/
theorem select_ofBool {α : Type} (p : Prop) [Decidable p] (a b : α) :
    Scalar.select (BitVec.ofBool (decide p)) a b = if p then a else b := by
  unfold Scalar.select
  by_cases hp : p
  · rw [if_pos hp, decide_eq_true hp]; rfl
  · rw [if_neg hp, decide_eq_false hp]; exact if_neg (by decide)

end Cert.LibHostRead
-- ==== Proof.RefValue.lean ====
import proofs.«111430_j72988674228458_2_alg».proof.Proof.ReferenceRead
import proofs.«111430_j72988674228458_2_alg».proof.Proof.RefPx
import proofs.«111430_j72988674228458_2_alg».proof.Proof.LibHostRead

/-!
# The reference's result as its pieces

The reference's value, read one operation at a time, is identified with the plain formulas of the
specification module: for each of the two stacks, the per-image corner, corner-offset and corner-bin losses
(double sums over the 256 × 256 pixels of a per-pixel function, divided by 65536) and the centre triplet
loss (the chain of array operations applied to the flattened centre map). The sums over the two image axes
are read as double sums by the general lemma on a host sum over two axes; the two-class maximum of the
log-softmax is a fold over `Fin 2`; every other operation is pointwise or a relabelling of indices.
The two stacks run the same operations, so the second section repeats the first on the second stack's
operations.
-/

namespace Cert.ReferenceIdeal.RefValue

open Cert.ReferenceIdeal Cert.ReferenceIdeal.Gen Cert.ReferenceIdeal.Read Idealize.ShloMosaic Idealize.ShloMosaic.ValueIdx
open scoped BigOperators

/-! ## Small facts used below -/

/-- A commutative, associative operation folded over the two elements of `Fin 2` from `b`. -/
theorem fold_fin2 {α : Type} (op : α → α → α) [Std.Commutative op] [Std.Associative op] (b : α) (g : Fin 2 → α) :
    (Finset.univ : Finset (Fin 2)).fold op b g = op (g 0) (op (g 1) b) := by
  rw [show (Finset.univ : Finset (Fin 2)) = insert 0 {1} from by decide,
    Finset.fold_insert (by decide), Finset.fold_singleton]

/-- A select on "x ≠ y" of extended reals is the `if`. -/
theorem select_une {α : Type} (x y : EReal) (a b : α) :
    Scalar.select (FloatOps.cmpf (F := Ideal) (φ := .f32) .une x y) a b = if x ≠ y then a else b :=
  Cert.LibHostRead.select_ofBool (x ≠ y) a b

/-- A select on "x < y" of extended reals is the `if`. -/
theorem select_olt {α : Type} (x y : EReal) (a b : α) :
    Scalar.select (FloatOps.cmpf (F := Ideal) (φ := .f32) .olt x y) a b = if x < y then a else b :=
  Cert.LibHostRead.select_ofBool (x < y) a b

/-- A select on "x = y" of extended reals is the `if`. -/
theorem select_oeq {α : Type} (x y : EReal) (a b : α) :
    Scalar.select (FloatOps.cmpf (F := Ideal) (φ := .f32) .oeq x y) a b = if x = y then a else b :=
  Cert.LibHostRead.select_ofBool (x = y) a b

section Stack0

variable (x0 : (⟨S32x7x256x256, .f32⟩ : BufTy).Contents (Elt Ideal)) (x2 : (⟨S32x1x256x256, .f32⟩ : BufTy).Contents (Elt Ideal)) (x3 x4 : (⟨S32x1x2x256x256, .f32⟩ : BufTy).Contents (Elt Ideal))
  (x5 x6 x7 : (⟨S32x9, .i32⟩ : BufTy).Contents (Elt Ideal)) (x8 : (⟨S32x8, .i32⟩ : BufTy).Contents (Elt Ideal))
  (b : Fin 32) (y x : Fin 256)

/-! ## The layout operations at coordinates

Channel `c` of the channel-major copy of a stack is the stack's channel `c`; the slices pick channels
1–2 (corner), 3–4 (offset), 5–6 (bin); a reshape between [32, 256, 256] and a shape with one more unit axis
keeps the coordinates. -/

theorem v3_at0 : val_main_v3 (F := Ideal) x0 (ix4 0 b y x) = x0 (ix4 b 1 y x) := by
  rw [val_main_v3_apply, val_main_v0_apply]
  refine congrArg x0 (funext fun a => ?_)
  match a with
  | ⟨0, _⟩ => rfl
  | ⟨1, _⟩ => rfl
  | ⟨2, _⟩ => rfl
  | ⟨3, _⟩ => rfl

theorem v3_at1 : val_main_v3 (F := Ideal) x0 (ix4 1 b y x) = x0 (ix4 b 2 y x) := by
  rw [val_main_v3_apply, val_main_v0_apply]
  refine congrArg x0 (funext fun a => ?_)
  match a with
  | ⟨0, _⟩ => rfl
  | ⟨1, _⟩ => rfl
  | ⟨2, _⟩ => rfl
  | ⟨3, _⟩ => rfl

theorem v5_at0 : val_main_v5 (F := Ideal) x0 (ix4 0 b y x) = x0 (ix4 b 3 y x) := by
  rw [val_main_v5_apply, val_main_v0_apply]
  refine congrArg x0 (funext fun a => ?_)
  match a with
  | ⟨0, _⟩ => rfl
  | ⟨1, _⟩ => rfl
  | ⟨2, _⟩ => rfl
  | ⟨3, _⟩ => rfl

theorem v5_at1 : val_main_v5 (F := Ideal) x0 (ix4 1 b y x) = x0 (ix4 b 4 y x) := by
  rw [val_main_v5_apply, val_main_v0_apply]
  refine congrArg x0 (funext fun a => ?_)
  match a with
  | ⟨0, _⟩ => rfl
  | ⟨1, _⟩ => rfl
  | ⟨2, _⟩ => rfl
  | ⟨3, _⟩ => rfl

theorem v9_at0 : val_main_v9 (F := Ideal) x0 (ix4 0 b y x) = x0 (ix4 b 5 y x) := by
  rw [val_main_v9_apply, val_main_v0_apply]
  refine congrArg x0 (funext fun a => ?_)
  match a with
  | ⟨0, _⟩ => rfl
  | ⟨1, _⟩ => rfl
  | ⟨2, _⟩ => rfl
  | ⟨3, _⟩ => rfl

theorem v9_at1 : val_main_v9 (F := Ideal) x0 (ix4 1 b y x) = x0 (ix4 b 6 y x) := by
  rw [val_main_v9_apply, val_main_v0_apply]
  refine congrArg x0 (funext fun a => ?_)
  match a with
  | ⟨0, _⟩ => rfl
  | ⟨1, _⟩ => rfl
  | ⟨2, _⟩ => rfl
  | ⟨3, _⟩ => rfl

/-- The corner target without its unit channel axis. -/
theorem v10_at : val_main_v10 (F := Ideal) x2 (ix3 b y x) = x2 (ix4 b 0 y x) := by
  have hb := b.isLt; have hy := y.isLt; have hx := x.isLt
  rw [val_main_v10_apply]
  refine congrArg x2 (funext fun a => ?_)
  match a with
  | ⟨0, _⟩ => exact Fin.ext (show ((b.val * 256 + y.val) * 256 + x.val) / 65536 = b.val by omega)
  | ⟨1, _⟩ => rfl
  | ⟨2, _⟩ => exact Fin.ext (show ((b.val * 256 + y.val) * 256 + x.val) / 256 % 256 = y.val by omega)
  | ⟨3, _⟩ => exact Fin.ext (show ((b.val * 256 + y.val) * 256 + x.val) % 256 = x.val by omega)

/-- The offset target, coordinate-major, at coordinate `k`. -/
theorem v60_at (k : Fin 2) : val_main_v60 (F := Ideal) x3 (ix4 k b y x) = x3 (ix5 b 0 k y x) := by
  have hb := b.isLt; have hy := y.isLt; have hx := x.isLt; have hk := k.isLt
  rw [val_main_v60_apply, val_main_v59_apply]
  refine congrArg x3 (funext fun a => ?_)
  match a with
  | ⟨0, _⟩ => exact Fin.ext (show (((b.val * 2 + k.val) * 256 + y.val) * 256 + x.val) / 131072 = b.val by omega)
  | ⟨1, _⟩ => rfl
  | ⟨2, _⟩ => exact Fin.ext (show (((b.val * 2 + k.val) * 256 + y.val) * 256 + x.val) / 65536 % 2 = k.val by omega)
  | ⟨3, _⟩ => exact Fin.ext (show (((b.val * 2 + k.val) * 256 + y.val) * 256 + x.val) / 256 % 256 = y.val by omega)
  | ⟨4, _⟩ => exact Fin.ext (show (((b.val * 2 + k.val) * 256 + y.val) * 256 + x.val) % 256 = x.val by omega)

/-- The bin target, coordinate-major, at coordinate `k`. -/
theorem v81_at (k : Fin 2) : val_main_v81 (F := Ideal) x4 (ix4 k b y x) = x4 (ix5 b 0 k y x) := by
  have hb := b.isLt; have hy := y.isLt; have hx := x.isLt; have hk := k.isLt
  rw [val_main_v81_apply, val_main_v80_apply]
  refine congrArg x4 (funext fun a => ?_)
  match a with
  | ⟨0, _⟩ => exact Fin.ext (show (((b.val * 2 + k.val) * 256 + y.val) * 256 + x.val) / 131072 = b.val by omega)
  | ⟨1, _⟩ => rfl
  | ⟨2, _⟩ => exact Fin.ext (show (((b.val * 2 + k.val) * 256 + y.val) * 256 + x.val) / 65536 % 2 = k.val by omega)
  | ⟨3, _⟩ => exact Fin.ext (show (((b.val * 2 + k.val) * 256 + y.val) * 256 + x.val) / 256 % 256 = y.val by omega)
  | ⟨4, _⟩ => exact Fin.ext (show (((b.val * 2 + k.val) * 256 + y.val) * 256 + x.val) % 256 = x.val by omega)

/-! ## The corner cross-entropy -/

/-- The maximum over the two classes, folded from -∞. -/
theorem c6v0_at : val_main_call6_v0 (F := Ideal) x0 (ix3 b y x)
    = max (x0 (ix4 b 1 y x)) (max (x0 (ix4 b 2 y x)) (Ideal.ofBits .f32 0xFF800000#32)) := by
  unfold val_main_call6_v0
  refine (Host.reduce_eq_fold_single _ _ _ reducesTo_S2x32x256x256_S32x256x256_d0
    (by decide : S2x32x256x256.Reduces [0] S32x256x256) h_S_ (ix3 b y x)).trans ?_
  refine (fold_fin2 _ _ _).trans ?_
  refine congrArg₂ max ?_ (congrArg₂ max ?_ rfl)
  · refine (congrArg (val_main_v3 (F := Ideal) x0) (funext fun a => ?_)).trans (v3_at0 x0 b y x)
    match a with
    | ⟨0, _⟩ => rfl
    | ⟨1, _⟩ => rfl
    | ⟨2, _⟩ => rfl
    | ⟨3, _⟩ => rfl
  · refine (congrArg (val_main_v3 (F := Ideal) x0) (funext fun a => ?_)).trans (v3_at1 x0 b y x)
    match a with
    | ⟨0, _⟩ => rfl
    | ⟨1, _⟩ => rfl
    | ⟨2, _⟩ => rfl
    | ⟨3, _⟩ => rfl

/-- The stabilising maximum, broadcast back over the two classes. -/
theorem c6v4_at (k : Fin 2) : val_main_call6_v4 (F := Ideal) x0 (ix4 k b y x)
    = Cert.RefPx.lmax (x0 (ix4 b 1 y x)) (x0 (ix4 b 2 y x)) := by
  rw [val_main_call6_v4_apply, val_main_call6_v3_apply, val_main_call6_v2_apply, val_main_call6_v1_apply,
    val_main_call6_cst_0_apply]
  rw [show idx_main_call6_v3 (idx_main_call6_v4 (ix4 k b y x)) = ix3 b y x from funext fun a => by
    match a with
    | ⟨0, _⟩ => rfl
    | ⟨1, _⟩ => rfl
    | ⟨2, _⟩ => rfl]
  rw [c6v0_at]
  rfl

/-- The log of the sum of the shifted exponentials, broadcast back over the two classes. -/
theorem c6v10_at (k : Fin 2) : val_main_call6_v10 (F := Ideal) x0 (ix4 k b y x)
    = Cert.RefPx.lse (x0 (ix4 b 1 y x)) (x0 (ix4 b 2 y x)) := by
  rw [val_main_call6_v10_apply, val_main_call6_v9_apply, val_main_call6_v8_apply, val_main_call6_v7_apply,
    Fin.sum_univ_two, val_main_call6_cst_1_apply]
  rw [show idx_main_call6_v7 (idx_main_call6_v8 (idx_main_call6_v10 (ix4 k b y x))) 0 = ix4 0 b y x from
      funext fun a => by
        match a with
        | ⟨0, _⟩ => rfl
        | ⟨1, _⟩ => rfl
        | ⟨2, _⟩ => rfl
        | ⟨3, _⟩ => rfl,
    show idx_main_call6_v7 (idx_main_call6_v8 (idx_main_call6_v10 (ix4 k b y x))) 1 = ix4 1 b y x from
      funext fun a => by
        match a with
        | ⟨0, _⟩ => rfl
        | ⟨1, _⟩ => rfl
        | ⟨2, _⟩ => rfl
        | ⟨3, _⟩ => rfl]
  rw [val_main_call6_v6_apply, val_main_call6_v6_apply, val_main_call6_v5_apply, val_main_call6_v5_apply,
    c6v4_at, c6v4_at, v3_at0, v3_at1]
  rfl

/-- Minus the log-softmax at class 0 and at class 1. -/
theorem v44_at0 : val_main_v44 (F := Ideal) x0 (ix4 0 b y x)
    = Cert.RefPx.nlogp (x0 (ix4 b 1 y x)) (x0 (ix4 b 2 y x)) (x0 (ix4 b 1 y x)) := by
  rw [val_main_v44_apply, val_main_v43_apply, val_main_call6_v5_apply, c6v4_at, c6v10_at, v3_at0]
  rfl

theorem v44_at1 : val_main_v44 (F := Ideal) x0 (ix4 1 b y x)
    = Cert.RefPx.nlogp (x0 (ix4 b 1 y x)) (x0 (ix4 b 2 y x)) (x0 (ix4 b 2 y x)) := by
  rw [val_main_v44_apply, val_main_v43_apply, val_main_call6_v5_apply, c6v4_at, c6v10_at, v3_at1]
  rfl

/-- The corner loss at one pixel. -/
theorem v55_px : val_main_v55 (F := Ideal) x0 x2 (ix3 b y x)
    = Cert.RefPx.cornerPx (x2 (ix4 b 0 y x)) (x0 (ix4 b 1 y x)) (x0 (ix4 b 2 y x)) := by
  have hb := b.isLt; have hy := y.isLt; have hx := x.isLt
  rw [val_main_v55_apply, val_main_v49_apply, val_main_v47_apply, val_main_v54_apply, val_main_v51_apply,
    val_main_v46_apply, val_main_v45_apply, val_main_v53_apply, val_main_v52_apply, val_main_v48_apply,
    val_main_v50_apply, val_main_cst_8_apply, val_main_cst_9_apply, v10_at]
  rw [show idx_main_v45 (idx_main_v46 (ix3 b y x)) = ix4 1 b y x from funext fun a => by
      match a with
      | ⟨0, _⟩ => rfl
      | ⟨1, _⟩ => exact Fin.ext (show ((b.val * 256 + y.val) * 256 + x.val) / 65536 % 32 = b.val by omega)
      | ⟨2, _⟩ => exact Fin.ext (show ((b.val * 256 + y.val) * 256 + x.val) / 256 % 256 = y.val by omega)
      | ⟨3, _⟩ => exact Fin.ext (show ((b.val * 256 + y.val) * 256 + x.val) % 256 = x.val by omega),
    show idx_main_v52 (idx_main_v53 (ix3 b y x)) = ix4 0 b y x from funext fun a => by
      match a with
      | ⟨0, _⟩ => rfl
      | ⟨1, _⟩ => exact Fin.ext (show ((b.val * 256 + y.val) * 256 + x.val) / 65536 % 32 = b.val by omega)
      | ⟨2, _⟩ => exact Fin.ext (show ((b.val * 256 + y.val) * 256 + x.val) / 256 % 256 = y.val by omega)
      | ⟨3, _⟩ => exact Fin.ext (show ((b.val * 256 + y.val) * 256 + x.val) % 256 = x.val by omega)]
  rw [v44_at0, v44_at1]
  rfl

/-- The corner losses of the 32 images. -/
theorem v111_eq : val_main_v111 (F := Ideal) x0 x2 = Cert.RefPx.cornerVec x0 x2 := by
  funext i
  obtain ⟨b, rfl⟩ : ∃ b : Fin 32, i = ix1 b := ⟨i 0, eq_ix1 i⟩
  rw [val_main_v111_apply, val_main_v58_apply, val_main_v57_apply, val_main_v110_apply, val_main_cst_11_apply,
    val_main_cst_32_apply]
  have h56 : val_main_v56 (F := Ideal) x0 x2 (ix1 b) = Ideal.ofBits .f32 0x00000000#32
      + ∑ y : Fin 256, ∑ x : Fin 256,
        Cert.RefPx.cornerPx (x2 (ix4 b 0 y x)) (x0 (ix4 b 1 y x)) (x0 (ix4 b 2 y x)) := by
    unfold val_main_v56
    simp only [Host.reduceAdd, Ideal.hostReduceAdd_def]
    rw [Cert.LibHostRead.hostReduceAdd_yx3 reducesTo_S32x256x256_S32_d1_2]
    exact congrArg₂ (· + ·) rfl
      (Finset.sum_congr rfl fun y _ => Finset.sum_congr rfl fun x _ => v55_px x0 x2 b y x)
  rw [h56]
  rfl

/-! ## The corner-offset smooth-L1 loss -/

/-- The predicted offset `tanh o · 256` on the two coordinates. -/
theorem v8_at0 : val_main_v8 (F := Ideal) x0 (ix4 0 b y x)
    = Ideal.tanh (x0 (ix4 b 3 y x)) * Ideal.ofBits .f32 0x43800000#32 := by
  rw [val_main_v8_apply, val_main_v6_apply, v5_at0, val_main_v7_apply, val_main_v4_apply, val_main_cst_apply]
  rfl

theorem v8_at1 : val_main_v8 (F := Ideal) x0 (ix4 1 b y x)
    = Ideal.tanh (x0 (ix4 b 4 y x)) * Ideal.ofBits .f32 0x43800000#32 := by
  rw [val_main_v8_apply, val_main_v6_apply, v5_at1, val_main_v7_apply, val_main_v4_apply, val_main_cst_apply]
  rfl

/-- The weighted smooth-L1 loss at one pixel, coordinate 0. -/
theorem v75_px0 : val_main_v75 (F := Ideal) x0 x3 (ix4 0 b y x)
    = Cert.RefPx.offPx (x3 (ix5 b 0 0 y x)) (x0 (ix4 b 3 y x)) := by
  rw [val_main_v75_apply, val_main_v74_apply, val_main_v63_apply, val_main_v62_apply, val_main_call7_v0_apply,
    val_main_call7_v1_apply, val_main_cst_13_apply, val_main_cst_14_apply, val_main_v61_apply, val_main_cst_12_apply,
    val_main_v73_apply, val_main_v67_apply, val_main_v70_apply, val_main_v69_apply, val_main_v72_apply,
    val_main_v65_apply, val_main_v64_apply, val_main_v66_apply, val_main_v68_apply, val_main_v71_apply,
    val_main_cst_15_apply, val_main_cst_16_apply, val_main_cst_17_apply, v8_at0, v60_at]
  rw [select_une, select_olt]
  rfl

/-- The weighted smooth-L1 loss at one pixel, coordinate 1. -/
theorem v75_px1 : val_main_v75 (F := Ideal) x0 x3 (ix4 1 b y x)
    = Cert.RefPx.offPx (x3 (ix5 b 0 1 y x)) (x0 (ix4 b 4 y x)) := by
  rw [val_main_v75_apply, val_main_v74_apply, val_main_v63_apply, val_main_v62_apply, val_main_call7_v0_apply,
    val_main_call7_v1_apply, val_main_cst_13_apply, val_main_cst_14_apply, val_main_v61_apply, val_main_cst_12_apply,
    val_main_v73_apply, val_main_v67_apply, val_main_v70_apply, val_main_v69_apply, val_main_v72_apply,
    val_main_v65_apply, val_main_v64_apply, val_main_v66_apply, val_main_v68_apply, val_main_v71_apply,
    val_main_cst_15_apply, val_main_cst_16_apply, val_main_cst_17_apply, v8_at1, v60_at]
  rw [select_une, select_olt]
  rfl

/-- The corner-offset losses of the 32 images. -/
theorem v113_eq : val_main_v113 (F := Ideal) x0 x3 = Cert.RefPx.offsetVec x0 x3 := by
  funext i
  obtain ⟨b, rfl⟩ : ∃ b : Fin 32, i = ix1 b := ⟨i 0, eq_ix1 i⟩
  have h76 : ∀ k : Fin 2, val_main_v76 (F := Ideal) x0 x3 (ix2 k b) = Ideal.ofBits .f32 0x00000000#32
      + ∑ y : Fin 256, ∑ x : Fin 256, val_main_v75 (F := Ideal) x0 x3 (ix4 k b y x) := by
    intro k
    unfold val_main_v76
    simp only [Host.reduceAdd, Ideal.hostReduceAdd_def]
    rw [Cert.LibHostRead.hostReduceAdd_yx4 reducesTo_S2x32x256x256_S2x32_d2_3]
    rfl
  simp only [val_main_v113_apply, val_main_v79_apply, Fin.sum_univ_two, val_main_v78_apply, val_main_v77_apply,
    val_main_cst_19_apply, val_main_v112_apply, val_main_cst_33_apply, val_main_cst_20_apply]
  rw [show idx_main_v79 (ix1 b) 0 = ix2 0 b from funext fun a => by
      match a with
      | ⟨0, _⟩ => rfl
      | ⟨1, _⟩ => rfl,
    show idx_main_v79 (ix1 b) 1 = ix2 1 b from funext fun a => by
      match a with
      | ⟨0, _⟩ => rfl
      | ⟨1, _⟩ => rfl]
  rw [h76 0, h76 1]
  simp only [v75_px0, v75_px1]
  rfl

/-! ## The corner-bin sigmoid-L1 loss -/

/-- The number of corner pixels of image `b`, from 0. -/
theorem v82_at : val_main_v82 (F := Ideal) x2 (ix1 b)
    = Ideal.ofBits .f32 0x00000000#32 + ∑ y : Fin 256, ∑ x : Fin 256, x2 (ix4 b 0 y x) := by
  unfold val_main_v82
  simp only [Host.reduceAdd, Ideal.hostReduceAdd_def]
  rw [Cert.LibHostRead.hostReduceAdd_yx3 reducesTo_S32x256x256_S32_d1_2]
  exact congrArg₂ (· + ·) rfl
    (Finset.sum_congr rfl fun y _ => Finset.sum_congr rfl fun x _ => v10_at x2 b y x)

/-- The image's weight: its fraction of corner pixels, or 1. -/
theorem v88_at : val_main_v88 (F := Ideal) x2 (ix3 b 0 0) = Cert.RefPx.posWeight x2 b := by
  rw [val_main_v88_apply, val_main_v87_apply, val_main_v85_apply, val_main_v83_apply, val_main_v84_apply,
    val_main_v86_apply, val_main_call9_v1_apply, val_main_call9_v0_apply, val_main_cst_22_apply,
    val_main_cst_23_apply, val_main_cst_24_apply]
  rw [show idx_main_v83 (ix3 b 0 0) = ix1 b from funext fun a => by
    match a with
    | ⟨0, _⟩ => rfl]
  rw [v82_at, select_oeq]
  rfl

/-- The corner target over the weight, broadcast over the two coordinates. -/
theorem v102_at (k : Fin 2) : val_main_v102 (F := Ideal) x2 (ix4 k b y x)
    = Ideal.div (x2 (ix4 b 0 y x)) (Cert.RefPx.posWeight x2 b) := by
  rw [val_main_v102_apply, val_main_v101_apply, val_main_v100_apply, val_main_v99_apply]
  rw [show idx_main_v101 (idx_main_v102 (ix4 k b y x)) = ix3 b y x from funext fun a => by
    match a with
    | ⟨0, _⟩ => rfl
    | ⟨1, _⟩ => rfl
    | ⟨2, _⟩ => rfl]
  rw [show idx_main_v99 (ix3 b y x) = ix3 b 0 0 from funext fun a => by
    match a with
    | ⟨0, _⟩ => rfl
    | ⟨1, _⟩ => rfl
    | ⟨2, _⟩ => rfl]
  rw [v10_at, v88_at]
  rfl

/-- The bin loss at one pixel, coordinate 0. -/
theorem v103_px0 : val_main_v103 (F := Ideal) x0 x2 x4 (ix4 0 b y x)
    = Cert.RefPx.binPx (x0 (ix4 b 5 y x)) (x4 (ix5 b 0 0 y x)) (x2 (ix4 b 0 y x)) (Cert.RefPx.posWeight x2 b) := by
  rw [val_main_v103_apply, val_main_v98_apply, val_main_v97_apply, val_main_v96_apply, val_main_v94_apply,
    val_main_v93_apply, val_main_v92_apply, val_main_v91_apply, val_main_v90_apply, val_main_v89_apply,
    val_main_v95_apply, val_main_cst_25_apply, val_main_cst_26_apply, val_main_cst_27_apply, v9_at0, v81_at, v102_at]
  rfl

/-- The bin loss at one pixel, coordinate 1. -/
theorem v103_px1 : val_main_v103 (F := Ideal) x0 x2 x4 (ix4 1 b y x)
    = Cert.RefPx.binPx (x0 (ix4 b 6 y x)) (x4 (ix5 b 0 1 y x)) (x2 (ix4 b 0 y x)) (Cert.RefPx.posWeight x2 b) := by
  rw [val_main_v103_apply, val_main_v98_apply, val_main_v97_apply, val_main_v96_apply, val_main_v94_apply,
    val_main_v93_apply, val_main_v92_apply, val_main_v91_apply, val_main_v90_apply, val_main_v89_apply,
    val_main_v95_apply, val_main_cst_25_apply, val_main_cst_26_apply, val_main_cst_27_apply, v9_at1, v81_at, v102_at]
  rfl

/-- The corner-bin losses of the 32 images. -/
theorem v115_eq : val_main_v115 (F := Ideal) x0 x2 x4 = Cert.RefPx.binVec x0 x2 x4 := by
  funext i
  obtain ⟨b, rfl⟩ : ∃ b : Fin 32, i = ix1 b := ⟨i 0, eq_ix1 i⟩
  have h104 : ∀ k : Fin 2, val_main_v104 (F := Ideal) x0 x2 x4 (ix2 k b) = Ideal.ofBits .f32 0x00000000#32
      + ∑ y : Fin 256, ∑ x : Fin 256, val_main_v103 (F := Ideal) x0 x2 x4 (ix4 k b y x) := by
    intro k
    unfold val_main_v104
    simp only [Host.reduceAdd, Ideal.hostReduceAdd_def]
    rw [Cert.LibHostRead.hostReduceAdd_yx4 reducesTo_S2x32x256x256_S2x32_d2_3]
    rfl
  simp only [val_main_v115_apply, val_main_v107_apply, Fin.sum_univ_two, val_main_v106_apply, val_main_v105_apply,
    val_main_cst_29_apply, val_main_v114_apply, val_main_cst_34_apply, val_main_cst_30_apply]
  rw [show idx_main_v107 (ix1 b) 0 = ix2 0 b from funext fun a => by
      match a with
      | ⟨0, _⟩ => rfl
      | ⟨1, _⟩ => rfl,
    show idx_main_v107 (ix1 b) 1 = ix2 1 b from funext fun a => by
      match a with
      | ⟨0, _⟩ => rfl
      | ⟨1, _⟩ => rfl]
  rw [h104 0, h104 1]
  simp only [v103_px0, v103_px1]
  rfl

/-! ## The centre triplet loss -/

/-- The flattened centre map is channel 0 of the stack at row `p / 256`, column `p % 256`. -/
theorem v11_eq : val_main_v11 (F := Ideal) x0 = Cert.RefPx.pdfOf x0 := by
  funext i
  obtain ⟨b, p, rfl⟩ : ∃ (b : Fin 32) (p : Fin 65536), i = ix2 b p := ⟨i 0, i 1, eq_ix2 i⟩
  have hb := b.isLt; have hp := p.isLt
  rw [val_main_v11_apply, val_main_v2_apply, val_main_v1_apply, val_main_v0_apply]
  refine congrArg x0 (funext fun a => ?_)
  match a with
  | ⟨0, _⟩ => exact Fin.ext (show (((b.val * 65536 + p.val) / 65536 * 256 + (b.val * 65536 + p.val) / 256 % 256) * 256 + (b.val * 65536 + p.val) % 256) / 65536 % 32 = b.val by omega)
  | ⟨1, _⟩ => rfl
  | ⟨2, _⟩ => exact Fin.ext (show (((b.val * 65536 + p.val) / 65536 * 256 + (b.val * 65536 + p.val) / 256 % 256) * 256 + (b.val * 65536 + p.val) % 256) / 256 % 256 = p.val / 256 by omega)
  | ⟨3, _⟩ => exact Fin.ext (show (((b.val * 65536 + p.val) / 65536 * 256 + (b.val * 65536 + p.val) / 256 % 256) * 256 + (b.val * 65536 + p.val) % 256) % 256 = p.val % 256 by omega)

/-- The centre loss is the chain of array operations applied to the flattened centre map. -/
theorem v108_eq : val_main_v108 (F := Ideal) x0 x5 x6 x7 x8 = Cert.RefPx.centreS x0 x5 x6 x7 x8 := by
  show val_main_v108 (F := Ideal) x0 x5 x6 x7 x8 = Cert.RefPx.centre (Cert.RefPx.pdfOf x0) x5 x6 x7 x8
  rw [← v11_eq]
  rfl

/-- One stack's row of 97 numbers, as the program lays it out. -/
theorem v116_eq : val_main_v116 (F := Ideal) x0 x2 x3 x4 x5 x6 x7 x8
    = concatenate S97 0 [⟨S1, broadcastInDim S1 ![] bcast_S_S1 (Cert.RefPx.centreS x0 x5 x6 x7 x8)⟩,
        ⟨S32, Cert.RefPx.cornerVec x0 x2⟩, ⟨S32, Cert.RefPx.offsetVec x0 x3⟩, ⟨S32, Cert.RefPx.binVec x0 x2 x4⟩]
        concatenates_S1_S32_S32_S32_S97_d0 := by
  unfold val_main_v116 val_main_v109
  rw [v108_eq, v111_eq, v113_eq, v115_eq]

end Stack0

section Stack1

variable (x1 : (⟨S32x7x256x256, .f32⟩ : BufTy).Contents (Elt Ideal)) (x2 : (⟨S32x1x256x256, .f32⟩ : BufTy).Contents (Elt Ideal)) (x3 x4 : (⟨S32x1x2x256x256, .f32⟩ : BufTy).Contents (Elt Ideal))
  (x5 x6 x7 : (⟨S32x9, .i32⟩ : BufTy).Contents (Elt Ideal)) (x8 : (⟨S32x8, .i32⟩ : BufTy).Contents (Elt Ideal))
  (b : Fin 32) (y x : Fin 256)

/-! ## The layout operations at coordinates

Channel `c` of the channel-major copy of a stack is the stack's channel `c`; the slices pick channels
1–2 (corner), 3–4 (offset), 5–6 (bin); a reshape between [32, 256, 256] and a shape with one more unit axis
keeps the coordinates. -/

theorem v3_at0' : val_main_v120 (F := Ideal) x1 (ix4 0 b y x) = x1 (ix4 b 1 y x) := by
  rw [val_main_v120_apply, val_main_v117_apply]
  refine congrArg x1 (funext fun a => ?_)
  match a with
  | ⟨0, _⟩ => rfl
  | ⟨1, _⟩ => rfl
  | ⟨2, _⟩ => rfl
  | ⟨3, _⟩ => rfl

theorem v3_at1' : val_main_v120 (F := Ideal) x1 (ix4 1 b y x) = x1 (ix4 b 2 y x) := by
  rw [val_main_v120_apply, val_main_v117_apply]
  refine congrArg x1 (funext fun a => ?_)
  match a with
  | ⟨0, _⟩ => rfl
  | ⟨1, _⟩ => rfl
  | ⟨2, _⟩ => rfl
  | ⟨3, _⟩ => rfl

theorem v5_at0' : val_main_v122 (F := Ideal) x1 (ix4 0 b y x) = x1 (ix4 b 3 y x) := by
  rw [val_main_v122_apply, val_main_v117_apply]
  refine congrArg x1 (funext fun a => ?_)
  match a with
  | ⟨0, _⟩ => rfl
  | ⟨1, _⟩ => rfl
  | ⟨2, _⟩ => rfl
  | ⟨3, _⟩ => rfl

theorem v5_at1' : val_main_v122 (F := Ideal) x1 (ix4 1 b y x) = x1 (ix4 b 4 y x) := by
  rw [val_main_v122_apply, val_main_v117_apply]
  refine congrArg x1 (funext fun a => ?_)
  match a with
  | ⟨0, _⟩ => rfl
  | ⟨1, _⟩ => rfl
  | ⟨2, _⟩ => rfl
  | ⟨3, _⟩ => rfl

theorem v9_at0' : val_main_v126 (F := Ideal) x1 (ix4 0 b y x) = x1 (ix4 b 5 y x) := by
  rw [val_main_v126_apply, val_main_v117_apply]
  refine congrArg x1 (funext fun a => ?_)
  match a with
  | ⟨0, _⟩ => rfl
  | ⟨1, _⟩ => rfl
  | ⟨2, _⟩ => rfl
  | ⟨3, _⟩ => rfl

theorem v9_at1' : val_main_v126 (F := Ideal) x1 (ix4 1 b y x) = x1 (ix4 b 6 y x) := by
  rw [val_main_v126_apply, val_main_v117_apply]
  refine congrArg x1 (funext fun a => ?_)
  match a with
  | ⟨0, _⟩ => rfl
  | ⟨1, _⟩ => rfl
  | ⟨2, _⟩ => rfl
  | ⟨3, _⟩ => rfl

/-- The corner target without its unit channel axis. -/
theorem v10_at' : val_main_v127 (F := Ideal) x2 (ix3 b y x) = x2 (ix4 b 0 y x) := by
  have hb := b.isLt; have hy := y.isLt; have hx := x.isLt
  rw [val_main_v127_apply]
  refine congrArg x2 (funext fun a => ?_)
  match a with
  | ⟨0, _⟩ => exact Fin.ext (show ((b.val * 256 + y.val) * 256 + x.val) / 65536 = b.val by omega)
  | ⟨1, _⟩ => rfl
  | ⟨2, _⟩ => exact Fin.ext (show ((b.val * 256 + y.val) * 256 + x.val) / 256 % 256 = y.val by omega)
  | ⟨3, _⟩ => exact Fin.ext (show ((b.val * 256 + y.val) * 256 + x.val) % 256 = x.val by omega)

/-- The offset target, coordinate-major, at coordinate `k`. -/
theorem v60_at' (k : Fin 2) : val_main_v177 (F := Ideal) x3 (ix4 k b y x) = x3 (ix5 b 0 k y x) := by
  have hb := b.isLt; have hy := y.isLt; have hx := x.isLt; have hk := k.isLt
  rw [val_main_v177_apply, val_main_v176_apply]
  refine congrArg x3 (funext fun a => ?_)
  match a with
  | ⟨0, _⟩ => exact Fin.ext (show (((b.val * 2 + k.val) * 256 + y.val) * 256 + x.val) / 131072 = b.val by omega)
  | ⟨1, _⟩ => rfl
  | ⟨2, _⟩ => exact Fin.ext (show (((b.val * 2 + k.val) * 256 + y.val) * 256 + x.val) / 65536 % 2 = k.val by omega)
  | ⟨3, _⟩ => exact Fin.ext (show (((b.val * 2 + k.val) * 256 + y.val) * 256 + x.val) / 256 % 256 = y.val by omega)
  | ⟨4, _⟩ => exact Fin.ext (show (((b.val * 2 + k.val) * 256 + y.val) * 256 + x.val) % 256 = x.val by omega)

/-- The bin target, coordinate-major, at coordinate `k`. -/
theorem v81_at' (k : Fin 2) : val_main_v198 (F := Ideal) x4 (ix4 k b y x) = x4 (ix5 b 0 k y x) := by
  have hb := b.isLt; have hy := y.isLt; have hx := x.isLt; have hk := k.isLt
  rw [val_main_v198_apply, val_main_v197_apply]
  refine congrArg x4 (funext fun a => ?_)
  match a with
  | ⟨0, _⟩ => exact Fin.ext (show (((b.val * 2 + k.val) * 256 + y.val) * 256 + x.val) / 131072 = b.val by omega)
  | ⟨1, _⟩ => rfl
  | ⟨2, _⟩ => exact Fin.ext (show (((b.val * 2 + k.val) * 256 + y.val) * 256 + x.val) / 65536 % 2 = k.val by omega)
  | ⟨3, _⟩ => exact Fin.ext (show (((b.val * 2 + k.val) * 256 + y.val) * 256 + x.val) / 256 % 256 = y.val by omega)
  | ⟨4, _⟩ => exact Fin.ext (show (((b.val * 2 + k.val) * 256 + y.val) * 256 + x.val) % 256 = x.val by omega)

/-! ## The corner cross-entropy -/

/-- The maximum over the two classes, folded from -∞. -/
theorem c6v0_at' : val_main_call16_v0 (F := Ideal) x1 (ix3 b y x)
    = max (x1 (ix4 b 1 y x)) (max (x1 (ix4 b 2 y x)) (Ideal.ofBits .f32 0xFF800000#32)) := by
  unfold val_main_call16_v0
  refine (Host.reduce_eq_fold_single _ _ _ reducesTo_S2x32x256x256_S32x256x256_d0
    (by decide : S2x32x256x256.Reduces [0] S32x256x256) h_S_ (ix3 b y x)).trans ?_
  refine (fold_fin2 _ _ _).trans ?_
  refine congrArg₂ max ?_ (congrArg₂ max ?_ rfl)
  · refine (congrArg (val_main_v120 (F := Ideal) x1) (funext fun a => ?_)).trans (v3_at0' x1 b y x)
    match a with
    | ⟨0, _⟩ => rfl
    | ⟨1, _⟩ => rfl
    | ⟨2, _⟩ => rfl
    | ⟨3, _⟩ => rfl
  · refine (congrArg (val_main_v120 (F := Ideal) x1) (funext fun a => ?_)).trans (v3_at1' x1 b y x)
    match a with
    | ⟨0, _⟩ => rfl
    | ⟨1, _⟩ => rfl
    | ⟨2, _⟩ => rfl
    | ⟨3, _⟩ => rfl

/-- The stabilising maximum, broadcast back over the two classes. -/
theorem c6v4_at' (k : Fin 2) : val_main_call16_v4 (F := Ideal) x1 (ix4 k b y x)
    = Cert.RefPx.lmax (x1 (ix4 b 1 y x)) (x1 (ix4 b 2 y x)) := by
  rw [val_main_call16_v4_apply, val_main_call16_v3_apply, val_main_call16_v2_apply, val_main_call16_v1_apply,
    val_main_call16_cst_0_apply]
  rw [show idx_main_call16_v3 (idx_main_call16_v4 (ix4 k b y x)) = ix3 b y x from funext fun a => by
    match a with
    | ⟨0, _⟩ => rfl
    | ⟨1, _⟩ => rfl
    | ⟨2, _⟩ => rfl]
  rw [c6v0_at']
  rfl

/-- The log of the sum of the shifted exponentials, broadcast back over the two classes. -/
theorem c6v10_at' (k : Fin 2) : val_main_call16_v10 (F := Ideal) x1 (ix4 k b y x)
    = Cert.RefPx.lse (x1 (ix4 b 1 y x)) (x1 (ix4 b 2 y x)) := by
  rw [val_main_call16_v10_apply, val_main_call16_v9_apply, val_main_call16_v8_apply, val_main_call16_v7_apply,
    Fin.sum_univ_two, val_main_call16_cst_1_apply]
  rw [show idx_main_call16_v7 (idx_main_call16_v8 (idx_main_call16_v10 (ix4 k b y x))) 0 = ix4 0 b y x from
      funext fun a => by
        match a with
        | ⟨0, _⟩ => rfl
        | ⟨1, _⟩ => rfl
        | ⟨2, _⟩ => rfl
        | ⟨3, _⟩ => rfl,
    show idx_main_call16_v7 (idx_main_call16_v8 (idx_main_call16_v10 (ix4 k b y x))) 1 = ix4 1 b y x from
      funext fun a => by
        match a with
        | ⟨0, _⟩ => rfl
        | ⟨1, _⟩ => rfl
        | ⟨2, _⟩ => rfl
        | ⟨3, _⟩ => rfl]
  rw [val_main_call16_v6_apply, val_main_call16_v6_apply, val_main_call16_v5_apply, val_main_call16_v5_apply,
    c6v4_at', c6v4_at', v3_at0', v3_at1']
  rfl

/-- Minus the log-softmax at class 0 and at class 1. -/
theorem v44_at0' : val_main_v161 (F := Ideal) x1 (ix4 0 b y x)
    = Cert.RefPx.nlogp (x1 (ix4 b 1 y x)) (x1 (ix4 b 2 y x)) (x1 (ix4 b 1 y x)) := by
  rw [val_main_v161_apply, val_main_v160_apply, val_main_call16_v5_apply, c6v4_at', c6v10_at', v3_at0']
  rfl

theorem v44_at1' : val_main_v161 (F := Ideal) x1 (ix4 1 b y x)
    = Cert.RefPx.nlogp (x1 (ix4 b 1 y x)) (x1 (ix4 b 2 y x)) (x1 (ix4 b 2 y x)) := by
  rw [val_main_v161_apply, val_main_v160_apply, val_main_call16_v5_apply, c6v4_at', c6v10_at', v3_at1']
  rfl

/-- The corner loss at one pixel. -/
theorem v55_px' : val_main_v172 (F := Ideal) x1 x2 (ix3 b y x)
    = Cert.RefPx.cornerPx (x2 (ix4 b 0 y x)) (x1 (ix4 b 1 y x)) (x1 (ix4 b 2 y x)) := by
  have hb := b.isLt; have hy := y.isLt; have hx := x.isLt
  rw [val_main_v172_apply, val_main_v166_apply, val_main_v164_apply, val_main_v171_apply, val_main_v168_apply,
    val_main_v163_apply, val_main_v162_apply, val_main_v170_apply, val_main_v169_apply, val_main_v165_apply,
    val_main_v167_apply, val_main_cst_43_apply, val_main_cst_44_apply, v10_at']
  rw [show idx_main_v162 (idx_main_v163 (ix3 b y x)) = ix4 1 b y x from funext fun a => by
      match a with
      | ⟨0, _⟩ => rfl
      | ⟨1, _⟩ => exact Fin.ext (show ((b.val * 256 + y.val) * 256 + x.val) / 65536 % 32 = b.val by omega)
      | ⟨2, _⟩ => exact Fin.ext (show ((b.val * 256 + y.val) * 256 + x.val) / 256 % 256 = y.val by omega)
      | ⟨3, _⟩ => exact Fin.ext (show ((b.val * 256 + y.val) * 256 + x.val) % 256 = x.val by omega),
    show idx_main_v169 (idx_main_v170 (ix3 b y x)) = ix4 0 b y x from funext fun a => by
      match a with
      | ⟨0, _⟩ => rfl
      | ⟨1, _⟩ => exact Fin.ext (show ((b.val * 256 + y.val) * 256 + x.val) / 65536 % 32 = b.val by omega)
      | ⟨2, _⟩ => exact Fin.ext (show ((b.val * 256 + y.val) * 256 + x.val) / 256 % 256 = y.val by omega)
      | ⟨3, _⟩ => exact Fin.ext (show ((b.val * 256 + y.val) * 256 + x.val) % 256 = x.val by omega)]
  rw [v44_at0', v44_at1']
  rfl

/-- The corner losses of the 32 images. -/
theorem v111_eq' : val_main_v228 (F := Ideal) x1 x2 = Cert.RefPx.cornerVec x1 x2 := by
  funext i
  obtain ⟨b, rfl⟩ : ∃ b : Fin 32, i = ix1 b := ⟨i 0, eq_ix1 i⟩
  rw [val_main_v228_apply, val_main_v175_apply, val_main_v174_apply, val_main_v227_apply, val_main_cst_46_apply,
    val_main_cst_67_apply]
  have h56 : val_main_v173 (F := Ideal) x1 x2 (ix1 b) = Ideal.ofBits .f32 0x00000000#32
      + ∑ y : Fin 256, ∑ x : Fin 256,
        Cert.RefPx.cornerPx (x2 (ix4 b 0 y x)) (x1 (ix4 b 1 y x)) (x1 (ix4 b 2 y x)) := by
    unfold val_main_v173
    simp only [Host.reduceAdd, Ideal.hostReduceAdd_def]
    rw [Cert.LibHostRead.hostReduceAdd_yx3 reducesTo_S32x256x256_S32_d1_2]
    exact congrArg₂ (· + ·) rfl
      (Finset.sum_congr rfl fun y _ => Finset.sum_congr rfl fun x _ => v55_px' x1 x2 b y x)
  rw [h56]
  rfl

/-! ## The corner-offset smooth-L1 loss -/

/-- The predicted offset `tanh o · 256` on the two coordinates. -/
theorem v8_at0' : val_main_v125 (F := Ideal) x1 (ix4 0 b y x)
    = Ideal.tanh (x1 (ix4 b 3 y x)) * Ideal.ofBits .f32 0x43800000#32 := by
  rw [val_main_v125_apply, val_main_v123_apply, v5_at0', val_main_v124_apply, val_main_v121_apply, val_main_cst_0_apply]
  rfl

theorem v8_at1' : val_main_v125 (F := Ideal) x1 (ix4 1 b y x)
    = Ideal.tanh (x1 (ix4 b 4 y x)) * Ideal.ofBits .f32 0x43800000#32 := by
  rw [val_main_v125_apply, val_main_v123_apply, v5_at1', val_main_v124_apply, val_main_v121_apply, val_main_cst_0_apply]
  rfl

/-- The weighted smooth-L1 loss at one pixel, coordinate 0. -/
theorem v75_px0' : val_main_v192 (F := Ideal) x1 x3 (ix4 0 b y x)
    = Cert.RefPx.offPx (x3 (ix5 b 0 0 y x)) (x1 (ix4 b 3 y x)) := by
  rw [val_main_v192_apply, val_main_v191_apply, val_main_v180_apply, val_main_v179_apply, val_main_call17_v0_apply,
    val_main_call17_v1_apply, val_main_cst_48_apply, val_main_cst_49_apply, val_main_v178_apply, val_main_cst_47_apply,
    val_main_v190_apply, val_main_v184_apply, val_main_v187_apply, val_main_v186_apply, val_main_v189_apply,
    val_main_v182_apply, val_main_v181_apply, val_main_v183_apply, val_main_v185_apply, val_main_v188_apply,
    val_main_cst_50_apply, val_main_cst_51_apply, val_main_cst_52_apply, v8_at0', v60_at']
  rw [select_une, select_olt]
  rfl

/-- The weighted smooth-L1 loss at one pixel, coordinate 1. -/
theorem v75_px1' : val_main_v192 (F := Ideal) x1 x3 (ix4 1 b y x)
    = Cert.RefPx.offPx (x3 (ix5 b 0 1 y x)) (x1 (ix4 b 4 y x)) := by
  rw [val_main_v192_apply, val_main_v191_apply, val_main_v180_apply, val_main_v179_apply, val_main_call17_v0_apply,
    val_main_call17_v1_apply, val_main_cst_48_apply, val_main_cst_49_apply, val_main_v178_apply, val_main_cst_47_apply,
    val_main_v190_apply, val_main_v184_apply, val_main_v187_apply, val_main_v186_apply, val_main_v189_apply,
    val_main_v182_apply, val_main_v181_apply, val_main_v183_apply, val_main_v185_apply, val_main_v188_apply,
    val_main_cst_50_apply, val_main_cst_51_apply, val_main_cst_52_apply, v8_at1', v60_at']
  rw [select_une, select_olt]
  rfl

/-- The corner-offset losses of the 32 images. -/
theorem v113_eq' : val_main_v230 (F := Ideal) x1 x3 = Cert.RefPx.offsetVec x1 x3 := by
  funext i
  obtain ⟨b, rfl⟩ : ∃ b : Fin 32, i = ix1 b := ⟨i 0, eq_ix1 i⟩
  have h76 : ∀ k : Fin 2, val_main_v193 (F := Ideal) x1 x3 (ix2 k b) = Ideal.ofBits .f32 0x00000000#32
      + ∑ y : Fin 256, ∑ x : Fin 256, val_main_v192 (F := Ideal) x1 x3 (ix4 k b y x) := by
    intro k
    unfold val_main_v193
    simp only [Host.reduceAdd, Ideal.hostReduceAdd_def]
    rw [Cert.LibHostRead.hostReduceAdd_yx4 reducesTo_S2x32x256x256_S2x32_d2_3]
    rfl
  simp only [val_main_v230_apply, val_main_v196_apply, Fin.sum_univ_two, val_main_v195_apply, val_main_v194_apply,
    val_main_cst_54_apply, val_main_v229_apply, val_main_cst_68_apply, val_main_cst_55_apply]
  rw [show idx_main_v196 (ix1 b) 0 = ix2 0 b from funext fun a => by
      match a with
      | ⟨0, _⟩ => rfl
      | ⟨1, _⟩ => rfl,
    show idx_main_v196 (ix1 b) 1 = ix2 1 b from funext fun a => by
      match a with
      | ⟨0, _⟩ => rfl
      | ⟨1, _⟩ => rfl]
  rw [h76 0, h76 1]
  simp only [v75_px0', v75_px1']
  rfl

/-! ## The corner-bin sigmoid-L1 loss -/

/-- The number of corner pixels of image `b`, from 0. -/
theorem v82_at' : val_main_v199 (F := Ideal) x2 (ix1 b)
    = Ideal.ofBits .f32 0x00000000#32 + ∑ y : Fin 256, ∑ x : Fin 256, x2 (ix4 b 0 y x) := by
  unfold val_main_v199
  simp only [Host.reduceAdd, Ideal.hostReduceAdd_def]
  rw [Cert.LibHostRead.hostReduceAdd_yx3 reducesTo_S32x256x256_S32_d1_2]
  exact congrArg₂ (· + ·) rfl
    (Finset.sum_congr rfl fun y _ => Finset.sum_congr rfl fun x _ => v10_at' x2 b y x)

/-- The image's weight: its fraction of corner pixels, or 1. -/
theorem v88_at' : val_main_v205 (F := Ideal) x2 (ix3 b 0 0) = Cert.RefPx.posWeight x2 b := by
  rw [val_main_v205_apply, val_main_v204_apply, val_main_v202_apply, val_main_v200_apply, val_main_v201_apply,
    val_main_v203_apply, val_main_call19_v1_apply, val_main_call19_v0_apply, val_main_cst_57_apply,
    val_main_cst_58_apply, val_main_cst_59_apply]
  rw [show idx_main_v200 (ix3 b 0 0) = ix1 b from funext fun a => by
    match a with
    | ⟨0, _⟩ => rfl]
  rw [v82_at', select_oeq]
  rfl

/-- The corner target over the weight, broadcast over the two coordinates. -/
theorem v102_at' (k : Fin 2) : val_main_v219 (F := Ideal) x2 (ix4 k b y x)
    = Ideal.div (x2 (ix4 b 0 y x)) (Cert.RefPx.posWeight x2 b) := by
  rw [val_main_v219_apply, val_main_v218_apply, val_main_v217_apply, val_main_v216_apply]
  rw [show idx_main_v218 (idx_main_v219 (ix4 k b y x)) = ix3 b y x from funext fun a => by
    match a with
    | ⟨0, _⟩ => rfl
    | ⟨1, _⟩ => rfl
    | ⟨2, _⟩ => rfl]
  rw [show idx_main_v216 (ix3 b y x) = ix3 b 0 0 from funext fun a => by
    match a with
    | ⟨0, _⟩ => rfl
    | ⟨1, _⟩ => rfl
    | ⟨2, _⟩ => rfl]
  rw [v10_at', v88_at']
  rfl

/-- The bin loss at one pixel, coordinate 0. -/
theorem v103_px0' : val_main_v220 (F := Ideal) x1 x2 x4 (ix4 0 b y x)
    = Cert.RefPx.binPx (x1 (ix4 b 5 y x)) (x4 (ix5 b 0 0 y x)) (x2 (ix4 b 0 y x)) (Cert.RefPx.posWeight x2 b) := by
  rw [val_main_v220_apply, val_main_v215_apply, val_main_v214_apply, val_main_v213_apply, val_main_v211_apply,
    val_main_v210_apply, val_main_v209_apply, val_main_v208_apply, val_main_v207_apply, val_main_v206_apply,
    val_main_v212_apply, val_main_cst_60_apply, val_main_cst_61_apply, val_main_cst_62_apply, v9_at0', v81_at', v102_at']
  rfl

/-- The bin loss at one pixel, coordinate 1. -/
theorem v103_px1' : val_main_v220 (F := Ideal) x1 x2 x4 (ix4 1 b y x)
    = Cert.RefPx.binPx (x1 (ix4 b 6 y x)) (x4 (ix5 b 0 1 y x)) (x2 (ix4 b 0 y x)) (Cert.RefPx.posWeight x2 b) := by
  rw [val_main_v220_apply, val_main_v215_apply, val_main_v214_apply, val_main_v213_apply, val_main_v211_apply,
    val_main_v210_apply, val_main_v209_apply, val_main_v208_apply, val_main_v207_apply, val_main_v206_apply,
    val_main_v212_apply, val_main_cst_60_apply, val_main_cst_61_apply, val_main_cst_62_apply, v9_at1', v81_at', v102_at']
  rfl

/-- The corner-bin losses of the 32 images. -/
theorem v115_eq' : val_main_v232 (F := Ideal) x1 x2 x4 = Cert.RefPx.binVec x1 x2 x4 := by
  funext i
  obtain ⟨b, rfl⟩ : ∃ b : Fin 32, i = ix1 b := ⟨i 0, eq_ix1 i⟩
  have h104 : ∀ k : Fin 2, val_main_v221 (F := Ideal) x1 x2 x4 (ix2 k b) = Ideal.ofBits .f32 0x00000000#32
      + ∑ y : Fin 256, ∑ x : Fin 256, val_main_v220 (F := Ideal) x1 x2 x4 (ix4 k b y x) := by
    intro k
    unfold val_main_v221
    simp only [Host.reduceAdd, Ideal.hostReduceAdd_def]
    rw [Cert.LibHostRead.hostReduceAdd_yx4 reducesTo_S2x32x256x256_S2x32_d2_3]
    rfl
  simp only [val_main_v232_apply, val_main_v224_apply, Fin.sum_univ_two, val_main_v223_apply, val_main_v222_apply,
    val_main_cst_64_apply, val_main_v231_apply, val_main_cst_69_apply, val_main_cst_65_apply]
  rw [show idx_main_v224 (ix1 b) 0 = ix2 0 b from funext fun a => by
      match a with
      | ⟨0, _⟩ => rfl
      | ⟨1, _⟩ => rfl,
    show idx_main_v224 (ix1 b) 1 = ix2 1 b from funext fun a => by
      match a with
      | ⟨0, _⟩ => rfl
      | ⟨1, _⟩ => rfl]
  rw [h104 0, h104 1]
  simp only [v103_px0', v103_px1']
  rfl

/-! ## The centre triplet loss -/

/-- The flattened centre map is channel 0 of the stack at row `p / 256`, column `p % 256`. -/
theorem v11_eq' : val_main_v128 (F := Ideal) x1 = Cert.RefPx.pdfOf x1 := by
  funext i
  obtain ⟨b, p, rfl⟩ : ∃ (b : Fin 32) (p : Fin 65536), i = ix2 b p := ⟨i 0, i 1, eq_ix2 i⟩
  have hb := b.isLt; have hp := p.isLt
  rw [val_main_v128_apply, val_main_v119_apply, val_main_v118_apply, val_main_v117_apply]
  refine congrArg x1 (funext fun a => ?_)
  match a with
  | ⟨0, _⟩ => exact Fin.ext (show (((b.val * 65536 + p.val) / 65536 * 256 + (b.val * 65536 + p.val) / 256 % 256) * 256 + (b.val * 65536 + p.val) % 256) / 65536 % 32 = b.val by omega)
  | ⟨1, _⟩ => rfl
  | ⟨2, _⟩ => exact Fin.ext (show (((b.val * 65536 + p.val) / 65536 * 256 + (b.val * 65536 + p.val) / 256 % 256) * 256 + (b.val * 65536 + p.val) % 256) / 256 % 256 = p.val / 256 by omega)
  | ⟨3, _⟩ => exact Fin.ext (show (((b.val * 65536 + p.val) / 65536 * 256 + (b.val * 65536 + p.val) / 256 % 256) * 256 + (b.val * 65536 + p.val) % 256) % 256 = p.val % 256 by omega)

/-- The centre loss is the chain of array operations applied to the flattened centre map. -/
theorem v108_eq' : val_main_v225 (F := Ideal) x1 x5 x6 x7 x8 = Cert.RefPx.centreS x1 x5 x6 x7 x8 := by
  show val_main_v225 (F := Ideal) x1 x5 x6 x7 x8 = Cert.RefPx.centre (Cert.RefPx.pdfOf x1) x5 x6 x7 x8
  rw [← v11_eq']
  rfl

/-- One stack's row of 97 numbers, as the program lays it out. -/
theorem v116_eq' : val_main_v233 (F := Ideal) x1 x2 x3 x4 x5 x6 x7 x8
    = concatenate S97 0 [⟨S1, broadcastInDim S1 ![] bcast_S_S1 (Cert.RefPx.centreS x1 x5 x6 x7 x8)⟩,
        ⟨S32, Cert.RefPx.cornerVec x1 x2⟩, ⟨S32, Cert.RefPx.offsetVec x1 x3⟩, ⟨S32, Cert.RefPx.binVec x1 x2 x4⟩]
        concatenates_S1_S32_S32_S32_S97_d0 := by
  unfold val_main_v233 val_main_v226
  rw [v108_eq', v111_eq', v113_eq', v115_eq']

end Stack1

/-! ## The whole result, piece by piece -/

/-- The program's result with its last five operations left as they are: each stack's row is the
    concatenation of its centre loss (as a one-element array) and its three vectors of per-image losses,
    given a leading unit axis; the two rows are stacked. -/
theorem result_pieces (x0 x1 : (⟨S32x7x256x256, .f32⟩ : BufTy).Contents (Elt Ideal)) (x2 : (⟨S32x1x256x256, .f32⟩ : BufTy).Contents (Elt Ideal)) (x3 x4 : (⟨S32x1x2x256x256, .f32⟩ : BufTy).Contents (Elt Ideal))
    (x5 x6 x7 : (⟨S32x9, .i32⟩ : BufTy).Contents (Elt Ideal)) (x8 : (⟨S32x8, .i32⟩ : BufTy).Contents (Elt Ideal)) :
    val_main_v236 (F := Ideal) x0 x1 x2 x3 x4 x5 x6 x7 x8
      = concatenate S2x97 0
          [⟨S1x97, broadcastInDim S1x97 ![1] bcast_S97_S1x97_1
              (concatenate S97 0 [⟨S1, broadcastInDim S1 ![] bcast_S_S1 (Cert.RefPx.centreS x0 x5 x6 x7 x8)⟩,
                ⟨S32, Cert.RefPx.cornerVec x0 x2⟩, ⟨S32, Cert.RefPx.offsetVec x0 x3⟩,
                ⟨S32, Cert.RefPx.binVec x0 x2 x4⟩] concatenates_S1_S32_S32_S32_S97_d0)⟩,
           ⟨S1x97, broadcastInDim S1x97 ![1] bcast_S97_S1x97_1
              (concatenate S97 0 [⟨S1, broadcastInDim S1 ![] bcast_S_S1 (Cert.RefPx.centreS x1 x5 x6 x7 x8)⟩,
                ⟨S32, Cert.RefPx.cornerVec x1 x2⟩, ⟨S32, Cert.RefPx.offsetVec x1 x3⟩,
                ⟨S32, Cert.RefPx.binVec x1 x2 x4⟩] concatenates_S1_S32_S32_S32_S97_d0)⟩]
          concatenates_S1x97_S1x97_S2x97_d0 := by
  unfold val_main_v236 val_main_v234 val_main_v235
  rw [v116_eq, v116_eq']

/-! ## The whole result, index by index -/

/-- One stack's row as a function of the column: the centre loss at column 0, then the three blocks of 32. -/
noncomputable def rowF (o : (⟨S32x7x256x256, .f32⟩ : BufTy).Contents (Elt Ideal)) (x2 : (⟨S32x1x256x256, .f32⟩ : BufTy).Contents (Elt Ideal)) (x3 x4 : (⟨S32x1x2x256x256, .f32⟩ : BufTy).Contents (Elt Ideal)) (x5 x6 x7 : (⟨S32x9, .i32⟩ : BufTy).Contents (Elt Ideal)) (x8 : (⟨S32x8, .i32⟩ : BufTy).Contents (Elt Ideal)) (c : Fin 97) : EReal :=
  if h0 : c.val = 0 then Cert.RefPx.centreS o x5 x6 x7 x8 ix0
  else if h1 : c.val < 33 then Cert.RefPx.cornerLoss o x2 ⟨c.val - 1, by omega⟩
  else if h2 : c.val < 65 then Cert.RefPx.offsetLoss o x3 ⟨c.val - 33, by omega⟩
  else Cert.RefPx.binLoss o x2 x4 ⟨c.val - 65, by have := c.isLt; omega⟩

/-- The concatenation of the four pieces, read at column `c`. -/
theorem row_at (o : (⟨S32x7x256x256, .f32⟩ : BufTy).Contents (Elt Ideal)) (x2 : (⟨S32x1x256x256, .f32⟩ : BufTy).Contents (Elt Ideal)) (x3 x4 : (⟨S32x1x2x256x256, .f32⟩ : BufTy).Contents (Elt Ideal)) (x5 x6 x7 : (⟨S32x9, .i32⟩ : BufTy).Contents (Elt Ideal)) (x8 : (⟨S32x8, .i32⟩ : BufTy).Contents (Elt Ideal)) (c : Fin 97) :
    concatenate S97 0 [⟨S1, broadcastInDim S1 ![] bcast_S_S1 (Cert.RefPx.centreS o x5 x6 x7 x8)⟩,
        ⟨S32, Cert.RefPx.cornerVec o x2⟩, ⟨S32, Cert.RefPx.offsetVec o x3⟩, ⟨S32, Cert.RefPx.binVec o x2 x4⟩]
        concatenates_S1_S32_S32_S32_S97_d0 (ix1 c)
      = rowF o x2 x3 x4 x5 x6 x7 x8 c := by
  have hc := c.isLt
  unfold rowF
  by_cases h0 : c.val = 0
  · rw [dif_pos h0]
    refine (concatenate_apply_piece (0 : Fin S97.rank) [⟨S1, broadcastInDim S1 ![] bcast_S_S1 (Cert.RefPx.centreS o x5 x6 x7 x8)⟩,
        ⟨S32, Cert.RefPx.cornerVec o x2⟩, ⟨S32, Cert.RefPx.offsetVec o x3⟩, ⟨S32, Cert.RefPx.binVec o x2 x4⟩] concatenates_S1_S32_S32_S32_S97_d0 (ix1 c) 0 (by simp)
      S1 _ rfl rfl 0 rfl (ix1 (0 : Fin 1)) (fun b hb => absurd (Subsingleton.elim _ _) hb)
      (show 0 + 0 = c.val by omega)).trans ?_
    exact broadcastInDim_apply _ bcast_S_S1 _ _ ix0 (fun a => a.elim0)
  · rw [dif_neg h0]
    by_cases h1 : c.val < 33
    · rw [dif_pos h1]
      exact concatenate_apply_piece (0 : Fin S97.rank) [⟨S1, broadcastInDim S1 ![] bcast_S_S1 (Cert.RefPx.centreS o x5 x6 x7 x8)⟩,
        ⟨S32, Cert.RefPx.cornerVec o x2⟩, ⟨S32, Cert.RefPx.offsetVec o x3⟩, ⟨S32, Cert.RefPx.binVec o x2 x4⟩] concatenates_S1_S32_S32_S32_S97_d0 (ix1 c) 1 (by simp)
        S32 _ rfl rfl 1 rfl (ix1 (⟨c.val - 1, by omega⟩ : Fin 32)) (fun b hb => absurd (Subsingleton.elim _ _) hb)
        (show 1 + (c.val - 1) = c.val by omega)
    · rw [dif_neg h1]
      by_cases h2 : c.val < 65
      · rw [dif_pos h2]
        exact concatenate_apply_piece (0 : Fin S97.rank) [⟨S1, broadcastInDim S1 ![] bcast_S_S1 (Cert.RefPx.centreS o x5 x6 x7 x8)⟩,
        ⟨S32, Cert.RefPx.cornerVec o x2⟩, ⟨S32, Cert.RefPx.offsetVec o x3⟩, ⟨S32, Cert.RefPx.binVec o x2 x4⟩] concatenates_S1_S32_S32_S32_S97_d0 (ix1 c) 2 (by simp)
          S32 _ rfl rfl 33 rfl (ix1 (⟨c.val - 33, by omega⟩ : Fin 32)) (fun b hb => absurd (Subsingleton.elim _ _) hb)
          (show 33 + (c.val - 33) = c.val by omega)
      · rw [dif_neg h2]
        exact concatenate_apply_piece (0 : Fin S97.rank) [⟨S1, broadcastInDim S1 ![] bcast_S_S1 (Cert.RefPx.centreS o x5 x6 x7 x8)⟩,
        ⟨S32, Cert.RefPx.cornerVec o x2⟩, ⟨S32, Cert.RefPx.offsetVec o x3⟩, ⟨S32, Cert.RefPx.binVec o x2 x4⟩] concatenates_S1_S32_S32_S32_S97_d0 (ix1 c) 3 (by simp)
          S32 _ rfl rfl 65 rfl (ix1 (⟨c.val - 65, by omega⟩ : Fin 32)) (fun b hb => absurd (Subsingleton.elim _ _) hb)
          (show 65 + (c.val - 65) = c.val by omega)

/-- A row given a leading unit axis, read at column `c`. -/
theorem lead_at (r : S97.Idx → EReal) (c : Fin 97) :
    broadcastInDim S1x97 ![1] bcast_S97_S1x97_1 r (ix2 (0 : Fin 1) c) = r (ix1 c) :=
  broadcastInDim_apply _ bcast_S97_S1x97_1 r _ (ix1 c) (fun a => match a with
    | ⟨0, _⟩ => by show c.val = if (97 : Nat) = 1 then 0 else c.val; rw [if_neg (by decide)])

/-- Two rows stacked, read at row `s` and column `c`. -/
theorem rows_at (r0 r1 : S1x97.Idx → EReal) (s : Fin 2) (c : Fin 97) :
    concatenate S2x97 0 [⟨S1x97, r0⟩, ⟨S1x97, r1⟩] concatenates_S1x97_S1x97_S2x97_d0 (ix2 s c)
      = if s.val = 0 then r0 (ix2 (0 : Fin 1) c) else r1 (ix2 (0 : Fin 1) c) := by
  have hs := s.isLt
  by_cases h0 : s.val = 0
  · rw [if_pos h0]
    exact concatenate_apply_piece (0 : Fin S2x97.rank) [⟨S1x97, r0⟩, ⟨S1x97, r1⟩]
      concatenates_S1x97_S1x97_S2x97_d0 (ix2 s c) 0 (by simp) S1x97 r0 rfl rfl 0 rfl (ix2 (0 : Fin 1) c)
      (fun b hb => by
        match b with
        | ⟨0, _⟩ => exact absurd rfl hb
        | ⟨1, _⟩ => rfl)
      (show 0 + 0 = s.val by omega)
  · rw [if_neg h0]
    exact concatenate_apply_piece (0 : Fin S2x97.rank) [⟨S1x97, r0⟩, ⟨S1x97, r1⟩]
      concatenates_S1x97_S1x97_S2x97_d0 (ix2 s c) 1 (by simp) S1x97 r1 rfl rfl 1 rfl (ix2 (0 : Fin 1) c)
      (fun b hb => by
        match b with
        | ⟨0, _⟩ => exact absurd rfl hb
        | ⟨1, _⟩ => rfl)
      (show 1 + 0 = s.val by omega)

/-- The reference's result, index by index. -/
theorem result_eq (x0 x1 : (⟨S32x7x256x256, .f32⟩ : BufTy).Contents (Elt Ideal)) (x2 : (⟨S32x1x256x256, .f32⟩ : BufTy).Contents (Elt Ideal)) (x3 x4 : (⟨S32x1x2x256x256, .f32⟩ : BufTy).Contents (Elt Ideal))
    (x5 x6 x7 : (⟨S32x9, .i32⟩ : BufTy).Contents (Elt Ideal)) (x8 : (⟨S32x8, .i32⟩ : BufTy).Contents (Elt Ideal)) :
    val_main_v236 (F := Ideal) x0 x1 x2 x3 x4 x5 x6 x7 x8 = Cert.RefPx.Gr x0 x1 x2 x3 x4 x5 x6 x7 x8 := by
  rw [result_pieces]
  funext i
  obtain ⟨s, c, rfl⟩ : ∃ (s : Fin 2) (c : Fin 97), i = ix2 s c := ⟨i 0, i 1, eq_ix2 i⟩
  rw [rows_at]
  by_cases h0 : s.val = 0
  · have e : (if ((ix2 s c) 0).val = 0 then x0 else x1) = x0 := if_pos h0
    rw [if_pos h0, lead_at, row_at]
    unfold Cert.RefPx.Gr rowF
    simp only [e]
  · have e : (if ((ix2 s c) 0).val = 0 then x0 else x1) = x1 := if_neg h0
    rw [if_neg h0, lead_at, row_at]
    unfold Cert.RefPx.Gr rowF
    simp only [e]

end Cert.ReferenceIdeal.RefValue
-- ==== Proof.FiniteInputs.lean ====
/-
  Finiteness of the float inputs, read back from the printed precondition. The precondition is the conjunction, over
  the five float argument arrays, of "every entry `x` has `|x| < +∞`", each printed as a reduction by `and` of an
  array of comparison bits, started from 1; the claim states that the result is 1. Then every comparison bit is 1, and an
  extended real whose absolute value `max x (-x)` is below `+∞` is neither infinity: it is a real number.
-/
import proofs.«111430_j72988674228458_2_alg».proof.Pre_finite_inputs
import Idealize.ShloMosaic.Lib.ReduceAll
import Idealize.ShloMosaic.Lib.ValueIdx

namespace Cert.FiniteInputs

open Idealize.ShloMosaic Cert.Pre_finite_inputs

/-- The shape with no axes has one index. -/
instance : Subsingleton S_.Idx := ⟨fun a b => funext fun d => d.elim0⟩

/-- An extended real whose absolute value compares below the word of `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the printed precondition every entry of the five float argument arrays is a real number. -/
theorem reals_of_pre [Facts] (a0 a1 : FVec Ideal S32x7x256x256 .f32) (a2 : FVec Ideal S32x1x256x256 .f32)
    (a3 a4 : FVec Ideal S32x1x2x256x256 .f32) (a5 a6 a7 : IVec S32x9 32) (a8 : IVec S32x8 32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1, andi] at h0
  rw [IntOp.andi_eq_one, IntOp.andi_eq_one, IntOp.andi_eq_one, IntOp.andi_eq_one] at h0
  obtain ⟨⟨⟨⟨h3, h7⟩, h12⟩, h17⟩, h22⟩ := h0
  exact ⟨fun i => real_of_abs_lt (a0 i) (Host.reduce_andi_all _ _ _ _ _ h3 i),
    fun i => real_of_abs_lt (a1 i) (Host.reduce_andi_all _ _ _ _ _ h7 i),
    fun i => real_of_abs_lt (a2 i) (Host.reduce_andi_all _ _ _ _ _ h12 i),
    fun i => real_of_abs_lt (a3 i) (Host.reduce_andi_all _ _ _ _ _ h17 i),
    fun i => real_of_abs_lt (a4 i) (Host.reduce_andi_all _ _ _ _ _ h22 i)⟩

end Cert.FiniteInputs
-- ==== Proof.lean ====
/-
  The certificate of the heat-map loss kernel against its reference.

  The entry function computes, for two stacks of seven-channel 256 x 256 prediction maps over 32 images and one set of
  targets, a row of 97 numbers per stack: the centre triplet loss (one number) and, per image, the corner
  cross-entropy, the corner-offset smooth-L1 loss and the corner-bin L1 loss. The kernel computes the centre losses on
  the host, streams the maps once through a 4 x 4 grid (batch tiles of 8 images, row tiles of 64 rows) keeping seven
  running sums per batch tile, finishes each loss at the tile's last row tile, and lays the rows out on the host.

  Frames. Each of the kernel's two printed forms runs its 260 host operations, the region, and 23 more host
  operations; the region's body only loads and stores whole buffers, so it runs from any contents, and the arguments
  are read, never written. The reference is a straight line of host operations; its frame is its run with the result
  dropped.
  Idealization. The ideal pass rewrote nothing: there is nothing to preserve beyond the text read at exact arithmetic.
  Value. Over the extended reals the kernel's result is the two rows laid out from: the centre loss, which is the same
  chain of array operations as the reference's on the same flattened centre map; and, per image, each loss as one
  quotient of one sum over the image's pixels of the kernel's per-pixel term. For finite inputs these are the
  reference's arrangements: its log-softmax form of the two-class negative log-probabilities, the sum of the two
  coordinates' means for the offset loss, and the positive-pixel weight taken inside the sum for the bin loss (the
  weight is never zero, being replaced by 1 when the mean of the target vanishes).
-/
import proofs.«111430_j72988674228458_2_alg».proof.Defs
import proofs.«111430_j72988674228458_2_alg».proof.Proof.Gen.Kernel
import proofs.«111430_j72988674228458_2_alg».proof.Proof.Gen.KernelIdeal
import proofs.«111430_j72988674228458_2_alg».proof.Proof.Gen.ReferenceIdeal
import proofs.«111430_j72988674228458_2_alg».proof.Proof.Gen.Pre_finite_inputs
import proofs.«111430_j72988674228458_2_alg».proof.Proof.ReferenceRun
import proofs.«111430_j72988674228458_2_alg».proof.Proof.KernelFrame
import proofs.«111430_j72988674228458_2_alg».proof.Proof.KernelIdealFrame
import proofs.«111430_j72988674228458_2_alg».proof.Proof.KernelIdealBridge
import proofs.«111430_j72988674228458_2_alg».proof.Proof.RefValue
import proofs.«111430_j72988674228458_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.RefRun.run m ρ)
theorem preserves : Cert.preserves_Kernel_KernelIdeal := trivial

set_option maxHeartbeats 4000000 in
/-- From memories that agree on the arguments both idealized programs run to their ends; the kernel's result is the two
    rows laid out from its centre losses and its six result columns, the reference's the same layout of its own pieces,
    and for finite inputs the pieces are equal one by one. -/
theorem algebraic : Cert.algebraic_KernelIdeal_ReferenceIdeal := by
  intro m ρ m' ρ' hpre hagree
  refine ⟨_, Cert.KernelIdeal.Arrays.run (F := Ideal) m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4⟩ := Cert.FiniteInputs.reals_of_pre _ _ _ _ _ _ _ _ _ (hpre c)
  rw [Cert.ReferenceIdeal.RefValue.result_pieces, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelIdeal.Bridge.value m c h0 h1 h2 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
